-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v121)) (v1 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_v127) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S25000x128 : Shape := ⟨2, ![25000, 128]⟩
abbrev S_ : Shape := ⟨0, ![]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x600000 : Shape := ⟨2, ![2, 600000]⟩
abbrev S2x100000 : Shape := ⟨2, ![2, 100000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S25000x128 : S_.BroadcastsInDim S25000x128 (![] : Fin 0 → Fin S25000x128.rank)
  reducesTo_S25000x128_S_d0_1 : S25000x128.ReducesTo [0, 1] S_
  reducesTo_S_S_d : S_.ReducesTo [] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part7 {F : FTy → Type} [FloatOps F] (main_arg25 : FVec F S128 .f32) (main_v116 : IVec S_ 1) (main_v117 : FVec F S256x128 .f32) (main_v118 : FVec F S256x128 .f32) : IVec S_ 1 :=
  let main_v119 : IVec S256x128 1 := cmpf .olt main_v117 main_v118
  let main_c_47 : IVec S_ 1 := constantI S_ 1 1#1
  let main_v120 : IVec S_ 1 := (fun x v => Host.reduce IntOp.andi x v reducesTo_S256x128_S_d0_1 h_S_) main_v119 main_c_47
  let main_v121 : IVec S_ 1 := andi main_v116 main_v120
  let main_v122 : FVec F S128 .f32 := Host.absf main_arg25
  let main_cst_48 : FVec F S_ .f32 := constant S_ .f32 0x7F800000#32
  let main_v123 : FVec F S128 .f32 := broadcastInDim S128 ![] bcast_S_S128 main_cst_48
  let main_v124 : IVec S128 1 := cmpf .olt main_v122 main_v123
  let main_c_49 : IVec S_ 1 := constantI S_ 1 1#1
  let main_v125 : IVec S_ 1 := (fun x v => Host.reduce IntOp.andi x v reducesTo_S128_S_d0 h_S_) main_v124 main_c_49
  let main_v126 : IVec S_ 1 := andi main_v121 main_v125
  main_v126

def fn_part6 {F : FTy → Type} [FloatOps F] (main_arg21 : FVec F S256 .f32) (main_arg22 : FVec F S256x128 .f32) (main_arg23 : FVec F S128 .f32) (main_arg24 : FVec F S256x128 .f32) (main_arg25 : FVec F S128 .f32) (main_v101 : IVec S_ 1) : IVec S_ 1 :=
  let main_v102 : FVec F S256 .f32 := Host.absf main_arg21
  let main_cst_40 : FVec F S_ .f32 := constant S_ .f32 0x7F800000#32
  let main_v103 : FVec F S256 .f32 := broadcastInDim S256 ![] bcast_S_S256 main_cst_40
  let main_v104 : IVec S256 1 := cmpf .olt main_v102 main_v103
  let main_c_41 : IVec S_ 1 := constantI S_ 1 1#1
  let main_v105 : IVec S_ 1 := (fun x v => Host.reduce IntOp.andi x v reducesTo_S256_S_d0 h_S_) main_v104 main_c_41
  let main_v106 : IVec S_ 1 := andi main_v101 main_v105
  let main_v107 : FVec F S256x128 .f32 := Host.absf main_arg22
  let main_cst_42 : FVec F S_ .f32 := constant S_ .f32 0x7F800000#32
  let main_v108 : FVec F S256x128 .f32 := broadcastInDim S256x128 ![] bcast_S_S256x128 main_cst_42
  let main_v109 : IVec S256x128 1 := cmpf .olt main_v107 main_v108
  let main_c_43 : IVec S_ 1 := constantI S_ 1 1#1
  let main_v110 : IVec S_ 1 := (fun x v => Host.reduce IntOp.andi x v reducesTo_S256x128_S_d0_1 h_S_) main_v109 main_c_43
  let main_v111 : IVec S_ 1 := andi main_v106 main_v110
  let main_v112 : FVec F S128 .f32 := Host.absf main_arg23
  let main_cst_44 : FVec F S_ .f32 := constant S_ .f32 0x7F800000#32
  let main_v113 : FVec F S128 .f32 := broadcastInDim S128 ![] bcast_S_S128 main_cst_44
  let main_v114 : IVec S128 1 := cmpf .olt main_v112 main_v113
  let main_c_45 : IVec S_ 1 := constantI S_ 1 1#1
  let main_v115 : IVec S_ 1 := (fun x v => Host.reduce IntOp.andi x v reducesTo_S128_S_d0 h_S_) main_v114 main_c_45
  let main_v116 : IVec S_ 1 := andi main_v111 main_v115
  let main_v117 : FVec F S256x128 .f32 := Host.absf main_arg24
  let main_cst_46 : FVec F S_ .f32 := constant S_ .f32 0x7F800000#32
  let main_v118 : FVec F S256x128 .f32 := broadcastInDim S256x128 ![] bcast_S_S256x128 main_cst_46
  fn_part7 (F := F) main_arg25 main_v116 main_v117 main_v118

def fn_part5 {F : FTy → Type} [FloatOps F] (main_arg18 : FVec F S128x256 .f32) (main_arg19 : FVec F S256 .f32) (main_arg20 : FVec F S128x256 .f32) (main_arg21 : FVec F S256 .f32) (main_arg22 : FVec F S256x128 .f32) (main_arg23 : FVec F S128 .f32) (main_arg24 : FVec F S256x128 .f32) (main_arg25 : FVec F S128 .f32) (main_v81 : IVec S_ 1) (main_v84 : IVec S256 1) : IVec S_ 1 :=
  let main_c_33 : IVec S_ 1 := constantI S_ 1 1#1
  let main_v85 : IVec S_ 1 := (fun x v => Host.reduce IntOp.andi x v reducesTo_S256_S_d0 h_S_) main_v84 main_c_33
  let main_v86 : IVec S_ 1 := andi main_v81 main_v85
  let main_v87 : FVec F S128x256 .f32 := Host.absf main_arg18
  let main_cst_34 : FVec F S_ .f32 := constant S_ .f32 0x7F800000#32
  let main_v88 : FVec F S128x256 .f32 := broadcastInDim S128x256 ![] bcast_S_S128x256 main_cst_34
  let main_v89 : IVec S128x256 1 := cmpf .olt main_v87 main_v88
  let main_c_35 : IVec S_ 1 := constantI S_ 1 1#1
  let main_v90 : IVec S_ 1 := (fun x v => Host.reduce IntOp.andi x v reducesTo_S128x256_S_d0_1 h_S_) main_v89 main_c_35
  let main_v91 : IVec S_ 1 := andi main_v86 main_v90
  let main_v92 : FVec F S256 .f32 := Host.absf main_arg19
  let main_cst_36 : FVec F S_ .f32 := constant S_ .f32 0x7F800000#32
  let main_v93 : FVec F S256 .f32 := broadcastInDim S256 ![] bcast_S_S256 main_cst_36
  let main_v94 : IVec S256 1 := cmpf .olt main_v92 main_v93
  let main_c_37 : IVec S_ 1 := constantI S_ 1 1#1
  let main_v95 : IVec S_ 1 := (fun x v => Host.reduce IntOp.andi x v reducesTo_S256_S_d0 h_S_) main_v94 main_c_37
  let main_v96 : IVec S_ 1 := andi main_v91 main_v95
  let main_v97 : FVec F S128x256 .f32 := Host.absf main_arg20
  let main_cst_38 : FVec F S_ .f32 := constant S_ .f32 0x7F800000#32
  let main_v98 : FVec F S128x256 .f32 := broadcastInDim S128x256 ![] bcast_S_S128x256 main_cst_38
  let main_v99 : IVec S128x256 1 := cmpf .olt main_v97 main_v98
  let main_c_39 : IVec S_ 1 := constantI S_ 1 1#1
  let main_v100 : IVec S_ 1 := (fun x v => Host.reduce IntOp.andi x v reducesTo_S128x256_S_d0_1 h_S_) main_v99 main_c_39
  let main_v101 : IVec S_ 1 := andi main_v96 main_v100
  fn_part6 (F := F) main_arg21 main_arg22 main_arg23 main_arg24 main_arg25 main_v101

def fn_part4 {F : FTy → Type} [FloatOps F] (main_arg15 : FVec F S256 .f32) (main_arg16 : FVec F S128x256 .f32) (main_arg17 : FVec F S256 .f32) (main_arg18 : FVec F S128x256 .f32) (main_arg19 : FVec F S256 .f32) (main_arg20 : FVec F S128x256 .f32) (main_arg21 : FVec F S256 .f32) (main_arg22 : FVec F S256x128 .f32) (main_arg23 : FVec F S128 .f32) (main_arg24 : FVec F S256x128 .f32) (main_arg25 : FVec F S128 .f32) (main_v66 : IVec S_ 1) (main_v67 : FVec F S128x256 .f32) : IVec S_ 1 :=
  let main_cst_26 : FVec F S_ .f32 := constant S_ .f32 0x7F800000#32
  let main_v68 : FVec F S128x256 .f32 := broadcastInDim S128x256 ![] bcast_S_S128x256 main_cst_26
  let main_v69 : IVec S128x256 1 := cmpf .olt main_v67 main_v68
  let main_c_27 : IVec S_ 1 := constantI S_ 1 1#1
  let main_v70 : IVec S_ 1 := (fun x v => Host.reduce IntOp.andi x v reducesTo_S128x256_S_d0_1 h_S_) main_v69 main_c_27
  let main_v71 : IVec S_ 1 := andi main_v66 main_v70
  let main_v72 : FVec F S256 .f32 := Host.absf main_arg15
  let main_cst_28 : FVec F S_ .f32 := constant S_ .f32 0x7F800000#32
  let main_v73 : FVec F S256 .f32 := broadcastInDim S256 ![] bcast_S_S256 main_cst_28
  let main_v74 : IVec S256 1 := cmpf .olt main_v72 main_v73
  let main_c_29 : IVec S_ 1 := constantI S_ 1 1#1
  let main_v75 : IVec S_ 1 := (fun x v => Host.reduce IntOp.andi x v reducesTo_S256_S_d0 h_S_) main_v74 main_c_29
  let main_v76 : IVec S_ 1 := andi main_v71 main_v75
  let main_v77 : FVec F S128x256 .f32 := Host.absf main_arg16
  let main_cst_30 : FVec F S_ .f32 := constant S_ .f32 0x7F800000#32
  let main_v78 : FVec F S128x256 .f32 := broadcastInDim S128x256 ![] bcast_S_S128x256 main_cst_30
  let main_v79 : IVec S128x256 1 := cmpf .olt main_v77 main_v78
  let main_c_31 : IVec S_ 1 := constantI S_ 1 1#1
  let main_v80 : IVec S_ 1 := (fun x v => Host.reduce IntOp.andi x v reducesTo_S128x256_S_d0_1 h_S_) main_v79 main_c_31
  let main_v81 : IVec S_ 1 := andi main_v76 main_v80
  let main_v82 : FVec F S256 .f32 := Host.absf main_arg17
  let main_cst_32 : FVec F S_ .f32 := constant S_ .f32 0x7F800000#32
  let main_v83 : FVec F S256 .f32 := broadcastInDim S256 ![] bcast_S_S256 main_cst_32
  let main_v84 : IVec S256 1 := cmpf .olt main_v82 main_v83
  fn_part5 (F := F) main_arg18 main_arg19 main_arg20 main_arg21 main_arg22 main_arg23 main_arg24 main_arg25 main_v81 main_v84

def fn_part3 {F : FTy → Type} [FloatOps F] (main_arg11 : FVec F S256 .f32) (main_arg12 : FVec F S256 .f32) (main_arg13 : FVec F S256 .f32) (main_arg14 : FVec F S128x256 .f32) (main_arg15 : FVec F S256 .f32) (main_arg16 : FVec F S128x256 .f32) (main_arg17 : FVec F S256 .f32) (main_arg18 : FVec F S128x256 .f32) (main_arg19 : FVec F S256 .f32) (main_arg20 : FVec F S128x256 .f32) (main_arg21 : FVec F S256 .f32) (main_arg22 : FVec F S256x128 .f32) (main_arg23 : FVec F S128 .f32) (main_arg24 : FVec F S256x128 .f32) (main_arg25 : FVec F S128 .f32) (main_v46 : IVec S_ 1) (main_v49 : IVec S128x256 1) (main_c_19 : IVec S_ 1) : IVec S_ 1 :=
  let main_v50 : IVec S_ 1 := (fun x v => Host.reduce IntOp.andi x v reducesTo_S128x256_S_d0_1 h_S_) main_v49 main_c_19
  let main_v51 : IVec S_ 1 := andi main_v46 main_v50
  let main_v52 : FVec F S256 .f32 := Host.absf main_arg11
  let main_cst_20 : FVec F S_ .f32 := constant S_ .f32 0x7F800000#32
  let main_v53 : FVec F S256 .f32 := broadcastInDim S256 ![] bcast_S_S256 main_cst_20
  let main_v54 : IVec S256 1 := cmpf .olt main_v52 main_v53
  let main_c_21 : IVec S_ 1 := constantI S_ 1 1#1
  let main_v55 : IVec S_ 1 := (fun x v => Host.reduce IntOp.andi x v reducesTo_S256_S_d0 h_S_) main_v54 main_c_21
  let main_v56 : IVec S_ 1 := andi main_v51 main_v55
  let main_v57 : FVec F S256 .f32 := Host.absf main_arg12
  let main_cst_22 : FVec F S_ .f32 := constant S_ .f32 0x7F800000#32
  let main_v58 : FVec F S256 .f32 := broadcastInDim S256 ![] bcast_S_S256 main_cst_22
  let main_v59 : IVec S256 1 := cmpf .olt main_v57 main_v58
  let main_c_23 : IVec S_ 1 := constantI S_ 1 1#1
  let main_v60 : IVec S_ 1 := (fun x v => Host.reduce IntOp.andi x v reducesTo_S256_S_d0 h_S_) main_v59 main_c_23
  let main_v61 : IVec S_ 1 := andi main_v56 main_v60
  let main_v62 : FVec F S256 .f32 := Host.absf main_arg13
  let main_cst_24 : FVec F S_ .f32 := constant S_ .f32 0x7F800000#32
  let main_v63 : FVec F S256 .f32 := broadcastInDim S256 ![] bcast_S_S256 main_cst_24
  let main_v64 : IVec S256 1 := cmpf .olt main_v62 main_v63
  let main_c_25 : IVec S_ 1 := constantI S_ 1 1#1
  let main_v65 : IVec S_ 1 := (fun x v => Host.reduce IntOp.andi x v reducesTo_S256_S_d0 h_S_) main_v64 main_c_25
  let main_v66 : IVec S_ 1 := andi main_v61 main_v65
  let main_v67 : FVec F S128x256 .f32 := Host.absf main_arg14
  fn_part4 (F := F) main_arg15 main_arg16 main_arg17 main_arg18 main_arg19 main_arg20 main_arg21 main_arg22 main_arg23 main_arg24 main_arg25 main_v66 main_v67

def fn_part2 {F : FTy → Type} [FloatOps F] (main_arg8 : FVec F S256 .f32) (main_arg9 : FVec F S_ .f32) (main_arg10 : FVec F S128x256 .f32) (main_arg11 : FVec F S256 .f32) (main_arg12 : FVec F S256 .f32) (main_arg13 : FVec F S256 .f32) (main_arg14 : FVec F S128x256 .f32) (main_arg15 : FVec F S256 .f32) (main_arg16 : FVec F S128x256 .f32) (main_arg17 : FVec F S256 .f32) (main_arg18 : FVec F S128x256 .f32) (main_arg19 : FVec F S256 .f32) (main_arg20 : FVec F S128x256 .f32) (main_arg21 : FVec F S256 .f32) (main_arg22 : FVec F S256x128 .f32) (main_arg23 : FVec F S128 .f32) (main_arg24 : FVec F S256x128 .f32) (main_arg25 : FVec F S128 .f32) (main_v32 : IVec S_ 1) (main_v33 : FVec F S256 .f32) : IVec S_ 1 :=
  let main_cst_12 : FVec F S_ .f32 := constant S_ .f32 0x7F800000#32
  let main_v34 : FVec F S256 .f32 := broadcastInDim S256 ![] bcast_S_S256 main_cst_12
  let main_v35 : IVec S256 1 := cmpf .olt main_v33 main_v34
  let main_c_13 : IVec S_ 1 := constantI S_ 1 1#1
  let main_v36 : IVec S_ 1 := (fun x v => Host.reduce IntOp.andi x v reducesTo_S256_S_d0 h_S_) main_v35 main_c_13
  let main_v37 : IVec S_ 1 := andi main_v32 main_v36
  let main_v38 : FVec F S256 .f32 := Host.absf main_arg8
  let main_cst_14 : FVec F S_ .f32 := constant S_ .f32 0x7F800000#32
  let main_v39 : FVec F S256 .f32 := broadcastInDim S256 ![] bcast_S_S256 main_cst_14
  let main_v40 : IVec S256 1 := cmpf .olt main_v38 main_v39
  let main_c_15 : IVec S_ 1 := constantI S_ 1 1#1
  let main_v41 : IVec S_ 1 := (fun x v => Host.reduce IntOp.andi x v reducesTo_S256_S_d0 h_S_) main_v40 main_c_15
  let main_v42 : IVec S_ 1 := andi main_v37 main_v41
  let main_v43 : FVec F S_ .f32 := Host.absf main_arg9
  let main_cst_16 : FVec F S_ .f32 := constant S_ .f32 0x7F800000#32
  let main_v44 : IVec S_ 1 := cmpf .olt main_v43 main_cst_16
  let main_c_17 : IVec S_ 1 := constantI S_ 1 1#1
  let main_v45 : IVec S_ 1 := (fun x v => Host.reduce IntOp.andi x v reducesTo_S_S_d h_S_) main_v44 main_c_17
  let main_v46 : IVec S_ 1 := andi main_v42 main_v45
  let main_v47 : FVec F S128x256 .f32 := Host.absf main_arg10
  let main_cst_18 : FVec F S_ .f32 := constant S_ .f32 0x7F800000#32
  let main_v48 : FVec F S128x256 .f32 := broadcastInDim S128x256 ![] bcast_S_S128x256 main_cst_18
  let main_v49 : IVec S128x256 1 := cmpf .olt main_v47 main_v48
  let main_c_19 : IVec S_ 1 := constantI S_ 1 1#1
  fn_part3 (F := F) main_arg11 main_arg12 main_arg13 main_arg14 main_arg15 main_arg16 main_arg17 main_arg18 main_arg19 main_arg20 main_arg21 main_arg22 main_arg23 main_arg24 main_arg25 main_v46 main_v49 main_c_19

def fn_part1 {F : FTy → Type} [FloatOps F] (main_arg4 : FVec F S_ .f32) (main_arg5 : FVec F S128x256 .f32) (main_arg6 : FVec F S256 .f32) (main_arg7 : FVec F S256 .f32) (main_arg8 : FVec F S256 .f32) (main_arg9 : FVec F S_ .f32) (main_arg10 : FVec F S128x256 .f32) (main_arg11 : FVec F S256 .f32) (main_arg12 : FVec F S256 .f32) (main_arg13 : FVec F S256 .f32) (main_arg14 : FVec F S128x256 .f32) (main_arg15 : FVec F S256 .f32) (main_arg16 : FVec F S128x256 .f32) (main_arg17 : FVec F S256 .f32) (main_arg18 : FVec F S128x256 .f32) (main_arg19 : FVec F S256 .f32) (main_arg20 : FVec F S128x256 .f32) (main_arg21 : FVec F S256 .f32) (main_arg22 : FVec F S256x128 .f32) (main_arg23 : FVec F S128 .f32) (main_arg24 : FVec F S256x128 .f32) (main_arg25 : FVec F S128 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S128x256 .f32 := Host.absf main_arg5
  let main_cst_8 : FVec F S_ .f32 := constant S_ .f32 0x7F800000#32
  let main_v24 : FVec F S128x256 .f32 := broadcastInDim S128x256 ![] bcast_S_S128x256 main_cst_8
  let main_v25 : IVec S128x256 1 := cmpf .olt main_v23 main_v24
  let main_c_9 : IVec S_ 1 := constantI S_ 1 1#1
  let main_v26 : IVec S_ 1 := (fun x v => Host.reduce IntOp.andi x v reducesTo_S128x256_S_d0_1 h_S_) main_v25 main_c_9
  let main_v27 : IVec S_ 1 := andi main_v22 main_v26
  let main_v28 : FVec F S256 .f32 := Host.absf main_arg6
  let main_cst_10 : FVec F S_ .f32 := constant S_ .f32 0x7F800000#32
  let main_v29 : FVec F S256 .f32 := broadcastInDim S256 ![] bcast_S_S256 main_cst_10
  let main_v30 : IVec S256 1 := cmpf .olt main_v28 main_v29
  let main_c_11 : IVec S_ 1 := constantI S_ 1 1#1
  let main_v31 : IVec S_ 1 := (fun x v => Host.reduce IntOp.andi x v reducesTo_S256_S_d0 h_S_) main_v30 main_c_11
  let main_v32 : IVec S_ 1 := andi main_v27 main_v31
  let main_v33 : FVec F S256 .f32 := Host.absf main_arg7
  fn_part2 (F := F) main_arg8 main_arg9 main_arg10 main_arg11 main_arg12 main_arg13 main_arg14 main_arg15 main_arg16 main_arg17 main_arg18 main_arg19 main_arg20 main_arg21 main_arg22 main_arg23 main_arg24 main_arg25 main_v32 main_v33

def fn {F : FTy → Type} [FloatOps F] (main_arg0 : FVec F S100000x128 .f32) (main_arg1 : FVec F S600000x128 .f32) (main_arg2 : FVec F S25000x128 .f32) (main_arg3 : FVec F S100000x128 .f32) (main_arg4 : FVec F S_ .f32) (main_arg5 : FVec F S128x256 .f32) (main_arg6 : FVec F S256 .f32) (main_arg7 : FVec F S256 .f32) (main_arg8 : FVec F S256 .f32) (main_arg9 : FVec F S_ .f32) (main_arg10 : FVec F S128x256 .f32) (main_arg11 : FVec F S256 .f32) (main_arg12 : FVec F S256 .f32) (main_arg13 : FVec F S256 .f32) (main_arg14 : FVec F S128x256 .f32) (main_arg15 : FVec F S256 .f32) (main_arg16 : FVec F S128x256 .f32) (main_arg17 : FVec F S256 .f32) (main_arg18 : FVec F S128x256 .f32) (main_arg19 : FVec F S256 .f32) (main_arg20 : FVec F S128x256 .f32) (main_arg21 : FVec F S256 .f32) (main_arg22 : FVec F S256x128 .f32) (main_arg23 : FVec F S128 .f32) (main_arg24 : FVec F S256x128 .f32) (main_arg25 : FVec F S128 .f32) (main_arg26 : IVec S2x600000 32) (main_arg27 : IVec S2x100000 32) (main_arg28 : IVec S2x100000 32) (main_arg29 : IVec S2x100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S25000x128 .f32 := Host.absf main_arg2
  let main_cst_2 : FVec F S_ .f32 := constant S_ .f32 0x7F800000#32
  let main_v10 : FVec F S25000x128 .f32 := broadcastInDim S25000x128 ![] bcast_S_S25000x128 main_cst_2
  let main_v11 : IVec S25000x128 1 := cmpf .olt main_v9 main_v10
  let main_c_3 : IVec S_ 1 := constantI S_ 1 1#1
  let main_v12 : IVec S_ 1 := (fun x v => Host.reduce IntOp.andi x v reducesTo_S25000x128_S_d0_1 h_S_) main_v11 main_c_3
  let main_v13 : IVec S_ 1 := andi main_v8 main_v12
  let main_v14 : FVec F S100000x128 .f32 := Host.absf main_arg3
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x128 : Shape := ⟨2, ![100000, 128]⟩
abbrev S600000x128 : Shape := ⟨2, ![600000, 128]⟩
abbrev S25000x128 : Shape := ⟨2, ![25000, 128]⟩
abbrev S_ : Shape := ⟨0, ![]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x600000 : Shape := ⟨2, ![2, 600000]⟩
abbrev S2x100000 : Shape := ⟨2, ![2, 100000]⟩
abbrev S1x600000 : Shape := ⟨2, ![1, 600000]⟩
abbrev S600000 : Shape := ⟨1, ![600000]⟩
abbrev S600000x1 : Shape := ⟨2, ![600000, 1]⟩
abbrev S1x100000 : Shape := ⟨2, ![1, 100000]⟩
abbrev S100000 : Shape := ⟨1, ![100000]⟩
abbrev S100000x1 : Shape := ⟨2, ![100000, 1]⟩
abbrev S25000 : Shape := ⟨1, ![25000]⟩
abbrev S25000x1 : Shape := ⟨2, ![25000, 1]⟩
abbrev S1x256 : Shape := ⟨2, ![1, 256]⟩
abbrev S100000x256 : Shape := ⟨2, ![100000, 256]⟩
abbrev S200x256 : Shape := ⟨2, ![200, 256]⟩
abbrev S4000x128 : Shape := ⟨2, ![4000, 128]⟩
abbrev S4000x256 : Shape := ⟨2, ![4000, 256]⟩
abbrev S8x256 : Shape := ⟨2, ![8, 256]⟩
abbrev S25000x256 : Shape := ⟨2, ![25000, 256]⟩
abbrev S1000x128 : Shape := ⟨2, ![1000, 128]⟩
abbrev S1000x256 : Shape := ⟨2, ![1000, 256]⟩
abbrev S1x128 : Shape := ⟨2, ![1, 128]⟩

abbrev nBuf : Space → Nat
  | .hbm => 194
  | .vmem => 56
  | .smem => 0
  | _ => 0

abbrev hbmTy0_0 (i : Nat) : BufTy := match i % 128 with
  | 0 => ⟨S100000x128, .f32⟩
  | 1 => ⟨S600000x128, .f32⟩
  | 2 => ⟨S25000x128, .f32⟩
  | 3 => ⟨S100000x128, .f32⟩
  | 4 => ⟨S_, .f32⟩
  | 5 => ⟨S128x256, .f32⟩
  | 6 => ⟨S256, .f32⟩
  | 7 => ⟨S256, .f32⟩
  | 8 => ⟨S256, .f32⟩
  | 9 => ⟨S_, .f32⟩
  | 10 => ⟨S128x256, .f32⟩
  | 11 => ⟨S256, .f32⟩
  | 12 => ⟨S256, .f32⟩
  | 13 => ⟨S256, .f32⟩
  | 14 => ⟨S128x256, .f32⟩
  | 15 => ⟨S256, .f32⟩
  | 16 => ⟨S128x256, .f32⟩
  | 17 => ⟨S256, .f32⟩
  | 18 => ⟨S128x256, .f32⟩
  | 19 => ⟨S256, .f32⟩
  | 20 => ⟨S128x256, .f32⟩
  | 21 => ⟨S256, .f32⟩
  | 22 => ⟨S256x128, .f32⟩
  | 23 => ⟨S128, .f32⟩
  | 24 => ⟨S256x128, .f32⟩
  | 25 => ⟨S128, .f32⟩
  | 26 => ⟨S2x600000, .i32⟩
  | 27 => ⟨S2x100000, .i32⟩
  | 28 => ⟨S2x100000, .i32⟩
  | 29 => ⟨S2x100000, .i32⟩
  | 30 => ⟨S1x600000, .i32⟩
  | 31 => ⟨S600000, .i32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S600000x128, .f32⟩
  | 42 => ⟨S_, .f32⟩
  | 43 => ⟨S600000x128, .f32⟩
  | 44 => ⟨S600000x128, .f32⟩
  | 45 => ⟨S1x600000, .i32⟩
  | 46 => ⟨S600000, .i32⟩
  | 47 => ⟨S_, .f32⟩
  | 48 => ⟨S100000x128, .f32⟩
  | 49 => ⟨S600000x1, .i32⟩
  | 50 => ⟨S100000x128, .f32⟩
  | 51 => ⟨S1x100000, .i32⟩
  | 52 => ⟨S100000, .i32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S1x100000, .i32⟩
  | 67 => ⟨S100000, .i32⟩
  | 68 => ⟨S_, .f32⟩
  | 69 => ⟨S25000x128, .f32⟩
  | 70 => ⟨S100000x1, .i32⟩
  | 71 => ⟨S25000x128, .f32⟩
  | 72 => ⟨S_, .f32⟩
  | 73 => ⟨S_, .f32⟩
  | 74 => ⟨S100000x128, .f32⟩
  | 75 => ⟨S100000x128, .f32⟩
  | 76 => ⟨S100000x128, .f32⟩
  | 77 => ⟨S_, .f32⟩
  | 78 => ⟨S_, .f32⟩
  | 79 => ⟨S25000x128, .f32⟩
  | 80 => ⟨S25000x128, .f32⟩
  | 81 => ⟨S25000x128, .f32⟩
  | 82 => ⟨S1x100000, .i32⟩
  | 83 => ⟨S100000, .i32⟩
  | 84 => ⟨S_, .i32⟩
  | 85 => ⟨S100000, .i32⟩
  | 86 => ⟨S100000, .i1⟩
  | 87 => ⟨S_, .i32⟩
  | 88 => ⟨S100000, .i32⟩
  | 89 => ⟨S100000, .i32⟩
  | 90 => ⟨S100000, .i32⟩
  | 91 => ⟨S100000x1, .i32⟩
  | 92 => ⟨S100000x128, .f32⟩
  | 93 => ⟨S1x100000, .i32⟩
  | 94 => ⟨S100000, .i32⟩
  | 95 => ⟨S_, .f32⟩
  | 96 => ⟨S25000x128, .f32⟩
  | 97 => ⟨S100000x1, .i32⟩
  | 98 => ⟨S25000x128, .f32⟩
  | 99 => ⟨S_, .i32⟩
  | 100 => ⟨S100000, .i32⟩
  | 101 => ⟨S1x100000, .i32⟩
  | 102 => ⟨S100000, .i32⟩
  | 103 => ⟨S_, .i32⟩
  | 104 => ⟨S25000, .i32⟩
  | 105 => ⟨S100000x1, .i32⟩
  | 106 => ⟨S25000, .i32⟩
  | 107 => ⟨S25000, .f32⟩
  | 108 => ⟨S_, .f32⟩
  | 109 => ⟨S25000, .f32⟩
  | 110 => ⟨S25000, .f32⟩
  | 111 => ⟨S25000x1, .f32⟩
  | 112 => ⟨S25000x128, .f32⟩
  | 113 => ⟨S25000x128, .f32⟩
  | 114 => ⟨S1x100000, .i32⟩
  | 115 => ⟨S100000, .i32⟩
  | 116 => ⟨S_, .i32⟩
  | 117 => ⟨S100000, .i32⟩
  | 118 => ⟨S100000, .i1⟩
  | 119 => ⟨S_, .i32⟩
  | 120 => ⟨S100000, .i32⟩
  | 121 => ⟨S100000, .i32⟩
  | 122 => ⟨S100000, .i32⟩
  | 123 => ⟨S100000x1, .i32⟩
  | 124 => ⟨S100000x128, .f32⟩
  | 125 => ⟨S1x100000, .i32⟩
  | 126 => ⟨S100000, .i32⟩
  | 127 => ⟨S_, .f32⟩
  | _ => ⟨S100000x128, .f32⟩

abbrev hbmTy0_1 (i : Nat) : BufTy := match i % 128 with
  | 0 => ⟨S100000x128, .f32⟩
  | 1 => ⟨S100000x1, .i32⟩
  | 2 => ⟨S100000x128, .f32⟩
  | 3 => ⟨S_, .i32⟩
  | 4 => ⟨S100000, .i32⟩
  | 5 => ⟨S1x100000, .i32⟩
  | 6 => ⟨S100000, .i32⟩
  | 7 => ⟨S_, .i32⟩
  | 8 => ⟨S100000, .i32⟩
  | 9 => ⟨S100000x1, .i32⟩
  | 10 => ⟨S100000, .i32⟩
  | 11 => ⟨S100000, .f32⟩
  | 12 => ⟨S_, .f32⟩
  | 13 => ⟨S100000, .f32⟩
  | 14 => ⟨S100000, .f32⟩
  | 15 => ⟨S100000x1, .f32⟩
  | 16 => ⟨S100000x128, .f32⟩
  | 17 => ⟨S100000x128, .f32⟩
  | 18 => ⟨S1x256, .f32⟩
  | 19 => ⟨S100000x256, .f32⟩
  | 20 => ⟨S200x256, .f32⟩
  | 21 => ⟨S200x256, .f32⟩
  | 22 => ⟨S_, .f32⟩
  | 23 => ⟨S256, .f32⟩
  | 24 => ⟨S1x256, .f32⟩
  | 25 => ⟨S_, .f32⟩
  | 26 => ⟨S256, .f32⟩
  | 27 => ⟨S1x256, .f32⟩
  | 28 => ⟨S_, .f32⟩
  | 29 => ⟨S1x256, .f32⟩
  | 30 => ⟨S1x256, .f32⟩
  | 31 => ⟨S_, .f32⟩
  | 32 => ⟨S1x256, .f32⟩
  | 33 => ⟨S1x256, .f32⟩
  | 34 => ⟨S1x256, .f32⟩
  | 35 => ⟨S1x256, .f32⟩
  | 36 => ⟨S1x256, .f32⟩
  | 37 => ⟨S25000x256, .f32⟩
  | 38 => ⟨S200x256, .f32⟩
  | 39 => ⟨S200x256, .f32⟩
  | 40 => ⟨S_, .f32⟩
  | 41 => ⟨S256, .f32⟩
  | 42 => ⟨S1x256, .f32⟩
  | 43 => ⟨S_, .f32⟩
  | 44 => ⟨S256, .f32⟩
  | 45 => ⟨S1x256, .f32⟩
  | 46 => ⟨S_, .f32⟩
  | 47 => ⟨S1x256, .f32⟩
  | 48 => ⟨S1x256, .f32⟩
  | 49 => ⟨S_, .f32⟩
  | 50 => ⟨S1x256, .f32⟩
  | 51 => ⟨S1x256, .f32⟩
  | 52 => ⟨S1x256, .f32⟩
  | 53 => ⟨S1x256, .f32⟩
  | 54 => ⟨S1x256, .f32⟩
  | 55 => ⟨S1x256, .f32⟩
  | 56 => ⟨S1x256, .f32⟩
  | 57 => ⟨S1x256, .f32⟩
  | 58 => ⟨S1x128, .f32⟩
  | 59 => ⟨S100000x128, .f32⟩
  | 60 => ⟨S1x256, .f32⟩
  | 61 => ⟨S1x256, .f32⟩
  | 62 => ⟨S1x256, .f32⟩
  | 63 => ⟨S1x256, .f32⟩
  | 64 => ⟨S1x128, .f32⟩
  | 65 => ⟨S25000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x256, .f32⟩
  | .local _ .vmem, ⟨3, _⟩ => ⟨S1x256, .f32⟩
  | .local _ .vmem, ⟨4, _⟩ => ⟨S4000x256, .f32⟩
  | .local _ .vmem, ⟨5, _⟩ => ⟨S4000x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S1000x128, .f32⟩
  | .local _ .vmem, ⟨11, _⟩ => ⟨S1000x128, .f32⟩
  | .local _ .vmem, ⟨12, _⟩ => ⟨S128x256, .f32⟩
  | .local _ .vmem, ⟨13, _⟩ => ⟨S1x256, .f32⟩
  | .local _ .vmem, ⟨14, _⟩ => ⟨S1000x256, .f32⟩
  | .local _ .vmem, ⟨15, _⟩ => ⟨S1000x256, .f32⟩
  | .local _ .vmem, ⟨16, _⟩ => ⟨S8x256, .f32⟩
  | .local _ .vmem, ⟨17, _⟩ => ⟨S8x256, .f32⟩
  | .local _ .vmem, ⟨18, _⟩ => ⟨S8x256, .f32⟩
  | .local _ .vmem, ⟨19, _⟩ => ⟨S8x256, .f32⟩
  | .local _ .vmem, ⟨20, _⟩ => ⟨S4000x256, .f32⟩
  | .local _ .vmem, ⟨21, _⟩ => ⟨S4000x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S128x256, .f32⟩
  | .local _ .vmem, ⟨31, _⟩ => ⟨S1x256, .f32⟩
  | .local _ .vmem, ⟨32, _⟩ => ⟨S128x256, .f32⟩
  | .local _ .vmem, ⟨33, _⟩ => ⟨S1x256, .f32⟩
  | .local _ .vmem, ⟨34, _⟩ => ⟨S256x128, .f32⟩
  | .local _ .vmem, ⟨35, _⟩ => ⟨S1x128, .f32⟩
  | .local _ .vmem, ⟨36, _⟩ => ⟨S4000x128, .f32⟩
  | .local _ .vmem, ⟨37, _⟩ => ⟨S4000x128, .f32⟩
  | .local _ .vmem, ⟨38, _⟩ => ⟨S1000x256, .f32⟩
  | .local _ .vmem, ⟨39, _⟩ => ⟨S1000x256, .f32⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S1x256, .f32⟩
  | .local _ .vmem, ⟨44, _⟩ => ⟨S1000x128, .f32⟩
  | .local _ .vmem, ⟨45, _⟩ => ⟨S1000x128, .f32⟩
  | .local _ .vmem, ⟨46, _⟩ => ⟨S1000x128, .f32⟩
  | .local _ .vmem, ⟨47, _⟩ => ⟨S1000x128, .f32⟩
  | .local _ .vmem, ⟨48, _⟩ => ⟨S128x256, .f32⟩
  | .local _ .vmem, ⟨49, _⟩ => ⟨S1x256, .f32⟩
  | .local _ .vmem, ⟨50, _⟩ => ⟨S128x256, .f32⟩
  | .local _ .vmem, ⟨51, _⟩ => ⟨S1x256, .f32⟩
  | .local _ .vmem, ⟨52, _⟩ => ⟨S256x128, .f32⟩
  | .local _ .vmem, ⟨53, _⟩ => ⟨S1x128, .f32⟩
  | .local _ .vmem, ⟨54, _⟩ => ⟨S1000x128, .f32⟩
  | .local _ .vmem, ⟨55, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_c : Ref sig .tc := ⟨.hbm, 32, rfl⟩
abbrev main_v2 : Ref sig .tc := ⟨.hbm, 33, rfl⟩
abbrev main_v3 : Ref sig .tc := ⟨.hbm, 34, rfl⟩
abbrev main_c_0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_call0_cst : Ref sig .tc := ⟨.hbm, 42, rfl⟩
abbrev main_call0_v0 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_c_1 : Ref sig .tc := ⟨.hbm, 53, rfl⟩
abbrev main_v18 : Ref sig .tc := ⟨.hbm, 54, rfl⟩
abbrev main_v19 : Ref sig .tc := ⟨.hbm, 55, rfl⟩
abbrev main_c_2 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_call1_cst : Ref sig .tc := ⟨.hbm, 63, rfl⟩
abbrev main_call1_v0 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_3 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_4 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_5 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_6 : Ref sig .tc := ⟨.hbm, 84, rfl⟩
abbrev main_v42 : Ref sig .tc := ⟨.hbm, 85, rfl⟩
abbrev main_v43 : Ref sig .tc := ⟨.hbm, 86, rfl⟩
abbrev main_c_7 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_8 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_c_9 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_c_10 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_cst_11 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_c_12 : Ref sig .tc := ⟨.hbm, 116, rfl⟩
abbrev main_v68 : Ref sig .tc := ⟨.hbm, 117, rfl⟩
abbrev main_v69 : Ref sig .tc := ⟨.hbm, 118, rfl⟩
abbrev main_c_13 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_14 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_c_15 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_c_16 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_17 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93_0 : Ref sig .tc := ⟨.hbm, 147, rfl⟩
abbrev main_v93_1 : Ref sig .tc := ⟨.hbm, 148, rfl⟩
abbrev main_v93_2 : Ref sig .tc := ⟨.hbm, 149, rfl⟩
abbrev main_cst_18 : Ref sig .tc := ⟨.hbm, 150, rfl⟩
abbrev main_v94 : Ref sig .tc := ⟨.hbm, 151, rfl⟩
abbrev main_v95 : Ref sig .tc := ⟨.hbm, 152, rfl⟩
abbrev main_cst_19 : Ref sig .tc := ⟨.hbm, 153, rfl⟩
abbrev main_v96 : Ref sig .tc := ⟨.hbm, 154, rfl⟩
abbrev main_v97 : Ref sig .tc := ⟨.hbm, 155, rfl⟩
abbrev main_cst_20 : Ref sig .tc := ⟨.hbm, 156, rfl⟩
abbrev main_v98 : Ref sig .tc := ⟨.hbm, 157, rfl⟩
abbrev main_v99 : Ref sig .tc := ⟨.hbm, 158, rfl⟩
abbrev main_cst_21 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105_0 : Ref sig .tc := ⟨.hbm, 165, rfl⟩
abbrev main_v105_1 : Ref sig .tc := ⟨.hbm, 166, rfl⟩
abbrev main_v105_2 : Ref sig .tc := ⟨.hbm, 167, rfl⟩
abbrev main_cst_22 : Ref sig .tc := ⟨.hbm, 168, rfl⟩
abbrev main_v106 : Ref sig .tc := ⟨.hbm, 169, rfl⟩
abbrev main_v107 : Ref sig .tc := ⟨.hbm, 170, rfl⟩
abbrev main_cst_23 : Ref sig .tc := ⟨.hbm, 171, rfl⟩
abbrev main_v108 : Ref sig .tc := ⟨.hbm, 172, rfl⟩
abbrev main_v109 : Ref sig .tc := ⟨.hbm, 173, rfl⟩
abbrev main_cst_24 : Ref sig .tc := ⟨.hbm, 174, rfl⟩
abbrev main_v110 : Ref sig .tc := ⟨.hbm, 175, rfl⟩
abbrev main_v111 : Ref sig .tc := ⟨.hbm, 176, rfl⟩
abbrev main_cst_25 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg12_0 : Ref sig .tc := ⟨.vmem, 35, rfl⟩
abbrev cc2_stg13_0 : Ref sig .tc := ⟨.vmem, 36, rfl⟩
abbrev cc2_stg13_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg10_0 : Ref sig .tc := ⟨.vmem, 51, rfl⟩
abbrev cc3_stg11_0 : Ref sig .tc := ⟨.vmem, 52, rfl⟩
abbrev cc3_stg12_0 : Ref sig .tc := ⟨.vmem, 53, rfl⟩
abbrev cc3_stg13_0 : Ref sig .tc := ⟨.vmem, 54, rfl⟩
abbrev cc3_stg13_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem11_0 : DmaSem sig := 34
abbrev cc2_sem12_0 : DmaSem sig := 35
abbrev cc2_sem13_0 : DmaSem sig := 36
abbrev cc2_sem13_1 : DmaSem sig := 37
abbrev cc3_sem0_0 : DmaSem sig := 38
abbrev cc3_sem0_1 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem5_1 : DmaSem sig := 45
abbrev cc3_sem6_0 : DmaSem sig := 46
abbrev cc3_sem6_1 : DmaSem sig := 47
abbrev cc3_sem7_0 : DmaSem sig := 48
abbrev cc3_sem8_0 : DmaSem sig := 49
abbrev cc3_sem9_0 : DmaSem sig := 50
abbrev cc3_sem10_0 : DmaSem sig := 51
abbrev cc3_sem11_0 : DmaSem sig := 52
abbrev cc3_sem12_0 : DmaSem sig := 53
abbrev cc3_sem13_0 : DmaSem sig := 54
abbrev cc3_sem13_1 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S128x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S256x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S4000x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S128x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S256x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S1000x128 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  slices_S2x600000_S1x600000_1_0 : S2x600000.Slices ![1, 0] S1x600000
  bcast_S_S100000x128 : S_.BroadcastsInDim S100000x128 (![] : Fin 0 → Fin S100000x128.rank)
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  bcast_S_S25000x128 : S_.BroadcastsInDim S25000x128 (![] : Fin 0 → Fin S25000x128.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x128_0_1 : S25000x1.BroadcastsInDim S25000x128 (![0, 1] : Fin 2 → Fin S25000x128.rank)
  bcast_S100000x1_S100000x128_0_1 : S100000x1.BroadcastsInDim S100000x128 (![0, 1] : Fin 2 → Fin S100000x128.rank)
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  reduces_S4000x256_S256 : S4000x256.Reduces [0] S256
  broadcasts_S1x256_S8x256 : S1x256.Broadcasts S8x256
  inb_S8x256_S8x256_0_0 : ∀ a, (![0, 0] : Fin 2 → Nat) a + S8x256.size a ≤ S8x256.size a
  h_S8x256 : 0 < S8x256.numel
  reducesTo_S200x256_S256_d0 : S200x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  reduces_S1000x256_S256 : S1000x256.Reduces [0] S256
  shapeCasts_S128_S1x128 : S128.ShapeCasts S1x128
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S1000x256_S1000x256 : S1000x256.ShapeCasts S1000x256
  broadcasts_S1x128_S1000x128 : S1x128.Broadcasts S1000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  gather_S25000x128_S100000x1_S100000x128_1_0_n_n_0_1_1128_wf : GatherDims.WF S25000x128 S100000x1 S100000x128 [1] [0] [] [0] [] 1 ![1, 128]
  scatter_S25000x128_S100000x1_S100000x128_1_0_0_1_wf : ScatterDims.WF S25000x128 S100000x1 S100000x128 [1] [0] [0] 1
  gather_S100000x128_S100000x1_S100000x128_1_0_n_n_0_1_1128_wf : GatherDims.WF S100000x128 S100000x1 S100000x128 [1] [0] [] [0] [] 1 ![1, 128]
  scatter_S25000_S100000x1_S100000_n_0_0_1_wf : ScatterDims.WF S25000 S100000x1 S100000 [] [0] [0] 1
  scatter_S100000x128_S100000x1_S100000x128_1_0_0_1_wf : ScatterDims.WF S100000x128 S100000x1 S100000x128 [1] [0] [0] 1
  scatter_S100000_S100000x1_S100000_n_0_0_1_wf : ScatterDims.WF S100000 S100000x1 S100000 [] [0] [0] 1
  dot_S4000x128_S128x256_S4000x256_1_0_0_1_n_n_wf : DotDims.WF S4000x128 S128x256 S4000x256 [1] [0] [0] [1] [] []
  dot_S1000x128_S128x256_S1000x256_1_0_0_1_n_n_wf : DotDims.WF S1000x128 S128x256 S1000x256 [1] [0] [0] [1] [] []
  dot_S4000x256_S256x128_S4000x128_1_0_0_1_n_n_wf : DotDims.WF S4000x256 S256x128 S4000x128 [1] [0] [0] [1] [] []
  dot_S1000x256_S256x128_S1000x128_1_0_0_1_n_n_wf : DotDims.WF S1000x256 S256x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S100000x256.size a
  hwx0_3 : ∀ i : grid0.Coords, EltTy.bits .f32 = 32 ∨ (Rect.block (s := S100000x256) S4000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S200x256.size a
  hwx0_4 : ∀ i : grid0.Coords, EltTy.bits .f32 = 32 ∨ (Rect.block (s := S200x256) S8x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256.size a ≤ S200x256.size a
  hwx0_5 : ∀ i : grid0.Coords, EltTy.bits .f32 = 32 ∨ (Rect.block (s := S200x256) S8x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S25000x128.size a
  hwx1_0 : ∀ i : grid1.Coords, EltTy.bits .f32 = 32 ∨ (Rect.block (s := S25000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S25000x256.size a
  hwx1_3 : ∀ i : grid1.Coords, EltTy.bits .f32 = 32 ∨ (Rect.block (s := S25000x256) S1000x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x256.size a ≤ S200x256.size a
  hwx1_4 : ∀ i : grid1.Coords, EltTy.bits .f32 = 32 ∨ (Rect.block (s := S200x256) S8x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x256.size a ≤ S200x256.size a
  hwx1_5 : ∀ i : grid1.Coords, EltTy.bits .f32 = 32 ∨ (Rect.block (s := S200x256) S8x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S100000x256.size a
  hwx2_0 : ∀ i : grid2.Coords, EltTy.bits .f32 = 32 ∨ (Rect.block (s := S100000x256) S4000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x256.size a ≤ S128x256.size a
  hwx2_7 : ∀ i : grid2.Coords, EltTy.bits .f32 = 32 ∨ (Rect.block (s := S128x256) S128x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x256.size a ≤ S128x256.size a
  hwx2_9 : ∀ i : grid2.Coords, EltTy.bits .f32 = 32 ∨ (Rect.block (s := S128x256) S128x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x256.size a ≤ S1x256.size a
  hwx2_10 : ∀ i : grid2.Coords, EltTy.bits .f32 = 32 ∨ (Rect.block (s := S1x256) S1x256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S256x128.size a ≤ S256x128.size a
  hwx2_11 : ∀ i : grid2.Coords, EltTy.bits .f32 = 32 ∨ (Rect.block (s := S256x128) S256x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S4000x128.size a ≤ S100000x128.size a
  hwx2_13 : ∀ i : grid2.Coords, EltTy.bits .f32 = 32 ∨ (Rect.block (s := S100000x128) S4000x128.size (cc2_transform_13 i) (hinb2_13 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S25000x256.size a
  hwx3_0 : ∀ i : grid3.Coords, EltTy.bits .f32 = 32 ∨ (Rect.block (s := S25000x256) S1000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x128.size a ≤ S25000x128.size a
  hwx3_5 : ∀ i : grid3.Coords, EltTy.bits .f32 = 32 ∨ (Rect.block (s := S25000x128) S1000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x128.size a ≤ S25000x128.size a
  hwx3_6 : ∀ i : grid3.Coords, EltTy.bits .f32 = 32 ∨ (Rect.block (s := S25000x128) S1000x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x256.size a ≤ S128x256.size a
  hwx3_7 : ∀ i : grid3.Coords, EltTy.bits .f32 = 32 ∨ (Rect.block (s := S128x256) S128x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x256.size a ≤ S1x256.size a
  hwx3_8 : ∀ i : grid3.Coords, EltTy.bits .f32 = 32 ∨ (Rect.block (s := S1x256) S1x256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x256.size a ≤ S128x256.size a
  hwx3_9 : ∀ i : grid3.Coords, EltTy.bits .f32 = 32 ∨ (Rect.block (s := S128x256) S128x256.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x256.size a ≤ S1x256.size a
  hwx3_10 : ∀ i : grid3.Coords, EltTy.bits .f32 = 32 ∨ (Rect.block (s := S1x256) S1x256.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S256x128.size a ≤ S256x128.size a
  hwx3_11 : ∀ i : grid3.Coords, EltTy.bits .f32 = 32 ∨ (Rect.block (s := S256x128) S256x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x128.size a ≤ S1x128.size a
  hwx3_12 : ∀ i : grid3.Coords, EltTy.bits .f32 = 32 ∨ (Rect.block (s := S1x128) S1x128.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S1000x128.size a ≤ S25000x128.size a
  hwx3_13 : ∀ i : grid3.Coords, EltTy.bits .f32 = 32 ∨ (Rect.block (s := S25000x128) S1000x128.size (cc3_transform_13 i) (hinb3_13 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def gather_S25000x128_S100000x1_S100000x128_1_0_n_n_0_1_1128 : GatherDims S25000x128 S100000x1 S100000x128 where
  offsetDims := [1]
  collapsedSliceDims := [0]
  operandBatchingDims := []
  startIndicesBatchingDims := []
  startIndexMap := [0]
  indexVectorDim := 1
  sliceSizes := ![1, 128]
  wf := gather_S25000x128_S100000x1_S100000x128_1_0_n_n_0_1_1128_wf
def scatter_S25000x128_S100000x1_S100000x128_1_0_0_1 : ScatterDims S25000x128 S100000x1 S100000x128 where
  updateWindowDims := [1]
  insertedWindowDims := [0]
  scatterDimsToOperandDims := [0]
  indexVectorDim := 1
  wf := scatter_S25000x128_S100000x1_S100000x128_1_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S25000_S100000x1_S100000_n_0_0_1 : ScatterDims S25000 S100000x1 S100000 where
  updateWindowDims := []
  insertedWindowDims := [0]
  scatterDimsToOperandDims := [0]
  indexVectorDim := 1
  wf := scatter_S25000_S100000x1_S100000_n_0_0_1_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf

abbrev win0_0 : Pipeline.Window sig grid0 :=
  Pipeline.Window.ofSpec (Memref.whole main_v35) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v92) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v93_0) S4000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v93_1) S8x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v93_2) S8x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v104) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v105_0) S1000x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v105_1) S8x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v105_2) S8x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v93_0) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v99) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v103) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v116) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v117) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v91) S4000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg0) S4000x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg18) S128x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v118) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg20) S128x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v119) S1x256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg22) S256x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v120) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v121) S4000x128.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

abbrev win3_0 : Pipeline.Window sig grid3 :=
  Pipeline.Window.ofSpec (Memref.whole main_v105_0) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v111) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v115) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v122) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v123) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S1000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_arg2) S1000x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_arg14) S128x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v124) S1x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg16) S128x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v125) S1x256.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg24) S256x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v126) S1x128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v127) S1000x128.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S25000x128 : Shape := ⟨2, ![25000, 128]⟩
abbrev S_ : Shape := ⟨0, ![]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x600000 : Shape := ⟨2, ![2, 600000]⟩
abbrev S2x100000 : Shape := ⟨2, ![2, 100000]⟩
abbrev S1x600000 : Shape := ⟨2, ![1, 600000]⟩
abbrev S600000 : Shape := ⟨1, ![600000]⟩
abbrev S600000x1 : Shape := ⟨2, ![600000, 1]⟩
abbrev S100000x256 : Shape := ⟨2, ![100000, 256]⟩
abbrev S1x256 : Shape := ⟨2, ![1, 256]⟩
abbrev S1x100000 : Shape := ⟨2, ![1, 100000]⟩
abbrev S100000 : Shape := ⟨1, ![100000]⟩
abbrev S100000x1 : Shape := ⟨2, ![100000, 1]⟩
abbrev S25000x256 : Shape := ⟨2, ![25000, 256]⟩
abbrev S25000 : Shape := ⟨1, ![25000]⟩
abbrev S25000x1 : Shape := ⟨2, ![25000, 1]⟩
abbrev S1x128 : Shape := ⟨2, ![1, 128]⟩

abbrev nBuf : Space → Nat
  | .hbm => 274
  | .vmem => 0
  | .smem => 0
  | _ => 0

abbrev hbmTy0_0 (i : Nat) : BufTy := match i % 128 with
  | 0 => ⟨S100000x128, .f32⟩
  | 1 => ⟨S600000x128, .f32⟩
  | 2 => ⟨S25000x128, .f32⟩
  | 3 => ⟨S100000x128, .f32⟩
  | 4 => ⟨S_, .f32⟩
  | 5 => ⟨S128x256, .f32⟩
  | 6 => ⟨S256, .f32⟩
  | 7 => ⟨S256, .f32⟩
  | 8 => ⟨S256, .f32⟩
  | 9 => ⟨S_, .f32⟩
  | 10 => ⟨S128x256, .f32⟩
  | 11 => ⟨S256, .f32⟩
  | 12 => ⟨S256, .f32⟩
  | 13 => ⟨S256, .f32⟩
  | 14 => ⟨S128x256, .f32⟩
  | 15 => ⟨S256, .f32⟩
  | 16 => ⟨S128x256, .f32⟩
  | 17 => ⟨S256, .f32⟩
  | 18 => ⟨S128x256, .f32⟩
  | 19 => ⟨S256, .f32⟩
  | 20 => ⟨S128x256, .f32⟩
  | 21 => ⟨S256, .f32⟩
  | 22 => ⟨S256x128, .f32⟩
  | 23 => ⟨S128, .f32⟩
  | 24 => ⟨S256x128, .f32⟩
  | 25 => ⟨S128, .f32⟩
  | 26 => ⟨S2x600000, .i32⟩
  | 27 => ⟨S2x100000, .i32⟩
  | 28 => ⟨S2x100000, .i32⟩
  | 29 => ⟨S2x100000, .i32⟩
  | 30 => ⟨S1x600000, .i32⟩
  | 31 => ⟨S600000, .i32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S600000x128, .f32⟩
  | 42 => ⟨S_, .f32⟩
  | 43 => ⟨S600000x128, .f32⟩
  | 44 => ⟨S600000x128, .f32⟩
  | 45 => ⟨S1x600000, .i32⟩
  | 46 => ⟨S600000, .i32⟩
  | 47 => ⟨S_, .f32⟩
  | 48 => ⟨S100000x128, .f32⟩
  | 49 => ⟨S600000x1, .i32⟩
  | 50 => ⟨S100000x128, .f32⟩
  | 51 => ⟨S_, .f32⟩
  | 52 => ⟨S_, .f32⟩
  | 53 => ⟨S100000x128, .f32⟩
  | 54 => ⟨S100000x128, .f32⟩
  | 55 => ⟨S100000x128, .f32⟩
  | 56 => ⟨S100000x256, .f32⟩
  | 57 => ⟨S1x256, .f32⟩
  | 58 => ⟨S100000x256, .f32⟩
  | 59 => ⟨S100000x256, .f32⟩
  | 60 => ⟨S_, .f32⟩
  | 61 => ⟨S256, .f32⟩
  | 62 => ⟨S_, .f32⟩
  | 63 => ⟨S256, .f32⟩
  | 64 => ⟨S256, .f32⟩
  | 65 => ⟨S_, .i32⟩
  | 66 => ⟨S_, .f32⟩
  | 67 => ⟨S256, .f32⟩
  | 68 => ⟨S1x256, .f32⟩
  | 69 => ⟨S_, .f32⟩
  | 70 => ⟨S1x256, .f32⟩
  | 71 => ⟨S1x256, .f32⟩
  | 72 => ⟨S100000x256, .f32⟩
  | 73 => ⟨S100000x256, .f32⟩
  | 74 => ⟨S100000x256, .f32⟩
  | 75 => ⟨S_, .f32⟩
  | 76 => ⟨S_, .f32⟩
  | 77 => ⟨S_, .f32⟩
  | 78 => ⟨S_, .f32⟩
  | 79 => ⟨S256, .f32⟩
  | 80 => ⟨S256, .f32⟩
  | 81 => ⟨S256, .f32⟩
  | 82 => ⟨S_, .f32⟩
  | 83 => ⟨S_, .i1⟩
  | 84 => ⟨S_, .f32⟩
  | 85 => ⟨S_, .f32⟩
  | 86 => ⟨S256, .f32⟩
  | 87 => ⟨S256, .f32⟩
  | 88 => ⟨S1x256, .f32⟩
  | 89 => ⟨S100000x256, .f32⟩
  | 90 => ⟨S100000x256, .f32⟩
  | 91 => ⟨S_, .f32⟩
  | 92 => ⟨S256, .f32⟩
  | 93 => ⟨S256, .f32⟩
  | 94 => ⟨S256, .f32⟩
  | 95 => ⟨S1x256, .f32⟩
  | 96 => ⟨S100000x256, .f32⟩
  | 97 => ⟨S100000x256, .f32⟩
  | 98 => ⟨S1x256, .f32⟩
  | 99 => ⟨S100000x256, .f32⟩
  | 100 => ⟨S100000x256, .f32⟩
  | 101 => ⟨S1x256, .f32⟩
  | 102 => ⟨S100000x256, .f32⟩
  | 103 => ⟨S100000x256, .f32⟩
  | 104 => ⟨S_, .f32⟩
  | 105 => ⟨S100000x256, .f32⟩
  | 106 => ⟨S100000x256, .f32⟩
  | 107 => ⟨S1x100000, .i32⟩
  | 108 => ⟨S100000, .i32⟩
  | 109 => ⟨S_, .i32⟩
  | 110 => ⟨S100000, .i32⟩
  | 111 => ⟨S100000, .i1⟩
  | 112 => ⟨S_, .i32⟩
  | 113 => ⟨S100000, .i32⟩
  | 114 => ⟨S100000, .i32⟩
  | 115 => ⟨S100000, .i32⟩
  | 116 => ⟨S100000x1, .i32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S1x100000, .i32⟩
  | 123 => ⟨S100000, .i32⟩
  | 124 => ⟨S_, .f32⟩
  | 125 => ⟨S25000x128, .f32⟩
  | 126 => ⟨S100000x1, .i32⟩
  | 127 => ⟨S25000x128, .f32⟩
  | _ => ⟨S100000x128, .f32⟩

abbrev hbmTy0_1 (i : Nat) : BufTy := match i % 128 with
  | 0 => ⟨S_, .f32⟩
  | 1 => ⟨S_, .f32⟩
  | 2 => ⟨S25000x128, .f32⟩
  | 3 => ⟨S25000x128, .f32⟩
  | 4 => ⟨S25000x128, .f32⟩
  | 5 => ⟨S25000x256, .f32⟩
  | 6 => ⟨S1x256, .f32⟩
  | 7 => ⟨S25000x256, .f32⟩
  | 8 => ⟨S25000x256, .f32⟩
  | 9 => ⟨S_, .f32⟩
  | 10 => ⟨S256, .f32⟩
  | 11 => ⟨S_, .f32⟩
  | 12 => ⟨S256, .f32⟩
  | 13 => ⟨S256, .f32⟩
  | 14 => ⟨S_, .i32⟩
  | 15 => ⟨S_, .f32⟩
  | 16 => ⟨S256, .f32⟩
  | 17 => ⟨S1x256, .f32⟩
  | 18 => ⟨S_, .f32⟩
  | 19 => ⟨S1x256, .f32⟩
  | 20 => ⟨S1x256, .f32⟩
  | 21 => ⟨S25000x256, .f32⟩
  | 22 => ⟨S25000x256, .f32⟩
  | 23 => ⟨S25000x256, .f32⟩
  | 24 => ⟨S_, .f32⟩
  | 25 => ⟨S_, .f32⟩
  | 26 => ⟨S_, .f32⟩
  | 27 => ⟨S_, .f32⟩
  | 28 => ⟨S256, .f32⟩
  | 29 => ⟨S256, .f32⟩
  | 30 => ⟨S256, .f32⟩
  | 31 => ⟨S_, .f32⟩
  | 32 => ⟨S_, .i1⟩
  | 33 => ⟨S_, .f32⟩
  | 34 => ⟨S_, .f32⟩
  | 35 => ⟨S256, .f32⟩
  | 36 => ⟨S256, .f32⟩
  | 37 => ⟨S1x256, .f32⟩
  | 38 => ⟨S25000x256, .f32⟩
  | 39 => ⟨S25000x256, .f32⟩
  | 40 => ⟨S_, .f32⟩
  | 41 => ⟨S256, .f32⟩
  | 42 => ⟨S256, .f32⟩
  | 43 => ⟨S256, .f32⟩
  | 44 => ⟨S1x256, .f32⟩
  | 45 => ⟨S25000x256, .f32⟩
  | 46 => ⟨S25000x256, .f32⟩
  | 47 => ⟨S1x256, .f32⟩
  | 48 => ⟨S25000x256, .f32⟩
  | 49 => ⟨S25000x256, .f32⟩
  | 50 => ⟨S1x256, .f32⟩
  | 51 => ⟨S25000x256, .f32⟩
  | 52 => ⟨S25000x256, .f32⟩
  | 53 => ⟨S_, .f32⟩
  | 54 => ⟨S25000x256, .f32⟩
  | 55 => ⟨S25000x256, .f32⟩
  | 56 => ⟨S1x100000, .i32⟩
  | 57 => ⟨S100000, .i32⟩
  | 58 => ⟨S_, .i32⟩
  | 59 => ⟨S100000, .i32⟩
  | 60 => ⟨S100000, .i1⟩
  | 61 => ⟨S_, .i32⟩
  | 62 => ⟨S100000, .i32⟩
  | 63 => ⟨S100000, .i32⟩
  | 64 => ⟨S100000, .i32⟩
  | 65 => ⟨S100000x1, .i32⟩
  | 66 => ⟨S100000x128, .f32⟩
  | 67 => ⟨S1x100000, .i32⟩
  | 68 => ⟨S100000, .i32⟩
  | 69 => ⟨S_, .f32⟩
  | 70 => ⟨S25000x128, .f32⟩
  | 71 => ⟨S100000x1, .i32⟩
  | 72 => ⟨S25000x128, .f32⟩
  | 73 => ⟨S_, .f32⟩
  | 74 => ⟨S100000, .f32⟩
  | 75 => ⟨S1x100000, .i32⟩
  | 76 => ⟨S100000, .i32⟩
  | 77 => ⟨S_, .f32⟩
  | 78 => ⟨S25000, .f32⟩
  | 79 => ⟨S100000x1, .i32⟩
  | 80 => ⟨S25000, .f32⟩
  | 81 => ⟨S_, .f32⟩
  | 82 => ⟨S25000, .f32⟩
  | 83 => ⟨S25000, .f32⟩
  | 84 => ⟨S25000x1, .f32⟩
  | 85 => ⟨S25000x128, .f32⟩
  | 86 => ⟨S25000x128, .f32⟩
  | 87 => ⟨S25000x256, .f32⟩
  | 88 => ⟨S1x256, .f32⟩
  | 89 => ⟨S25000x256, .f32⟩
  | 90 => ⟨S25000x256, .f32⟩
  | 91 => ⟨S25000x256, .f32⟩
  | 92 => ⟨S25000x256, .f32⟩
  | 93 => ⟨S1x256, .f32⟩
  | 94 => ⟨S25000x256, .f32⟩
  | 95 => ⟨S25000x256, .f32⟩
  | 96 => ⟨S1x100000, .i32⟩
  | 97 => ⟨S100000, .i32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S100000x128, .f32⟩
  | 107 => ⟨S1x100000, .i32⟩
  | 108 => ⟨S100000, .i32⟩
  | 109 => ⟨S_, .f32⟩
  | 110 => ⟨S100000x128, .f32⟩
  | 111 => ⟨S100000x1, .i32⟩
  | 112 => ⟨S100000x128, .f32⟩
  | 113 => ⟨S_, .f32⟩
  | 114 => ⟨S100000, .f32⟩
  | 115 => ⟨S1x100000, .i32⟩
  | 116 => ⟨S100000, .i32⟩
  | 117 => ⟨S_, .f32⟩
  | 118 => ⟨S100000, .f32⟩
  | 119 => ⟨S100000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x128, .f32⟩
  | 126 => ⟨S100000x128, .f32⟩
  | 127 => ⟨S100000x256, .f32⟩
  | _ => ⟨S100000x128, .f32⟩

abbrev hbmTy0_2 (i : Nat) : BufTy := match i % 128 with
  | 0 => ⟨S1x256, .f32⟩
  | 1 => ⟨S100000x256, .f32⟩
  | 2 => ⟨S100000x256, .f32⟩
  | 3 => ⟨S100000x256, .f32⟩
  | 4 => ⟨S100000x256, .f32⟩
  | 5 => ⟨S1x256, .f32⟩
  | 6 => ⟨S100000x256, .f32⟩
  | 7 => ⟨S100000x256, .f32⟩
  | 8 => ⟨S100000x256, .f32⟩
  | 9 => ⟨S100000x128, .f32⟩
  | 10 => ⟨S1x128, .f32⟩
  | 11 => ⟨S100000x128, .f32⟩
  | 12 => ⟨S100000x128, .f32⟩
  | 13 => ⟨S25000x256, .f32⟩
  | 14 => ⟨S25000x128, .f32⟩
  | 15 => ⟨S1x128, .f32⟩
  | 16 => ⟨S25000x128, .f32⟩
  | 17 => ⟨S25000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_c : Ref sig .tc := ⟨.hbm, 32, rfl⟩
abbrev main_v2 : Ref sig .tc := ⟨.hbm, 33, rfl⟩
abbrev main_v3 : Ref sig .tc := ⟨.hbm, 34, rfl⟩
abbrev main_c_0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_call0_cst : Ref sig .tc := ⟨.hbm, 42, rfl⟩
abbrev main_call0_v0 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_cst_1 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_2 : Ref sig .tc := ⟨.hbm, 60, rfl⟩
abbrev main_v24 : Ref sig .tc := ⟨.hbm, 61, rfl⟩
abbrev main_cst_3 : Ref sig .tc := ⟨.hbm, 62, rfl⟩
abbrev main_v25 : Ref sig .tc := ⟨.hbm, 63, rfl⟩
abbrev main_v26 : Ref sig .tc := ⟨.hbm, 64, rfl⟩
abbrev main_c_4 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_cst_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_cst_1 : Ref sig .tc := ⟨.hbm, 76, rfl⟩
abbrev main_call1_v8 : Ref sig .tc := ⟨.hbm, 77, rfl⟩
abbrev main_call1_cst_2 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_cst_3 : Ref sig .tc := ⟨.hbm, 82, rfl⟩
abbrev main_call1_v12 : Ref sig .tc := ⟨.hbm, 83, rfl⟩
abbrev main_call1_cst_4 : Ref sig .tc := ⟨.hbm, 84, rfl⟩
abbrev main_call1_call0_v0 : Ref sig .tc := ⟨.hbm, 85, rfl⟩
abbrev main_call1_call0_v1 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_cst_5 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_call2_cst : Ref sig .tc := ⟨.hbm, 104, rfl⟩
abbrev main_call2_v0 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_c_6 : Ref sig .tc := ⟨.hbm, 109, rfl⟩
abbrev main_v46 : Ref sig .tc := ⟨.hbm, 110, rfl⟩
abbrev main_v47 : Ref sig .tc := ⟨.hbm, 111, rfl⟩
abbrev main_c_7 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_call3_cst : Ref sig .tc := ⟨.hbm, 119, rfl⟩
abbrev main_call3_v0 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_cst_8 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_cst_9 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_cst_10 : Ref sig .tc := ⟨.hbm, 137, rfl⟩
abbrev main_v68 : Ref sig .tc := ⟨.hbm, 138, rfl⟩
abbrev main_cst_11 : Ref sig .tc := ⟨.hbm, 139, rfl⟩
abbrev main_v69 : Ref sig .tc := ⟨.hbm, 140, rfl⟩
abbrev main_v70 : Ref sig .tc := ⟨.hbm, 141, rfl⟩
abbrev main_c_12 : Ref sig .tc := ⟨.hbm, 142, rfl⟩
abbrev main_call4_cst : Ref sig .tc := ⟨.hbm, 143, rfl⟩
abbrev main_call4_v0 : Ref sig .tc := ⟨.hbm, 144, rfl⟩
abbrev main_call4_v1 : Ref sig .tc := ⟨.hbm, 145, rfl⟩
abbrev main_call4_cst_0 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_v7 : Ref sig .tc := ⟨.hbm, 152, rfl⟩
abbrev main_call4_cst_1 : Ref sig .tc := ⟨.hbm, 153, rfl⟩
abbrev main_call4_v8 : Ref sig .tc := ⟨.hbm, 154, rfl⟩
abbrev main_call4_cst_2 : Ref sig .tc := ⟨.hbm, 155, rfl⟩
abbrev main_call4_v9 : Ref sig .tc := ⟨.hbm, 156, rfl⟩
abbrev main_call4_v10 : Ref sig .tc := ⟨.hbm, 157, rfl⟩
abbrev main_call4_v11 : Ref sig .tc := ⟨.hbm, 158, rfl⟩
abbrev main_call4_cst_3 : Ref sig .tc := ⟨.hbm, 159, rfl⟩
abbrev main_call4_v12 : Ref sig .tc := ⟨.hbm, 160, rfl⟩
abbrev main_call4_cst_4 : Ref sig .tc := ⟨.hbm, 161, rfl⟩
abbrev main_call4_call0_v0 : Ref sig .tc := ⟨.hbm, 162, rfl⟩
abbrev main_call4_call0_v1 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_cst_13 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_call5_cst : Ref sig .tc := ⟨.hbm, 181, rfl⟩
abbrev main_call5_v0 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_c_14 : Ref sig .tc := ⟨.hbm, 186, rfl⟩
abbrev main_v90 : Ref sig .tc := ⟨.hbm, 187, rfl⟩
abbrev main_v91 : Ref sig .tc := ⟨.hbm, 188, rfl⟩
abbrev main_c_15 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_v98 : Ref sig .tc := ⟨.hbm, 196, rfl⟩
abbrev main_cst_16 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_cst_17 : Ref sig .tc := ⟨.hbm, 201, rfl⟩
abbrev main_v102 : Ref sig .tc := ⟨.hbm, 202, rfl⟩
abbrev main_v103 : Ref sig .tc := ⟨.hbm, 203, rfl⟩
abbrev main_v104 : Ref sig .tc := ⟨.hbm, 204, rfl⟩
abbrev main_cst_18 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_cst_19 : Ref sig .tc := ⟨.hbm, 209, rfl⟩
abbrev main_v108 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_v112 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩
abbrev main_v116 : Ref sig .tc := ⟨.hbm, 218, rfl⟩
abbrev main_v117 : Ref sig .tc := ⟨.hbm, 219, rfl⟩
abbrev main_v118 : Ref sig .tc := ⟨.hbm, 220, rfl⟩
abbrev main_v119 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_c_20 : Ref sig .tc := ⟨.hbm, 226, rfl⟩
abbrev main_v124 : Ref sig .tc := ⟨.hbm, 227, rfl⟩
abbrev main_v125 : Ref sig .tc := ⟨.hbm, 228, rfl⟩
abbrev main_c_21 : Ref sig .tc := ⟨.hbm, 229, rfl⟩
abbrev main_v126 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_cst_22 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_cst_23 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_cst_24 : Ref sig .tc := ⟨.hbm, 245, rfl⟩
abbrev main_v139 : Ref sig .tc := ⟨.hbm, 246, rfl⟩
abbrev main_v140 : Ref sig .tc := ⟨.hbm, 247, rfl⟩
abbrev main_v141 : Ref sig .tc := ⟨.hbm, 248, rfl⟩
abbrev main_cst_25 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_v156 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_v160 : Ref sig .tc := ⟨.hbm, 268, rfl⟩
abbrev main_v161 : Ref sig .tc := ⟨.hbm, 269, rfl⟩
abbrev main_v162 : Ref sig .tc := ⟨.hbm, 270, rfl⟩
abbrev main_v163 : Ref sig .tc := ⟨.hbm, 271, rfl⟩
abbrev main_v164 : Ref sig .tc := ⟨.hbm, 272, rfl⟩
abbrev main_v165 : Ref sig .tc := ⟨.hbm, 273, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  slices_S2x600000_S1x600000_1_0 : S2x600000.Slices ![1, 0] S1x600000
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S256_d0 : S100000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S100000x256 : S_.BroadcastsInDim S100000x256 (![] : Fin 0 → Fin S100000x256.rank)
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  bcast_S_S25000x128 : S_.BroadcastsInDim S25000x128 (![] : Fin 0 → Fin S25000x128.rank)
  bcast_S1x256_S25000x256_0_1 : S1x256.BroadcastsInDim S25000x256 (![0, 1] : Fin 2 → Fin S25000x256.rank)
  reducesTo_S25000x256_S256_d0 : S25000x256.ReducesTo [0] S256
  bcast_S_S25000x256 : S_.BroadcastsInDim S25000x256 (![] : Fin 0 → Fin S25000x256.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x128_0_1 : S25000x1.BroadcastsInDim S25000x128 (![0, 1] : Fin 2 → Fin S25000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S25000x128_0_1 : S1x128.BroadcastsInDim S25000x128 (![0, 1] : Fin 2 → Fin S25000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x256_S100000x256_1_0_0_1_n_n_wf : DotDims.WF S100000x128 S128x256 S100000x256 [1] [0] [0] [1] [] []
  gather_S25000x128_S100000x1_S100000x128_1_0_n_n_0_1_1128_wf : GatherDims.WF S25000x128 S100000x1 S100000x128 [1] [0] [] [0] [] 1 ![1, 128]
  scatter_S25000x128_S100000x1_S100000x128_1_0_0_1_wf : ScatterDims.WF S25000x128 S100000x1 S100000x128 [1] [0] [0] 1
  dot_S25000x128_S128x256_S25000x256_1_0_0_1_n_n_wf : DotDims.WF S25000x128 S128x256 S25000x256 [1] [0] [0] [1] [] []
  gather_S100000x128_S100000x1_S100000x128_1_0_n_n_0_1_1128_wf : GatherDims.WF S100000x128 S100000x1 S100000x128 [1] [0] [] [0] [] 1 ![1, 128]
  scatter_S25000_S100000x1_S100000_n_0_0_1_wf : ScatterDims.WF S25000 S100000x1 S100000 [] [0] [0] 1
  scatter_S100000x128_S100000x1_S100000x128_1_0_0_1_wf : ScatterDims.WF S100000x128 S100000x1 S100000x128 [1] [0] [0] 1
  scatter_S100000_S100000x1_S100000_n_0_0_1_wf : ScatterDims.WF S100000 S100000x1 S100000 [] [0] [0] 1
  dot_S100000x256_S256x128_S100000x128_1_0_0_1_n_n_wf : DotDims.WF S100000x256 S256x128 S100000x128 [1] [0] [0] [1] [] []
  dot_S25000x256_S256x128_S25000x128_1_0_0_1_n_n_wf : DotDims.WF S25000x256 S256x128 S25000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S25000x128_S100000x1_S100000x128_1_0_n_n_0_1_1128 : GatherDims S25000x128 S100000x1 S100000x128 where
  offsetDims := [1]
  collapsedSliceDims := [0]
  operandBatchingDims := []
  startIndicesBatchingDims := []
  startIndexMap := [0]
  indexVectorDim := 1
  sliceSizes := ![1, 128]
  wf := gather_S25000x128_S100000x1_S100000x128_1_0_n_n_0_1_1128_wf
def scatter_S25000x128_S100000x1_S100000x128_1_0_0_1 : ScatterDims S25000x128 S100000x1 S100000x128 where
  updateWindowDims := [1]
  insertedWindowDims := [0]
  scatterDimsToOperandDims := [0]
  indexVectorDim := 1
  wf := scatter_S25000x128_S100000x1_S100000x128_1_0_0_1_wf
def dot_S25000x128_S128x256_S25000x256_1_0_0_1_n_n : DotDims S25000x128 S128x256 S25000x256 where
  lhsContracting := [1]
  rhsContracting := [0]
  lhsNonContracting := [0]
  rhsNonContracting := [1]
  lhsBatch := []
  rhsBatch := []
  wf := dot_S25000x128_S128x256_S25000x256_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S25000_S100000x1_S100000_n_0_0_1 : ScatterDims S25000 S100000x1 S100000 where
  updateWindowDims := []
  insertedWindowDims := [0]
  scatterDimsToOperandDims := [0]
  indexVectorDim := 1
  wf := scatter_S25000_S100000x1_S100000_n_0_0_1_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S25000x256_S256x128_S25000x128_1_0_0_1_n_n : DotDims S25000x256 S256x128 S25000x128 where
  lhsContracting := [1]
  rhsContracting := [0]
  lhsNonContracting := [0]
  rhsNonContracting := [1]
  lhsBatch := []
  rhsBatch := []
  wf := dot_S25000x256_S256x128_S25000x128_1_0_0_1_n_n_wf

class Facts : Prop extends Facts₀ where

variable [Facts]
-- ==== Proof.KRun.lean ====
/-
  The idealized kernel program's run with its two results named.

  The program is twelve segments: five stretches of host operations, then four pipelined kernel launches with a
  stretch of host operations before each of the last three.  The buffer contents at each boundary are a fold
  from the launch memory: a host stretch applies its operations, a launch replaces the arrays of its windows
  by what the pipeline's write-backs leave and keeps every other buffer.  Every weakly fair execution terminates
  without a fault in a state where each unscoped buffer holds the last boundary's contents; read at the two
  result buffers and at the thirty arguments this is the statement below.
-/
import proofs.«151819_j60404420051112_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at the
    last boundary's contents and the thirty argument arrays as launched. -/
theorem run_values : θ_run defs (onTc (τ := τ) (main (F := F))) ⟨m, fun _ => 0, ρ⟩ (fun r => ∀ c : Dev nD,
      r.2.mem ((c.tc : Thread nD τ).loc main_v121) = W12 m ρ c (Proc.devRef .tc main_v121)
      ∧ r.2.mem ((c.tc : Thread nD τ).loc main_v127) = W12 m ρ c (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v121 (by decide)),
       h c _ (mem_uc main_v127 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c),
       (h c _ (mem_uc main_arg24 (by decide))).trans (W12_main_arg24 m ρ c),
       (h c _ (mem_uc main_arg25 (by decide))).trans (W12_main_arg25 m ρ c),
       (h c _ (mem_uc main_arg26 (by decide))).trans (W12_main_arg26 m ρ c),
       (h c _ (mem_uc main_arg27 (by decide))).trans (W12_main_arg27 m ρ c),
       (h c _ (mem_uc main_arg28 (by decide))).trans (W12_main_arg28 m ρ c),
       (h c _ (mem_uc main_arg29 (by decide))).trans (W12_main_arg29 m ρ c)⟩)

end Cert.KernelIdeal.KRun

end
-- ==== Proof.RefOps.lean ====
/-
  The reference program's @main as a list of its host operations, and its run read back.

  The program is a straight line of tensor operations; six of them are calls of module-local functions
  (a rectification, four times; a column variance, twice, which itself calls a selection).  A call executes the
  callee's body on the operands, so the line is the callee's operations written out where the call sits, over the
  buffers that call names.  The list is given in four stretches, one per printed window of the program, and the
  whole list is their concatenation; each window equals the straight line of its stretch, hence the program equals
  the straight line of the whole list, and the run theorem for straight lines gives every buffer's final contents
  as the fold of the operations' results over the launch contents.
-/
import proofs.«151819_j60404420051112_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 85 of @main's 244, in order: the first message-passing sum over the atom graph's edges (gather, add, rectify, scatter-add, scaled self term), the atom graph's linear layer, its column mean, its column variance (the variance function's nineteen operations and the three of the selection it ends in, inlined where the call sits), the batch normalisation with its affine map and rectification, and the first index operations of the cluster graph. -/
abbrev ops0 : List (HloOp τ sig (Elt F)) :=
  [ StableHlo.unary main_arg26 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.nullary main_c (constantI S_ 32 0#32),
    StableHlo.unary main_c main_v2 (broadcastInDim S600000 ![] bcast_S_S600000 : (⟨S_, .i32⟩ : BufTy).Contents (Elt F) → (⟨S600000, .i32⟩ : BufTy).Contents (Elt F)),
    StableHlo.binary main_v1 main_v2 main_v3 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 100000#32),
    StableHlo.unary main_c_0 main_v4 (broadcastInDim S600000 ![] bcast_S_S600000 : (⟨S_, .i32⟩ : BufTy).Contents (Elt F) → (⟨S600000, .i32⟩ : BufTy).Contents (Elt F)),
    StableHlo.binary main_v1 main_v4 main_v5 (addi : (⟨S600000, .i32⟩ : BufTy).Contents (Elt F) → (⟨S600000, .i32⟩ : BufTy).Contents (Elt F) → (⟨S600000, .i32⟩ : BufTy).Contents (Elt F)),
    StableHlo.ternary main_v3 main_v5 main_v1 main_v6 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v6 main_v7 (broadcastInDim S600000x1 ![0] bcast_S600000_S600000x1_0 : (⟨S600000, .i32⟩ : BufTy).Contents (Elt F) → (⟨S600000x1, .i32⟩ : BufTy).Contents (Elt F)),
    StableHlo.binary main_arg0 main_v7 main_v8 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_v8 main_arg1 main_v9 (addf : (⟨S600000x128, .f32⟩ : BufTy).Contents (Elt F) → (⟨S600000x128, .f32⟩ : BufTy).Contents (Elt F) → (⟨S600000x128, .f32⟩ : BufTy).Contents (Elt F)),
    StableHlo.TRef.nullary main_call0.cst (constant S_ .f32 0x00000000#32),
    StableHlo.TRef.unary main_call0.cst main_call0.v0 (broadcastInDim S600000x128 ![] bcast_S_S600000x128),
    StableHlo.TRef.binary (TRef.of main_v9 : TRef sig ⟨S600000x128, .f32⟩) main_call0.v0 main_call0.v1 maximumf,
    StableHlo.unary main_arg26 main_v11 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v11 main_v12 rfl shapeCasts_S1x600000_S600000,
    StableHlo.nullary main_cst (constant S_ .f32 0x00000000#32),
    StableHlo.unary main_cst main_v13 (broadcastInDim S100000x128 ![] bcast_S_S100000x128 : (⟨S_, .f32⟩ : BufTy).Contents (Elt F) → (⟨S100000x128, .f32⟩ : BufTy).Contents (Elt F)),
    StableHlo.unary main_v12 main_v14 (broadcastInDim S600000x1 ![0] bcast_S600000_S600000x1_0 : (⟨S600000, .i32⟩ : BufTy).Contents (Elt F) → (⟨S600000x1, .i32⟩ : BufTy).Contents (Elt F)),
    StableHlo.ternary main_v13 main_v14 main_v10 main_v15 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_1 (constant S_ .f32 0x3F800000#32),
    StableHlo.binary main_cst_1 main_arg4 main_v16 (addf : (⟨S_, .f32⟩ : BufTy).Contents (Elt F) → (⟨S_, .f32⟩ : BufTy).Contents (Elt F) → (⟨S_, .f32⟩ : BufTy).Contents (Elt F)),
    StableHlo.unary main_v16 main_v17 (broadcastInDim S100000x128 ![] bcast_S_S100000x128 : (⟨S_, .f32⟩ : BufTy).Contents (Elt F) → (⟨S100000x128, .f32⟩ : BufTy).Contents (Elt F)),
    StableHlo.binary main_v17 main_arg0 main_v18 (mulf : (⟨S100000x128, .f32⟩ : BufTy).Contents (Elt F) → (⟨S100000x128, .f32⟩ : BufTy).Contents (Elt F) → (⟨S100000x128, .f32⟩ : BufTy).Contents (Elt F)),
    StableHlo.binary main_v18 main_v15 main_v19 (addf : (⟨S100000x128, .f32⟩ : BufTy).Contents (Elt F) → (⟨S100000x128, .f32⟩ : BufTy).Contents (Elt F) → (⟨S100000x128, .f32⟩ : BufTy).Contents (Elt F)),
    StableHlo.binary main_v19 main_arg5 main_v20 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.unary main_arg6 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S100000x256 ![0, 1] bcast_S1x256_S100000x256_0_1 : (⟨S1x256, .f32⟩ : BufTy).Contents (Elt F) → (⟨S100000x256, .f32⟩ : BufTy).Contents (Elt F)),
    StableHlo.binary main_v20 main_v22 main_v23 (addf : (⟨S100000x256, .f32⟩ : BufTy).Contents (Elt F) → (⟨S100000x256, .f32⟩ : BufTy).Contents (Elt F) → (⟨S100000x256, .f32⟩ : BufTy).Contents (Elt F)),
    StableHlo.nullary main_cst_2 (constant S_ .f32 0x00000000#32),
    StableHlo.binary main_v23 main_cst_2 main_v24 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_3 (constant S_ .f32 0x47C35000#32),
    StableHlo.unary main_cst_3 main_v25 (broadcastInDim S256 ![] bcast_S_S256 : (⟨S_, .f32⟩ : BufTy).Contents (Elt F) → (⟨S256, .f32⟩ : BufTy).Contents (Elt F)),
    StableHlo.binary main_v24 main_v25 main_v26 (Host.divf : (⟨S256, .f32⟩ : BufTy).Contents (Elt F) → (⟨S256, .f32⟩ : BufTy).Contents (Elt F) → (⟨S256, .f32⟩ : BufTy).Contents (Elt F)),
    StableHlo.nullary main_c_4 (constantI S_ 32 0#32),
    StableHlo.TRef.nullary main_call1.cst (constant S_ .f32 0x00000000#32),
    StableHlo.TRef.binary (TRef.of main_v23 : TRef sig ⟨S100000x256, .f32⟩) main_call1.cst main_call1.v0 (fun x v => Host.reduceAdd x v reducesTo_S100000x256_S256_d0 h_S_),
    StableHlo.TRef.unary main_call1.v0 main_call1.v1 (broadcastInDim S1x256 ![1] bcast_S256_S1x256_1),
    StableHlo.TRef.nullary main_call1.cst_0 (constant S_ .f32 0x47C35000#32),
    StableHlo.TRef.unary main_call1.cst_0 main_call1.v2 (broadcastInDim S1x256 ![] bcast_S_S1x256),
    StableHlo.TRef.binary main_call1.v1 main_call1.v2 main_call1.v3 Host.divf,
    StableHlo.TRef.unary main_call1.v3 main_call1.v4 (broadcastInDim S100000x256 ![0, 1] bcast_S1x256_S100000x256_0_1),
    StableHlo.TRef.binary (TRef.of main_v23 : TRef sig ⟨S100000x256, .f32⟩) main_call1.v4 main_call1.v5 subf,
    StableHlo.TRef.binary main_call1.v5 main_call1.v5 main_call1.v6 mulf,
    StableHlo.TRef.unary (TRef.of main_c_4 : TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x256_S256_d0 h_S_),
    StableHlo.TRef.unary main_call1.v8 main_call1.v10 (broadcastInDim S256 ![] bcast_S_S256),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S256 ![] bcast_S_S256),
    StableHlo.TRef.ternary main_call1.v12 main_call1.v11 main_call1.call0.v1 main_call1.call0.v2 (fun p a b => select (broadcastInDim S256 ![] bcast_S_S256 p) a b),
    StableHlo.unary main_v26 main_v28 (broadcastInDim S1x256 ![1] bcast_S256_S1x256_1 : (⟨S256, .f32⟩ : BufTy).Contents (Elt F) → (⟨S1x256, .f32⟩ : BufTy).Contents (Elt F)),
    StableHlo.unary main_v28 main_v29 (broadcastInDim S100000x256 ![0, 1] bcast_S1x256_S100000x256_0_1 : (⟨S1x256, .f32⟩ : BufTy).Contents (Elt F) → (⟨S100000x256, .f32⟩ : BufTy).Contents (Elt F)),
    StableHlo.binary main_v23 main_v29 main_v30 (subf : (⟨S100000x256, .f32⟩ : BufTy).Contents (Elt F) → (⟨S100000x256, .f32⟩ : BufTy).Contents (Elt F) → (⟨S100000x256, .f32⟩ : BufTy).Contents (Elt F)),
    StableHlo.nullary main_cst_5 (constant S_ .f32 0x3727C5AC#32),
    StableHlo.unary main_cst_5 main_v31 (broadcastInDim S256 ![] bcast_S_S256 : (⟨S_, .f32⟩ : BufTy).Contents (Elt F) → (⟨S256, .f32⟩ : BufTy).Contents (Elt F)),
    StableHlo.binary main_v27 main_v31 main_v32 (addf : (⟨S256, .f32⟩ : BufTy).Contents (Elt F) → (⟨S256, .f32⟩ : BufTy).Contents (Elt F) → (⟨S256, .f32⟩ : BufTy).Contents (Elt F)),
    StableHlo.unary main_v32 main_v33 (Host.rsqrt : (⟨S256, .f32⟩ : BufTy).Contents (Elt F) → (⟨S256, .f32⟩ : BufTy).Contents (Elt F)),
    StableHlo.unary main_v33 main_v34 (broadcastInDim S1x256 ![1] bcast_S256_S1x256_1 : (⟨S256, .f32⟩ : BufTy).Contents (Elt F) → (⟨S1x256, .f32⟩ : BufTy).Contents (Elt F)),
    StableHlo.unary main_v34 main_v35 (broadcastInDim S100000x256 ![0, 1] bcast_S1x256_S100000x256_0_1 : (⟨S1x256, .f32⟩ : BufTy).Contents (Elt F) → (⟨S100000x256, .f32⟩ : BufTy).Contents (Elt F)),
    StableHlo.binary main_v30 main_v35 main_v36 (mulf : (⟨S100000x256, .f32⟩ : BufTy).Contents (Elt F) → (⟨S100000x256, .f32⟩ : BufTy).Contents (Elt F) → (⟨S100000x256, .f32⟩ : BufTy).Contents (Elt F)),
    StableHlo.unary main_arg7 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S100000x256 ![0, 1] bcast_S1x256_S100000x256_0_1 : (⟨S1x256, .f32⟩ : BufTy).Contents (Elt F) → (⟨S100000x256, .f32⟩ : BufTy).Contents (Elt F)),
    StableHlo.binary main_v36 main_v38 main_v39 (mulf : (⟨S100000x256, .f32⟩ : BufTy).Contents (Elt F) → (⟨S100000x256, .f32⟩ : BufTy).Contents (Elt F) → (⟨S100000x256, .f32⟩ : BufTy).Contents (Elt F)),
    StableHlo.unary main_arg8 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S100000x256 ![0, 1] bcast_S1x256_S100000x256_0_1 : (⟨S1x256, .f32⟩ : BufTy).Contents (Elt F) → (⟨S100000x256, .f32⟩ : BufTy).Contents (Elt F)),
    StableHlo.binary main_v39 main_v41 main_v42 (addf : (⟨S100000x256, .f32⟩ : BufTy).Contents (Elt F) → (⟨S100000x256, .f32⟩ : BufTy).Contents (Elt F) → (⟨S100000x256, .f32⟩ : BufTy).Contents (Elt F)),
    StableHlo.TRef.nullary main_call2.cst (constant S_ .f32 0x00000000#32),
    StableHlo.TRef.unary main_call2.cst main_call2.v0 (broadcastInDim S100000x256 ![] bcast_S_S100000x256),
    StableHlo.TRef.binary (TRef.of main_v42 : TRef sig ⟨S100000x256, .f32⟩) main_call2.v0 main_call2.v1 maximumf,
    StableHlo.unary main_arg27 main_v44 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v44 main_v45 rfl shapeCasts_S1x100000_S100000,
    StableHlo.nullary main_c_6 (constantI S_ 32 0#32),
    StableHlo.unary main_c_6 main_v46 (broadcastInDim S100000 ![] bcast_S_S100000 : (⟨S_, .i32⟩ : BufTy).Contents (Elt F) → (⟨S100000, .i32⟩ : BufTy).Contents (Elt F)),
    StableHlo.binary main_v45 main_v46 main_v47 (cmpi .slt : (⟨S100000, .i32⟩ : BufTy).Contents (Elt F) → (⟨S100000, .i32⟩ : BufTy).Contents (Elt F) → (⟨S100000, .i1⟩ : BufTy).Contents (Elt F)),
    StableHlo.nullary main_c_7 (constantI S_ 32 25000#32),
    StableHlo.unary main_c_7 main_v48 (broadcastInDim S100000 ![] bcast_S_S100000 : (⟨S_, .i32⟩ : BufTy).Contents (Elt F) → (⟨S100000, .i32⟩ : BufTy).Contents (Elt F)),
    StableHlo.binary main_v45 main_v48 main_v49 (addi : (⟨S100000, .i32⟩ : BufTy).Contents (Elt F) → (⟨S100000, .i32⟩ : BufTy).Contents (Elt F) → (⟨S100000, .i32⟩ : BufTy).Contents (Elt F)) ]

/-- Operations 86 … 170 of @main's 244, in order: the message-passing sum into the cluster graph, its linear layer, column mean, column variance (inlined likewise), batch normalisation, affine map and rectification, and the first half of the mean aggregation from atoms to clusters. -/
abbrev ops1 : List (HloOp τ sig (Elt F)) :=
  [ StableHlo.ternary main_v47 main_v49 main_v45 main_v50 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v50 main_v51 (broadcastInDim S100000x1 ![0] bcast_S100000_S100000x1_0 : (⟨S100000, .i32⟩ : BufTy).Contents (Elt F) → (⟨S100000x1, .i32⟩ : BufTy).Contents (Elt F)),
    StableHlo.binary main_arg2 main_v51 main_v52 ((fun x i => Host.gather gather_S25000x128_S100000x1_S100000x128_1_0_n_n_0_1_1128 x i) : (⟨S25000x128, .f32⟩ : BufTy).Contents (Elt F) → (⟨S100000x1, .i32⟩ : BufTy).Contents (Elt F) → (⟨S100000x128, .f32⟩ : BufTy).Contents (Elt F)),
    StableHlo.binary main_v52 main_arg3 main_v53 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (TRef.of main_v53 : TRef sig ⟨S100000x128, .f32⟩) main_call3.v0 main_call3.v1 maximumf,
    StableHlo.unary main_arg27 main_v55 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v55 main_v56 rfl shapeCasts_S1x100000_S100000,
    StableHlo.nullary main_cst_8 (constant S_ .f32 0x00000000#32),
    StableHlo.unary main_cst_8 main_v57 (broadcastInDim S25000x128 ![] bcast_S_S25000x128 : (⟨S_, .f32⟩ : BufTy).Contents (Elt F) → (⟨S25000x128, .f32⟩ : BufTy).Contents (Elt F)),
    StableHlo.unary main_v56 main_v58 (broadcastInDim S100000x1 ![0] bcast_S100000_S100000x1_0 : (⟨S100000, .i32⟩ : BufTy).Contents (Elt F) → (⟨S100000x1, .i32⟩ : BufTy).Contents (Elt F)),
    StableHlo.ternary main_v57 main_v58 main_v54 main_v59 ((fun x i u => Host.scatterAdd scatter_S25000x128_S100000x1_S100000x128_1_0_0_1 x i u) : (⟨S25000x128, .f32⟩ : BufTy).Contents (Elt F) → (⟨S100000x1, .i32⟩ : BufTy).Contents (Elt F) → (⟨S100000x128, .f32⟩ : BufTy).Contents (Elt F) → (⟨S25000x128, .f32⟩ : BufTy).Contents (Elt F)),
    StableHlo.nullary main_cst_9 (constant S_ .f32 0x3F800000#32),
    StableHlo.binary main_cst_9 main_arg9 main_v60 (addf : (⟨S_, .f32⟩ : BufTy).Contents (Elt F) → (⟨S_, .f32⟩ : BufTy).Contents (Elt F) → (⟨S_, .f32⟩ : BufTy).Contents (Elt F)),
    StableHlo.unary main_v60 main_v61 (broadcastInDim S25000x128 ![] bcast_S_S25000x128 : (⟨S_, .f32⟩ : BufTy).Contents (Elt F) → (⟨S25000x128, .f32⟩ : BufTy).Contents (Elt F)),
    StableHlo.binary main_v61 main_arg2 main_v62 (mulf : (⟨S25000x128, .f32⟩ : BufTy).Contents (Elt F) → (⟨S25000x128, .f32⟩ : BufTy).Contents (Elt F) → (⟨S25000x128, .f32⟩ : BufTy).Contents (Elt F)),
    StableHlo.binary main_v62 main_v59 main_v63 (addf : (⟨S25000x128, .f32⟩ : BufTy).Contents (Elt F) → (⟨S25000x128, .f32⟩ : BufTy).Contents (Elt F) → (⟨S25000x128, .f32⟩ : BufTy).Contents (Elt F)),
    StableHlo.binary main_v63 main_arg10 main_v64 ((fun l r => Host.dotGeneral dot_S25000x128_S128x256_S25000x256_1_0_0_1_n_n none l r) : (⟨S25000x128, .f32⟩ : BufTy).Contents (Elt F) → (⟨S128x256, .f32⟩ : BufTy).Contents (Elt F) → (⟨S25000x256, .f32⟩ : BufTy).Contents (Elt F)),
    StableHlo.unary main_arg11 main_v65 (broadcastInDim S1x256 ![1] bcast_S256_S1x256_1 : (⟨S256, .f32⟩ : BufTy).Contents (Elt F) → (⟨S1x256, .f32⟩ : BufTy).Contents (Elt F)),
    StableHlo.unary main_v65 main_v66 (broadcastInDim S25000x256 ![0, 1] bcast_S1x256_S25000x256_0_1 : (⟨S1x256, .f32⟩ : BufTy).Contents (Elt F) → (⟨S25000x256, .f32⟩ : BufTy).Contents (Elt F)),
    StableHlo.binary main_v64 main_v66 main_v67 (addf : (⟨S25000x256, .f32⟩ : BufTy).Contents (Elt F) → (⟨S25000x256, .f32⟩ : BufTy).Contents (Elt F) → (⟨S25000x256, .f32⟩ : BufTy).Contents (Elt F)),
    StableHlo.nullary main_cst_10 (constant S_ .f32 0x00000000#32),
    StableHlo.binary main_v67 main_cst_10 main_v68 ((fun x v => Host.reduceAdd x v reducesTo_S25000x256_S256_d0 h_S_) : (⟨S25000x256, .f32⟩ : BufTy).Contents (Elt F) → (⟨S_, .f32⟩ : BufTy).Contents (Elt F) → (⟨S256, .f32⟩ : BufTy).Contents (Elt F)),
    StableHlo.nullary main_cst_11 (constant S_ .f32 0x46C35000#32),
    StableHlo.unary main_cst_11 main_v69 (broadcastInDim S256 ![] bcast_S_S256 : (⟨S_, .f32⟩ : BufTy).Contents (Elt F) → (⟨S256, .f32⟩ : BufTy).Contents (Elt F)),
    StableHlo.binary main_v68 main_v69 main_v70 (Host.divf : (⟨S256, .f32⟩ : BufTy).Contents (Elt F) → (⟨S256, .f32⟩ : BufTy).Contents (Elt F) → (⟨S256, .f32⟩ : BufTy).Contents (Elt F)),
    StableHlo.nullary main_c_12 (constantI S_ 32 0#32),
    StableHlo.TRef.nullary main_call4.cst (constant S_ .f32 0x00000000#32),
    StableHlo.TRef.binary (TRef.of main_v67 : TRef sig ⟨S25000x256, .f32⟩) main_call4.cst main_call4.v0 (fun x v => Host.reduceAdd x v reducesTo_S25000x256_S256_d0 h_S_),
    StableHlo.TRef.unary main_call4.v0 main_call4.v1 (broadcastInDim S1x256 ![1] bcast_S256_S1x256_1),
    StableHlo.TRef.nullary main_call4.cst_0 (constant S_ .f32 0x46C35000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S25000x256 ![0, 1] bcast_S1x256_S25000x256_0_1),
    StableHlo.TRef.binary (TRef.of main_v67 : TRef sig ⟨S25000x256, .f32⟩) main_call4.v4 main_call4.v5 subf,
    StableHlo.TRef.binary main_call4.v5 main_call4.v5 main_call4.v6 mulf,
    StableHlo.TRef.unary (TRef.of main_c_12 : TRef sig ⟨S_, .i32⟩) main_call4.v7 (sitofp .f32),
    StableHlo.TRef.nullary main_call4.cst_1 (constant S_ .f32 0x46C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S25000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v70 main_v72 (broadcastInDim S1x256 ![1] bcast_S256_S1x256_1 : (⟨S256, .f32⟩ : BufTy).Contents (Elt F) → (⟨S1x256, .f32⟩ : BufTy).Contents (Elt F)),
    StableHlo.unary main_v72 main_v73 (broadcastInDim S25000x256 ![0, 1] bcast_S1x256_S25000x256_0_1 : (⟨S1x256, .f32⟩ : BufTy).Contents (Elt F) → (⟨S25000x256, .f32⟩ : BufTy).Contents (Elt F)),
    StableHlo.binary main_v67 main_v73 main_v74 (subf : (⟨S25000x256, .f32⟩ : BufTy).Contents (Elt F) → (⟨S25000x256, .f32⟩ : BufTy).Contents (Elt F) → (⟨S25000x256, .f32⟩ : BufTy).Contents (Elt F)),
    StableHlo.nullary main_cst_13 (constant S_ .f32 0x3727C5AC#32),
    StableHlo.unary main_cst_13 main_v75 (broadcastInDim S256 ![] bcast_S_S256 : (⟨S_, .f32⟩ : BufTy).Contents (Elt F) → (⟨S256, .f32⟩ : BufTy).Contents (Elt F)),
    StableHlo.binary main_v71 main_v75 main_v76 (addf : (⟨S256, .f32⟩ : BufTy).Contents (Elt F) → (⟨S256, .f32⟩ : BufTy).Contents (Elt F) → (⟨S256, .f32⟩ : BufTy).Contents (Elt F)),
    StableHlo.unary main_v76 main_v77 (Host.rsqrt : (⟨S256, .f32⟩ : BufTy).Contents (Elt F) → (⟨S256, .f32⟩ : BufTy).Contents (Elt F)),
    StableHlo.unary main_v77 main_v78 (broadcastInDim S1x256 ![1] bcast_S256_S1x256_1 : (⟨S256, .f32⟩ : BufTy).Contents (Elt F) → (⟨S1x256, .f32⟩ : BufTy).Contents (Elt F)),
    StableHlo.unary main_v78 main_v79 (broadcastInDim S25000x256 ![0, 1] bcast_S1x256_S25000x256_0_1 : (⟨S1x256, .f32⟩ : BufTy).Contents (Elt F) → (⟨S25000x256, .f32⟩ : BufTy).Contents (Elt F)),
    StableHlo.binary main_v74 main_v79 main_v80 (mulf : (⟨S25000x256, .f32⟩ : BufTy).Contents (Elt F) → (⟨S25000x256, .f32⟩ : BufTy).Contents (Elt F) → (⟨S25000x256, .f32⟩ : BufTy).Contents (Elt F)),
    StableHlo.unary main_arg12 main_v81 (broadcastInDim S1x256 ![1] bcast_S256_S1x256_1 : (⟨S256, .f32⟩ : BufTy).Contents (Elt F) → (⟨S1x256, .f32⟩ : BufTy).Contents (Elt F)),
    StableHlo.unary main_v81 main_v82 (broadcastInDim S25000x256 ![0, 1] bcast_S1x256_S25000x256_0_1 : (⟨S1x256, .f32⟩ : BufTy).Contents (Elt F) → (⟨S25000x256, .f32⟩ : BufTy).Contents (Elt F)),
    StableHlo.binary main_v80 main_v82 main_v83 (mulf : (⟨S25000x256, .f32⟩ : BufTy).Contents (Elt F) → (⟨S25000x256, .f32⟩ : BufTy).Contents (Elt F) → (⟨S25000x256, .f32⟩ : BufTy).Contents (Elt F)),
    StableHlo.unary main_arg13 main_v84 (broadcastInDim S1x256 ![1] bcast_S256_S1x256_1 : (⟨S256, .f32⟩ : BufTy).Contents (Elt F) → (⟨S1x256, .f32⟩ : BufTy).Contents (Elt F)),
    StableHlo.unary main_v84 main_v85 (broadcastInDim S25000x256 ![0, 1] bcast_S1x256_S25000x256_0_1 : (⟨S1x256, .f32⟩ : BufTy).Contents (Elt F) → (⟨S25000x256, .f32⟩ : BufTy).Contents (Elt F)),
    StableHlo.binary main_v83 main_v85 main_v86 (addf : (⟨S25000x256, .f32⟩ : BufTy).Contents (Elt F) → (⟨S25000x256, .f32⟩ : BufTy).Contents (Elt F) → (⟨S25000x256, .f32⟩ : BufTy).Contents (Elt F)),
    StableHlo.TRef.nullary main_call5.cst (constant S_ .f32 0x00000000#32),
    StableHlo.TRef.unary main_call5.cst main_call5.v0 (broadcastInDim S25000x256 ![] bcast_S_S25000x256),
    StableHlo.TRef.binary (TRef.of main_v86 : TRef sig ⟨S25000x256, .f32⟩) main_call5.v0 main_call5.v1 maximumf,
    StableHlo.unary main_arg28 main_v88 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v88 main_v89 rfl shapeCasts_S1x100000_S100000,
    StableHlo.nullary main_c_14 (constantI S_ 32 0#32),
    StableHlo.unary main_c_14 main_v90 (broadcastInDim S100000 ![] bcast_S_S100000 : (⟨S_, .i32⟩ : BufTy).Contents (Elt F) → (⟨S100000, .i32⟩ : BufTy).Contents (Elt F)),
    StableHlo.binary main_v89 main_v90 main_v91 (cmpi .slt : (⟨S100000, .i32⟩ : BufTy).Contents (Elt F) → (⟨S100000, .i32⟩ : BufTy).Contents (Elt F) → (⟨S100000, .i1⟩ : BufTy).Contents (Elt F)),
    StableHlo.nullary main_c_15 (constantI S_ 32 100000#32),
    StableHlo.unary main_c_15 main_v92 (broadcastInDim S100000 ![] bcast_S_S100000 : (⟨S_, .i32⟩ : BufTy).Contents (Elt F) → (⟨S100000, .i32⟩ : BufTy).Contents (Elt F)),
    StableHlo.binary main_v89 main_v92 main_v93 (addi : (⟨S100000, .i32⟩ : BufTy).Contents (Elt F) → (⟨S100000, .i32⟩ : BufTy).Contents (Elt F) → (⟨S100000, .i32⟩ : BufTy).Contents (Elt F)),
    StableHlo.ternary main_v91 main_v93 main_v89 main_v94 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v94 main_v95 (broadcastInDim S100000x1 ![0] bcast_S100000_S100000x1_0 : (⟨S100000, .i32⟩ : BufTy).Contents (Elt F) → (⟨S100000x1, .i32⟩ : BufTy).Contents (Elt F)),
    StableHlo.binary main_arg0 main_v95 main_v96 ((fun x i => Host.gather gather_S100000x128_S100000x1_S100000x128_1_0_n_n_0_1_1128 x i) : (⟨S100000x128, .f32⟩ : BufTy).Contents (Elt F) → (⟨S100000x1, .i32⟩ : BufTy).Contents (Elt F) → (⟨S100000x128, .f32⟩ : BufTy).Contents (Elt F)),
    StableHlo.unary main_arg28 main_v97 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v97 main_v98 rfl shapeCasts_S1x100000_S100000,
    StableHlo.nullary main_cst_16 (constant S_ .f32 0x00000000#32),
    StableHlo.unary main_cst_16 main_v99 (broadcastInDim S25000x128 ![] bcast_S_S25000x128 : (⟨S_, .f32⟩ : BufTy).Contents (Elt F) → (⟨S25000x128, .f32⟩ : BufTy).Contents (Elt F)),
    StableHlo.unary main_v98 main_v100 (broadcastInDim S100000x1 ![0] bcast_S100000_S100000x1_0 : (⟨S100000, .i32⟩ : BufTy).Contents (Elt F) → (⟨S100000x1, .i32⟩ : BufTy).Contents (Elt F)) ]

/-- Operations 171 … 230 of @main's 244, in order: the mean aggregation from atoms to clusters (row sums divided by the clamped in-degree), its two matrix products and biases, the mean aggregation from clusters to atoms and its two matrix products. -/
abbrev ops2 : List (HloOp τ sig (Elt F)) :=
  [ StableHlo.ternary main_v99 main_v100 main_v96 main_v101 ((fun x i u => Host.scatterAdd scatter_S25000x128_S100000x1_S100000x128_1_0_0_1 x i u) : (⟨S25000x128, .f32⟩ : BufTy).Contents (Elt F) → (⟨S100000x1, .i32⟩ : BufTy).Contents (Elt F) → (⟨S100000x128, .f32⟩ : BufTy).Contents (Elt F) → (⟨S25000x128, .f32⟩ : BufTy).Contents (Elt F)),
    StableHlo.nullary main_cst_17 (constant S_ .f32 0x3F800000#32),
    StableHlo.unary main_cst_17 main_v102 (broadcastInDim S100000 ![] bcast_S_S100000 : (⟨S_, .f32⟩ : BufTy).Contents (Elt F) → (⟨S100000, .f32⟩ : BufTy).Contents (Elt F)),
    StableHlo.unary main_arg28 main_v103 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v103 main_v104 rfl shapeCasts_S1x100000_S100000,
    StableHlo.nullary main_cst_18 (constant S_ .f32 0x00000000#32),
    StableHlo.unary main_cst_18 main_v105 (broadcastInDim S25000 ![] bcast_S_S25000 : (⟨S_, .f32⟩ : BufTy).Contents (Elt F) → (⟨S25000, .f32⟩ : BufTy).Contents (Elt F)),
    StableHlo.unary main_v104 main_v106 (broadcastInDim S100000x1 ![0] bcast_S100000_S100000x1_0 : (⟨S100000, .i32⟩ : BufTy).Contents (Elt F) → (⟨S100000x1, .i32⟩ : BufTy).Contents (Elt F)),
    StableHlo.ternary main_v105 main_v106 main_v102 main_v107 ((fun x i u => Host.scatterAdd scatter_S25000_S100000x1_S100000_n_0_0_1 x i u) : (⟨S25000, .f32⟩ : BufTy).Contents (Elt F) → (⟨S100000x1, .i32⟩ : BufTy).Contents (Elt F) → (⟨S100000, .f32⟩ : BufTy).Contents (Elt F) → (⟨S25000, .f32⟩ : BufTy).Contents (Elt F)),
    StableHlo.nullary main_cst_19 (constant S_ .f32 0x3F800000#32),
    StableHlo.unary main_cst_19 main_v108 (broadcastInDim S25000 ![] bcast_S_S25000 : (⟨S_, .f32⟩ : BufTy).Contents (Elt F) → (⟨S25000, .f32⟩ : BufTy).Contents (Elt F)),
    StableHlo.binary main_v107 main_v108 main_v109 (maximumf : (⟨S25000, .f32⟩ : BufTy).Contents (Elt F) → (⟨S25000, .f32⟩ : BufTy).Contents (Elt F) → (⟨S25000, .f32⟩ : BufTy).Contents (Elt F)),
    StableHlo.unary main_v109 main_v110 (broadcastInDim S25000x1 ![0] bcast_S25000_S25000x1_0 : (⟨S25000, .f32⟩ : BufTy).Contents (Elt F) → (⟨S25000x1, .f32⟩ : BufTy).Contents (Elt F)),
    StableHlo.unary main_v110 main_v111 (broadcastInDim S25000x128 ![0, 1] bcast_S25000x1_S25000x128_0_1 : (⟨S25000x1, .f32⟩ : BufTy).Contents (Elt F) → (⟨S25000x128, .f32⟩ : BufTy).Contents (Elt F)),
    StableHlo.binary main_v101 main_v111 main_v112 (Host.divf : (⟨S25000x128, .f32⟩ : BufTy).Contents (Elt F) → (⟨S25000x128, .f32⟩ : BufTy).Contents (Elt F) → (⟨S25000x128, .f32⟩ : BufTy).Contents (Elt F)),
    StableHlo.binary main_v112 main_arg14 main_v113 ((fun l r => Host.dotGeneral dot_S25000x128_S128x256_S25000x256_1_0_0_1_n_n none l r) : (⟨S25000x128, .f32⟩ : BufTy).Contents (Elt F) → (⟨S128x256, .f32⟩ : BufTy).Contents (Elt F) → (⟨S25000x256, .f32⟩ : BufTy).Contents (Elt F)),
    StableHlo.unary main_arg15 main_v114 (broadcastInDim S1x256 ![1] bcast_S256_S1x256_1 : (⟨S256, .f32⟩ : BufTy).Contents (Elt F) → (⟨S1x256, .f32⟩ : BufTy).Contents (Elt F)),
    StableHlo.unary main_v114 main_v115 (broadcastInDim S25000x256 ![0, 1] bcast_S1x256_S25000x256_0_1 : (⟨S1x256, .f32⟩ : BufTy).Contents (Elt F) → (⟨S25000x256, .f32⟩ : BufTy).Contents (Elt F)),
    StableHlo.binary main_v113 main_v115 main_v116 (addf : (⟨S25000x256, .f32⟩ : BufTy).Contents (Elt F) → (⟨S25000x256, .f32⟩ : BufTy).Contents (Elt F) → (⟨S25000x256, .f32⟩ : BufTy).Contents (Elt F)),
    StableHlo.binary main_arg2 main_arg16 main_v117 ((fun l r => Host.dotGeneral dot_S25000x128_S128x256_S25000x256_1_0_0_1_n_n none l r) : (⟨S25000x128, .f32⟩ : BufTy).Contents (Elt F) → (⟨S128x256, .f32⟩ : BufTy).Contents (Elt F) → (⟨S25000x256, .f32⟩ : BufTy).Contents (Elt F)),
    StableHlo.binary main_v116 main_v117 main_v118 (addf : (⟨S25000x256, .f32⟩ : BufTy).Contents (Elt F) → (⟨S25000x256, .f32⟩ : BufTy).Contents (Elt F) → (⟨S25000x256, .f32⟩ : BufTy).Contents (Elt F)),
    StableHlo.unary main_arg17 main_v119 (broadcastInDim S1x256 ![1] bcast_S256_S1x256_1 : (⟨S256, .f32⟩ : BufTy).Contents (Elt F) → (⟨S1x256, .f32⟩ : BufTy).Contents (Elt F)),
    StableHlo.unary main_v119 main_v120 (broadcastInDim S25000x256 ![0, 1] bcast_S1x256_S25000x256_0_1 : (⟨S1x256, .f32⟩ : BufTy).Contents (Elt F) → (⟨S25000x256, .f32⟩ : BufTy).Contents (Elt F)),
    StableHlo.binary main_v118 main_v120 main_v121 (addf : (⟨S25000x256, .f32⟩ : BufTy).Contents (Elt F) → (⟨S25000x256, .f32⟩ : BufTy).Contents (Elt F) → (⟨S25000x256, .f32⟩ : BufTy).Contents (Elt F)),
    StableHlo.unary main_arg29 main_v122 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v122 main_v123 rfl shapeCasts_S1x100000_S100000,
    StableHlo.nullary main_c_20 (constantI S_ 32 0#32),
    StableHlo.unary main_c_20 main_v124 (broadcastInDim S100000 ![] bcast_S_S100000 : (⟨S_, .i32⟩ : BufTy).Contents (Elt F) → (⟨S100000, .i32⟩ : BufTy).Contents (Elt F)),
    StableHlo.binary main_v123 main_v124 main_v125 (cmpi .slt : (⟨S100000, .i32⟩ : BufTy).Contents (Elt F) → (⟨S100000, .i32⟩ : BufTy).Contents (Elt F) → (⟨S100000, .i1⟩ : BufTy).Contents (Elt F)),
    StableHlo.nullary main_c_21 (constantI S_ 32 25000#32),
    StableHlo.unary main_c_21 main_v126 (broadcastInDim S100000 ![] bcast_S_S100000 : (⟨S_, .i32⟩ : BufTy).Contents (Elt F) → (⟨S100000, .i32⟩ : BufTy).Contents (Elt F)),
    StableHlo.binary main_v123 main_v126 main_v127 (addi : (⟨S100000, .i32⟩ : BufTy).Contents (Elt F) → (⟨S100000, .i32⟩ : BufTy).Contents (Elt F) → (⟨S100000, .i32⟩ : BufTy).Contents (Elt F)),
    StableHlo.ternary main_v125 main_v127 main_v123 main_v128 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v128 main_v129 (broadcastInDim S100000x1 ![0] bcast_S100000_S100000x1_0 : (⟨S100000, .i32⟩ : BufTy).Contents (Elt F) → (⟨S100000x1, .i32⟩ : BufTy).Contents (Elt F)),
    StableHlo.binary main_arg2 main_v129 main_v130 ((fun x i => Host.gather gather_S25000x128_S100000x1_S100000x128_1_0_n_n_0_1_1128 x i) : (⟨S25000x128, .f32⟩ : BufTy).Contents (Elt F) → (⟨S100000x1, .i32⟩ : BufTy).Contents (Elt F) → (⟨S100000x128, .f32⟩ : BufTy).Contents (Elt F)),
    StableHlo.unary main_arg29 main_v131 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v131 main_v132 rfl shapeCasts_S1x100000_S100000,
    StableHlo.nullary main_cst_22 (constant S_ .f32 0x00000000#32),
    StableHlo.unary main_cst_22 main_v133 (broadcastInDim S100000x128 ![] bcast_S_S100000x128 : (⟨S_, .f32⟩ : BufTy).Contents (Elt F) → (⟨S100000x128, .f32⟩ : BufTy).Contents (Elt F)),
    StableHlo.unary main_v132 main_v134 (broadcastInDim S100000x1 ![0] bcast_S100000_S100000x1_0 : (⟨S100000, .i32⟩ : BufTy).Contents (Elt F) → (⟨S100000x1, .i32⟩ : BufTy).Contents (Elt F)),
    StableHlo.ternary main_v133 main_v134 main_v130 main_v135 ((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    StableHlo.nullary main_cst_23 (constant S_ .f32 0x3F800000#32),
    StableHlo.unary main_cst_23 main_v136 (broadcastInDim S100000 ![] bcast_S_S100000 : (⟨S_, .f32⟩ : BufTy).Contents (Elt F) → (⟨S100000, .f32⟩ : BufTy).Contents (Elt F)),
    StableHlo.unary main_arg29 main_v137 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v137 main_v138 rfl shapeCasts_S1x100000_S100000,
    StableHlo.nullary main_cst_24 (constant S_ .f32 0x00000000#32),
    StableHlo.unary main_cst_24 main_v139 (broadcastInDim S100000 ![] bcast_S_S100000 : (⟨S_, .f32⟩ : BufTy).Contents (Elt F) → (⟨S100000, .f32⟩ : BufTy).Contents (Elt F)),
    StableHlo.unary main_v138 main_v140 (broadcastInDim S100000x1 ![0] bcast_S100000_S100000x1_0 : (⟨S100000, .i32⟩ : BufTy).Contents (Elt F) → (⟨S100000x1, .i32⟩ : BufTy).Contents (Elt F)),
    StableHlo.ternary main_v139 main_v140 main_v136 main_v141 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)),
    StableHlo.nullary main_cst_25 (constant S_ .f32 0x3F800000#32),
    StableHlo.unary main_cst_25 main_v142 (broadcastInDim S100000 ![] bcast_S_S100000 : (⟨S_, .f32⟩ : BufTy).Contents (Elt F) → (⟨S100000, .f32⟩ : BufTy).Contents (Elt F)),
    StableHlo.binary main_v141 main_v142 main_v143 (maximumf : (⟨S100000, .f32⟩ : BufTy).Contents (Elt F) → (⟨S100000, .f32⟩ : BufTy).Contents (Elt F) → (⟨S100000, .f32⟩ : BufTy).Contents (Elt F)),
    StableHlo.unary main_v143 main_v144 (broadcastInDim S100000x1 ![0] bcast_S100000_S100000x1_0 : (⟨S100000, .f32⟩ : BufTy).Contents (Elt F) → (⟨S100000x1, .f32⟩ : BufTy).Contents (Elt F)),
    StableHlo.unary main_v144 main_v145 (broadcastInDim S100000x128 ![0, 1] bcast_S100000x1_S100000x128_0_1 : (⟨S100000x1, .f32⟩ : BufTy).Contents (Elt F) → (⟨S100000x128, .f32⟩ : BufTy).Contents (Elt F)),
    StableHlo.binary main_v135 main_v145 main_v146 (Host.divf : (⟨S100000x128, .f32⟩ : BufTy).Contents (Elt F) → (⟨S100000x128, .f32⟩ : BufTy).Contents (Elt F) → (⟨S100000x128, .f32⟩ : BufTy).Contents (Elt F)),
    StableHlo.binary main_v146 main_arg18 main_v147 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.unary main_arg19 main_v148 (broadcastInDim S1x256 ![1] bcast_S256_S1x256_1 : (⟨S256, .f32⟩ : BufTy).Contents (Elt F) → (⟨S1x256, .f32⟩ : BufTy).Contents (Elt F)),
    StableHlo.unary main_v148 main_v149 (broadcastInDim S100000x256 ![0, 1] bcast_S1x256_S100000x256_0_1 : (⟨S1x256, .f32⟩ : BufTy).Contents (Elt F) → (⟨S100000x256, .f32⟩ : BufTy).Contents (Elt F)),
    StableHlo.binary main_v147 main_v149 main_v150 (addf : (⟨S100000x256, .f32⟩ : BufTy).Contents (Elt F) → (⟨S100000x256, .f32⟩ : BufTy).Contents (Elt F) → (⟨S100000x256, .f32⟩ : BufTy).Contents (Elt F)),
    StableHlo.binary main_arg0 main_arg20 main_v151 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)) ]

/-- Operations 231 … 244 of @main's 244, in order: the last bias of the atom-side aggregation, and for each graph the sum of the two branches, the output matrix product and its bias. -/
abbrev ops3 : List (HloOp τ sig (Elt F)) :=
  [ StableHlo.binary main_v150 main_v151 main_v152 (addf : (⟨S100000x256, .f32⟩ : BufTy).Contents (Elt F) → (⟨S100000x256, .f32⟩ : BufTy).Contents (Elt F) → (⟨S100000x256, .f32⟩ : BufTy).Contents (Elt F)),
    StableHlo.unary main_arg21 main_v153 (broadcastInDim S1x256 ![1] bcast_S256_S1x256_1 : (⟨S256, .f32⟩ : BufTy).Contents (Elt F) → (⟨S1x256, .f32⟩ : BufTy).Contents (Elt F)),
    StableHlo.unary main_v153 main_v154 (broadcastInDim S100000x256 ![0, 1] bcast_S1x256_S100000x256_0_1 : (⟨S1x256, .f32⟩ : BufTy).Contents (Elt F) → (⟨S100000x256, .f32⟩ : BufTy).Contents (Elt F)),
    StableHlo.binary main_v152 main_v154 main_v155 (addf : (⟨S100000x256, .f32⟩ : BufTy).Contents (Elt F) → (⟨S100000x256, .f32⟩ : BufTy).Contents (Elt F) → (⟨S100000x256, .f32⟩ : BufTy).Contents (Elt F)),
    StableHlo.binary main_v43 main_v155 main_v156 (addf : (⟨S100000x256, .f32⟩ : BufTy).Contents (Elt F) → (⟨S100000x256, .f32⟩ : BufTy).Contents (Elt F) → (⟨S100000x256, .f32⟩ : BufTy).Contents (Elt F)),
    StableHlo.binary main_v156 main_arg22 main_v157 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg23 main_v158 (broadcastInDim S1x128 ![1] bcast_S128_S1x128_1 : (⟨S128, .f32⟩ : BufTy).Contents (Elt F) → (⟨S1x128, .f32⟩ : BufTy).Contents (Elt F)),
    StableHlo.unary main_v158 main_v159 (broadcastInDim S100000x128 ![0, 1] bcast_S1x128_S100000x128_0_1 : (⟨S1x128, .f32⟩ : BufTy).Contents (Elt F) → (⟨S100000x128, .f32⟩ : BufTy).Contents (Elt F)),
    StableHlo.binary main_v157 main_v159 main_v160 (addf : (⟨S100000x128, .f32⟩ : BufTy).Contents (Elt F) → (⟨S100000x128, .f32⟩ : BufTy).Contents (Elt F) → (⟨S100000x128, .f32⟩ : BufTy).Contents (Elt F)),
    StableHlo.binary main_v87 main_v121 main_v161 (addf : (⟨S25000x256, .f32⟩ : BufTy).Contents (Elt F) → (⟨S25000x256, .f32⟩ : BufTy).Contents (Elt F) → (⟨S25000x256, .f32⟩ : BufTy).Contents (Elt F)),
    StableHlo.binary main_v161 main_arg24 main_v162 ((fun l r => Host.dotGeneral dot_S25000x256_S256x128_S25000x128_1_0_0_1_n_n none l r) : (⟨S25000x256, .f32⟩ : BufTy).Contents (Elt F) → (⟨S256x128, .f32⟩ : BufTy).Contents (Elt F) → (⟨S25000x128, .f32⟩ : BufTy).Contents (Elt F)),
    StableHlo.unary main_arg25 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S25000x128 ![0, 1] bcast_S1x128_S25000x128_0_1 : (⟨S1x128, .f32⟩ : BufTy).Contents (Elt F) → (⟨S25000x128, .f32⟩ : BufTy).Contents (Elt F)),
    StableHlo.binary main_v162 main_v164 main_v165 (addf : (⟨S25000x128, .f32⟩ : BufTy).Contents (Elt F) → (⟨S25000x128, .f32⟩ : BufTy).Contents (Elt F) → (⟨S25000x128, .f32⟩ : BufTy).Contents (Elt F)) ]

/-- @main's 244 operations, in order: the four stretches one after the other. -/
abbrev ops : List (HloOp τ sig (Elt F)) := ops0 ++ (ops1 ++ (ops2 ++ ops3))

set_option maxRecDepth 8192 in
set_option maxHeartbeats 4000000 in
/-- The first window of @main is the straight line of its stretch of operations: the called functions'
    definitions unfolded at their calls, both sides are one chain of single-operation steps once sequencing is
    reassociated. -/
theorem main_part0_eq (c : Dev nD) : main_part0 (F := F) c = seq ops0 := by
  simp only [main_part0, fn_relu.body, fn_var.body, fn_where.body, fn_relu_0.body, seq, bind_assoc, pure_bind]
  rfl

set_option maxRecDepth 8192 in
set_option maxHeartbeats 4000000 in
/-- The second window of @main is the straight line of its stretch of operations: the called functions'
    definitions unfolded at their calls, both sides are one chain of single-operation steps once sequencing is
    reassociated. -/
theorem main_part1_eq (c : Dev nD) : main_part1 (F := F) c = seq ops1 := by
  simp only [main_part1, fn_relu_1.body, fn_var_2.body, fn_where.body, fn_relu_3.body, seq, bind_assoc, pure_bind]
  rfl

set_option maxRecDepth 8192 in
set_option maxHeartbeats 4000000 in
/-- The third window of @main, which calls no function, is the straight line of its stretch of operations: both
    sides are one chain of single-operation steps once sequencing is reassociated. -/
theorem main_part2_eq (c : Dev nD) : main_part2 (F := F) c = seq ops2 := by
  simp only [main_part2, seq, bind_assoc, pure_bind]
  rfl

set_option maxRecDepth 8192 in
set_option maxHeartbeats 4000000 in
/-- The fourth window of @main, which ends in the return, is the straight line of its stretch of operations
    once sequencing is reassociated. -/
theorem main_part3_eq (c : Dev nD) : main_part3 (F := F) c = seq ops3 := by
  simp only [main_part3, seq, bind_assoc, pure_bind]

set_option maxRecDepth 8192 in
/-- @main is the straight line of the whole list: its four windows in order are the four stretches in order, and two
    lines run one after the other are their concatenation run as one. -/
theorem main_eq (c : Dev nD) : main (F := F) c = seq ops := by
  simp only [ops, seq_append, ← main_part0_eq c, ← main_part1_eq c, ← main_part2_eq c, ← main_part3_eq c]
  rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

set_option maxRecDepth 8192 in
/-- Every operation of stretch 0 touches TensorCore references only. -/
theorem ops0_sub : (ops0 : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., unary_bufs_sub .., reshape_bufs_sub .., nullary_bufs_sub ..,
    unary_bufs_sub .., unary_bufs_sub .., ternary_bufs_sub .., nullary_bufs_sub .., binary_bufs_sub .., unary_bufs_sub ..,
    binary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    reshape_bufs_sub .., nullary_bufs_sub .., unary_bufs_sub .., binary_bufs_sub .., nullary_bufs_sub .., unary_bufs_sub ..,
    binary_bufs_sub ..⟩

set_option maxRecDepth 8192 in
/-- Every operation of stretch 0 determines its results: none allocates a fresh buffer. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩

set_option maxRecDepth 8192 in
/-- Every operation of stretch 1 touches TensorCore references only. -/
theorem ops1_sub : (ops1 : List (HloOp τ sig (Elt F))).Forall fun op => op.bufs ⊆ tcRefs τ sig :=
  ⟨ternary_bufs_sub .., unary_bufs_sub .., binary_bufs_sub .., binary_bufs_sub .., nullary_bufs_sub .., unary_bufs_sub ..,
    binary_bufs_sub .., unary_bufs_sub .., reshape_bufs_sub .., nullary_bufs_sub .., unary_bufs_sub .., unary_bufs_sub ..,
    ternary_bufs_sub .., nullary_bufs_sub .., binary_bufs_sub .., unary_bufs_sub .., binary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., reshape_bufs_sub .., nullary_bufs_sub .., unary_bufs_sub ..,
    unary_bufs_sub ..⟩

set_option maxRecDepth 8192 in
/-- Every operation of stretch 1 determines its results: none allocates a fresh buffer. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩

set_option maxRecDepth 8192 in
/-- Every operation of stretch 2 touches TensorCore references only. -/
theorem ops2_sub : (ops2 : List (HloOp τ sig (Elt F))).Forall fun op => op.bufs ⊆ tcRefs τ sig :=
  ⟨ternary_bufs_sub .., nullary_bufs_sub .., unary_bufs_sub .., unary_bufs_sub .., reshape_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., binary_bufs_sub .., unary_bufs_sub .., unary_bufs_sub ..,
    binary_bufs_sub .., binary_bufs_sub .., binary_bufs_sub .., unary_bufs_sub .., unary_bufs_sub .., binary_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., nullary_bufs_sub .., unary_bufs_sub .., unary_bufs_sub .., ternary_bufs_sub .., nullary_bufs_sub ..,
    unary_bufs_sub .., unary_bufs_sub .., reshape_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., unary_bufs_sub .., unary_bufs_sub .., binary_bufs_sub .., binary_bufs_sub ..⟩

set_option maxRecDepth 8192 in
/-- Every operation of stretch 2 determines its results: none allocates a fresh buffer. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- Every operation of stretch 3 touches TensorCore references only. -/
theorem ops3_sub : (ops3 : List (HloOp τ sig (Elt F))).Forall fun op => op.bufs ⊆ tcRefs τ sig :=
  ⟨binary_bufs_sub .., unary_bufs_sub .., unary_bufs_sub .., binary_bufs_sub .., binary_bufs_sub .., binary_bufs_sub ..,
    unary_bufs_sub .., unary_bufs_sub .., binary_bufs_sub .., binary_bufs_sub .., binary_bufs_sub .., unary_bufs_sub ..,
    unary_bufs_sub .., binary_bufs_sub ..⟩

set_option maxRecDepth 8192 in
/-- Every operation of stretch 3 determines its results: none allocates a fresh buffer. -/
theorem ops3_fresh : (ops3 : List (HloOp τ sig (Elt F))).Forall fun op => op.fresh = ∅ :=
  ⟨rfl, rfl, rfl, rfl, rfl, rfl, rfl, rfl, rfl, rfl, rfl, rfl, rfl, rfl⟩

/-- Every operation of the whole list touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-- Every operation of the whole list determines its results. -/
theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

/-- At the compiled mesh, for any float values, from any memory with zero counters: every weakly fair execution of
    @main on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.LibAfterAppend.lean ====
/-
  A general lemma on straight lines of host operations: the buffer contents after two stretches run one after the
  other are the contents after their concatenation — so a long line can be read stretch by stretch.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`, for any
    topology, buffer signature and value types. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.RefWindows.lean ====
/-
  The reference program's buffers, window by window.

  The program's operations are read in four stretches.  A buffer that a stretch does not write keeps its contents
  through it; a buffer that a stretch writes holds, after it, the stretch's operations composed over the contents the
  stretch started from.  The second fact is stated here for the buffers at which the program's stages begin and end,
  from ANY starting contents, so that the stretches can be joined: the linear layers, the column means and variances,
  the normalisations, the neighbourhood sums and means, the affine maps of the aggregation layers and the two results.
-/
import proofs.«151819_j60404420051112_2_alg».proof.Proof.RefOps
import proofs.«151819_j60404420051112_2_alg».proof.Proof.LibAfterAppend
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What each stretch writes, and what it keeps -/

/-- The buffers that the operations of stretch 0 write, in order. -/
abbrev ops0_W : List (Ref sig .tc) :=
  [main_v0, main_v1, main_c, main_v2, main_v3, main_c_0, main_v4, main_v5,
   main_v6, main_v7, main_v8, main_v9, main_call0_cst, main_call0_v0, main_v10, main_v11,
   main_v12, main_cst, main_v13, main_v14, main_v15, main_cst_1, main_v16, main_v17,
   main_v18, main_v19, main_v20, main_v21, main_v22, main_v23, main_cst_2, main_v24,
   main_cst_3, main_v25, main_v26, main_c_4, main_call1_cst, main_call1_v0, main_call1_v1, main_call1_cst_0,
   main_call1_v2, main_call1_v3, main_call1_v4, main_call1_v5, main_call1_v6, main_call1_v7, main_call1_cst_1, main_call1_v8,
   main_call1_cst_2, main_call1_v9, main_call1_v10, main_call1_v11, main_call1_cst_3, main_call1_v12, main_call1_cst_4, main_call1_call0_v0,
   main_call1_call0_v1, main_v27, main_v28, main_v29, main_v30, main_cst_5, main_v31, main_v32,
   main_v33, main_v34, main_v35, main_v36, main_v37, main_v38, main_v39, main_v40,
   main_v41, main_v42, main_call2_cst, main_call2_v0, main_v43, main_v44, main_v45, main_c_6,
   main_v46, main_v47, main_c_7, main_v48, main_v49]

set_option maxRecDepth 8192 in
set_option maxHeartbeats 4000000 in
/-- Each operation of stretch 0 writes its result buffer only, and that buffer is in the list. -/
theorem ops0_writes : (ops0 : List (HloOp τ sig (Elt F))).Forall fun op =>
    op.writes ⊆ (ops0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer that stretch 0 does not write keeps its contents through it. -/
theorem keep0 (W : Valuation τ sig (Elt F)) (r : Ref sig .tc) (h : r ∉ ops0_W) :
    after ops0 W (r : DevRef τ sig) = W (r : DevRef τ sig) :=
  after_of_writes_sub ops0 W ops0_writes h

/-- The buffers that the operations of stretch 1 write, in order. -/
abbrev ops1_W : List (Ref sig .tc) :=
  [main_v50, main_v51, main_v52, main_v53, main_call3_cst, main_call3_v0, main_v54, main_v55,
   main_v56, main_cst_8, main_v57, main_v58, main_v59, main_cst_9, main_v60, main_v61,
   main_v62, main_v63, main_v64, main_v65, main_v66, main_v67, main_cst_10, main_v68,
   main_cst_11, main_v69, main_v70, main_c_12, main_call4_cst, main_call4_v0, main_call4_v1, main_call4_cst_0,
   main_call4_v2, main_call4_v3, main_call4_v4, main_call4_v5, main_call4_v6, main_call4_v7, main_call4_cst_1, main_call4_v8,
   main_call4_cst_2, main_call4_v9, main_call4_v10, main_call4_v11, main_call4_cst_3, main_call4_v12, main_call4_cst_4, main_call4_call0_v0,
   main_call4_call0_v1, main_v71, main_v72, main_v73, main_v74, main_cst_13, main_v75, main_v76,
   main_v77, main_v78, main_v79, main_v80, main_v81, main_v82, main_v83, main_v84,
   main_v85, main_v86, main_call5_cst, main_call5_v0, main_v87, main_v88, main_v89, main_c_14,
   main_v90, main_v91, main_c_15, main_v92, main_v93, main_v94, main_v95, main_v96,
   main_v97, main_v98, main_cst_16, main_v99, main_v100]

set_option maxRecDepth 8192 in
set_option maxHeartbeats 4000000 in
/-- Each operation of stretch 1 writes its result buffer only, and that buffer is in the list. -/
theorem ops1_writes : (ops1 : List (HloOp τ sig (Elt F))).Forall fun op =>
    op.writes ⊆ (ops1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer that stretch 1 does not write keeps its contents through it. -/
theorem keep1 (W : Valuation τ sig (Elt F)) (r : Ref sig .tc) (h : r ∉ ops1_W) :
    after ops1 W (r : DevRef τ sig) = W (r : DevRef τ sig) :=
  after_of_writes_sub ops1 W ops1_writes h

/-- The buffers that the operations of stretch 2 write, in order. -/
abbrev ops2_W : List (Ref sig .tc) :=
  [main_v101, main_cst_17, main_v102, main_v103, main_v104, main_cst_18, main_v105, main_v106,
   main_v107, main_cst_19, main_v108, main_v109, main_v110, main_v111, main_v112, main_v113,
   main_v114, main_v115, main_v116, main_v117, main_v118, main_v119, main_v120, main_v121,
   main_v122, main_v123, main_c_20, main_v124, main_v125, main_c_21, main_v126, main_v127,
   main_v128, main_v129, main_v130, main_v131, main_v132, main_cst_22, main_v133, main_v134,
   main_v135, main_cst_23, main_v136, main_v137, main_v138, main_cst_24, main_v139, main_v140,
   main_v141, main_cst_25, main_v142, main_v143, main_v144, main_v145, main_v146, main_v147,
   main_v148, main_v149, main_v150, main_v151]

set_option maxRecDepth 8192 in
set_option maxHeartbeats 4000000 in
/-- Each operation of stretch 2 writes its result buffer only, and that buffer is in the list. -/
theorem ops2_writes : (ops2 : List (HloOp τ sig (Elt F))).Forall fun op =>
    op.writes ⊆ (ops2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer that stretch 2 does not write keeps its contents through it. -/
theorem keep2 (W : Valuation τ sig (Elt F)) (r : Ref sig .tc) (h : r ∉ ops2_W) :
    after ops2 W (r : DevRef τ sig) = W (r : DevRef τ sig) :=
  after_of_writes_sub ops2 W ops2_writes h

/-- The buffers that the operations of stretch 3 write, in order. -/
abbrev ops3_W : List (Ref sig .tc) :=
  [main_v152, main_v153, main_v154, main_v155, main_v156, main_v157, main_v158, main_v159,
   main_v160, main_v161, main_v162, main_v163, main_v164, main_v165]

set_option maxRecDepth 8192 in
set_option maxHeartbeats 4000000 in
/-- Each operation of stretch 3 writes its result buffer only, and that buffer is in the list. -/
theorem ops3_writes : (ops3 : List (HloOp τ sig (Elt F))).Forall fun op =>
    op.writes ⊆ (ops3_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer that stretch 3 does not write keeps its contents through it. -/
theorem keep3 (W : Valuation τ sig (Elt F)) (r : Ref sig .tc) (h : r ∉ ops3_W) :
    after ops3 W (r : DevRef τ sig) = W (r : DevRef τ sig) :=
  after_of_writes_sub ops3 W ops3_writes h

/-- The contents after the whole line are the contents after the four stretches in turn. -/
theorem after_ops (V : Valuation τ sig (Elt F)) :
    after ops V = after ops3 (after ops2 (after ops1 (after ops0 V))) := by
  simp only [ops, Cert.LibAfterAppend.after_append]

/-! ## The first stretch, from any contents -/

set_option maxRecDepth 8192 in
set_option maxHeartbeats 4000000 in
/-- The first neighbourhood sum on the atom graph: the node features scaled by one plus the scalar, plus the rectified edge messages (gathered source rows plus edge features) summed into their target rows. -/
theorem w0_v19 (W : Valuation τ sig (Elt Ideal)) :
    after ops0 W (main_v19 : DevRef τ sig)
      = addf (F := Ideal) (φ := .f32) (mulf (F := Ideal) (φ := .f32) (broadcastInDim S100000x128 ![] bcast_S_S100000x128 (addf (F := Ideal) (φ := .f32) (constant (F := Ideal) S_ .f32 0x3F800000#32) (W (main_arg4 : DevRef τ sig)))) (W (main_arg0 : DevRef τ sig))) (Host.scatterAdd (F := Ideal) (φ := .f32) scatter_S100000x128_S600000x1_S600000x128_1_0_0_1 (broadcastInDim S100000x128 ![] bcast_S_S100000x128 (constant (F := Ideal) S_ .f32 0x00000000#32)) (broadcastInDim S600000x1 ![0] bcast_S600000_S600000x1_0 (shapeCast S600000 (extractStridedSlice S1x600000 ![1, 0] (W (main_arg26 : DevRef τ sig)) slices_S2x600000_S1x600000_1_0) shapeCasts_S1x600000_S600000)) (maximumf (F := Ideal) (φ := .f32) (addf (F := Ideal) (φ := .f32) (Host.gather gather_S100000x128_S600000x1_S600000x128_1_0_n_n_0_1_1128 (W (main_arg0 : DevRef τ sig)) (broadcastInDim S600000x1 ![0] bcast_S600000_S600000x1_0 (select (cmpi .slt (shapeCast S600000 (extractStridedSlice S1x600000 ![0, 0] (W (main_arg26 : DevRef τ sig)) slices_S2x600000_S1x600000_0_0) shapeCasts_S1x600000_S600000) (broadcastInDim S600000 ![] bcast_S_S600000 (constantI S_ 32 0#32))) (addi (shapeCast S600000 (extractStridedSlice S1x600000 ![0, 0] (W (main_arg26 : DevRef τ sig)) slices_S2x600000_S1x600000_0_0) shapeCasts_S1x600000_S600000) (broadcastInDim S600000 ![] bcast_S_S600000 (constantI S_ 32 100000#32))) (shapeCast S600000 (extractStridedSlice S1x600000 ![0, 0] (W (main_arg26 : DevRef τ sig)) slices_S2x600000_S1x600000_0_0) shapeCasts_S1x600000_S600000)))) (W (main_arg1 : DevRef τ sig))) (broadcastInDim S600000x128 ![] bcast_S_S600000x128 (constant (F := Ideal) S_ .f32 0x00000000#32)))) := by
  after_results_simp
  all_goals rfl

set_option maxRecDepth 8192 in
set_option maxHeartbeats 4000000 in
/-- The atom graph's linear layer: the neighbourhood sum times the weight matrix, plus the bias row on every row. -/
theorem w0_v23 (W : Valuation τ sig (Elt Ideal)) :
    after ops0 W (main_v23 : DevRef τ sig)
      = addf (F := Ideal) (φ := .f32) (Host.dotGeneral (F := Ideal) (φ₁ := .f32) (φ₂ := .f32) dot_S100000x128_S128x256_S100000x256_1_0_0_1_n_n none (after ops0 W (main_v19 : DevRef τ sig)) (W (main_arg5 : DevRef τ sig))) (broadcastInDim S100000x256 ![0, 1] bcast_S1x256_S100000x256_0_1 (broadcastInDim S1x256 ![1] bcast_S256_S1x256_1 (W (main_arg6 : DevRef τ sig)))) := by
  after_results_simp
  all_goals rfl

set_option maxRecDepth 8192 in
set_option maxHeartbeats 4000000 in
/-- The column mean of the atom graph's linear layer: the column sums divided by the number of rows. -/
theorem w0_v26 (W : Valuation τ sig (Elt Ideal)) :
    after ops0 W (main_v26 : DevRef τ sig)
      = Host.divf (F := Ideal) (φ := .f32) (Host.reduceAdd (F := Ideal) (φ := .f32) (after ops0 W (main_v23 : DevRef τ sig)) (constant (F := Ideal) S_ .f32 0x00000000#32) reducesTo_S100000x256_S256_d0 h_S_) (broadcastInDim S256 ![] bcast_S_S256 (constant (F := Ideal) S_ .f32 0x47C35000#32)) := by
  after_results_simp
  all_goals rfl

set_option maxRecDepth 8192 in
set_option maxHeartbeats 4000000 in
/-- The column variance of the atom graph's linear layer: the column sums of the squared deviations from the column means, divided by the number of rows less the correction, where that divisor is positive, and the fill value elsewhere. -/
theorem w0_v27 (W : Valuation τ sig (Elt Ideal)) :
    after ops0 W (main_v27 : DevRef τ sig)
      = select (broadcastInDim S256 ![] bcast_S_S256 (cmpf (F := Ideal) (φ := .f32) .ogt (subf (F := Ideal) (φ := .f32) (constant (F := Ideal) S_ .f32 0x47C35000#32) (sitofp (F := Ideal) .f32 (constantI S_ 32 0#32))) (constant (F := Ideal) S_ .f32 0x00000000#32))) (Host.divf (F := Ideal) (φ := .f32) (Host.reduceAdd (F := Ideal) (φ := .f32) (mulf (F := Ideal) (φ := .f32) (subf (F := Ideal) (φ := .f32) (after ops0 W (main_v23 : DevRef τ sig)) (broadcastInDim S100000x256 ![0, 1] bcast_S1x256_S100000x256_0_1 (Host.divf (F := Ideal) (φ := .f32) (broadcastInDim S1x256 ![1] bcast_S256_S1x256_1 (Host.reduceAdd (F := Ideal) (φ := .f32) (after ops0 W (main_v23 : DevRef τ sig)) (constant (F := Ideal) S_ .f32 0x00000000#32) reducesTo_S100000x256_S256_d0 h_S_)) (broadcastInDim S1x256 ![] bcast_S_S1x256 (constant (F := Ideal) S_ .f32 0x47C35000#32))))) (subf (F := Ideal) (φ := .f32) (after ops0 W (main_v23 : DevRef τ sig)) (broadcastInDim S100000x256 ![0, 1] bcast_S1x256_S100000x256_0_1 (Host.divf (F := Ideal) (φ := .f32) (broadcastInDim S1x256 ![1] bcast_S256_S1x256_1 (Host.reduceAdd (F := Ideal) (φ := .f32) (after ops0 W (main_v23 : DevRef τ sig)) (constant (F := Ideal) S_ .f32 0x00000000#32) reducesTo_S100000x256_S256_d0 h_S_)) (broadcastInDim S1x256 ![] bcast_S_S1x256 (constant (F := Ideal) S_ .f32 0x47C35000#32)))))) (constant (F := Ideal) S_ .f32 0x00000000#32) reducesTo_S100000x256_S256_d0 h_S_) (broadcastInDim S256 ![] bcast_S_S256 (subf (F := Ideal) (φ := .f32) (constant (F := Ideal) S_ .f32 0x47C35000#32) (sitofp (F := Ideal) .f32 (constantI S_ 32 0#32))))) (broadcastInDim S256 ![] bcast_S_S256 (id (constant (F := Ideal) S_ .f32 0x7FC00000#32))) := by
  after_results_simp
  all_goals rfl

set_option maxRecDepth 8192 in
set_option maxHeartbeats 4000000 in
/-- The atom graph's normalisation: each column centred by its mean, scaled by the inverse square root of its variance plus the small constant, then by the gain, shifted by the offset, and rectified. -/
theorem w0_v43 (W : Valuation τ sig (Elt Ideal)) :
    after ops0 W (main_v43 : DevRef τ sig)
      = maximumf (F := Ideal) (φ := .f32) (addf (F := Ideal) (φ := .f32) (mulf (F := Ideal) (φ := .f32) (mulf (F := Ideal) (φ := .f32) (subf (F := Ideal) (φ := .f32) (after ops0 W (main_v23 : DevRef τ sig)) (broadcastInDim S100000x256 ![0, 1] bcast_S1x256_S100000x256_0_1 (broadcastInDim S1x256 ![1] bcast_S256_S1x256_1 (after ops0 W (main_v26 : DevRef τ sig))))) (broadcastInDim S100000x256 ![0, 1] bcast_S1x256_S100000x256_0_1 (broadcastInDim S1x256 ![1] bcast_S256_S1x256_1 (Host.rsqrt (F := Ideal) (φ := .f32) (addf (F := Ideal) (φ := .f32) (after ops0 W (main_v27 : DevRef τ sig)) (broadcastInDim S256 ![] bcast_S_S256 (constant (F := Ideal) S_ .f32 0x3727C5AC#32))))))) (broadcastInDim S100000x256 ![0, 1] bcast_S1x256_S100000x256_0_1 (broadcastInDim S1x256 ![1] bcast_S256_S1x256_1 (W (main_arg7 : DevRef τ sig))))) (broadcastInDim S100000x256 ![0, 1] bcast_S1x256_S100000x256_0_1 (broadcastInDim S1x256 ![1] bcast_S256_S1x256_1 (W (main_arg8 : DevRef τ sig))))) (broadcastInDim S100000x256 ![] bcast_S_S100000x256 (constant (F := Ideal) S_ .f32 0x00000000#32)) := by
  after_results_simp
  all_goals rfl

set_option maxRecDepth 8192 in
set_option maxHeartbeats 4000000 in
/-- The source-node row of the atom-to-cluster index table, as a vector. -/
theorem w0_v45 (W : Valuation τ sig (Elt Ideal)) :
    after ops0 W (main_v45 : DevRef τ sig)
      = shapeCast S100000 (extractStridedSlice S1x100000 ![0, 0] (W (main_arg27 : DevRef τ sig)) slices_S2x100000_S1x100000_0_0) shapeCasts_S1x100000_S100000 := by
  after_results_simp
  all_goals rfl

set_option maxRecDepth 8192 in
set_option maxHeartbeats 4000000 in
/-- Which source indices of the atom-to-cluster table are negative. -/
theorem w0_v47 (W : Valuation τ sig (Elt Ideal)) :
    after ops0 W (main_v47 : DevRef τ sig)
      = cmpi .slt (shapeCast S100000 (extractStridedSlice S1x100000 ![0, 0] (W (main_arg27 : DevRef τ sig)) slices_S2x100000_S1x100000_0_0) shapeCasts_S1x100000_S100000) (broadcastInDim S100000 ![] bcast_S_S100000 (constantI S_ 32 0#32)) := by
  after_results_simp
  all_goals rfl

set_option maxRecDepth 8192 in
set_option maxHeartbeats 4000000 in
/-- The source indices of the atom-to-cluster table shifted by the number of cluster rows. -/
theorem w0_v49 (W : Valuation τ sig (Elt Ideal)) :
    after ops0 W (main_v49 : DevRef τ sig)
      = addi (shapeCast S100000 (extractStridedSlice S1x100000 ![0, 0] (W (main_arg27 : DevRef τ sig)) slices_S2x100000_S1x100000_0_0) shapeCasts_S1x100000_S100000) (broadcastInDim S100000 ![] bcast_S_S100000 (constantI S_ 32 25000#32)) := by
  after_results_simp
  all_goals rfl

/-! ## The second stretch, from any contents -/

set_option maxRecDepth 8192 in
set_option maxHeartbeats 4000000 in
/-- The neighbourhood sum on the cluster graph, over the index vectors the first stretch left: the cluster features scaled by one plus the scalar, plus the rectified messages summed into their target rows. -/
theorem w1_v63 (W : Valuation τ sig (Elt Ideal)) :
    after ops1 W (main_v63 : DevRef τ sig)
      = addf (F := Ideal) (φ := .f32) (mulf (F := Ideal) (φ := .f32) (broadcastInDim S25000x128 ![] bcast_S_S25000x128 (addf (F := Ideal) (φ := .f32) (constant (F := Ideal) S_ .f32 0x3F800000#32) (W (main_arg9 : DevRef τ sig)))) (W (main_arg2 : DevRef τ sig))) (Host.scatterAdd (F := Ideal) (φ := .f32) scatter_S25000x128_S100000x1_S100000x128_1_0_0_1 (broadcastInDim S25000x128 ![] bcast_S_S25000x128 (constant (F := Ideal) S_ .f32 0x00000000#32)) (broadcastInDim S100000x1 ![0] bcast_S100000_S100000x1_0 (shapeCast S100000 (extractStridedSlice S1x100000 ![1, 0] (W (main_arg27 : DevRef τ sig)) slices_S2x100000_S1x100000_1_0) shapeCasts_S1x100000_S100000)) (maximumf (F := Ideal) (φ := .f32) (addf (F := Ideal) (φ := .f32) (Host.gather gather_S25000x128_S100000x1_S100000x128_1_0_n_n_0_1_1128 (W (main_arg2 : DevRef τ sig)) (broadcastInDim S100000x1 ![0] bcast_S100000_S100000x1_0 (select (W (main_v47 : DevRef τ sig)) (W (main_v49 : DevRef τ sig)) (W (main_v45 : DevRef τ sig))))) (W (main_arg3 : DevRef τ sig))) (broadcastInDim S100000x128 ![] bcast_S_S100000x128 (constant (F := Ideal) S_ .f32 0x00000000#32)))) := by
  after_results_simp
  all_goals rfl

set_option maxRecDepth 8192 in
set_option maxHeartbeats 4000000 in
/-- The cluster graph's linear layer: the neighbourhood sum times the weight matrix, plus the bias row on every row. -/
theorem w1_v67 (W : Valuation τ sig (Elt Ideal)) :
    after ops1 W (main_v67 : DevRef τ sig)
      = addf (F := Ideal) (φ := .f32) (Host.dotGeneral (F := Ideal) (φ₁ := .f32) (φ₂ := .f32) dot_S25000x128_S128x256_S25000x256_1_0_0_1_n_n none (after ops1 W (main_v63 : DevRef τ sig)) (W (main_arg10 : DevRef τ sig))) (broadcastInDim S25000x256 ![0, 1] bcast_S1x256_S25000x256_0_1 (broadcastInDim S1x256 ![1] bcast_S256_S1x256_1 (W (main_arg11 : DevRef τ sig)))) := by
  after_results_simp
  all_goals rfl

set_option maxRecDepth 8192 in
set_option maxHeartbeats 4000000 in
/-- The column mean of the cluster graph's linear layer. -/
theorem w1_v70 (W : Valuation τ sig (Elt Ideal)) :
    after ops1 W (main_v70 : DevRef τ sig)
      = Host.divf (F := Ideal) (φ := .f32) (Host.reduceAdd (F := Ideal) (φ := .f32) (after ops1 W (main_v67 : DevRef τ sig)) (constant (F := Ideal) S_ .f32 0x00000000#32) reducesTo_S25000x256_S256_d0 h_S_) (broadcastInDim S256 ![] bcast_S_S256 (constant (F := Ideal) S_ .f32 0x46C35000#32)) := by
  after_results_simp
  all_goals rfl

set_option maxRecDepth 8192 in
set_option maxHeartbeats 4000000 in
/-- The column variance of the cluster graph's linear layer, with the same selection of the fill value where the divisor is not positive. -/
theorem w1_v71 (W : Valuation τ sig (Elt Ideal)) :
    after ops1 W (main_v71 : DevRef τ sig)
      = select (broadcastInDim S256 ![] bcast_S_S256 (cmpf (F := Ideal) (φ := .f32) .ogt (subf (F := Ideal) (φ := .f32) (constant (F := Ideal) S_ .f32 0x46C35000#32) (sitofp (F := Ideal) .f32 (constantI S_ 32 0#32))) (constant (F := Ideal) S_ .f32 0x00000000#32))) (Host.divf (F := Ideal) (φ := .f32) (Host.reduceAdd (F := Ideal) (φ := .f32) (mulf (F := Ideal) (φ := .f32) (subf (F := Ideal) (φ := .f32) (after ops1 W (main_v67 : DevRef τ sig)) (broadcastInDim S25000x256 ![0, 1] bcast_S1x256_S25000x256_0_1 (Host.divf (F := Ideal) (φ := .f32) (broadcastInDim S1x256 ![1] bcast_S256_S1x256_1 (Host.reduceAdd (F := Ideal) (φ := .f32) (after ops1 W (main_v67 : DevRef τ sig)) (constant (F := Ideal) S_ .f32 0x00000000#32) reducesTo_S25000x256_S256_d0 h_S_)) (broadcastInDim S1x256 ![] bcast_S_S1x256 (constant (F := Ideal) S_ .f32 0x46C35000#32))))) (subf (F := Ideal) (φ := .f32) (after ops1 W (main_v67 : DevRef τ sig)) (broadcastInDim S25000x256 ![0, 1] bcast_S1x256_S25000x256_0_1 (Host.divf (F := Ideal) (φ := .f32) (broadcastInDim S1x256 ![1] bcast_S256_S1x256_1 (Host.reduceAdd (F := Ideal) (φ := .f32) (after ops1 W (main_v67 : DevRef τ sig)) (constant (F := Ideal) S_ .f32 0x00000000#32) reducesTo_S25000x256_S256_d0 h_S_)) (broadcastInDim S1x256 ![] bcast_S_S1x256 (constant (F := Ideal) S_ .f32 0x46C35000#32)))))) (constant (F := Ideal) S_ .f32 0x00000000#32) reducesTo_S25000x256_S256_d0 h_S_) (broadcastInDim S256 ![] bcast_S_S256 (subf (F := Ideal) (φ := .f32) (constant (F := Ideal) S_ .f32 0x46C35000#32) (sitofp (F := Ideal) .f32 (constantI S_ 32 0#32))))) (broadcastInDim S256 ![] bcast_S_S256 (id (constant (F := Ideal) S_ .f32 0x7FC00000#32))) := by
  after_results_simp
  all_goals rfl

set_option maxRecDepth 8192 in
set_option maxHeartbeats 4000000 in
/-- The cluster graph's normalisation: centred, scaled by the inverse square root of the variance plus the small constant, gain, offset, rectified. -/
theorem w1_v87 (W : Valuation τ sig (Elt Ideal)) :
    after ops1 W (main_v87 : DevRef τ sig)
      = maximumf (F := Ideal) (φ := .f32) (addf (F := Ideal) (φ := .f32) (mulf (F := Ideal) (φ := .f32) (mulf (F := Ideal) (φ := .f32) (subf (F := Ideal) (φ := .f32) (after ops1 W (main_v67 : DevRef τ sig)) (broadcastInDim S25000x256 ![0, 1] bcast_S1x256_S25000x256_0_1 (broadcastInDim S1x256 ![1] bcast_S256_S1x256_1 (after ops1 W (main_v70 : DevRef τ sig))))) (broadcastInDim S25000x256 ![0, 1] bcast_S1x256_S25000x256_0_1 (broadcastInDim S1x256 ![1] bcast_S256_S1x256_1 (Host.rsqrt (F := Ideal) (φ := .f32) (addf (F := Ideal) (φ := .f32) (after ops1 W (main_v71 : DevRef τ sig)) (broadcastInDim S256 ![] bcast_S_S256 (constant (F := Ideal) S_ .f32 0x3727C5AC#32))))))) (broadcastInDim S25000x256 ![0, 1] bcast_S1x256_S25000x256_0_1 (broadcastInDim S1x256 ![1] bcast_S256_S1x256_1 (W (main_arg12 : DevRef τ sig))))) (broadcastInDim S25000x256 ![0, 1] bcast_S1x256_S25000x256_0_1 (broadcastInDim S1x256 ![1] bcast_S256_S1x256_1 (W (main_arg13 : DevRef τ sig))))) (broadcastInDim S25000x256 ![] bcast_S_S25000x256 (constant (F := Ideal) S_ .f32 0x00000000#32)) := by
  after_results_simp
  all_goals rfl

set_option maxRecDepth 8192 in
set_option maxHeartbeats 4000000 in
/-- The atom rows gathered at the (wrapped) source indices of the atom-to-cluster aggregation table. -/
theorem w1_v96 (W : Valuation τ sig (Elt Ideal)) :
    after ops1 W (main_v96 : DevRef τ sig)
      = Host.gather gather_S100000x128_S100000x1_S100000x128_1_0_n_n_0_1_1128 (W (main_arg0 : DevRef τ sig)) (broadcastInDim S100000x1 ![0] bcast_S100000_S100000x1_0 (select (cmpi .slt (shapeCast S100000 (extractStridedSlice S1x100000 ![0, 0] (W (main_arg28 : DevRef τ sig)) slices_S2x100000_S1x100000_0_0) shapeCasts_S1x100000_S100000) (broadcastInDim S100000 ![] bcast_S_S100000 (constantI S_ 32 0#32))) (addi (shapeCast S100000 (extractStridedSlice S1x100000 ![0, 0] (W (main_arg28 : DevRef τ sig)) slices_S2x100000_S1x100000_0_0) shapeCasts_S1x100000_S100000) (broadcastInDim S100000 ![] bcast_S_S100000 (constantI S_ 32 100000#32))) (shapeCast S100000 (extractStridedSlice S1x100000 ![0, 0] (W (main_arg28 : DevRef τ sig)) slices_S2x100000_S1x100000_0_0) shapeCasts_S1x100000_S100000))) := by
  after_results_simp
  all_goals rfl

set_option maxRecDepth 8192 in
set_option maxHeartbeats 4000000 in
/-- The zero matrix the atom-to-cluster row sums start from. -/
theorem w1_v99 (W : Valuation τ sig (Elt Ideal)) :
    after ops1 W (main_v99 : DevRef τ sig)
      = broadcastInDim S25000x128 ![] bcast_S_S25000x128 (constant (F := Ideal) S_ .f32 0x00000000#32) := by
  after_results_simp
  all_goals rfl

set_option maxRecDepth 8192 in
set_option maxHeartbeats 4000000 in
/-- The target indices of the atom-to-cluster aggregation table, as a column. -/
theorem w1_v100 (W : Valuation τ sig (Elt Ideal)) :
    after ops1 W (main_v100 : DevRef τ sig)
      = broadcastInDim S100000x1 ![0] bcast_S100000_S100000x1_0 (shapeCast S100000 (extractStridedSlice S1x100000 ![1, 0] (W (main_arg28 : DevRef τ sig)) slices_S2x100000_S1x100000_1_0) shapeCasts_S1x100000_S100000) := by
  after_results_simp
  all_goals rfl

/-! ## The third stretch, from any contents -/

set_option maxRecDepth 8192 in
set_option maxHeartbeats 4000000 in
/-- The atom-to-cluster row sums: the gathered rows summed into their target rows. -/
theorem w2_v101 (W : Valuation τ sig (Elt Ideal)) :
    after ops2 W (main_v101 : DevRef τ sig)
      = Host.scatterAdd (F := Ideal) (φ := .f32) scatter_S25000x128_S100000x1_S100000x128_1_0_0_1 (W (main_v99 : DevRef τ sig)) (W (main_v100 : DevRef τ sig)) (W (main_v96 : DevRef τ sig)) := by
  after_results_simp
  all_goals rfl

set_option maxRecDepth 8192 in
set_option maxHeartbeats 4000000 in
/-- The in-degree of each cluster: ones summed at the target indices. -/
theorem w2_v107 (W : Valuation τ sig (Elt Ideal)) :
    after ops2 W (main_v107 : DevRef τ sig)
      = Host.scatterAdd (F := Ideal) (φ := .f32) scatter_S25000_S100000x1_S100000_n_0_0_1 (broadcastInDim S25000 ![] bcast_S_S25000 (constant (F := Ideal) S_ .f32 0x00000000#32)) (broadcastInDim S100000x1 ![0] bcast_S100000_S100000x1_0 (shapeCast S100000 (extractStridedSlice S1x100000 ![1, 0] (W (main_arg28 : DevRef τ sig)) slices_S2x100000_S1x100000_1_0) shapeCasts_S1x100000_S100000)) (broadcastInDim S100000 ![] bcast_S_S100000 (constant (F := Ideal) S_ .f32 0x3F800000#32)) := by
  after_results_simp
  all_goals rfl

set_option maxRecDepth 8192 in
set_option maxHeartbeats 4000000 in
/-- The atom-to-cluster mean: the row sums divided by the in-degree clamped below at one. -/
theorem w2_v112 (W : Valuation τ sig (Elt Ideal)) :
    after ops2 W (main_v112 : DevRef τ sig)
      = Host.divf (F := Ideal) (φ := .f32) (after ops2 W (main_v101 : DevRef τ sig)) (broadcastInDim S25000x128 ![0, 1] bcast_S25000x1_S25000x128_0_1 (broadcastInDim S25000x1 ![0] bcast_S25000_S25000x1_0 (maximumf (F := Ideal) (φ := .f32) (after ops2 W (main_v107 : DevRef τ sig)) (broadcastInDim S25000 ![] bcast_S_S25000 (constant (F := Ideal) S_ .f32 0x3F800000#32))))) := by
  after_results_simp
  all_goals rfl

set_option maxRecDepth 8192 in
set_option maxHeartbeats 4000000 in
/-- The cluster-side aggregation layer: the mean times one weight matrix plus its bias, plus the cluster features times another, plus the second bias. -/
theorem w2_v121 (W : Valuation τ sig (Elt Ideal)) :
    after ops2 W (main_v121 : DevRef τ sig)
      = addf (F := Ideal) (φ := .f32) (addf (F := Ideal) (φ := .f32) (addf (F := Ideal) (φ := .f32) (Host.dotGeneral (F := Ideal) (φ₁ := .f32) (φ₂ := .f32) dot_S25000x128_S128x256_S25000x256_1_0_0_1_n_n none (after ops2 W (main_v112 : DevRef τ sig)) (W (main_arg14 : DevRef τ sig))) (broadcastInDim S25000x256 ![0, 1] bcast_S1x256_S25000x256_0_1 (broadcastInDim S1x256 ![1] bcast_S256_S1x256_1 (W (main_arg15 : DevRef τ sig))))) (Host.dotGeneral (F := Ideal) (φ₁ := .f32) (φ₂ := .f32) dot_S25000x128_S128x256_S25000x256_1_0_0_1_n_n none (W (main_arg2 : DevRef τ sig)) (W (main_arg16 : DevRef τ sig)))) (broadcastInDim S25000x256 ![0, 1] bcast_S1x256_S25000x256_0_1 (broadcastInDim S1x256 ![1] bcast_S256_S1x256_1 (W (main_arg17 : DevRef τ sig)))) := by
  after_results_simp
  all_goals rfl

set_option maxRecDepth 8192 in
set_option maxHeartbeats 4000000 in
/-- The cluster-to-atom row sums: cluster rows gathered at the wrapped source indices and summed into their target rows. -/
theorem w2_v135 (W : Valuation τ sig (Elt Ideal)) :
    after ops2 W (main_v135 : DevRef τ sig)
      = Host.scatterAdd (F := Ideal) (φ := .f32) scatter_S100000x128_S100000x1_S100000x128_1_0_0_1 (broadcastInDim S100000x128 ![] bcast_S_S100000x128 (constant (F := Ideal) S_ .f32 0x00000000#32)) (broadcastInDim S100000x1 ![0] bcast_S100000_S100000x1_0 (shapeCast S100000 (extractStridedSlice S1x100000 ![1, 0] (W (main_arg29 : DevRef τ sig)) slices_S2x100000_S1x100000_1_0) shapeCasts_S1x100000_S100000)) (Host.gather gather_S25000x128_S100000x1_S100000x128_1_0_n_n_0_1_1128 (W (main_arg2 : DevRef τ sig)) (broadcastInDim S100000x1 ![0] bcast_S100000_S100000x1_0 (select (cmpi .slt (shapeCast S100000 (extractStridedSlice S1x100000 ![0, 0] (W (main_arg29 : DevRef τ sig)) slices_S2x100000_S1x100000_0_0) shapeCasts_S1x100000_S100000) (broadcastInDim S100000 ![] bcast_S_S100000 (constantI S_ 32 0#32))) (addi (shapeCast S100000 (extractStridedSlice S1x100000 ![0, 0] (W (main_arg29 : DevRef τ sig)) slices_S2x100000_S1x100000_0_0) shapeCasts_S1x100000_S100000) (broadcastInDim S100000 ![] bcast_S_S100000 (constantI S_ 32 25000#32))) (shapeCast S100000 (extractStridedSlice S1x100000 ![0, 0] (W (main_arg29 : DevRef τ sig)) slices_S2x100000_S1x100000_0_0) shapeCasts_S1x100000_S100000)))) := by
  after_results_simp
  all_goals rfl

set_option maxRecDepth 8192 in
set_option maxHeartbeats 4000000 in
/-- The in-degree of each atom in the cluster-to-atom table. -/
theorem w2_v141 (W : Valuation τ sig (Elt Ideal)) :
    after ops2 W (main_v141 : DevRef τ sig)
      = Host.scatterAdd (F := Ideal) (φ := .f32) scatter_S100000_S100000x1_S100000_n_0_0_1 (broadcastInDim S100000 ![] bcast_S_S100000 (constant (F := Ideal) S_ .f32 0x00000000#32)) (broadcastInDim S100000x1 ![0] bcast_S100000_S100000x1_0 (shapeCast S100000 (extractStridedSlice S1x100000 ![1, 0] (W (main_arg29 : DevRef τ sig)) slices_S2x100000_S1x100000_1_0) shapeCasts_S1x100000_S100000)) (broadcastInDim S100000 ![] bcast_S_S100000 (constant (F := Ideal) S_ .f32 0x3F800000#32)) := by
  after_results_simp
  all_goals rfl

set_option maxRecDepth 8192 in
set_option maxHeartbeats 4000000 in
/-- The cluster-to-atom mean: the row sums divided by the in-degree clamped below at one. -/
theorem w2_v146 (W : Valuation τ sig (Elt Ideal)) :
    after ops2 W (main_v146 : DevRef τ sig)
      = Host.divf (F := Ideal) (φ := .f32) (after ops2 W (main_v135 : DevRef τ sig)) (broadcastInDim S100000x128 ![0, 1] bcast_S100000x1_S100000x128_0_1 (broadcastInDim S100000x1 ![0] bcast_S100000_S100000x1_0 (maximumf (F := Ideal) (φ := .f32) (after ops2 W (main_v141 : DevRef τ sig)) (broadcastInDim S100000 ![] bcast_S_S100000 (constant (F := Ideal) S_ .f32 0x3F800000#32))))) := by
  after_results_simp
  all_goals rfl

set_option maxRecDepth 8192 in
set_option maxHeartbeats 4000000 in
/-- The first half of the atom-side aggregation layer: the mean times the weight matrix plus its bias. -/
theorem w2_v150 (W : Valuation τ sig (Elt Ideal)) :
    after ops2 W (main_v150 : DevRef τ sig)
      = addf (F := Ideal) (φ := .f32) (Host.dotGeneral (F := Ideal) (φ₁ := .f32) (φ₂ := .f32) dot_S100000x128_S128x256_S100000x256_1_0_0_1_n_n none (after ops2 W (main_v146 : DevRef τ sig)) (W (main_arg18 : DevRef τ sig))) (broadcastInDim S100000x256 ![0, 1] bcast_S1x256_S100000x256_0_1 (broadcastInDim S1x256 ![1] bcast_S256_S1x256_1 (W (main_arg19 : DevRef τ sig)))) := by
  after_results_simp
  all_goals rfl

set_option maxRecDepth 8192 in
set_option maxHeartbeats 4000000 in
/-- The atom features times the aggregation layer's second weight matrix. -/
theorem w2_v151 (W : Valuation τ sig (Elt Ideal)) :
    after ops2 W (main_v151 : DevRef τ sig)
      = Host.dotGeneral (F := Ideal) (φ₁ := .f32) (φ₂ := .f32) dot_S100000x128_S128x256_S100000x256_1_0_0_1_n_n none (W (main_arg0 : DevRef τ sig)) (W (main_arg20 : DevRef τ sig)) := by
  after_results_simp
  all_goals rfl

/-! ## The fourth stretch, from any contents -/

set_option maxRecDepth 8192 in
set_option maxHeartbeats 4000000 in
/-- The atom-side aggregation layer completed: the two products added, plus the second bias. -/
theorem w3_v155 (W : Valuation τ sig (Elt Ideal)) :
    after ops3 W (main_v155 : DevRef τ sig)
      = addf (F := Ideal) (φ := .f32) (addf (F := Ideal) (φ := .f32) (W (main_v150 : DevRef τ sig)) (W (main_v151 : DevRef τ sig))) (broadcastInDim S100000x256 ![0, 1] bcast_S1x256_S100000x256_0_1 (broadcastInDim S1x256 ![1] bcast_S256_S1x256_1 (W (main_arg21 : DevRef τ sig)))) := by
  after_results_simp
  all_goals rfl

set_option maxRecDepth 8192 in
set_option maxHeartbeats 4000000 in
/-- The first result: the normalised branch plus the aggregation branch, times the output matrix, plus the output bias. -/
theorem w3_v160 (W : Valuation τ sig (Elt Ideal)) :
    after ops3 W (main_v160 : DevRef τ sig)
      = addf (F := Ideal) (φ := .f32) (Host.dotGeneral (F := Ideal) (φ₁ := .f32) (φ₂ := .f32) dot_S100000x256_S256x128_S100000x128_1_0_0_1_n_n none (addf (F := Ideal) (φ := .f32) (W (main_v43 : DevRef τ sig)) (after ops3 W (main_v155 : DevRef τ sig))) (W (main_arg22 : DevRef τ sig))) (broadcastInDim S100000x128 ![0, 1] bcast_S1x128_S100000x128_0_1 (broadcastInDim S1x128 ![1] bcast_S128_S1x128_1 (W (main_arg23 : DevRef τ sig)))) := by
  after_results_simp
  all_goals rfl

set_option maxRecDepth 8192 in
set_option maxHeartbeats 4000000 in
/-- The second result: the cluster graph's two branches added, times the output matrix, plus the output bias. -/
theorem w3_v165 (W : Valuation τ sig (Elt Ideal)) :
    after ops3 W (main_v165 : DevRef τ sig)
      = addf (F := Ideal) (φ := .f32) (Host.dotGeneral (F := Ideal) (φ₁ := .f32) (φ₂ := .f32) dot_S25000x256_S256x128_S25000x128_1_0_0_1_n_n none (addf (F := Ideal) (φ := .f32) (W (main_v87 : DevRef τ sig)) (W (main_v121 : DevRef τ sig))) (W (main_arg24 : DevRef τ sig))) (broadcastInDim S25000x128 ![0, 1] bcast_S1x128_S25000x128_0_1 (broadcastInDim S1x128 ![1] bcast_S128_S1x128_1 (W (main_arg25 : DevRef τ sig)))) := by
  after_results_simp
  all_goals rfl

end Cert.ReferenceIdeal.RefRun

end
-- ==== Proof.RefStages.lean ====
/-
  The reference program's stages, read off its whole line of operations.

  For each buffer at which a stage of the program begins or ends, the contents after the whole line are the
  stage's operations applied to the contents, after the whole line, of the buffers the stage starts from, and to the
  arguments' contents at launch; the arguments themselves end unchanged.  The neighbourhood sums and the in-degrees,
  which no later step opens, are given outright as terms of the arguments.  Each equation joins the stretch in which
  the buffer is written (read from any contents) to the stretches after it, which keep the buffer, and to the
  stretches before it, which keep the arguments.
-/
import proofs.«151819_j60404420051112_2_alg».proof.Proof.RefWindows

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Where a buffer is read -/

/-- A buffer that only the first stretch may write holds, after the whole line, what it holds after the first stretch. -/
theorem at_w0 (V : Valuation τ sig (Elt F)) (r : Ref sig .tc) (h1 : r ∉ ops1_W) (h2 : r ∉ ops2_W) (h3 : r ∉ ops3_W) :
    after ops V (r : DevRef τ sig) = after ops0 V (r : DevRef τ sig) := by
  rw [after_ops, keep3 _ r h3, keep2 _ r h2, keep1 _ r h1]

/-- A buffer that the last two stretches do not write holds, after the whole line, what it holds after the second. -/
theorem at_w1 (V : Valuation τ sig (Elt F)) (r : Ref sig .tc) (h2 : r ∉ ops2_W) (h3 : r ∉ ops3_W) :
    after ops V (r : DevRef τ sig) = after ops1 (after ops0 V) (r : DevRef τ sig) := by
  rw [after_ops, keep3 _ r h3, keep2 _ r h2]

/-- A buffer that the last stretch does not write holds, after the whole line, what it holds after the third. -/
theorem at_w2 (V : Valuation τ sig (Elt F)) (r : Ref sig .tc) (h3 : r ∉ ops3_W) :
    after ops V (r : DevRef τ sig) = after ops2 (after ops1 (after ops0 V)) (r : DevRef τ sig) := by
  rw [after_ops, keep3 _ r h3]

/-- Any buffer, after the whole line, holds what it holds after the four stretches in turn. -/
theorem at_w3 (V : Valuation τ sig (Elt F)) (r : Ref sig .tc) :
    after ops V (r : DevRef τ sig) = after ops3 (after ops2 (after ops1 (after ops0 V))) (r : DevRef τ sig) := by
  rw [after_ops]

/-- A buffer that no stretch writes ends at its launch contents. -/
theorem at_arg (V : Valuation τ sig (Elt F)) (r : Ref sig .tc) (h0 : r ∉ ops0_W) (h1 : r ∉ ops1_W) (h2 : r ∉ ops2_W)
    (h3 : r ∉ ops3_W) : after ops V (r : DevRef τ sig) = V (r : DevRef τ sig) := by
  rw [at_w0 V r h1 h2 h3, keep0 V r h0]

/-! ## The arguments end unchanged -/

/-- Argument 0 ends at its launch contents: no operation writes it. -/
theorem arg0_eq (V : Valuation τ sig (Elt F)) : after ops V (main_arg0 : DevRef τ sig) = V (main_arg0 : DevRef τ sig) :=
  at_arg V main_arg0 (by decide) (by decide) (by decide) (by decide)
/-- Argument 1 ends at its launch contents: no operation writes it. -/
theorem arg1_eq (V : Valuation τ sig (Elt F)) : after ops V (main_arg1 : DevRef τ sig) = V (main_arg1 : DevRef τ sig) :=
  at_arg V main_arg1 (by decide) (by decide) (by decide) (by decide)
/-- Argument 2 ends at its launch contents: no operation writes it. -/
theorem arg2_eq (V : Valuation τ sig (Elt F)) : after ops V (main_arg2 : DevRef τ sig) = V (main_arg2 : DevRef τ sig) :=
  at_arg V main_arg2 (by decide) (by decide) (by decide) (by decide)
/-- Argument 3 ends at its launch contents: no operation writes it. -/
theorem arg3_eq (V : Valuation τ sig (Elt F)) : after ops V (main_arg3 : DevRef τ sig) = V (main_arg3 : DevRef τ sig) :=
  at_arg V main_arg3 (by decide) (by decide) (by decide) (by decide)
/-- Argument 4 ends at its launch contents: no operation writes it. -/
theorem arg4_eq (V : Valuation τ sig (Elt F)) : after ops V (main_arg4 : DevRef τ sig) = V (main_arg4 : DevRef τ sig) :=
  at_arg V main_arg4 (by decide) (by decide) (by decide) (by decide)
/-- Argument 5 ends at its launch contents: no operation writes it. -/
theorem arg5_eq (V : Valuation τ sig (Elt F)) : after ops V (main_arg5 : DevRef τ sig) = V (main_arg5 : DevRef τ sig) :=
  at_arg V main_arg5 (by decide) (by decide) (by decide) (by decide)
/-- Argument 6 ends at its launch contents: no operation writes it. -/
theorem arg6_eq (V : Valuation τ sig (Elt F)) : after ops V (main_arg6 : DevRef τ sig) = V (main_arg6 : DevRef τ sig) :=
  at_arg V main_arg6 (by decide) (by decide) (by decide) (by decide)
/-- Argument 7 ends at its launch contents: no operation writes it. -/
theorem arg7_eq (V : Valuation τ sig (Elt F)) : after ops V (main_arg7 : DevRef τ sig) = V (main_arg7 : DevRef τ sig) :=
  at_arg V main_arg7 (by decide) (by decide) (by decide) (by decide)
/-- Argument 8 ends at its launch contents: no operation writes it. -/
theorem arg8_eq (V : Valuation τ sig (Elt F)) : after ops V (main_arg8 : DevRef τ sig) = V (main_arg8 : DevRef τ sig) :=
  at_arg V main_arg8 (by decide) (by decide) (by decide) (by decide)
/-- Argument 9 ends at its launch contents: no operation writes it. -/
theorem arg9_eq (V : Valuation τ sig (Elt F)) : after ops V (main_arg9 : DevRef τ sig) = V (main_arg9 : DevRef τ sig) :=
  at_arg V main_arg9 (by decide) (by decide) (by decide) (by decide)
/-- Argument 10 ends at its launch contents: no operation writes it. -/
theorem arg10_eq (V : Valuation τ sig (Elt F)) : after ops V (main_arg10 : DevRef τ sig) = V (main_arg10 : DevRef τ sig) :=
  at_arg V main_arg10 (by decide) (by decide) (by decide) (by decide)
/-- Argument 11 ends at its launch contents: no operation writes it. -/
theorem arg11_eq (V : Valuation τ sig (Elt F)) : after ops V (main_arg11 : DevRef τ sig) = V (main_arg11 : DevRef τ sig) :=
  at_arg V main_arg11 (by decide) (by decide) (by decide) (by decide)
/-- Argument 12 ends at its launch contents: no operation writes it. -/
theorem arg12_eq (V : Valuation τ sig (Elt F)) : after ops V (main_arg12 : DevRef τ sig) = V (main_arg12 : DevRef τ sig) :=
  at_arg V main_arg12 (by decide) (by decide) (by decide) (by decide)
/-- Argument 13 ends at its launch contents: no operation writes it. -/
theorem arg13_eq (V : Valuation τ sig (Elt F)) : after ops V (main_arg13 : DevRef τ sig) = V (main_arg13 : DevRef τ sig) :=
  at_arg V main_arg13 (by decide) (by decide) (by decide) (by decide)
/-- Argument 14 ends at its launch contents: no operation writes it. -/
theorem arg14_eq (V : Valuation τ sig (Elt F)) : after ops V (main_arg14 : DevRef τ sig) = V (main_arg14 : DevRef τ sig) :=
  at_arg V main_arg14 (by decide) (by decide) (by decide) (by decide)
/-- Argument 15 ends at its launch contents: no operation writes it. -/
theorem arg15_eq (V : Valuation τ sig (Elt F)) : after ops V (main_arg15 : DevRef τ sig) = V (main_arg15 : DevRef τ sig) :=
  at_arg V main_arg15 (by decide) (by decide) (by decide) (by decide)
/-- Argument 16 ends at its launch contents: no operation writes it. -/
theorem arg16_eq (V : Valuation τ sig (Elt F)) : after ops V (main_arg16 : DevRef τ sig) = V (main_arg16 : DevRef τ sig) :=
  at_arg V main_arg16 (by decide) (by decide) (by decide) (by decide)
/-- Argument 17 ends at its launch contents: no operation writes it. -/
theorem arg17_eq (V : Valuation τ sig (Elt F)) : after ops V (main_arg17 : DevRef τ sig) = V (main_arg17 : DevRef τ sig) :=
  at_arg V main_arg17 (by decide) (by decide) (by decide) (by decide)
/-- Argument 18 ends at its launch contents: no operation writes it. -/
theorem arg18_eq (V : Valuation τ sig (Elt F)) : after ops V (main_arg18 : DevRef τ sig) = V (main_arg18 : DevRef τ sig) :=
  at_arg V main_arg18 (by decide) (by decide) (by decide) (by decide)
/-- Argument 19 ends at its launch contents: no operation writes it. -/
theorem arg19_eq (V : Valuation τ sig (Elt F)) : after ops V (main_arg19 : DevRef τ sig) = V (main_arg19 : DevRef τ sig) :=
  at_arg V main_arg19 (by decide) (by decide) (by decide) (by decide)
/-- Argument 20 ends at its launch contents: no operation writes it. -/
theorem arg20_eq (V : Valuation τ sig (Elt F)) : after ops V (main_arg20 : DevRef τ sig) = V (main_arg20 : DevRef τ sig) :=
  at_arg V main_arg20 (by decide) (by decide) (by decide) (by decide)
/-- Argument 21 ends at its launch contents: no operation writes it. -/
theorem arg21_eq (V : Valuation τ sig (Elt F)) : after ops V (main_arg21 : DevRef τ sig) = V (main_arg21 : DevRef τ sig) :=
  at_arg V main_arg21 (by decide) (by decide) (by decide) (by decide)
/-- Argument 22 ends at its launch contents: no operation writes it. -/
theorem arg22_eq (V : Valuation τ sig (Elt F)) : after ops V (main_arg22 : DevRef τ sig) = V (main_arg22 : DevRef τ sig) :=
  at_arg V main_arg22 (by decide) (by decide) (by decide) (by decide)
/-- Argument 23 ends at its launch contents: no operation writes it. -/
theorem arg23_eq (V : Valuation τ sig (Elt F)) : after ops V (main_arg23 : DevRef τ sig) = V (main_arg23 : DevRef τ sig) :=
  at_arg V main_arg23 (by decide) (by decide) (by decide) (by decide)
/-- Argument 24 ends at its launch contents: no operation writes it. -/
theorem arg24_eq (V : Valuation τ sig (Elt F)) : after ops V (main_arg24 : DevRef τ sig) = V (main_arg24 : DevRef τ sig) :=
  at_arg V main_arg24 (by decide) (by decide) (by decide) (by decide)
/-- Argument 25 ends at its launch contents: no operation writes it. -/
theorem arg25_eq (V : Valuation τ sig (Elt F)) : after ops V (main_arg25 : DevRef τ sig) = V (main_arg25 : DevRef τ sig) :=
  at_arg V main_arg25 (by decide) (by decide) (by decide) (by decide)
/-- Argument 26 ends at its launch contents: no operation writes it. -/
theorem arg26_eq (V : Valuation τ sig (Elt F)) : after ops V (main_arg26 : DevRef τ sig) = V (main_arg26 : DevRef τ sig) :=
  at_arg V main_arg26 (by decide) (by decide) (by decide) (by decide)
/-- Argument 27 ends at its launch contents: no operation writes it. -/
theorem arg27_eq (V : Valuation τ sig (Elt F)) : after ops V (main_arg27 : DevRef τ sig) = V (main_arg27 : DevRef τ sig) :=
  at_arg V main_arg27 (by decide) (by decide) (by decide) (by decide)
/-- Argument 28 ends at its launch contents: no operation writes it. -/
theorem arg28_eq (V : Valuation τ sig (Elt F)) : after ops V (main_arg28 : DevRef τ sig) = V (main_arg28 : DevRef τ sig) :=
  at_arg V main_arg28 (by decide) (by decide) (by decide) (by decide)
/-- Argument 29 ends at its launch contents: no operation writes it. -/
theorem arg29_eq (V : Valuation τ sig (Elt F)) : after ops V (main_arg29 : DevRef τ sig) = V (main_arg29 : DevRef τ sig) :=
  at_arg V main_arg29 (by decide) (by decide) (by decide) (by decide)

/-! ## The stages -/

set_option maxRecDepth 8192 in
set_option maxHeartbeats 4000000 in
/-- The first neighbourhood sum on the atom graph, as a term of the arguments: the node features scaled by one plus the scalar, plus the rectified messages (source rows gathered at the wrapped source indices, plus edge features) summed into their target rows. -/
theorem v19_eq (V : Valuation τ sig (Elt Ideal)) :
    after ops V (main_v19 : DevRef τ sig)
      = addf (F := Ideal) (φ := .f32) (mulf (F := Ideal) (φ := .f32) (broadcastInDim S100000x128 ![] bcast_S_S100000x128 (addf (F := Ideal) (φ := .f32) (constant (F := Ideal) S_ .f32 0x3F800000#32) (V (main_arg4 : DevRef τ sig)))) (V (main_arg0 : DevRef τ sig))) (Host.scatterAdd (F := Ideal) (φ := .f32) scatter_S100000x128_S600000x1_S600000x128_1_0_0_1 (broadcastInDim S100000x128 ![] bcast_S_S100000x128 (constant (F := Ideal) S_ .f32 0x00000000#32)) (broadcastInDim S600000x1 ![0] bcast_S600000_S600000x1_0 (shapeCast S600000 (extractStridedSlice S1x600000 ![1, 0] (V (main_arg26 : DevRef τ sig)) slices_S2x600000_S1x600000_1_0) shapeCasts_S1x600000_S600000)) (maximumf (F := Ideal) (φ := .f32) (addf (F := Ideal) (φ := .f32) (Host.gather gather_S100000x128_S600000x1_S600000x128_1_0_n_n_0_1_1128 (V (main_arg0 : DevRef τ sig)) (broadcastInDim S600000x1 ![0] bcast_S600000_S600000x1_0 (select (cmpi .slt (shapeCast S600000 (extractStridedSlice S1x600000 ![0, 0] (V (main_arg26 : DevRef τ sig)) slices_S2x600000_S1x600000_0_0) shapeCasts_S1x600000_S600000) (broadcastInDim S600000 ![] bcast_S_S600000 (constantI S_ 32 0#32))) (addi (shapeCast S600000 (extractStridedSlice S1x600000 ![0, 0] (V (main_arg26 : DevRef τ sig)) slices_S2x600000_S1x600000_0_0) shapeCasts_S1x600000_S600000) (broadcastInDim S600000 ![] bcast_S_S600000 (constantI S_ 32 100000#32))) (shapeCast S600000 (extractStridedSlice S1x600000 ![0, 0] (V (main_arg26 : DevRef τ sig)) slices_S2x600000_S1x600000_0_0) shapeCasts_S1x600000_S600000)))) (V (main_arg1 : DevRef τ sig))) (broadcastInDim S600000x128 ![] bcast_S_S600000x128 (constant (F := Ideal) S_ .f32 0x00000000#32)))) := by
  rw [at_w0 V main_v19 (by decide) (by decide) (by decide), w0_v19 V]

set_option maxRecDepth 8192 in
set_option maxHeartbeats 4000000 in
/-- The atom graph's linear layer is the neighbourhood sum times the weight matrix plus the bias row. -/
theorem v23_eq (V : Valuation τ sig (Elt Ideal)) :
    after ops V (main_v23 : DevRef τ sig)
      = addf (F := Ideal) (φ := .f32) (Host.dotGeneral (F := Ideal) (φ₁ := .f32) (φ₂ := .f32) dot_S100000x128_S128x256_S100000x256_1_0_0_1_n_n none (after ops V (main_v19 : DevRef τ sig)) (V (main_arg5 : DevRef τ sig))) (broadcastInDim S100000x256 ![0, 1] bcast_S1x256_S100000x256_0_1 (broadcastInDim S1x256 ![1] bcast_S256_S1x256_1 (V (main_arg6 : DevRef τ sig)))) := by
  rw [at_w0 V main_v23 (by decide) (by decide) (by decide), at_w0 V main_v19 (by decide) (by decide) (by decide), w0_v23 V]

set_option maxRecDepth 8192 in
set_option maxHeartbeats 4000000 in
/-- The atom graph's column mean is the column sums of the linear layer divided by the number of rows. -/
theorem v26_eq (V : Valuation τ sig (Elt Ideal)) :
    after ops V (main_v26 : DevRef τ sig)
      = Host.divf (F := Ideal) (φ := .f32) (Host.reduceAdd (F := Ideal) (φ := .f32) (after ops V (main_v23 : DevRef τ sig)) (constant (F := Ideal) S_ .f32 0x00000000#32) reducesTo_S100000x256_S256_d0 h_S_) (broadcastInDim S256 ![] bcast_S_S256 (constant (F := Ideal) S_ .f32 0x47C35000#32)) := by
  rw [at_w0 V main_v26 (by decide) (by decide) (by decide), at_w0 V main_v23 (by decide) (by decide) (by decide), w0_v26 V]

set_option maxRecDepth 8192 in
set_option maxHeartbeats 4000000 in
/-- The atom graph's column variance is the column sums of the squared deviations of the linear layer from its column means, divided by the number of rows less the correction where that is positive, the fill value elsewhere. -/
theorem v27_eq (V : Valuation τ sig (Elt Ideal)) :
    after ops V (main_v27 : DevRef τ sig)
      = select (broadcastInDim S256 ![] bcast_S_S256 (cmpf (F := Ideal) (φ := .f32) .ogt (subf (F := Ideal) (φ := .f32) (constant (F := Ideal) S_ .f32 0x47C35000#32) (sitofp (F := Ideal) .f32 (constantI S_ 32 0#32))) (constant (F := Ideal) S_ .f32 0x00000000#32))) (Host.divf (F := Ideal) (φ := .f32) (Host.reduceAdd (F := Ideal) (φ := .f32) (mulf (F := Ideal) (φ := .f32) (subf (F := Ideal) (φ := .f32) (after ops V (main_v23 : DevRef τ sig)) (broadcastInDim S100000x256 ![0, 1] bcast_S1x256_S100000x256_0_1 (Host.divf (F := Ideal) (φ := .f32) (broadcastInDim S1x256 ![1] bcast_S256_S1x256_1 (Host.reduceAdd (F := Ideal) (φ := .f32) (after ops V (main_v23 : DevRef τ sig)) (constant (F := Ideal) S_ .f32 0x00000000#32) reducesTo_S100000x256_S256_d0 h_S_)) (broadcastInDim S1x256 ![] bcast_S_S1x256 (constant (F := Ideal) S_ .f32 0x47C35000#32))))) (subf (F := Ideal) (φ := .f32) (after ops V (main_v23 : DevRef τ sig)) (broadcastInDim S100000x256 ![0, 1] bcast_S1x256_S100000x256_0_1 (Host.divf (F := Ideal) (φ := .f32) (broadcastInDim S1x256 ![1] bcast_S256_S1x256_1 (Host.reduceAdd (F := Ideal) (φ := .f32) (after ops V (main_v23 : DevRef τ sig)) (constant (F := Ideal) S_ .f32 0x00000000#32) reducesTo_S100000x256_S256_d0 h_S_)) (broadcastInDim S1x256 ![] bcast_S_S1x256 (constant (F := Ideal) S_ .f32 0x47C35000#32)))))) (constant (F := Ideal) S_ .f32 0x00000000#32) reducesTo_S100000x256_S256_d0 h_S_) (broadcastInDim S256 ![] bcast_S_S256 (subf (F := Ideal) (φ := .f32) (constant (F := Ideal) S_ .f32 0x47C35000#32) (sitofp (F := Ideal) .f32 (constantI S_ 32 0#32))))) (broadcastInDim S256 ![] bcast_S_S256 (id (constant (F := Ideal) S_ .f32 0x7FC00000#32))) := by
  rw [at_w0 V main_v27 (by decide) (by decide) (by decide), at_w0 V main_v23 (by decide) (by decide) (by decide), w0_v27 V]

set_option maxRecDepth 8192 in
set_option maxHeartbeats 4000000 in
/-- The atom graph's normalised branch: the linear layer centred by the column mean, scaled by the inverse square root of the variance plus the small constant, by the gain, shifted by the offset, rectified. -/
theorem v43_eq (V : Valuation τ sig (Elt Ideal)) :
    after ops V (main_v43 : DevRef τ sig)
      = maximumf (F := Ideal) (φ := .f32) (addf (F := Ideal) (φ := .f32) (mulf (F := Ideal) (φ := .f32) (mulf (F := Ideal) (φ := .f32) (subf (F := Ideal) (φ := .f32) (after ops V (main_v23 : DevRef τ sig)) (broadcastInDim S100000x256 ![0, 1] bcast_S1x256_S100000x256_0_1 (broadcastInDim S1x256 ![1] bcast_S256_S1x256_1 (after ops V (main_v26 : DevRef τ sig))))) (broadcastInDim S100000x256 ![0, 1] bcast_S1x256_S100000x256_0_1 (broadcastInDim S1x256 ![1] bcast_S256_S1x256_1 (Host.rsqrt (F := Ideal) (φ := .f32) (addf (F := Ideal) (φ := .f32) (after ops V (main_v27 : DevRef τ sig)) (broadcastInDim S256 ![] bcast_S_S256 (constant (F := Ideal) S_ .f32 0x3727C5AC#32))))))) (broadcastInDim S100000x256 ![0, 1] bcast_S1x256_S100000x256_0_1 (broadcastInDim S1x256 ![1] bcast_S256_S1x256_1 (V (main_arg7 : DevRef τ sig))))) (broadcastInDim S100000x256 ![0, 1] bcast_S1x256_S100000x256_0_1 (broadcastInDim S1x256 ![1] bcast_S256_S1x256_1 (V (main_arg8 : DevRef τ sig))))) (broadcastInDim S100000x256 ![] bcast_S_S100000x256 (constant (F := Ideal) S_ .f32 0x00000000#32)) := by
  rw [at_w0 V main_v43 (by decide) (by decide) (by decide), at_w0 V main_v23 (by decide) (by decide) (by decide), at_w0 V main_v26 (by decide) (by decide) (by decide),
    at_w0 V main_v27 (by decide) (by decide) (by decide), w0_v43 V]

set_option maxRecDepth 8192 in
set_option maxHeartbeats 4000000 in
/-- The neighbourhood sum on the cluster graph, as a term of the arguments. -/
theorem v63_eq (V : Valuation τ sig (Elt Ideal)) :
    after ops V (main_v63 : DevRef τ sig)
      = addf (F := Ideal) (φ := .f32) (mulf (F := Ideal) (φ := .f32) (broadcastInDim S25000x128 ![] bcast_S_S25000x128 (addf (F := Ideal) (φ := .f32) (constant (F := Ideal) S_ .f32 0x3F800000#32) (V (main_arg9 : DevRef τ sig)))) (V (main_arg2 : DevRef τ sig))) (Host.scatterAdd (F := Ideal) (φ := .f32) scatter_S25000x128_S100000x1_S100000x128_1_0_0_1 (broadcastInDim S25000x128 ![] bcast_S_S25000x128 (constant (F := Ideal) S_ .f32 0x00000000#32)) (broadcastInDim S100000x1 ![0] bcast_S100000_S100000x1_0 (shapeCast S100000 (extractStridedSlice S1x100000 ![1, 0] (V (main_arg27 : DevRef τ sig)) slices_S2x100000_S1x100000_1_0) shapeCasts_S1x100000_S100000)) (maximumf (F := Ideal) (φ := .f32) (addf (F := Ideal) (φ := .f32) (Host.gather gather_S25000x128_S100000x1_S100000x128_1_0_n_n_0_1_1128 (V (main_arg2 : DevRef τ sig)) (broadcastInDim S100000x1 ![0] bcast_S100000_S100000x1_0 (select (cmpi .slt (shapeCast S100000 (extractStridedSlice S1x100000 ![0, 0] (V (main_arg27 : DevRef τ sig)) slices_S2x100000_S1x100000_0_0) shapeCasts_S1x100000_S100000) (broadcastInDim S100000 ![] bcast_S_S100000 (constantI S_ 32 0#32))) (addi (shapeCast S100000 (extractStridedSlice S1x100000 ![0, 0] (V (main_arg27 : DevRef τ sig)) slices_S2x100000_S1x100000_0_0) shapeCasts_S1x100000_S100000) (broadcastInDim S100000 ![] bcast_S_S100000 (constantI S_ 32 25000#32))) (shapeCast S100000 (extractStridedSlice S1x100000 ![0, 0] (V (main_arg27 : DevRef τ sig)) slices_S2x100000_S1x100000_0_0) shapeCasts_S1x100000_S100000)))) (V (main_arg3 : DevRef τ sig))) (broadcastInDim S100000x128 ![] bcast_S_S100000x128 (constant (F := Ideal) S_ .f32 0x00000000#32)))) := by
  rw [at_w1 V main_v63 (by decide) (by decide), w1_v63 (after ops0 V), w0_v47 V,
    w0_v49 V, w0_v45 V, keep0 V main_arg9 (by decide),
    keep0 V main_arg2 (by decide), keep0 V main_arg27 (by decide), keep0 V main_arg3 (by decide)]

set_option maxRecDepth 8192 in
set_option maxHeartbeats 4000000 in
/-- The cluster graph's linear layer is the neighbourhood sum times the weight matrix plus the bias row. -/
theorem v67_eq (V : Valuation τ sig (Elt Ideal)) :
    after ops V (main_v67 : DevRef τ sig)
      = addf (F := Ideal) (φ := .f32) (Host.dotGeneral (F := Ideal) (φ₁ := .f32) (φ₂ := .f32) dot_S25000x128_S128x256_S25000x256_1_0_0_1_n_n none (after ops V (main_v63 : DevRef τ sig)) (V (main_arg10 : DevRef τ sig))) (broadcastInDim S25000x256 ![0, 1] bcast_S1x256_S25000x256_0_1 (broadcastInDim S1x256 ![1] bcast_S256_S1x256_1 (V (main_arg11 : DevRef τ sig)))) := by
  rw [at_w1 V main_v67 (by decide) (by decide), at_w1 V main_v63 (by decide) (by decide), w1_v67 (after ops0 V),
    keep0 V main_arg10 (by decide), keep0 V main_arg11 (by decide)]

set_option maxRecDepth 8192 in
set_option maxHeartbeats 4000000 in
/-- The cluster graph's column mean. -/
theorem v70_eq (V : Valuation τ sig (Elt Ideal)) :
    after ops V (main_v70 : DevRef τ sig)
      = Host.divf (F := Ideal) (φ := .f32) (Host.reduceAdd (F := Ideal) (φ := .f32) (after ops V (main_v67 : DevRef τ sig)) (constant (F := Ideal) S_ .f32 0x00000000#32) reducesTo_S25000x256_S256_d0 h_S_) (broadcastInDim S256 ![] bcast_S_S256 (constant (F := Ideal) S_ .f32 0x46C35000#32)) := by
  rw [at_w1 V main_v70 (by decide) (by decide), at_w1 V main_v67 (by decide) (by decide), w1_v70 (after ops0 V)]

set_option maxRecDepth 8192 in
set_option maxHeartbeats 4000000 in
/-- The cluster graph's column variance. -/
theorem v71_eq (V : Valuation τ sig (Elt Ideal)) :
    after ops V (main_v71 : DevRef τ sig)
      = select (broadcastInDim S256 ![] bcast_S_S256 (cmpf (F := Ideal) (φ := .f32) .ogt (subf (F := Ideal) (φ := .f32) (constant (F := Ideal) S_ .f32 0x46C35000#32) (sitofp (F := Ideal) .f32 (constantI S_ 32 0#32))) (constant (F := Ideal) S_ .f32 0x00000000#32))) (Host.divf (F := Ideal) (φ := .f32) (Host.reduceAdd (F := Ideal) (φ := .f32) (mulf (F := Ideal) (φ := .f32) (subf (F := Ideal) (φ := .f32) (after ops V (main_v67 : DevRef τ sig)) (broadcastInDim S25000x256 ![0, 1] bcast_S1x256_S25000x256_0_1 (Host.divf (F := Ideal) (φ := .f32) (broadcastInDim S1x256 ![1] bcast_S256_S1x256_1 (Host.reduceAdd (F := Ideal) (φ := .f32) (after ops V (main_v67 : DevRef τ sig)) (constant (F := Ideal) S_ .f32 0x00000000#32) reducesTo_S25000x256_S256_d0 h_S_)) (broadcastInDim S1x256 ![] bcast_S_S1x256 (constant (F := Ideal) S_ .f32 0x46C35000#32))))) (subf (F := Ideal) (φ := .f32) (after ops V (main_v67 : DevRef τ sig)) (broadcastInDim S25000x256 ![0, 1] bcast_S1x256_S25000x256_0_1 (Host.divf (F := Ideal) (φ := .f32) (broadcastInDim S1x256 ![1] bcast_S256_S1x256_1 (Host.reduceAdd (F := Ideal) (φ := .f32) (after ops V (main_v67 : DevRef τ sig)) (constant (F := Ideal) S_ .f32 0x00000000#32) reducesTo_S25000x256_S256_d0 h_S_)) (broadcastInDim S1x256 ![] bcast_S_S1x256 (constant (F := Ideal) S_ .f32 0x46C35000#32)))))) (constant (F := Ideal) S_ .f32 0x00000000#32) reducesTo_S25000x256_S256_d0 h_S_) (broadcastInDim S256 ![] bcast_S_S256 (subf (F := Ideal) (φ := .f32) (constant (F := Ideal) S_ .f32 0x46C35000#32) (sitofp (F := Ideal) .f32 (constantI S_ 32 0#32))))) (broadcastInDim S256 ![] bcast_S_S256 (id (constant (F := Ideal) S_ .f32 0x7FC00000#32))) := by
  rw [at_w1 V main_v71 (by decide) (by decide), at_w1 V main_v67 (by decide) (by decide), w1_v71 (after ops0 V)]

set_option maxRecDepth 8192 in
set_option maxHeartbeats 4000000 in
/-- The cluster graph's normalised branch. -/
theorem v87_eq (V : Valuation τ sig (Elt Ideal)) :
    after ops V (main_v87 : DevRef τ sig)
      = maximumf (F := Ideal) (φ := .f32) (addf (F := Ideal) (φ := .f32) (mulf (F := Ideal) (φ := .f32) (mulf (F := Ideal) (φ := .f32) (subf (F := Ideal) (φ := .f32) (after ops V (main_v67 : DevRef τ sig)) (broadcastInDim S25000x256 ![0, 1] bcast_S1x256_S25000x256_0_1 (broadcastInDim S1x256 ![1] bcast_S256_S1x256_1 (after ops V (main_v70 : DevRef τ sig))))) (broadcastInDim S25000x256 ![0, 1] bcast_S1x256_S25000x256_0_1 (broadcastInDim S1x256 ![1] bcast_S256_S1x256_1 (Host.rsqrt (F := Ideal) (φ := .f32) (addf (F := Ideal) (φ := .f32) (after ops V (main_v71 : DevRef τ sig)) (broadcastInDim S256 ![] bcast_S_S256 (constant (F := Ideal) S_ .f32 0x3727C5AC#32))))))) (broadcastInDim S25000x256 ![0, 1] bcast_S1x256_S25000x256_0_1 (broadcastInDim S1x256 ![1] bcast_S256_S1x256_1 (V (main_arg12 : DevRef τ sig))))) (broadcastInDim S25000x256 ![0, 1] bcast_S1x256_S25000x256_0_1 (broadcastInDim S1x256 ![1] bcast_S256_S1x256_1 (V (main_arg13 : DevRef τ sig))))) (broadcastInDim S25000x256 ![] bcast_S_S25000x256 (constant (F := Ideal) S_ .f32 0x00000000#32)) := by
  rw [at_w1 V main_v87 (by decide) (by decide), at_w1 V main_v67 (by decide) (by decide), at_w1 V main_v70 (by decide) (by decide),
    at_w1 V main_v71 (by decide) (by decide), w1_v87 (after ops0 V), keep0 V main_arg12 (by decide),
    keep0 V main_arg13 (by decide)]

set_option maxRecDepth 8192 in
set_option maxHeartbeats 4000000 in
/-- The atom-to-cluster row sums, as a term of the arguments: atom rows gathered at the wrapped source indices, summed into their target rows. -/
theorem v101_eq (V : Valuation τ sig (Elt Ideal)) :
    after ops V (main_v101 : DevRef τ sig)
      = Host.scatterAdd (F := Ideal) (φ := .f32) scatter_S25000x128_S100000x1_S100000x128_1_0_0_1 (broadcastInDim S25000x128 ![] bcast_S_S25000x128 (constant (F := Ideal) S_ .f32 0x00000000#32)) (broadcastInDim S100000x1 ![0] bcast_S100000_S100000x1_0 (shapeCast S100000 (extractStridedSlice S1x100000 ![1, 0] (V (main_arg28 : DevRef τ sig)) slices_S2x100000_S1x100000_1_0) shapeCasts_S1x100000_S100000)) (Host.gather gather_S100000x128_S100000x1_S100000x128_1_0_n_n_0_1_1128 (V (main_arg0 : DevRef τ sig)) (broadcastInDim S100000x1 ![0] bcast_S100000_S100000x1_0 (select (cmpi .slt (shapeCast S100000 (extractStridedSlice S1x100000 ![0, 0] (V (main_arg28 : DevRef τ sig)) slices_S2x100000_S1x100000_0_0) shapeCasts_S1x100000_S100000) (broadcastInDim S100000 ![] bcast_S_S100000 (constantI S_ 32 0#32))) (addi (shapeCast S100000 (extractStridedSlice S1x100000 ![0, 0] (V (main_arg28 : DevRef τ sig)) slices_S2x100000_S1x100000_0_0) shapeCasts_S1x100000_S100000) (broadcastInDim S100000 ![] bcast_S_S100000 (constantI S_ 32 100000#32))) (shapeCast S100000 (extractStridedSlice S1x100000 ![0, 0] (V (main_arg28 : DevRef τ sig)) slices_S2x100000_S1x100000_0_0) shapeCasts_S1x100000_S100000)))) := by
  rw [at_w2 V main_v101 (by decide), w2_v101 (after ops1 (after ops0 V)), w1_v99 (after ops0 V),
    w1_v100 (after ops0 V), w1_v96 (after ops0 V), keep0 V main_arg28 (by decide),
    keep0 V main_arg0 (by decide)]

set_option maxRecDepth 8192 in
set_option maxHeartbeats 4000000 in
/-- The in-degree of each cluster, as a term of the arguments. -/
theorem v107_eq (V : Valuation τ sig (Elt Ideal)) :
    after ops V (main_v107 : DevRef τ sig)
      = Host.scatterAdd (F := Ideal) (φ := .f32) scatter_S25000_S100000x1_S100000_n_0_0_1 (broadcastInDim S25000 ![] bcast_S_S25000 (constant (F := Ideal) S_ .f32 0x00000000#32)) (broadcastInDim S100000x1 ![0] bcast_S100000_S100000x1_0 (shapeCast S100000 (extractStridedSlice S1x100000 ![1, 0] (V (main_arg28 : DevRef τ sig)) slices_S2x100000_S1x100000_1_0) shapeCasts_S1x100000_S100000)) (broadcastInDim S100000 ![] bcast_S_S100000 (constant (F := Ideal) S_ .f32 0x3F800000#32)) := by
  rw [at_w2 V main_v107 (by decide), w2_v107 (after ops1 (after ops0 V)), keep1 (after ops0 V) main_arg28 (by decide),
    keep0 V main_arg28 (by decide)]

set_option maxRecDepth 8192 in
set_option maxHeartbeats 4000000 in
/-- The atom-to-cluster mean: the row sums divided by the in-degree clamped below at one. -/
theorem v112_eq (V : Valuation τ sig (Elt Ideal)) :
    after ops V (main_v112 : DevRef τ sig)
      = Host.divf (F := Ideal) (φ := .f32) (after ops V (main_v101 : DevRef τ sig)) (broadcastInDim S25000x128 ![0, 1] bcast_S25000x1_S25000x128_0_1 (broadcastInDim S25000x1 ![0] bcast_S25000_S25000x1_0 (maximumf (F := Ideal) (φ := .f32) (after ops V (main_v107 : DevRef τ sig)) (broadcastInDim S25000 ![] bcast_S_S25000 (constant (F := Ideal) S_ .f32 0x3F800000#32))))) := by
  rw [at_w2 V main_v112 (by decide), at_w2 V main_v101 (by decide), at_w2 V main_v107 (by decide),
    w2_v112 (after ops1 (after ops0 V))]

set_option maxRecDepth 8192 in
set_option maxHeartbeats 4000000 in
/-- The cluster-side aggregation layer over the mean. -/
theorem v121_eq (V : Valuation τ sig (Elt Ideal)) :
    after ops V (main_v121 : DevRef τ sig)
      = addf (F := Ideal) (φ := .f32) (addf (F := Ideal) (φ := .f32) (addf (F := Ideal) (φ := .f32) (Host.dotGeneral (F := Ideal) (φ₁ := .f32) (φ₂ := .f32) dot_S25000x128_S128x256_S25000x256_1_0_0_1_n_n none (after ops V (main_v112 : DevRef τ sig)) (V (main_arg14 : DevRef τ sig))) (broadcastInDim S25000x256 ![0, 1] bcast_S1x256_S25000x256_0_1 (broadcastInDim S1x256 ![1] bcast_S256_S1x256_1 (V (main_arg15 : DevRef τ sig))))) (Host.dotGeneral (F := Ideal) (φ₁ := .f32) (φ₂ := .f32) dot_S25000x128_S128x256_S25000x256_1_0_0_1_n_n none (V (main_arg2 : DevRef τ sig)) (V (main_arg16 : DevRef τ sig)))) (broadcastInDim S25000x256 ![0, 1] bcast_S1x256_S25000x256_0_1 (broadcastInDim S1x256 ![1] bcast_S256_S1x256_1 (V (main_arg17 : DevRef τ sig)))) := by
  rw [at_w2 V main_v121 (by decide), at_w2 V main_v112 (by decide), w2_v121 (after ops1 (after ops0 V)),
    keep1 (after ops0 V) main_arg14 (by decide), keep1 (after ops0 V) main_arg15 (by decide), keep1 (after ops0 V) main_arg2 (by decide),
    keep1 (after ops0 V) main_arg16 (by decide), keep1 (after ops0 V) main_arg17 (by decide), keep0 V main_arg14 (by decide),
    keep0 V main_arg15 (by decide), keep0 V main_arg2 (by decide), keep0 V main_arg16 (by decide),
    keep0 V main_arg17 (by decide)]

set_option maxRecDepth 8192 in
set_option maxHeartbeats 4000000 in
/-- The cluster-to-atom row sums, as a term of the arguments. -/
theorem v135_eq (V : Valuation τ sig (Elt Ideal)) :
    after ops V (main_v135 : DevRef τ sig)
      = Host.scatterAdd (F := Ideal) (φ := .f32) scatter_S100000x128_S100000x1_S100000x128_1_0_0_1 (broadcastInDim S100000x128 ![] bcast_S_S100000x128 (constant (F := Ideal) S_ .f32 0x00000000#32)) (broadcastInDim S100000x1 ![0] bcast_S100000_S100000x1_0 (shapeCast S100000 (extractStridedSlice S1x100000 ![1, 0] (V (main_arg29 : DevRef τ sig)) slices_S2x100000_S1x100000_1_0) shapeCasts_S1x100000_S100000)) (Host.gather gather_S25000x128_S100000x1_S100000x128_1_0_n_n_0_1_1128 (V (main_arg2 : DevRef τ sig)) (broadcastInDim S100000x1 ![0] bcast_S100000_S100000x1_0 (select (cmpi .slt (shapeCast S100000 (extractStridedSlice S1x100000 ![0, 0] (V (main_arg29 : DevRef τ sig)) slices_S2x100000_S1x100000_0_0) shapeCasts_S1x100000_S100000) (broadcastInDim S100000 ![] bcast_S_S100000 (constantI S_ 32 0#32))) (addi (shapeCast S100000 (extractStridedSlice S1x100000 ![0, 0] (V (main_arg29 : DevRef τ sig)) slices_S2x100000_S1x100000_0_0) shapeCasts_S1x100000_S100000) (broadcastInDim S100000 ![] bcast_S_S100000 (constantI S_ 32 25000#32))) (shapeCast S100000 (extractStridedSlice S1x100000 ![0, 0] (V (main_arg29 : DevRef τ sig)) slices_S2x100000_S1x100000_0_0) shapeCasts_S1x100000_S100000)))) := by
  rw [at_w2 V main_v135 (by decide), w2_v135 (after ops1 (after ops0 V)), keep1 (after ops0 V) main_arg29 (by decide),
    keep1 (after ops0 V) main_arg2 (by decide), keep0 V main_arg29 (by decide), keep0 V main_arg2 (by decide)]

set_option maxRecDepth 8192 in
set_option maxHeartbeats 4000000 in
/-- The in-degree of each atom, as a term of the arguments. -/
theorem v141_eq (V : Valuation τ sig (Elt Ideal)) :
    after ops V (main_v141 : DevRef τ sig)
      = Host.scatterAdd (F := Ideal) (φ := .f32) scatter_S100000_S100000x1_S100000_n_0_0_1 (broadcastInDim S100000 ![] bcast_S_S100000 (constant (F := Ideal) S_ .f32 0x00000000#32)) (broadcastInDim S100000x1 ![0] bcast_S100000_S100000x1_0 (shapeCast S100000 (extractStridedSlice S1x100000 ![1, 0] (V (main_arg29 : DevRef τ sig)) slices_S2x100000_S1x100000_1_0) shapeCasts_S1x100000_S100000)) (broadcastInDim S100000 ![] bcast_S_S100000 (constant (F := Ideal) S_ .f32 0x3F800000#32)) := by
  rw [at_w2 V main_v141 (by decide), w2_v141 (after ops1 (after ops0 V)), keep1 (after ops0 V) main_arg29 (by decide),
    keep0 V main_arg29 (by decide)]

set_option maxRecDepth 8192 in
set_option maxHeartbeats 4000000 in
/-- The cluster-to-atom mean: the row sums divided by the in-degree clamped below at one. -/
theorem v146_eq (V : Valuation τ sig (Elt Ideal)) :
    after ops V (main_v146 : DevRef τ sig)
      = Host.divf (F := Ideal) (φ := .f32) (after ops V (main_v135 : DevRef τ sig)) (broadcastInDim S100000x128 ![0, 1] bcast_S100000x1_S100000x128_0_1 (broadcastInDim S100000x1 ![0] bcast_S100000_S100000x1_0 (maximumf (F := Ideal) (φ := .f32) (after ops V (main_v141 : DevRef τ sig)) (broadcastInDim S100000 ![] bcast_S_S100000 (constant (F := Ideal) S_ .f32 0x3F800000#32))))) := by
  rw [at_w2 V main_v146 (by decide), at_w2 V main_v135 (by decide), at_w2 V main_v141 (by decide),
    w2_v146 (after ops1 (after ops0 V))]

set_option maxRecDepth 8192 in
set_option maxHeartbeats 4000000 in
/-- The atom-side aggregation layer over the mean: the mean times one weight matrix plus its bias, plus the atom features times another, plus the second bias. -/
theorem v155_eq (V : Valuation τ sig (Elt Ideal)) :
    after ops V (main_v155 : DevRef τ sig)
      = addf (F := Ideal) (φ := .f32) (addf (F := Ideal) (φ := .f32) (addf (F := Ideal) (φ := .f32) (Host.dotGeneral (F := Ideal) (φ₁ := .f32) (φ₂ := .f32) dot_S100000x128_S128x256_S100000x256_1_0_0_1_n_n none (after ops V (main_v146 : DevRef τ sig)) (V (main_arg18 : DevRef τ sig))) (broadcastInDim S100000x256 ![0, 1] bcast_S1x256_S100000x256_0_1 (broadcastInDim S1x256 ![1] bcast_S256_S1x256_1 (V (main_arg19 : DevRef τ sig))))) (Host.dotGeneral (F := Ideal) (φ₁ := .f32) (φ₂ := .f32) dot_S100000x128_S128x256_S100000x256_1_0_0_1_n_n none (V (main_arg0 : DevRef τ sig)) (V (main_arg20 : DevRef τ sig)))) (broadcastInDim S100000x256 ![0, 1] bcast_S1x256_S100000x256_0_1 (broadcastInDim S1x256 ![1] bcast_S256_S1x256_1 (V (main_arg21 : DevRef τ sig)))) := by
  rw [at_w3 V main_v155, at_w2 V main_v146 (by decide), w3_v155 (after ops2 (after ops1 (after ops0 V))),
    w2_v150 (after ops1 (after ops0 V)), w2_v151 (after ops1 (after ops0 V)), keep2 (after ops1 (after ops0 V)) main_arg21 (by decide),
    keep1 (after ops0 V) main_arg18 (by decide), keep1 (after ops0 V) main_arg19 (by decide), keep1 (after ops0 V) main_arg0 (by decide),
    keep1 (after ops0 V) main_arg20 (by decide), keep1 (after ops0 V) main_arg21 (by decide), keep0 V main_arg18 (by decide),
    keep0 V main_arg19 (by decide), keep0 V main_arg0 (by decide), keep0 V main_arg20 (by decide),
    keep0 V main_arg21 (by decide)]

set_option maxRecDepth 8192 in
set_option maxHeartbeats 4000000 in
/-- The first result: the sum of the atom graph's two branches times the output matrix, plus the output bias. -/
theorem v160_eq (V : Valuation τ sig (Elt Ideal)) :
    after ops V (main_v160 : DevRef τ sig)
      = addf (F := Ideal) (φ := .f32) (Host.dotGeneral (F := Ideal) (φ₁ := .f32) (φ₂ := .f32) dot_S100000x256_S256x128_S100000x128_1_0_0_1_n_n none (addf (F := Ideal) (φ := .f32) (after ops V (main_v43 : DevRef τ sig)) (after ops V (main_v155 : DevRef τ sig))) (V (main_arg22 : DevRef τ sig))) (broadcastInDim S100000x128 ![0, 1] bcast_S1x128_S100000x128_0_1 (broadcastInDim S1x128 ![1] bcast_S128_S1x128_1 (V (main_arg23 : DevRef τ sig)))) := by
  rw [at_w3 V main_v160, at_w0 V main_v43 (by decide) (by decide) (by decide), at_w3 V main_v155,
    w3_v160 (after ops2 (after ops1 (after ops0 V))), keep2 (after ops1 (after ops0 V)) main_v43 (by decide), keep2 (after ops1 (after ops0 V)) main_arg22 (by decide),
    keep2 (after ops1 (after ops0 V)) main_arg23 (by decide), keep1 (after ops0 V) main_v43 (by decide), keep1 (after ops0 V) main_arg22 (by decide),
    keep1 (after ops0 V) main_arg23 (by decide), keep0 V main_arg22 (by decide), keep0 V main_arg23 (by decide)]

set_option maxRecDepth 8192 in
set_option maxHeartbeats 4000000 in
/-- The second result: the sum of the cluster graph's two branches times the output matrix, plus the output bias. -/
theorem v165_eq (V : Valuation τ sig (Elt Ideal)) :
    after ops V (main_v165 : DevRef τ sig)
      = addf (F := Ideal) (φ := .f32) (Host.dotGeneral (F := Ideal) (φ₁ := .f32) (φ₂ := .f32) dot_S25000x256_S256x128_S25000x128_1_0_0_1_n_n none (addf (F := Ideal) (φ := .f32) (after ops V (main_v87 : DevRef τ sig)) (after ops V (main_v121 : DevRef τ sig))) (V (main_arg24 : DevRef τ sig))) (broadcastInDim S25000x128 ![0, 1] bcast_S1x128_S25000x128_0_1 (broadcastInDim S1x128 ![1] bcast_S128_S1x128_1 (V (main_arg25 : DevRef τ sig)))) := by
  rw [at_w3 V main_v165, at_w1 V main_v87 (by decide) (by decide), at_w2 V main_v121 (by decide),
    w3_v165 (after ops2 (after ops1 (after ops0 V))), keep2 (after ops1 (after ops0 V)) main_v87 (by decide), keep2 (after ops1 (after ops0 V)) main_arg24 (by decide),
    keep2 (after ops1 (after ops0 V)) main_arg25 (by decide), keep1 (after ops0 V) main_arg24 (by decide), keep1 (after ops0 V) main_arg25 (by decide),
    keep0 V main_arg24 (by decide), keep0 V main_arg25 (by decide)]

end Cert.ReferenceIdeal.RefRun

end
-- ==== Proof.RefFrame.lean ====
/-
  The reference program's run in the two shapes the statement to be proved uses it in.

  Every weakly fair execution of the reference's @main terminates with each TensorCore buffer at the fold of its
  operations over the launch contents.  No operation writes an argument, so each argument ends at its launch
  contents: that is the frame statement.  The two results end at the fold's value at their buffers, which is what the
  value statement's second run asks of the reference, with those values as the per-device results.
-/
import proofs.«151819_j60404420051112_2_alg».proof.Defs
import proofs.«151819_j60404420051112_2_alg».proof.Proof.RefStages
import proofs.«151819_j60404420051112_2_alg».proof.Proof.Gen.ReferenceIdeal
import proofs.«151819_j60404420051112_2_alg».proof.Proof.Gen.Pre_finite_inputs

noncomputable section

namespace Cert.ReferenceIdeal.RefFrame

open Cert.ReferenceIdeal Cert.ReferenceIdeal.Gen Cert.ReferenceIdeal.RefRun Idealize.ShloMosaic Idealize.ShloMosaic.TcCoe Idealize.SL.Sem Idealize.ShloMosaic.StableHlo

set_option maxRecDepth 8192 in
/-- The reference runs and its thirty argument arrays end unchanged: every buffer ends at the fold of the operations
    over the launch contents, and the fold leaves an argument's buffer as it was. -/
theorem frame_ref : Cert.frame_ReferenceIdeal := fun m g _ =>
  (θ_run (defs (F := Ideal)) _ _).mono (fun _ h c =>
    ⟨(h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _), (h c main_arg10).trans (arg10_eq _), (h c main_arg11).trans (arg11_eq _),
      (h c main_arg12).trans (arg12_eq _), (h c main_arg13).trans (arg13_eq _), (h c main_arg14).trans (arg14_eq _),
      (h c main_arg15).trans (arg15_eq _), (h c main_arg16).trans (arg16_eq _), (h c main_arg17).trans (arg17_eq _),
      (h c main_arg18).trans (arg18_eq _), (h c main_arg19).trans (arg19_eq _), (h c main_arg20).trans (arg20_eq _),
      (h c main_arg21).trans (arg21_eq _), (h c main_arg22).trans (arg22_eq _), (h c main_arg23).trans (arg23_eq _),
      (h c main_arg24).trans (arg24_eq _), (h c main_arg25).trans (arg25_eq _), (h c main_arg26).trans (arg26_eq _),
      (h c main_arg27).trans (arg27_eq _), (h c main_arg28).trans (arg28_eq _), (h c main_arg29).trans (arg29_eq _)⟩)
    (run_main (F := Ideal) m g)

set_option maxRecDepth 8192 in
/-- The reference runs from any memory with zero counters and ends with its two results at the fold of the operations
    over the launch contents, read at the result buffers, and with its thirty arguments unchanged. -/
theorem run_ref (m' : (ℓ : Loc nD τ sig) → Buf (Elt Ideal) ℓ) (g' : Dev nD → PrngReg) :
    θ_run (defs (F := Ideal)) (onTc (τ := τ) (main (F := Ideal))) ⟨m', fun _ => 0, g'⟩ (fun r => ∀ c : Dev nD,
      r.2.mem ((c.tc : Thread nD τ).loc main_v160) = after ops (launchContents m' c) (main_v160 : DevRef τ sig)
      ∧ r.2.mem ((c.tc : Thread nD τ).loc main_v165) = after ops (launchContents m' c) (main_v165 : DevRef τ sig)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24)
      ∧ r.2.mem ((c.tc : Thread nD τ).loc main_arg25) = m' ((c.tc : Thread nD τ).loc main_arg25)
      ∧ r.2.mem ((c.tc : Thread nD τ).loc main_arg26) = m' ((c.tc : Thread nD τ).loc main_arg26)
      ∧ r.2.mem ((c.tc : Thread nD τ).loc main_arg27) = m' ((c.tc : Thread nD τ).loc main_arg27)
      ∧ r.2.mem ((c.tc : Thread nD τ).loc main_arg28) = m' ((c.tc : Thread nD τ).loc main_arg28)
      ∧ r.2.mem ((c.tc : Thread nD τ).loc main_arg29) = m' ((c.tc : Thread nD τ).loc main_arg29)) :=
  (θ_run (defs (F := Ideal)) _ _).mono (fun _ h c =>
    ⟨h c main_v160, h c main_v165,
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _), (h c main_arg10).trans (arg10_eq _), (h c main_arg11).trans (arg11_eq _),
      (h c main_arg12).trans (arg12_eq _), (h c main_arg13).trans (arg13_eq _), (h c main_arg14).trans (arg14_eq _),
      (h c main_arg15).trans (arg15_eq _), (h c main_arg16).trans (arg16_eq _), (h c main_arg17).trans (arg17_eq _),
      (h c main_arg18).trans (arg18_eq _), (h c main_arg19).trans (arg19_eq _), (h c main_arg20).trans (arg20_eq _),
      (h c main_arg21).trans (arg21_eq _), (h c main_arg22).trans (arg22_eq _), (h c main_arg23).trans (arg23_eq _),
      (h c main_arg24).trans (arg24_eq _), (h c main_arg25).trans (arg25_eq _), (h c main_arg26).trans (arg26_eq _),
      (h c main_arg27).trans (arg27_eq _), (h c main_arg28).trans (arg28_eq _), (h c main_arg29).trans (arg29_eq _)⟩)
    (run_main (F := Ideal) m' g')

end Cert.ReferenceIdeal.RefFrame

end
-- ==== Proof.KKeep.lean ====
/-
  Which buffers each stretch of host operations writes, and that it leaves every other buffer alone.

  The program's host operations come in eight stretches; each operation writes exactly one buffer, its result.
  For each stretch this module lists the buffers its operations write, in order, and shows that the contents after
  the stretch, read at any buffer outside that list, are the contents before it — whatever those were.
-/
import proofs.«151819_j60404420051112_2_alg».proof.Proof.Gen.KernelIdeal.Frame

set_option maxRecDepth 16384

noncomputable section

namespace Cert.KernelIdeal.KKeep

open Cert.KernelIdeal Cert.KernelIdeal.Gen
open Idealize.ShloMosaic Idealize.ShloMosaic.TcCoe Idealize.SL.Sem Idealize.ShloMosaic.StableHlo

variable {F : FTy → Type} [FloatOps F]

/-- The buffers the first host stretch writes, in order. -/
def wr0 : List (Ref sig .tc) :=
  [
    main_v0, main_v1, main_c, main_v2, main_v3, main_c_0, main_v4, main_v5, main_v6, main_v7,
    main_v8, main_v9 ]

/-- Every operation of the first host stretch writes only a buffer of that list. -/
theorem writes0 : (hostOps0 : List (HloOp τ sig (Elt F))).Forall fun op =>
    op.writes ⊆ ((wr0.map (Proc.devRef (τ := τ) .tc)).toFinset) := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A buffer outside that list holds after the first host stretch what it held before, whatever the contents before. -/
theorem keep0 (X : Valuation τ sig (Elt F)) (r : Ref sig .tc) (hr : r ∉ wr0) :
    after hostOps0 X (Proc.devRef .tc r) = X (Proc.devRef .tc r) := after_of_writes_sub _ _ writes0 hr

/-- The buffers the second host stretch writes, in order. -/
def wr0_1 : List (Ref sig .tc) :=
  [
    main_call0_cst, main_call0_v0, main_v10 ]

/-- Every operation of the second host stretch writes only a buffer of that list. -/
theorem writes0_1 : (hostOps0_1 : List (HloOp τ sig (Elt F))).Forall fun op =>
    op.writes ⊆ ((wr0_1.map (Proc.devRef (τ := τ) .tc)).toFinset) := by
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A buffer outside that list holds after the second host stretch what it held before, whatever the contents before. -/
theorem keep0_1 (X : Valuation τ sig (Elt F)) (r : Ref sig .tc) (hr : r ∉ wr0_1) :
    after hostOps0_1 X (Proc.devRef .tc r) = X (Proc.devRef .tc r) := after_of_writes_sub _ _ writes0_1 hr

/-- The buffers the third host stretch writes, in order. -/
def wr0_2 : List (Ref sig .tc) :=
  [
    main_v11, main_v12, main_cst, main_v13, main_v14, main_v15, main_v16, main_v17, main_c_1, main_v18,
    main_v19, main_c_2, main_v20, main_v21, main_v22, main_v23, main_v24, main_v25 ]

/-- Every operation of the third host stretch writes only a buffer of that list. -/
theorem writes0_2 : (hostOps0_2 : List (HloOp τ sig (Elt F))).Forall fun op =>
    op.writes ⊆ ((wr0_2.map (Proc.devRef (τ := τ) .tc)).toFinset) := by
  simp only [hostOps0_2, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A buffer outside that list holds after the third host stretch what it held before, whatever the contents before. -/
theorem keep0_2 (X : Valuation τ sig (Elt F)) (r : Ref sig .tc) (hr : r ∉ wr0_2) :
    after hostOps0_2 X (Proc.devRef .tc r) = X (Proc.devRef .tc r) := after_of_writes_sub _ _ writes0_2 hr

/-- The buffers the fourth host stretch writes, in order. -/
def wr0_3 : List (Ref sig .tc) :=
  [
    main_call1_cst, main_call1_v0, main_v26 ]

/-- Every operation of the fourth host stretch writes only a buffer of that list. -/
theorem writes0_3 : (hostOps0_3 : List (HloOp τ sig (Elt F))).Forall fun op =>
    op.writes ⊆ ((wr0_3.map (Proc.devRef (τ := τ) .tc)).toFinset) := by
  simp only [hostOps0_3, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A buffer outside that list holds after the fourth host stretch what it held before, whatever the contents before. -/
theorem keep0_3 (X : Valuation τ sig (Elt F)) (r : Ref sig .tc) (hr : r ∉ wr0_3) :
    after hostOps0_3 X (Proc.devRef .tc r) = X (Proc.devRef .tc r) := after_of_writes_sub _ _ writes0_3 hr

/-- The buffers the fifth host stretch (the one before the first launch) writes, in order. -/
def wr0_4 : List (Ref sig .tc) :=
  [
    main_v27, main_v28, main_cst_3, main_v29, main_v30, main_v31, main_cst_4, main_v32, main_v33, main_v34,
    main_v35, main_cst_5, main_v36, main_v37, main_v38, main_v39, main_v40, main_v41, main_c_6, main_v42,
    main_v43, main_c_7, main_v44, main_v45, main_v46, main_v47, main_v48, main_v49, main_v50, main_cst_8,
    main_v51, main_v52, main_v53, main_c_9, main_v54, main_v55, main_v56, main_c_10, main_v57, main_v58,
    main_v59, main_v60, main_cst_11, main_v61, main_v62, main_v63, main_v64, main_v65, main_v66, main_v67,
    main_c_12, main_v68, main_v69, main_c_13, main_v70, main_v71, main_v72, main_v73, main_v74, main_v75,
    main_v76, main_cst_14, main_v77, main_v78, main_v79, main_c_15, main_v80, main_v81, main_v82, main_c_16,
    main_v83, main_v84, main_v85, main_v86, main_cst_17, main_v87, main_v88, main_v89, main_v90, main_v91,
    main_v92 ]

set_option maxHeartbeats 4000000 in
/-- Every operation of the fifth host stretch (the one before the first launch) writes only a buffer of that list. -/
theorem writes0_4 : (hostOps0_4 : List (HloOp τ sig (Elt F))).Forall fun op =>
    op.writes ⊆ ((wr0_4.map (Proc.devRef (τ := τ) .tc)).toFinset) := by
  simp only [hostOps0_4, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A buffer outside that list holds after the fifth host stretch (the one before the first launch) what it held before, whatever the contents before. -/
theorem keep0_4 (X : Valuation τ sig (Elt F)) (r : Ref sig .tc) (hr : r ∉ wr0_4) :
    after hostOps0_4 X (Proc.devRef .tc r) = X (Proc.devRef .tc r) := after_of_writes_sub _ _ writes0_4 hr

/-- The buffers the host stretch between the first and the second launch writes, in order. -/
def wr1 : List (Ref sig .tc) :=
  [
    main_cst_18, main_v94, main_v95, main_cst_19, main_v96, main_v97, main_cst_20, main_v98, main_v99, main_cst_21,
    main_v100, main_v101, main_v102, main_v103, main_v104 ]

/-- Every operation of the host stretch between the first and the second launch writes only a buffer of that list. -/
theorem writes1 : (hostOps1 : List (HloOp τ sig (Elt F))).Forall fun op =>
    op.writes ⊆ ((wr1.map (Proc.devRef (τ := τ) .tc)).toFinset) := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A buffer outside that list holds after the host stretch between the first and the second launch what it held before, whatever the contents before. -/
theorem keep1 (X : Valuation τ sig (Elt F)) (r : Ref sig .tc) (hr : r ∉ wr1) :
    after hostOps1 X (Proc.devRef .tc r) = X (Proc.devRef .tc r) := after_of_writes_sub _ _ writes1 hr

/-- The buffers the host stretch between the second and the third launch writes, in order. -/
def wr2 : List (Ref sig .tc) :=
  [
    main_cst_22, main_v106, main_v107, main_cst_23, main_v108, main_v109, main_cst_24, main_v110, main_v111, main_cst_25,
    main_v112, main_v113, main_v114, main_v115, main_v116, main_v117, main_v118, main_v119, main_v120 ]

/-- Every operation of the host stretch between the second and the third launch writes only a buffer of that list. -/
theorem writes2 : (hostOps2 : List (HloOp τ sig (Elt F))).Forall fun op =>
    op.writes ⊆ ((wr2.map (Proc.devRef (τ := τ) .tc)).toFinset) := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A buffer outside that list holds after the host stretch between the second and the third launch what it held before, whatever the contents before. -/
theorem keep2 (X : Valuation τ sig (Elt F)) (r : Ref sig .tc) (hr : r ∉ wr2) :
    after hostOps2 X (Proc.devRef .tc r) = X (Proc.devRef .tc r) := after_of_writes_sub _ _ writes2 hr

/-- The buffers the host stretch between the third and the fourth launch writes, in order. -/
def wr3 : List (Ref sig .tc) :=
  [
    main_v122, main_v123, main_v124, main_v125, main_v126 ]

/-- Every operation of the host stretch between the third and the fourth launch writes only a buffer of that list. -/
theorem writes3 : (hostOps3 : List (HloOp τ sig (Elt F))).Forall fun op =>
    op.writes ⊆ ((wr3.map (Proc.devRef (τ := τ) .tc)).toFinset) := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map.mpr ⟨_, by decide, rfl⟩

/-- A buffer outside that list holds after the host stretch between the third and the fourth launch what it held before, whatever the contents before. -/
theorem keep3 (X : Valuation τ sig (Elt F)) (r : Ref sig .tc) (hr : r ∉ wr3) :
    after hostOps3 X (Proc.devRef .tc r) = X (Proc.devRef .tc r) := after_of_writes_sub _ _ writes3 hr

end Cert.KernelIdeal.KKeep

end
-- ==== Proof.KWalk.lean ====
/-
  The program's buffers walked through its run.

  The run is a fold of buffer contents through twelve boundaries: a stretch of host operations rewrites the buffers
  its operations write and keeps the rest; a launch replaces the arrays of its windows by what its write-backs leave
  (an input window's array is left as entered) and keeps every other buffer.  Read at one buffer, the fold therefore
  walks back, boundary by boundary, to the place that buffer was last written: a launch's output array, a host
  operation's result, or the memory the program was launched on.  This module does the walk for the buffers the four
  launches read: each launch's operands at its entry, the two results at the end, the reshaped parameter vectors, and
  the per-feature statistics (mean, and mean of squares minus squared mean) computed between the launches.
-/
import proofs.«151819_j60404420051112_2_alg».proof.Proof.Gen.KernelIdeal.Frame
import proofs.«151819_j60404420051112_2_alg».proof.Proof.KKeep

set_option maxRecDepth 16384

noncomputable section

namespace Cert.KernelIdeal.KWalk

open Cert.KernelIdeal Cert.KernelIdeal.Gen Cert.KernelIdeal.KKeep
open Idealize.ShloMosaic Idealize.ShloMosaic.TcCoe Idealize.SL.Sem Idealize.ShloMosaic.StableHlo

variable {F : FTy → Type} [FloatOps F] (m : (ℓ : Loc nD τ sig) → Buf (Elt F) ℓ) (ρ : Dev nD → PrngReg) (c : Dev nD)

/-! ## The two results -/

/-- The second result's buffer ends as the fourth launch's write-backs leave its output array. -/
theorem W12_main_v127 : W12 m ρ c (Proc.devRef .tc main_v127) = (dat3 (V11 m ρ) c).arrAt 13 cfg3.N := W12_arr m ρ c 13

/-- The first result's buffer ends as the third launch's write-backs left its output array: the fourth launch and the
    host stretch before it do not touch it. -/
theorem W12_main_v121 : W12 m ρ c (Proc.devRef .tc main_v121) = (dat2 (V9 m ρ) c).arrAt 13 cfg2.N :=
  calc W12 m ρ c (Proc.devRef .tc main_v121)
    _ = W11 m ρ c (Proc.devRef .tc main_v121) := W12_of_ne m ρ c main_v121 (by decide)
    _ = W10 m ρ c (Proc.devRef .tc main_v121) := keep3 _ main_v121 (by decide)
    _ = (dat2 (V9 m ρ) c).arrAt 13 cfg2.N := W10_arr m ρ c 13

/-! ## The reshaped parameter vectors, stretch by stretch (over any contents before the stretch) -/

/-- After the host stretch between the second and the third launch, buffer v116 holds the reshape to one row of what buffer arg7 held before it. -/
theorem reshape_main_v116 (X : Valuation τ sig (Elt F)) :
    after hostOps2 X (Proc.devRef .tc main_v116) = shapeCast S1x256 (X (Proc.devRef .tc main_arg7)) shapeCasts_S256_S1x256 := by
  after_results; rfl

/-- After the host stretch between the second and the third launch, buffer v117 holds the reshape to one row of what buffer arg8 held before it. -/
theorem reshape_main_v117 (X : Valuation τ sig (Elt F)) :
    after hostOps2 X (Proc.devRef .tc main_v117) = shapeCast S1x256 (X (Proc.devRef .tc main_arg8)) shapeCasts_S256_S1x256 := by
  after_results; rfl

/-- After the host stretch between the second and the third launch, buffer v118 holds the reshape to one row of what buffer arg19 held before it. -/
theorem reshape_main_v118 (X : Valuation τ sig (Elt F)) :
    after hostOps2 X (Proc.devRef .tc main_v118) = shapeCast S1x256 (X (Proc.devRef .tc main_arg19)) shapeCasts_S256_S1x256 := by
  after_results; rfl

/-- After the host stretch between the second and the third launch, buffer v119 holds the reshape to one row of what buffer arg21 held before it. -/
theorem reshape_main_v119 (X : Valuation τ sig (Elt F)) :
    after hostOps2 X (Proc.devRef .tc main_v119) = shapeCast S1x256 (X (Proc.devRef .tc main_arg21)) shapeCasts_S256_S1x256 := by
  after_results; rfl

/-- After the host stretch between the second and the third launch, buffer v120 holds the reshape to one row of what buffer arg23 held before it. -/
theorem reshape_main_v120 (X : Valuation τ sig (Elt F)) :
    after hostOps2 X (Proc.devRef .tc main_v120) = shapeCast S1x128 (X (Proc.devRef .tc main_arg23)) shapeCasts_S128_S1x128 := by
  after_results; rfl

/-- After the host stretch between the third and the fourth launch, buffer v122 holds the reshape to one row of what buffer arg12 held before it. -/
theorem reshape_main_v122 (X : Valuation τ sig (Elt F)) :
    after hostOps3 X (Proc.devRef .tc main_v122) = shapeCast S1x256 (X (Proc.devRef .tc main_arg12)) shapeCasts_S256_S1x256 := by
  after_results; rfl

/-- After the host stretch between the third and the fourth launch, buffer v123 holds the reshape to one row of what buffer arg13 held before it. -/
theorem reshape_main_v123 (X : Valuation τ sig (Elt F)) :
    after hostOps3 X (Proc.devRef .tc main_v123) = shapeCast S1x256 (X (Proc.devRef .tc main_arg13)) shapeCasts_S256_S1x256 := by
  after_results; rfl

/-- After the host stretch between the third and the fourth launch, buffer v124 holds the reshape to one row of what buffer arg15 held before it. -/
theorem reshape_main_v124 (X : Valuation τ sig (Elt F)) :
    after hostOps3 X (Proc.devRef .tc main_v124) = shapeCast S1x256 (X (Proc.devRef .tc main_arg15)) shapeCasts_S256_S1x256 := by
  after_results; rfl

/-- After the host stretch between the third and the fourth launch, buffer v125 holds the reshape to one row of what buffer arg17 held before it. -/
theorem reshape_main_v125 (X : Valuation τ sig (Elt F)) :
    after hostOps3 X (Proc.devRef .tc main_v125) = shapeCast S1x256 (X (Proc.devRef .tc main_arg17)) shapeCasts_S256_S1x256 := by
  after_results; rfl

/-- After the host stretch between the third and the fourth launch, buffer v126 holds the reshape to one row of what buffer arg25 held before it. -/
theorem reshape_main_v126 (X : Valuation τ sig (Elt F)) :
    after hostOps3 X (Proc.devRef .tc main_v126) = shapeCast S1x128 (X (Proc.devRef .tc main_arg25)) shapeCasts_S128_S1x128 := by
  after_results; rfl

/-- After the host stretch between the first and the second launch, buffer v104 holds the reshape to one row of what buffer arg11 held before it. -/
theorem reshape_main_v104 (X : Valuation τ sig (Elt F)) :
    after hostOps1 X (Proc.devRef .tc main_v104) = shapeCast S1x256 (X (Proc.devRef .tc main_arg11)) shapeCasts_S256_S1x256 := by
  after_results; rfl

set_option maxHeartbeats 4000000 in
/-- After the fifth host stretch (the one before the first launch), buffer v92 holds the reshape to one row of what buffer arg6 held before it. -/
theorem reshape_main_v92 (X : Valuation τ sig (Elt F)) :
    after hostOps0_4 X (Proc.devRef .tc main_v92) = shapeCast S1x256 (X (Proc.devRef .tc main_arg6)) shapeCasts_S256_S1x256 := by
  after_results; rfl

/-! ## The third launch's operands at its entry -/

/-- The first launch's main output array reaches the third launch's entry as the first launch's write-backs left it. -/
theorem W9_main_v93_0 : W9 m ρ c (Proc.devRef .tc main_v93_0) = (dat0 (V5 m ρ) c).arrAt 3 cfg0.N :=
  calc W9 m ρ c (Proc.devRef .tc main_v93_0)
    _ = W8 m ρ c (Proc.devRef .tc main_v93_0) := keep2 _ main_v93_0 (by decide)
    _ = W7 m ρ c (Proc.devRef .tc main_v93_0) := W8_of_ne m ρ c main_v93_0 (by decide)
    _ = W6 m ρ c (Proc.devRef .tc main_v93_0) := keep1 _ main_v93_0 (by decide)
    _ = (dat0 (V5 m ρ) c).arrAt 3 cfg0.N := W6_arr m ρ c 3

/-- The first statistic (the per-feature mean) reaches the third launch's entry as computed before the second launch. -/
theorem W9_main_v99 : W9 m ρ c (Proc.devRef .tc main_v99) = W7 m ρ c (Proc.devRef .tc main_v99) :=
  calc W9 m ρ c (Proc.devRef .tc main_v99)
    _ = W8 m ρ c (Proc.devRef .tc main_v99) := keep2 _ main_v99 (by decide)
    _ = W7 m ρ c (Proc.devRef .tc main_v99) := W8_of_ne m ρ c main_v99 (by decide)

/-- The second statistic (the per-feature variance) reaches the third launch's entry as computed before the second launch. -/
theorem W9_main_v103 : W9 m ρ c (Proc.devRef .tc main_v103) = W7 m ρ c (Proc.devRef .tc main_v103) :=
  calc W9 m ρ c (Proc.devRef .tc main_v103)
    _ = W8 m ρ c (Proc.devRef .tc main_v103) := keep2 _ main_v103 (by decide)
    _ = W7 m ρ c (Proc.devRef .tc main_v103) := W8_of_ne m ρ c main_v103 (by decide)

/-- The neighbour mean of the first node type reaches the third launch's entry as the host computed it before the first launch. -/
theorem W9_main_v91 : W9 m ρ c (Proc.devRef .tc main_v91) = W5 m ρ c (Proc.devRef .tc main_v91) :=
  calc W9 m ρ c (Proc.devRef .tc main_v91)
    _ = W8 m ρ c (Proc.devRef .tc main_v91) := keep2 _ main_v91 (by decide)
    _ = W7 m ρ c (Proc.devRef .tc main_v91) := W8_of_ne m ρ c main_v91 (by decide)
    _ = W6 m ρ c (Proc.devRef .tc main_v91) := keep1 _ main_v91 (by decide)
    _ = W5 m ρ c (Proc.devRef .tc main_v91) := W6_of_ne m ρ c main_v91 (by decide)

/-- Argument array 0 still holds at the third launch's entry what the program was launched on: nothing in between writes it. -/
theorem W9_main_arg0 : W9 m ρ c (Proc.devRef .tc main_arg0) = m ((c : Thread nD τ).loc main_arg0) :=
  calc W9 m ρ c (Proc.devRef .tc main_arg0)
    _ = W8 m ρ c (Proc.devRef .tc main_arg0) := keep2 _ main_arg0 (by decide)
    _ = W7 m ρ c (Proc.devRef .tc main_arg0) := W8_of_ne m ρ c main_arg0 (by decide)
    _ = W6 m ρ c (Proc.devRef .tc main_arg0) := keep1 _ main_arg0 (by decide)
    _ = W5 m ρ c (Proc.devRef .tc main_arg0) := W6_of_ne m ρ c main_arg0 (by decide)
    _ = W4 m ρ c (Proc.devRef .tc main_arg0) := keep0_4 _ main_arg0 (by decide)
    _ = W3 m ρ c (Proc.devRef .tc main_arg0) := keep0_3 _ main_arg0 (by decide)
    _ = W2 m ρ c (Proc.devRef .tc main_arg0) := keep0_2 _ main_arg0 (by decide)
    _ = W1 m ρ c (Proc.devRef .tc main_arg0) := keep0_1 _ main_arg0 (by decide)
    _ = W0 m ρ c (Proc.devRef .tc main_arg0) := keep0 _ main_arg0 (by decide)
    _ = m ((c : Thread nD τ).loc main_arg0) := rfl

/-- Argument array 18 still holds at the third launch's entry what the program was launched on: nothing in between writes it. -/
theorem W9_main_arg18 : W9 m ρ c (Proc.devRef .tc main_arg18) = m ((c : Thread nD τ).loc main_arg18) :=
  calc W9 m ρ c (Proc.devRef .tc main_arg18)
    _ = W8 m ρ c (Proc.devRef .tc main_arg18) := keep2 _ main_arg18 (by decide)
    _ = W7 m ρ c (Proc.devRef .tc main_arg18) := W8_of_ne m ρ c main_arg18 (by decide)
    _ = W6 m ρ c (Proc.devRef .tc main_arg18) := keep1 _ main_arg18 (by decide)
    _ = W5 m ρ c (Proc.devRef .tc main_arg18) := W6_of_ne m ρ c main_arg18 (by decide)
    _ = W4 m ρ c (Proc.devRef .tc main_arg18) := keep0_4 _ main_arg18 (by decide)
    _ = W3 m ρ c (Proc.devRef .tc main_arg18) := keep0_3 _ main_arg18 (by decide)
    _ = W2 m ρ c (Proc.devRef .tc main_arg18) := keep0_2 _ main_arg18 (by decide)
    _ = W1 m ρ c (Proc.devRef .tc main_arg18) := keep0_1 _ main_arg18 (by decide)
    _ = W0 m ρ c (Proc.devRef .tc main_arg18) := keep0 _ main_arg18 (by decide)
    _ = m ((c : Thread nD τ).loc main_arg18) := rfl

/-- Argument array 20 still holds at the third launch's entry what the program was launched on: nothing in between writes it. -/
theorem W9_main_arg20 : W9 m ρ c (Proc.devRef .tc main_arg20) = m ((c : Thread nD τ).loc main_arg20) :=
  calc W9 m ρ c (Proc.devRef .tc main_arg20)
    _ = W8 m ρ c (Proc.devRef .tc main_arg20) := keep2 _ main_arg20 (by decide)
    _ = W7 m ρ c (Proc.devRef .tc main_arg20) := W8_of_ne m ρ c main_arg20 (by decide)
    _ = W6 m ρ c (Proc.devRef .tc main_arg20) := keep1 _ main_arg20 (by decide)
    _ = W5 m ρ c (Proc.devRef .tc main_arg20) := W6_of_ne m ρ c main_arg20 (by decide)
    _ = W4 m ρ c (Proc.devRef .tc main_arg20) := keep0_4 _ main_arg20 (by decide)
    _ = W3 m ρ c (Proc.devRef .tc main_arg20) := keep0_3 _ main_arg20 (by decide)
    _ = W2 m ρ c (Proc.devRef .tc main_arg20) := keep0_2 _ main_arg20 (by decide)
    _ = W1 m ρ c (Proc.devRef .tc main_arg20) := keep0_1 _ main_arg20 (by decide)
    _ = W0 m ρ c (Proc.devRef .tc main_arg20) := keep0 _ main_arg20 (by decide)
    _ = m ((c : Thread nD τ).loc main_arg20) := rfl

/-- Argument array 22 still holds at the third launch's entry what the program was launched on: nothing in between writes it. -/
theorem W9_main_arg22 : W9 m ρ c (Proc.devRef .tc main_arg22) = m ((c : Thread nD τ).loc main_arg22) :=
  calc W9 m ρ c (Proc.devRef .tc main_arg22)
    _ = W8 m ρ c (Proc.devRef .tc main_arg22) := keep2 _ main_arg22 (by decide)
    _ = W7 m ρ c (Proc.devRef .tc main_arg22) := W8_of_ne m ρ c main_arg22 (by decide)
    _ = W6 m ρ c (Proc.devRef .tc main_arg22) := keep1 _ main_arg22 (by decide)
    _ = W5 m ρ c (Proc.devRef .tc main_arg22) := W6_of_ne m ρ c main_arg22 (by decide)
    _ = W4 m ρ c (Proc.devRef .tc main_arg22) := keep0_4 _ main_arg22 (by decide)
    _ = W3 m ρ c (Proc.devRef .tc main_arg22) := keep0_3 _ main_arg22 (by decide)
    _ = W2 m ρ c (Proc.devRef .tc main_arg22) := keep0_2 _ main_arg22 (by decide)
    _ = W1 m ρ c (Proc.devRef .tc main_arg22) := keep0_1 _ main_arg22 (by decide)
    _ = W0 m ρ c (Proc.devRef .tc main_arg22) := keep0 _ main_arg22 (by decide)
    _ = m ((c : Thread nD τ).loc main_arg22) := rfl

/-! ## The parameter vectors just before the stretch that reshapes them -/

/-- Argument array 7 still holds at the second launch's exit what the program was launched on: nothing in between writes it. -/
theorem W8_main_arg7 : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := keep1 _ main_arg7 (by decide)
    _ = W5 m ρ c (Proc.devRef .tc main_arg7) := W6_of_ne m ρ c main_arg7 (by decide)
    _ = W4 m ρ c (Proc.devRef .tc main_arg7) := keep0_4 _ main_arg7 (by decide)
    _ = W3 m ρ c (Proc.devRef .tc main_arg7) := keep0_3 _ main_arg7 (by decide)
    _ = W2 m ρ c (Proc.devRef .tc main_arg7) := keep0_2 _ main_arg7 (by decide)
    _ = W1 m ρ c (Proc.devRef .tc main_arg7) := keep0_1 _ main_arg7 (by decide)
    _ = W0 m ρ c (Proc.devRef .tc main_arg7) := keep0 _ main_arg7 (by decide)
    _ = m ((c : Thread nD τ).loc main_arg7) := rfl

/-- Argument array 8 still holds at the second launch's exit what the program was launched on: nothing in between writes it. -/
theorem W8_main_arg8 : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := keep1 _ main_arg8 (by decide)
    _ = W5 m ρ c (Proc.devRef .tc main_arg8) := W6_of_ne m ρ c main_arg8 (by decide)
    _ = W4 m ρ c (Proc.devRef .tc main_arg8) := keep0_4 _ main_arg8 (by decide)
    _ = W3 m ρ c (Proc.devRef .tc main_arg8) := keep0_3 _ main_arg8 (by decide)
    _ = W2 m ρ c (Proc.devRef .tc main_arg8) := keep0_2 _ main_arg8 (by decide)
    _ = W1 m ρ c (Proc.devRef .tc main_arg8) := keep0_1 _ main_arg8 (by decide)
    _ = W0 m ρ c (Proc.devRef .tc main_arg8) := keep0 _ main_arg8 (by decide)
    _ = m ((c : Thread nD τ).loc main_arg8) := rfl

/-- Argument array 19 still holds at the second launch's exit what the program was launched on: nothing in between writes it. -/
theorem W8_main_arg19 : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = W6 m ρ c (Proc.devRef .tc main_arg19) := keep1 _ main_arg19 (by decide)
    _ = W5 m ρ c (Proc.devRef .tc main_arg19) := W6_of_ne m ρ c main_arg19 (by decide)
    _ = W4 m ρ c (Proc.devRef .tc main_arg19) := keep0_4 _ main_arg19 (by decide)
    _ = W3 m ρ c (Proc.devRef .tc main_arg19) := keep0_3 _ main_arg19 (by decide)
    _ = W2 m ρ c (Proc.devRef .tc main_arg19) := keep0_2 _ main_arg19 (by decide)
    _ = W1 m ρ c (Proc.devRef .tc main_arg19) := keep0_1 _ main_arg19 (by decide)
    _ = W0 m ρ c (Proc.devRef .tc main_arg19) := keep0 _ main_arg19 (by decide)
    _ = m ((c : Thread nD τ).loc main_arg19) := rfl

/-- Argument array 21 still holds at the second launch's exit what the program was launched on: nothing in between writes it. -/
theorem W8_main_arg21 : W8 m ρ c (Proc.devRef .tc main_arg21) = m ((c : Thread nD τ).loc main_arg21) :=
  calc W8 m ρ c (Proc.devRef .tc main_arg21)
    _ = W7 m ρ c (Proc.devRef .tc main_arg21) := W8_of_ne m ρ c main_arg21 (by decide)
    _ = W6 m ρ c (Proc.devRef .tc main_arg21) := keep1 _ main_arg21 (by decide)
    _ = W5 m ρ c (Proc.devRef .tc main_arg21) := W6_of_ne m ρ c main_arg21 (by decide)
    _ = W4 m ρ c (Proc.devRef .tc main_arg21) := keep0_4 _ main_arg21 (by decide)
    _ = W3 m ρ c (Proc.devRef .tc main_arg21) := keep0_3 _ main_arg21 (by decide)
    _ = W2 m ρ c (Proc.devRef .tc main_arg21) := keep0_2 _ main_arg21 (by decide)
    _ = W1 m ρ c (Proc.devRef .tc main_arg21) := keep0_1 _ main_arg21 (by decide)
    _ = W0 m ρ c (Proc.devRef .tc main_arg21) := keep0 _ main_arg21 (by decide)
    _ = m ((c : Thread nD τ).loc main_arg21) := rfl

/-- Argument array 23 still holds at the second launch's exit what the program was launched on: nothing in between writes it. -/
theorem W8_main_arg23 : W8 m ρ c (Proc.devRef .tc main_arg23) = m ((c : Thread nD τ).loc main_arg23) :=
  calc W8 m ρ c (Proc.devRef .tc main_arg23)
    _ = W7 m ρ c (Proc.devRef .tc main_arg23) := W8_of_ne m ρ c main_arg23 (by decide)
    _ = W6 m ρ c (Proc.devRef .tc main_arg23) := keep1 _ main_arg23 (by decide)
    _ = W5 m ρ c (Proc.devRef .tc main_arg23) := W6_of_ne m ρ c main_arg23 (by decide)
    _ = W4 m ρ c (Proc.devRef .tc main_arg23) := keep0_4 _ main_arg23 (by decide)
    _ = W3 m ρ c (Proc.devRef .tc main_arg23) := keep0_3 _ main_arg23 (by decide)
    _ = W2 m ρ c (Proc.devRef .tc main_arg23) := keep0_2 _ main_arg23 (by decide)
    _ = W1 m ρ c (Proc.devRef .tc main_arg23) := keep0_1 _ main_arg23 (by decide)
    _ = W0 m ρ c (Proc.devRef .tc main_arg23) := keep0 _ main_arg23 (by decide)
    _ = m ((c : Thread nD τ).loc main_arg23) := rfl

/-- Argument array 12 still holds at the third launch's exit what the program was launched on: nothing in between writes it. -/
theorem W10_main_arg12 : W10 m ρ c (Proc.devRef .tc main_arg12) = m ((c : Thread nD τ).loc main_arg12) :=
  calc W10 m ρ c (Proc.devRef .tc main_arg12)
    _ = W9 m ρ c (Proc.devRef .tc main_arg12) := W10_of_ne m ρ c main_arg12 (by decide)
    _ = W8 m ρ c (Proc.devRef .tc main_arg12) := keep2 _ main_arg12 (by decide)
    _ = W7 m ρ c (Proc.devRef .tc main_arg12) := W8_of_ne m ρ c main_arg12 (by decide)
    _ = W6 m ρ c (Proc.devRef .tc main_arg12) := keep1 _ main_arg12 (by decide)
    _ = W5 m ρ c (Proc.devRef .tc main_arg12) := W6_of_ne m ρ c main_arg12 (by decide)
    _ = W4 m ρ c (Proc.devRef .tc main_arg12) := keep0_4 _ main_arg12 (by decide)
    _ = W3 m ρ c (Proc.devRef .tc main_arg12) := keep0_3 _ main_arg12 (by decide)
    _ = W2 m ρ c (Proc.devRef .tc main_arg12) := keep0_2 _ main_arg12 (by decide)
    _ = W1 m ρ c (Proc.devRef .tc main_arg12) := keep0_1 _ main_arg12 (by decide)
    _ = W0 m ρ c (Proc.devRef .tc main_arg12) := keep0 _ main_arg12 (by decide)
    _ = m ((c : Thread nD τ).loc main_arg12) := rfl

/-- Argument array 13 still holds at the third launch's exit what the program was launched on: nothing in between writes it. -/
theorem W10_main_arg13 : W10 m ρ c (Proc.devRef .tc main_arg13) = m ((c : Thread nD τ).loc main_arg13) :=
  calc W10 m ρ c (Proc.devRef .tc main_arg13)
    _ = W9 m ρ c (Proc.devRef .tc main_arg13) := W10_of_ne m ρ c main_arg13 (by decide)
    _ = W8 m ρ c (Proc.devRef .tc main_arg13) := keep2 _ main_arg13 (by decide)
    _ = W7 m ρ c (Proc.devRef .tc main_arg13) := W8_of_ne m ρ c main_arg13 (by decide)
    _ = W6 m ρ c (Proc.devRef .tc main_arg13) := keep1 _ main_arg13 (by decide)
    _ = W5 m ρ c (Proc.devRef .tc main_arg13) := W6_of_ne m ρ c main_arg13 (by decide)
    _ = W4 m ρ c (Proc.devRef .tc main_arg13) := keep0_4 _ main_arg13 (by decide)
    _ = W3 m ρ c (Proc.devRef .tc main_arg13) := keep0_3 _ main_arg13 (by decide)
    _ = W2 m ρ c (Proc.devRef .tc main_arg13) := keep0_2 _ main_arg13 (by decide)
    _ = W1 m ρ c (Proc.devRef .tc main_arg13) := keep0_1 _ main_arg13 (by decide)
    _ = W0 m ρ c (Proc.devRef .tc main_arg13) := keep0 _ main_arg13 (by decide)
    _ = m ((c : Thread nD τ).loc main_arg13) := rfl

/-- Argument array 15 still holds at the third launch's exit what the program was launched on: nothing in between writes it. -/
theorem W10_main_arg15 : W10 m ρ c (Proc.devRef .tc main_arg15) = m ((c : Thread nD τ).loc main_arg15) :=
  calc W10 m ρ c (Proc.devRef .tc main_arg15)
    _ = W9 m ρ c (Proc.devRef .tc main_arg15) := W10_of_ne m ρ c main_arg15 (by decide)
    _ = W8 m ρ c (Proc.devRef .tc main_arg15) := keep2 _ main_arg15 (by decide)
    _ = W7 m ρ c (Proc.devRef .tc main_arg15) := W8_of_ne m ρ c main_arg15 (by decide)
    _ = W6 m ρ c (Proc.devRef .tc main_arg15) := keep1 _ main_arg15 (by decide)
    _ = W5 m ρ c (Proc.devRef .tc main_arg15) := W6_of_ne m ρ c main_arg15 (by decide)
    _ = W4 m ρ c (Proc.devRef .tc main_arg15) := keep0_4 _ main_arg15 (by decide)
    _ = W3 m ρ c (Proc.devRef .tc main_arg15) := keep0_3 _ main_arg15 (by decide)
    _ = W2 m ρ c (Proc.devRef .tc main_arg15) := keep0_2 _ main_arg15 (by decide)
    _ = W1 m ρ c (Proc.devRef .tc main_arg15) := keep0_1 _ main_arg15 (by decide)
    _ = W0 m ρ c (Proc.devRef .tc main_arg15) := keep0 _ main_arg15 (by decide)
    _ = m ((c : Thread nD τ).loc main_arg15) := rfl

/-- Argument array 17 still holds at the third launch's exit what the program was launched on: nothing in between writes it. -/
theorem W10_main_arg17 : W10 m ρ c (Proc.devRef .tc main_arg17) = m ((c : Thread nD τ).loc main_arg17) :=
  calc W10 m ρ c (Proc.devRef .tc main_arg17)
    _ = W9 m ρ c (Proc.devRef .tc main_arg17) := W10_of_ne m ρ c main_arg17 (by decide)
    _ = W8 m ρ c (Proc.devRef .tc main_arg17) := keep2 _ main_arg17 (by decide)
    _ = W7 m ρ c (Proc.devRef .tc main_arg17) := W8_of_ne m ρ c main_arg17 (by decide)
    _ = W6 m ρ c (Proc.devRef .tc main_arg17) := keep1 _ main_arg17 (by decide)
    _ = W5 m ρ c (Proc.devRef .tc main_arg17) := W6_of_ne m ρ c main_arg17 (by decide)
    _ = W4 m ρ c (Proc.devRef .tc main_arg17) := keep0_4 _ main_arg17 (by decide)
    _ = W3 m ρ c (Proc.devRef .tc main_arg17) := keep0_3 _ main_arg17 (by decide)
    _ = W2 m ρ c (Proc.devRef .tc main_arg17) := keep0_2 _ main_arg17 (by decide)
    _ = W1 m ρ c (Proc.devRef .tc main_arg17) := keep0_1 _ main_arg17 (by decide)
    _ = W0 m ρ c (Proc.devRef .tc main_arg17) := keep0 _ main_arg17 (by decide)
    _ = m ((c : Thread nD τ).loc main_arg17) := rfl

/-- Argument array 25 still holds at the third launch's exit what the program was launched on: nothing in between writes it. -/
theorem W10_main_arg25 : W10 m ρ c (Proc.devRef .tc main_arg25) = m ((c : Thread nD τ).loc main_arg25) :=
  calc W10 m ρ c (Proc.devRef .tc main_arg25)
    _ = W9 m ρ c (Proc.devRef .tc main_arg25) := W10_of_ne m ρ c main_arg25 (by decide)
    _ = W8 m ρ c (Proc.devRef .tc main_arg25) := keep2 _ main_arg25 (by decide)
    _ = W7 m ρ c (Proc.devRef .tc main_arg25) := W8_of_ne m ρ c main_arg25 (by decide)
    _ = W6 m ρ c (Proc.devRef .tc main_arg25) := keep1 _ main_arg25 (by decide)
    _ = W5 m ρ c (Proc.devRef .tc main_arg25) := W6_of_ne m ρ c main_arg25 (by decide)
    _ = W4 m ρ c (Proc.devRef .tc main_arg25) := keep0_4 _ main_arg25 (by decide)
    _ = W3 m ρ c (Proc.devRef .tc main_arg25) := keep0_3 _ main_arg25 (by decide)
    _ = W2 m ρ c (Proc.devRef .tc main_arg25) := keep0_2 _ main_arg25 (by decide)
    _ = W1 m ρ c (Proc.devRef .tc main_arg25) := keep0_1 _ main_arg25 (by decide)
    _ = W0 m ρ c (Proc.devRef .tc main_arg25) := keep0 _ main_arg25 (by decide)
    _ = m ((c : Thread nD τ).loc main_arg25) := rfl

/-- Argument array 11 still holds at the first launch's exit what the program was launched on: nothing in between writes it. -/
theorem W6_main_arg11 : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := keep0_4 _ main_arg11 (by decide)
    _ = W3 m ρ c (Proc.devRef .tc main_arg11) := keep0_3 _ main_arg11 (by decide)
    _ = W2 m ρ c (Proc.devRef .tc main_arg11) := keep0_2 _ main_arg11 (by decide)
    _ = W1 m ρ c (Proc.devRef .tc main_arg11) := keep0_1 _ main_arg11 (by decide)
    _ = W0 m ρ c (Proc.devRef .tc main_arg11) := keep0 _ main_arg11 (by decide)
    _ = m ((c : Thread nD τ).loc main_arg11) := rfl

/-- Argument array 6 still holds at the boundary before the fifth host stretch what the program was launched on: nothing in between writes it. -/
theorem W4_main_arg6 : W4 m ρ c (Proc.devRef .tc main_arg6) = m ((c : Thread nD τ).loc main_arg6) :=
  calc W4 m ρ c (Proc.devRef .tc main_arg6)
    _ = W3 m ρ c (Proc.devRef .tc main_arg6) := keep0_3 _ main_arg6 (by decide)
    _ = W2 m ρ c (Proc.devRef .tc main_arg6) := keep0_2 _ main_arg6 (by decide)
    _ = W1 m ρ c (Proc.devRef .tc main_arg6) := keep0_1 _ main_arg6 (by decide)
    _ = W0 m ρ c (Proc.devRef .tc main_arg6) := keep0 _ main_arg6 (by decide)
    _ = m ((c : Thread nD τ).loc main_arg6) := rfl

/-! ## The reshaped parameter vectors at the launches' entries -/

/-- At the third launch's entry buffer v116 holds argument 7, as launched, reshaped to one row. -/
theorem W9_main_v116 : W9 m ρ c (Proc.devRef .tc main_v116) = shapeCast S1x256 (m ((c : Thread nD τ).loc main_arg7)) shapeCasts_S256_S1x256 :=
  (reshape_main_v116 (W8 m ρ c)).trans (by rw [W8_main_arg7 m ρ c])

/-- At the third launch's entry buffer v117 holds argument 8, as launched, reshaped to one row. -/
theorem W9_main_v117 : W9 m ρ c (Proc.devRef .tc main_v117) = shapeCast S1x256 (m ((c : Thread nD τ).loc main_arg8)) shapeCasts_S256_S1x256 :=
  (reshape_main_v117 (W8 m ρ c)).trans (by rw [W8_main_arg8 m ρ c])

/-- At the third launch's entry buffer v118 holds argument 19, as launched, reshaped to one row. -/
theorem W9_main_v118 : W9 m ρ c (Proc.devRef .tc main_v118) = shapeCast S1x256 (m ((c : Thread nD τ).loc main_arg19)) shapeCasts_S256_S1x256 :=
  (reshape_main_v118 (W8 m ρ c)).trans (by rw [W8_main_arg19 m ρ c])

/-- At the third launch's entry buffer v119 holds argument 21, as launched, reshaped to one row. -/
theorem W9_main_v119 : W9 m ρ c (Proc.devRef .tc main_v119) = shapeCast S1x256 (m ((c : Thread nD τ).loc main_arg21)) shapeCasts_S256_S1x256 :=
  (reshape_main_v119 (W8 m ρ c)).trans (by rw [W8_main_arg21 m ρ c])

/-- At the third launch's entry buffer v120 holds argument 23, as launched, reshaped to one row. -/
theorem W9_main_v120 : W9 m ρ c (Proc.devRef .tc main_v120) = shapeCast S1x128 (m ((c : Thread nD τ).loc main_arg23)) shapeCasts_S128_S1x128 :=
  (reshape_main_v120 (W8 m ρ c)).trans (by rw [W8_main_arg23 m ρ c])

/-- At the fourth launch's entry buffer v122 holds argument 12, as launched, reshaped to one row. -/
theorem W11_main_v122 : W11 m ρ c (Proc.devRef .tc main_v122) = shapeCast S1x256 (m ((c : Thread nD τ).loc main_arg12)) shapeCasts_S256_S1x256 :=
  (reshape_main_v122 (W10 m ρ c)).trans (by rw [W10_main_arg12 m ρ c])

/-- At the fourth launch's entry buffer v123 holds argument 13, as launched, reshaped to one row. -/
theorem W11_main_v123 : W11 m ρ c (Proc.devRef .tc main_v123) = shapeCast S1x256 (m ((c : Thread nD τ).loc main_arg13)) shapeCasts_S256_S1x256 :=
  (reshape_main_v123 (W10 m ρ c)).trans (by rw [W10_main_arg13 m ρ c])

/-- At the fourth launch's entry buffer v124 holds argument 15, as launched, reshaped to one row. -/
theorem W11_main_v124 : W11 m ρ c (Proc.devRef .tc main_v124) = shapeCast S1x256 (m ((c : Thread nD τ).loc main_arg15)) shapeCasts_S256_S1x256 :=
  (reshape_main_v124 (W10 m ρ c)).trans (by rw [W10_main_arg15 m ρ c])

/-- At the fourth launch's entry buffer v125 holds argument 17, as launched, reshaped to one row. -/
theorem W11_main_v125 : W11 m ρ c (Proc.devRef .tc main_v125) = shapeCast S1x256 (m ((c : Thread nD τ).loc main_arg17)) shapeCasts_S256_S1x256 :=
  (reshape_main_v125 (W10 m ρ c)).trans (by rw [W10_main_arg17 m ρ c])

/-- At the fourth launch's entry buffer v126 holds argument 25, as launched, reshaped to one row. -/
theorem W11_main_v126 : W11 m ρ c (Proc.devRef .tc main_v126) = shapeCast S1x128 (m ((c : Thread nD τ).loc main_arg25)) shapeCasts_S128_S1x128 :=
  (reshape_main_v126 (W10 m ρ c)).trans (by rw [W10_main_arg25 m ρ c])

/-- At the second launch's entry buffer v104 holds argument 11, as launched, reshaped to one row. -/
theorem W7_main_v104 : W7 m ρ c (Proc.devRef .tc main_v104) = shapeCast S1x256 (m ((c : Thread nD τ).loc main_arg11)) shapeCasts_S256_S1x256 :=
  (reshape_main_v104 (W6 m ρ c)).trans (by rw [W6_main_arg11 m ρ c])

/-- At the first launch's entry buffer v92 holds argument 6, as launched, reshaped to one row. -/
theorem W5_main_v92 : W5 m ρ c (Proc.devRef .tc main_v92) = shapeCast S1x256 (m ((c : Thread nD τ).loc main_arg6)) shapeCasts_S256_S1x256 :=
  (reshape_main_v92 (W4 m ρ c)).trans (by rw [W4_main_arg6 m ρ c])

/-! ## The fourth launch's operands at its entry -/

/-- The second launch's main output array reaches the fourth launch's entry as the second launch's write-backs left it. -/
theorem W11_main_v105_0 : W11 m ρ c (Proc.devRef .tc main_v105_0) = (dat1 (V7 m ρ) c).arrAt 3 cfg1.N :=
  calc W11 m ρ c (Proc.devRef .tc main_v105_0)
    _ = W10 m ρ c (Proc.devRef .tc main_v105_0) := keep3 _ main_v105_0 (by decide)
    _ = W9 m ρ c (Proc.devRef .tc main_v105_0) := W10_of_ne m ρ c main_v105_0 (by decide)
    _ = W8 m ρ c (Proc.devRef .tc main_v105_0) := keep2 _ main_v105_0 (by decide)
    _ = (dat1 (V7 m ρ) c).arrAt 3 cfg1.N := W8_arr m ρ c 3

/-- The second node type's per-feature mean reaches the fourth launch's entry as computed before the third launch. -/
theorem W11_main_v111 : W11 m ρ c (Proc.devRef .tc main_v111) = W9 m ρ c (Proc.devRef .tc main_v111) :=
  calc W11 m ρ c (Proc.devRef .tc main_v111)
    _ = W10 m ρ c (Proc.devRef .tc main_v111) := keep3 _ main_v111 (by decide)
    _ = W9 m ρ c (Proc.devRef .tc main_v111) := W10_of_ne m ρ c main_v111 (by decide)

/-- The second node type's per-feature variance reaches the fourth launch's entry as computed before the third launch. -/
theorem W11_main_v115 : W11 m ρ c (Proc.devRef .tc main_v115) = W9 m ρ c (Proc.devRef .tc main_v115) :=
  calc W11 m ρ c (Proc.devRef .tc main_v115)
    _ = W10 m ρ c (Proc.devRef .tc main_v115) := keep3 _ main_v115 (by decide)
    _ = W9 m ρ c (Proc.devRef .tc main_v115) := W10_of_ne m ρ c main_v115 (by decide)

/-- The neighbour mean of the second node type reaches the fourth launch's entry as the host computed it before the first launch. -/
theorem W11_main_v65 : W11 m ρ c (Proc.devRef .tc main_v65) = W5 m ρ c (Proc.devRef .tc main_v65) :=
  calc W11 m ρ c (Proc.devRef .tc main_v65)
    _ = W10 m ρ c (Proc.devRef .tc main_v65) := keep3 _ main_v65 (by decide)
    _ = W9 m ρ c (Proc.devRef .tc main_v65) := W10_of_ne m ρ c main_v65 (by decide)
    _ = W8 m ρ c (Proc.devRef .tc main_v65) := keep2 _ main_v65 (by decide)
    _ = W7 m ρ c (Proc.devRef .tc main_v65) := W8_of_ne m ρ c main_v65 (by decide)
    _ = W6 m ρ c (Proc.devRef .tc main_v65) := keep1 _ main_v65 (by decide)
    _ = W5 m ρ c (Proc.devRef .tc main_v65) := W6_of_ne m ρ c main_v65 (by decide)

/-- Argument array 2 still holds at the fourth launch's entry what the program was launched on: nothing in between writes it. -/
theorem W11_main_arg2 : W11 m ρ c (Proc.devRef .tc main_arg2) = m ((c : Thread nD τ).loc main_arg2) :=
  calc W11 m ρ c (Proc.devRef .tc main_arg2)
    _ = W10 m ρ c (Proc.devRef .tc main_arg2) := keep3 _ main_arg2 (by decide)
    _ = W9 m ρ c (Proc.devRef .tc main_arg2) := W10_of_ne m ρ c main_arg2 (by decide)
    _ = W8 m ρ c (Proc.devRef .tc main_arg2) := keep2 _ main_arg2 (by decide)
    _ = W7 m ρ c (Proc.devRef .tc main_arg2) := W8_of_ne m ρ c main_arg2 (by decide)
    _ = W6 m ρ c (Proc.devRef .tc main_arg2) := keep1 _ main_arg2 (by decide)
    _ = W5 m ρ c (Proc.devRef .tc main_arg2) := W6_of_ne m ρ c main_arg2 (by decide)
    _ = W4 m ρ c (Proc.devRef .tc main_arg2) := keep0_4 _ main_arg2 (by decide)
    _ = W3 m ρ c (Proc.devRef .tc main_arg2) := keep0_3 _ main_arg2 (by decide)
    _ = W2 m ρ c (Proc.devRef .tc main_arg2) := keep0_2 _ main_arg2 (by decide)
    _ = W1 m ρ c (Proc.devRef .tc main_arg2) := keep0_1 _ main_arg2 (by decide)
    _ = W0 m ρ c (Proc.devRef .tc main_arg2) := keep0 _ main_arg2 (by decide)
    _ = m ((c : Thread nD τ).loc main_arg2) := rfl

/-- Argument array 14 still holds at the fourth launch's entry what the program was launched on: nothing in between writes it. -/
theorem W11_main_arg14 : W11 m ρ c (Proc.devRef .tc main_arg14) = m ((c : Thread nD τ).loc main_arg14) :=
  calc W11 m ρ c (Proc.devRef .tc main_arg14)
    _ = W10 m ρ c (Proc.devRef .tc main_arg14) := keep3 _ main_arg14 (by decide)
    _ = W9 m ρ c (Proc.devRef .tc main_arg14) := W10_of_ne m ρ c main_arg14 (by decide)
    _ = W8 m ρ c (Proc.devRef .tc main_arg14) := keep2 _ main_arg14 (by decide)
    _ = W7 m ρ c (Proc.devRef .tc main_arg14) := W8_of_ne m ρ c main_arg14 (by decide)
    _ = W6 m ρ c (Proc.devRef .tc main_arg14) := keep1 _ main_arg14 (by decide)
    _ = W5 m ρ c (Proc.devRef .tc main_arg14) := W6_of_ne m ρ c main_arg14 (by decide)
    _ = W4 m ρ c (Proc.devRef .tc main_arg14) := keep0_4 _ main_arg14 (by decide)
    _ = W3 m ρ c (Proc.devRef .tc main_arg14) := keep0_3 _ main_arg14 (by decide)
    _ = W2 m ρ c (Proc.devRef .tc main_arg14) := keep0_2 _ main_arg14 (by decide)
    _ = W1 m ρ c (Proc.devRef .tc main_arg14) := keep0_1 _ main_arg14 (by decide)
    _ = W0 m ρ c (Proc.devRef .tc main_arg14) := keep0 _ main_arg14 (by decide)
    _ = m ((c : Thread nD τ).loc main_arg14) := rfl

/-- Argument array 16 still holds at the fourth launch's entry what the program was launched on: nothing in between writes it. -/
theorem W11_main_arg16 : W11 m ρ c (Proc.devRef .tc main_arg16) = m ((c : Thread nD τ).loc main_arg16) :=
  calc W11 m ρ c (Proc.devRef .tc main_arg16)
    _ = W10 m ρ c (Proc.devRef .tc main_arg16) := keep3 _ main_arg16 (by decide)
    _ = W9 m ρ c (Proc.devRef .tc main_arg16) := W10_of_ne m ρ c main_arg16 (by decide)
    _ = W8 m ρ c (Proc.devRef .tc main_arg16) := keep2 _ main_arg16 (by decide)
    _ = W7 m ρ c (Proc.devRef .tc main_arg16) := W8_of_ne m ρ c main_arg16 (by decide)
    _ = W6 m ρ c (Proc.devRef .tc main_arg16) := keep1 _ main_arg16 (by decide)
    _ = W5 m ρ c (Proc.devRef .tc main_arg16) := W6_of_ne m ρ c main_arg16 (by decide)
    _ = W4 m ρ c (Proc.devRef .tc main_arg16) := keep0_4 _ main_arg16 (by decide)
    _ = W3 m ρ c (Proc.devRef .tc main_arg16) := keep0_3 _ main_arg16 (by decide)
    _ = W2 m ρ c (Proc.devRef .tc main_arg16) := keep0_2 _ main_arg16 (by decide)
    _ = W1 m ρ c (Proc.devRef .tc main_arg16) := keep0_1 _ main_arg16 (by decide)
    _ = W0 m ρ c (Proc.devRef .tc main_arg16) := keep0 _ main_arg16 (by decide)
    _ = m ((c : Thread nD τ).loc main_arg16) := rfl

/-- Argument array 24 still holds at the fourth launch's entry what the program was launched on: nothing in between writes it. -/
theorem W11_main_arg24 : W11 m ρ c (Proc.devRef .tc main_arg24) = m ((c : Thread nD τ).loc main_arg24) :=
  calc W11 m ρ c (Proc.devRef .tc main_arg24)
    _ = W10 m ρ c (Proc.devRef .tc main_arg24) := keep3 _ main_arg24 (by decide)
    _ = W9 m ρ c (Proc.devRef .tc main_arg24) := W10_of_ne m ρ c main_arg24 (by decide)
    _ = W8 m ρ c (Proc.devRef .tc main_arg24) := keep2 _ main_arg24 (by decide)
    _ = W7 m ρ c (Proc.devRef .tc main_arg24) := W8_of_ne m ρ c main_arg24 (by decide)
    _ = W6 m ρ c (Proc.devRef .tc main_arg24) := keep1 _ main_arg24 (by decide)
    _ = W5 m ρ c (Proc.devRef .tc main_arg24) := W6_of_ne m ρ c main_arg24 (by decide)
    _ = W4 m ρ c (Proc.devRef .tc main_arg24) := keep0_4 _ main_arg24 (by decide)
    _ = W3 m ρ c (Proc.devRef .tc main_arg24) := keep0_3 _ main_arg24 (by decide)
    _ = W2 m ρ c (Proc.devRef .tc main_arg24) := keep0_2 _ main_arg24 (by decide)
    _ = W1 m ρ c (Proc.devRef .tc main_arg24) := keep0_1 _ main_arg24 (by decide)
    _ = W0 m ρ c (Proc.devRef .tc main_arg24) := keep0 _ main_arg24 (by decide)
    _ = m ((c : Thread nD τ).loc main_arg24) := rfl

/-! ## The second and the first launch's operands at their entries -/

/-- The second node type's pre-activation reaches the second launch's entry as the host computed it before the first launch. -/
theorem W7_main_v39 : W7 m ρ c (Proc.devRef .tc main_v39) = W5 m ρ c (Proc.devRef .tc main_v39) :=
  calc W7 m ρ c (Proc.devRef .tc main_v39)
    _ = W6 m ρ c (Proc.devRef .tc main_v39) := keep1 _ main_v39 (by decide)
    _ = W5 m ρ c (Proc.devRef .tc main_v39) := W6_of_ne m ρ c main_v39 (by decide)

/-- Argument array 10 still holds at the second launch's entry what the program was launched on: nothing in between writes it. -/
theorem W7_main_arg10 : W7 m ρ c (Proc.devRef .tc main_arg10) = m ((c : Thread nD τ).loc main_arg10) :=
  calc W7 m ρ c (Proc.devRef .tc main_arg10)
    _ = W6 m ρ c (Proc.devRef .tc main_arg10) := keep1 _ main_arg10 (by decide)
    _ = W5 m ρ c (Proc.devRef .tc main_arg10) := W6_of_ne m ρ c main_arg10 (by decide)
    _ = W4 m ρ c (Proc.devRef .tc main_arg10) := keep0_4 _ main_arg10 (by decide)
    _ = W3 m ρ c (Proc.devRef .tc main_arg10) := keep0_3 _ main_arg10 (by decide)
    _ = W2 m ρ c (Proc.devRef .tc main_arg10) := keep0_2 _ main_arg10 (by decide)
    _ = W1 m ρ c (Proc.devRef .tc main_arg10) := keep0_1 _ main_arg10 (by decide)
    _ = W0 m ρ c (Proc.devRef .tc main_arg10) := keep0 _ main_arg10 (by decide)
    _ = m ((c : Thread nD τ).loc main_arg10) := rfl

/-- Argument array 5 still holds at the first launch's entry what the program was launched on: nothing in between writes it. -/
theorem W5_main_arg5 : W5 m ρ c (Proc.devRef .tc main_arg5) = m ((c : Thread nD τ).loc main_arg5) :=
  calc W5 m ρ c (Proc.devRef .tc main_arg5)
    _ = W4 m ρ c (Proc.devRef .tc main_arg5) := keep0_4 _ main_arg5 (by decide)
    _ = W3 m ρ c (Proc.devRef .tc main_arg5) := keep0_3 _ main_arg5 (by decide)
    _ = W2 m ρ c (Proc.devRef .tc main_arg5) := keep0_2 _ main_arg5 (by decide)
    _ = W1 m ρ c (Proc.devRef .tc main_arg5) := keep0_1 _ main_arg5 (by decide)
    _ = W0 m ρ c (Proc.devRef .tc main_arg5) := keep0 _ main_arg5 (by decide)
    _ = m ((c : Thread nD τ).loc main_arg5) := rfl

/-! ## The statistics computed between the launches -/

/-- After the host stretch between the first and the second launch, buffer v99 holds the column sums of the first partial-sum array divided by the row count:
    the per-feature mean of the first launch's output. -/
theorem stat_main_v99 (X : Valuation τ sig (Elt F)) :
    after hostOps1 X (Proc.devRef .tc main_v99) = Host.divf (broadcastInDim S1x256 ![1] bcast_S256_S1x256_1 (Host.reduceAdd (X (Proc.devRef .tc main_v93_1)) (constant (F := F) S_ .f32 0x00000000#32) reducesTo_S200x256_S256_d0 h_S_)) (broadcastInDim S1x256 ![] bcast_S_S1x256 (constant (F := F) S_ .f32 0x47C35000#32)) := by
  after_results

/-- After the same stretch, buffer v103 holds the per-feature mean of squares minus the squared mean. -/
theorem stat_main_v103 (X : Valuation τ sig (Elt F)) :
    after hostOps1 X (Proc.devRef .tc main_v103) = subf (Host.divf (broadcastInDim S1x256 ![1] bcast_S256_S1x256_1 (Host.reduceAdd (X (Proc.devRef .tc main_v93_2)) (constant (F := F) S_ .f32 0x00000000#32) reducesTo_S200x256_S256_d0 h_S_)) (broadcastInDim S1x256 ![] bcast_S_S1x256 (constant (F := F) S_ .f32 0x47C35000#32))) (mulf (Host.divf (broadcastInDim S1x256 ![1] bcast_S256_S1x256_1 (Host.reduceAdd (X (Proc.devRef .tc main_v93_1)) (constant (F := F) S_ .f32 0x00000000#32) reducesTo_S200x256_S256_d0 h_S_)) (broadcastInDim S1x256 ![] bcast_S_S1x256 (constant (F := F) S_ .f32 0x47C35000#32))) (Host.divf (broadcastInDim S1x256 ![1] bcast_S256_S1x256_1 (Host.reduceAdd (X (Proc.devRef .tc main_v93_1)) (constant (F := F) S_ .f32 0x00000000#32) reducesTo_S200x256_S256_d0 h_S_)) (broadcastInDim S1x256 ![] bcast_S_S1x256 (constant (F := F) S_ .f32 0x47C35000#32)))) := by
  after_results

/-- THE MEAN at the second launch's entry: the printed operations applied to the first launch's first partial-sum array. -/
theorem W7_main_v99 : W7 m ρ c (Proc.devRef .tc main_v99)
    = Host.divf (broadcastInDim S1x256 ![1] bcast_S256_S1x256_1 (Host.reduceAdd (((dat0 (V5 m ρ) c).arrAt 4 cfg0.N)) (constant (F := F) S_ .f32 0x00000000#32) reducesTo_S200x256_S256_d0 h_S_)) (broadcastInDim S1x256 ![] bcast_S_S1x256 (constant (F := F) S_ .f32 0x47C35000#32)) :=
  (stat_main_v99 (W6 m ρ c)).trans
    (congrArg (fun p : FVec F S200x256 .f32 => Host.divf (broadcastInDim S1x256 ![1] bcast_S256_S1x256_1 (Host.reduceAdd p (constant (F := F) S_ .f32 0x00000000#32) reducesTo_S200x256_S256_d0 h_S_)) (broadcastInDim S1x256 ![] bcast_S_S1x256 (constant (F := F) S_ .f32 0x47C35000#32))) (W6_arr m ρ c 4))

/-- The variance at the second launch's entry, spelled out over the two partial-sum arrays. -/
theorem W7_main_v103_explicit : W7 m ρ c (Proc.devRef .tc main_v103)
    = subf (Host.divf (broadcastInDim S1x256 ![1] bcast_S256_S1x256_1 (Host.reduceAdd (((dat0 (V5 m ρ) c).arrAt 5 cfg0.N)) (constant (F := F) S_ .f32 0x00000000#32) reducesTo_S200x256_S256_d0 h_S_)) (broadcastInDim S1x256 ![] bcast_S_S1x256 (constant (F := F) S_ .f32 0x47C35000#32))) (mulf (Host.divf (broadcastInDim S1x256 ![1] bcast_S256_S1x256_1 (Host.reduceAdd (((dat0 (V5 m ρ) c).arrAt 4 cfg0.N)) (constant (F := F) S_ .f32 0x00000000#32) reducesTo_S200x256_S256_d0 h_S_)) (broadcastInDim S1x256 ![] bcast_S_S1x256 (constant (F := F) S_ .f32 0x47C35000#32))) (Host.divf (broadcastInDim S1x256 ![1] bcast_S256_S1x256_1 (Host.reduceAdd (((dat0 (V5 m ρ) c).arrAt 4 cfg0.N)) (constant (F := F) S_ .f32 0x00000000#32) reducesTo_S200x256_S256_d0 h_S_)) (broadcastInDim S1x256 ![] bcast_S_S1x256 (constant (F := F) S_ .f32 0x47C35000#32)))) :=
  (stat_main_v103 (W6 m ρ c)).trans
    (congrArg₂ (fun p q : FVec F S200x256 .f32 => subf (Host.divf (broadcastInDim S1x256 ![1] bcast_S256_S1x256_1 (Host.reduceAdd q (constant (F := F) S_ .f32 0x00000000#32) reducesTo_S200x256_S256_d0 h_S_)) (broadcastInDim S1x256 ![] bcast_S_S1x256 (constant (F := F) S_ .f32 0x47C35000#32))) (mulf (Host.divf (broadcastInDim S1x256 ![1] bcast_S256_S1x256_1 (Host.reduceAdd p (constant (F := F) S_ .f32 0x00000000#32) reducesTo_S200x256_S256_d0 h_S_)) (broadcastInDim S1x256 ![] bcast_S_S1x256 (constant (F := F) S_ .f32 0x47C35000#32))) (Host.divf (broadcastInDim S1x256 ![1] bcast_S256_S1x256_1 (Host.reduceAdd p (constant (F := F) S_ .f32 0x00000000#32) reducesTo_S200x256_S256_d0 h_S_)) (broadcastInDim S1x256 ![] bcast_S_S1x256 (constant (F := F) S_ .f32 0x47C35000#32))))) (W6_arr m ρ c 4) (W6_arr m ρ c 5))

/-- THE VARIANCE at the second launch's entry: the mean of squares (from the second partial-sum array) minus the square of the mean. -/
theorem W7_main_v103 : W7 m ρ c (Proc.devRef .tc main_v103)
    = subf (Host.divf (broadcastInDim S1x256 ![1] bcast_S256_S1x256_1 (Host.reduceAdd (((dat0 (V5 m ρ) c).arrAt 5 cfg0.N)) (constant (F := F) S_ .f32 0x00000000#32) reducesTo_S200x256_S256_d0 h_S_)) (broadcastInDim S1x256 ![] bcast_S_S1x256 (constant (F := F) S_ .f32 0x47C35000#32)))
        (mulf (W7 m ρ c (Proc.devRef .tc main_v99)) (W7 m ρ c (Proc.devRef .tc main_v99))) := by
  rw [W7_main_v99 m ρ c]; exact W7_main_v103_explicit m ρ c

/-- After the host stretch between the second and the third launch, buffer v111 holds the column sums of the first partial-sum array divided by the row count:
    the per-feature mean of the second launch's output. -/
theorem stat_main_v111 (X : Valuation τ sig (Elt F)) :
    after hostOps2 X (Proc.devRef .tc main_v111) = Host.divf (broadcastInDim S1x256 ![1] bcast_S256_S1x256_1 (Host.reduceAdd (X (Proc.devRef .tc main_v105_1)) (constant (F := F) S_ .f32 0x00000000#32) reducesTo_S200x256_S256_d0 h_S_)) (broadcastInDim S1x256 ![] bcast_S_S1x256 (constant (F := F) S_ .f32 0x46C35000#32)) := by
  after_results

/-- After the same stretch, buffer v115 holds the per-feature mean of squares minus the squared mean. -/
theorem stat_main_v115 (X : Valuation τ sig (Elt F)) :
    after hostOps2 X (Proc.devRef .tc main_v115) = subf (Host.divf (broadcastInDim S1x256 ![1] bcast_S256_S1x256_1 (Host.reduceAdd (X (Proc.devRef .tc main_v105_2)) (constant (F := F) S_ .f32 0x00000000#32) reducesTo_S200x256_S256_d0 h_S_)) (broadcastInDim S1x256 ![] bcast_S_S1x256 (constant (F := F) S_ .f32 0x46C35000#32))) (mulf (Host.divf (broadcastInDim S1x256 ![1] bcast_S256_S1x256_1 (Host.reduceAdd (X (Proc.devRef .tc main_v105_1)) (constant (F := F) S_ .f32 0x00000000#32) reducesTo_S200x256_S256_d0 h_S_)) (broadcastInDim S1x256 ![] bcast_S_S1x256 (constant (F := F) S_ .f32 0x46C35000#32))) (Host.divf (broadcastInDim S1x256 ![1] bcast_S256_S1x256_1 (Host.reduceAdd (X (Proc.devRef .tc main_v105_1)) (constant (F := F) S_ .f32 0x00000000#32) reducesTo_S200x256_S256_d0 h_S_)) (broadcastInDim S1x256 ![] bcast_S_S1x256 (constant (F := F) S_ .f32 0x46C35000#32)))) := by
  after_results

/-- THE MEAN at the third launch's entry: the printed operations applied to the second launch's first partial-sum array. -/
theorem W9_main_v111 : W9 m ρ c (Proc.devRef .tc main_v111)
    = Host.divf (broadcastInDim S1x256 ![1] bcast_S256_S1x256_1 (Host.reduceAdd (((dat1 (V7 m ρ) c).arrAt 4 cfg1.N)) (constant (F := F) S_ .f32 0x00000000#32) reducesTo_S200x256_S256_d0 h_S_)) (broadcastInDim S1x256 ![] bcast_S_S1x256 (constant (F := F) S_ .f32 0x46C35000#32)) :=
  (stat_main_v111 (W8 m ρ c)).trans
    (congrArg (fun p : FVec F S200x256 .f32 => Host.divf (broadcastInDim S1x256 ![1] bcast_S256_S1x256_1 (Host.reduceAdd p (constant (F := F) S_ .f32 0x00000000#32) reducesTo_S200x256_S256_d0 h_S_)) (broadcastInDim S1x256 ![] bcast_S_S1x256 (constant (F := F) S_ .f32 0x46C35000#32))) (W8_arr m ρ c 4))

/-- The variance at the third launch's entry, spelled out over the two partial-sum arrays. -/
theorem W9_main_v115_explicit : W9 m ρ c (Proc.devRef .tc main_v115)
    = subf (Host.divf (broadcastInDim S1x256 ![1] bcast_S256_S1x256_1 (Host.reduceAdd (((dat1 (V7 m ρ) c).arrAt 5 cfg1.N)) (constant (F := F) S_ .f32 0x00000000#32) reducesTo_S200x256_S256_d0 h_S_)) (broadcastInDim S1x256 ![] bcast_S_S1x256 (constant (F := F) S_ .f32 0x46C35000#32))) (mulf (Host.divf (broadcastInDim S1x256 ![1] bcast_S256_S1x256_1 (Host.reduceAdd (((dat1 (V7 m ρ) c).arrAt 4 cfg1.N)) (constant (F := F) S_ .f32 0x00000000#32) reducesTo_S200x256_S256_d0 h_S_)) (broadcastInDim S1x256 ![] bcast_S_S1x256 (constant (F := F) S_ .f32 0x46C35000#32))) (Host.divf (broadcastInDim S1x256 ![1] bcast_S256_S1x256_1 (Host.reduceAdd (((dat1 (V7 m ρ) c).arrAt 4 cfg1.N)) (constant (F := F) S_ .f32 0x00000000#32) reducesTo_S200x256_S256_d0 h_S_)) (broadcastInDim S1x256 ![] bcast_S_S1x256 (constant (F := F) S_ .f32 0x46C35000#32)))) :=
  (stat_main_v115 (W8 m ρ c)).trans
    (congrArg₂ (fun p q : FVec F S200x256 .f32 => subf (Host.divf (broadcastInDim S1x256 ![1] bcast_S256_S1x256_1 (Host.reduceAdd q (constant (F := F) S_ .f32 0x00000000#32) reducesTo_S200x256_S256_d0 h_S_)) (broadcastInDim S1x256 ![] bcast_S_S1x256 (constant (F := F) S_ .f32 0x46C35000#32))) (mulf (Host.divf (broadcastInDim S1x256 ![1] bcast_S256_S1x256_1 (Host.reduceAdd p (constant (F := F) S_ .f32 0x00000000#32) reducesTo_S200x256_S256_d0 h_S_)) (broadcastInDim S1x256 ![] bcast_S_S1x256 (constant (F := F) S_ .f32 0x46C35000#32))) (Host.divf (broadcastInDim S1x256 ![1] bcast_S256_S1x256_1 (Host.reduceAdd p (constant (F := F) S_ .f32 0x00000000#32) reducesTo_S200x256_S256_d0 h_S_)) (broadcastInDim S1x256 ![] bcast_S_S1x256 (constant (F := F) S_ .f32 0x46C35000#32))))) (W8_arr m ρ c 4) (W8_arr m ρ c 5))

/-- THE VARIANCE at the third launch's entry: the mean of squares (from the second partial-sum array) minus the square of the mean. -/
theorem W9_main_v115 : W9 m ρ c (Proc.devRef .tc main_v115)
    = subf (Host.divf (broadcastInDim S1x256 ![1] bcast_S256_S1x256_1 (Host.reduceAdd (((dat1 (V7 m ρ) c).arrAt 5 cfg1.N)) (constant (F := F) S_ .f32 0x00000000#32) reducesTo_S200x256_S256_d0 h_S_)) (broadcastInDim S1x256 ![] bcast_S_S1x256 (constant (F := F) S_ .f32 0x46C35000#32)))
        (mulf (W9 m ρ c (Proc.devRef .tc main_v111)) (W9 m ρ c (Proc.devRef .tc main_v111))) := by
  rw [W9_main_v111 m ρ c]; exact W9_main_v115_explicit m ρ c

end Cert.KernelIdeal.KWalk

end
-- ==== Proof.KReg0.lean ====
/-
  The first linear-layer launch (the atom level), from its blocks to its arrays.

  The launch runs over 25 grid points.  At point t it reads rows 4000 t … 4000 t + 3999 of the aggregated
  features [100000, 128], the whole weight matrix [128, 256] and the whole bias row [1, 256], and writes back
  rows 4000 t … 4000 t + 3999 of the result [100000, 256] and rows 8 t … 8 t + 7 of the two arrays [200, 256] of
  scaled partial column sums.  The blocks written back tile each output array, so each array after the launch
  is one function of the arrays the launch found.
-/
import proofs.«151819_j60404420051112_2_alg».proof.Proof.Gen.KernelIdeal.Frame
import Idealize.ShloMosaic.Lib.ValueIdx
import Idealize.ShloMosaic.Lib.Pipeline.Value

set_option maxRecDepth 16384

noncomputable section

namespace Cert.KernelIdeal.KReg0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offset (0, 0) is the zero function. -/
theorem hz : (![0, 0] : Fin 2 → Nat) = fun _ => 0 := funext fun a => by fin_cases a <;> rfl

/-- The block index of each window at each grid point: the row-tiled windows sit at (t, 0), the whole ones at (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row p of the features' block at point t is row 4000 t + p of the array. -/
theorem iblk0_0_apply (c : Dev nD) (t : Fin cfg0.N) (p : Fin 4000) (j : Fin 128) (r : Fin 100000)
    (hr : r.val = 4000 * t.val + p.val) :
    (iblk0 V c 0 t : Vec Ideal S4000x128 .f32) (ix2 p j) = (V c main_v35 : S100000x128.Idx → EReal) (ix2 r j) := by
  unfold iblk0
  rw [View.read_apply]
  show V c main_v35 _ = V c main_v35 _
  refine congrArg _ ?_
  funext a
  apply Fin.ext
  match a with
  | ⟨0, _⟩ => show win0_0.index t (0 : Fin 2) * 4000 + 1 * p.val = r.val; rw [(idx0 t).1, hr]; omega
  | ⟨1, _⟩ => show win0_0.index t (1 : Fin 2) * 128 + 1 * j.val = j.val; rw [(idx0 t).2.1]; omega

/-- The weights' block at every point is the whole matrix. -/
theorem iblk0_1_apply (c : Dev nD) (t : Fin cfg0.N) (j : Fin 128) (q : Fin 256) :
    (iblk0 V c 1 t : Vec Ideal S128x256 .f32) (ix2 j q) = (V c main_arg5 : S128x256.Idx → EReal) (ix2 j q) := by
  unfold iblk0
  rw [View.read_apply]
  show V c main_arg5 _ = V c main_arg5 _
  refine congrArg _ ?_
  funext a
  apply Fin.ext
  match a with
  | ⟨0, _⟩ => show win0_1.index t (0 : Fin 2) * 128 + 1 * j.val = j.val; rw [(idx0 t).2.2.1]; omega
  | ⟨1, _⟩ => show win0_1.index t (1 : Fin 2) * 256 + 1 * q.val = q.val; rw [(idx0 t).2.2.2.1]; omega

/-- The bias row's block at every point is the whole row. -/
theorem iblk0_2_apply (c : Dev nD) (t : Fin cfg0.N) (z : Fin 1) (q : Fin 256) :
    (iblk0 V c 2 t : Vec Ideal S1x256 .f32) (ix2 z q) = (V c main_v92 : S1x256.Idx → EReal) (ix2 z q) := by
  unfold iblk0
  rw [View.read_apply]
  show V c main_v92 _ = V c main_v92 _
  refine congrArg _ ?_
  funext a
  apply Fin.ext
  match a with
  | ⟨0, _⟩ => show win0_2.index t (0 : Fin 2) * 1 + 1 * z.val = z.val; rw [(idx0 t).2.2.2.2.1]; omega
  | ⟨1, _⟩ => show win0_2.index t (1 : Fin 2) * 256 + 1 * q.val = q.val; rw [(idx0 t).2.2.2.2.2.1]; omega

/-! ## The three output arrays as functions of the arrays the launch found -/

/-- The linear layer at (r, q): Σ_j A(r,j) · W(j,q) + b(0,q) over the arrays the launch found. -/
def lin0 (X : S100000x128.Idx → EReal) (W : S128x256.Idx → EReal) (b : S1x256.Idx → EReal) (r : Fin 100000) (q : Fin 256) : EReal :=
  (∑ j : Fin 128, X (ix2 r j) * W (ix2 j q)) + b (ix2 (0 : Fin 1) q)

/-- The same over the arrays the launch found. -/
def Y0 (c : Dev nD) (r : Fin 100000) (q : Fin 256) : EReal :=
  lin0 (V c main_v35) (V c main_arg5) (V c main_v92) r q

/-- The result array [100000, 256]. -/
def G3 (c : Dev nD) : S100000x256.Idx → EReal := fun i => Y0 V c ⟨(i 0).val, idx2_lt0 i⟩ ⟨(i 1).val, idx2_lt1 i⟩

/-- Row i of the scaled partial sums [200, 256]: the column sum of tile i / 8, times the scale word w. -/
def G4 (w : EReal) (c : Dev nD) : S200x256.Idx → EReal := fun i =>
  (∑ p : Fin 4000, Y0 V c ⟨4000 * ((i 0).val / 8) + p.val, by have := idx2_lt0 i; have := p.isLt; omega⟩ ⟨(i 1).val, idx2_lt1 i⟩) * w

/-- Row i of the scaled partial sums of squares [200, 256]. -/
def G5 (w : EReal) (c : Dev nD) : S200x256.Idx → EReal := fun i =>
  (∑ p : Fin 4000, Y0 V c ⟨4000 * ((i 0).val / 8) + p.val, by have := idx2_lt0 i; have := p.isLt; omega⟩ ⟨(i 1).val, idx2_lt1 i⟩
      * Y0 V c ⟨4000 * ((i 0).val / 8) + p.val, by have := idx2_lt0 i; have := p.isLt; omega⟩ ⟨(i 1).val, idx2_lt1 i⟩) * w

/-- The body's linear-layer value at local (p, q) of point t is the linear layer at row 4000 t + p. -/
theorem pay1_at (c : Dev nD) (t : Fin cfg0.N) (p : Fin 4000) (q : Fin 256) (r : Fin 100000) (hr : r.val = 4000 * t.val + p.val)
    (hpay1 : ∀ (v0 : Vec Ideal S4000x128 .f32) (v3 : Vec Ideal S128x256 .f32) (v6 : Vec Ideal S1x256 .f32) (p : Fin 4000) (q : Fin 256),
      k0_pay1 (F := Ideal) v0 v3 v6 (ix2 p q) = (∑ j : Fin 128, v0 (ix2 p j) * v3 (ix2 j q)) + v6 (ix2 (0 : Fin 1) q)) :
    k0_pay1 (F := Ideal) (iblk0 V c 0 t) (iblk0 V c 1 t) (iblk0 V c 2 t) (ix2 p q) = Y0 V c r q := by
  refine (hpay1 _ _ _ p q).trans ?_
  unfold Y0 lin0
  rw [iblk0_2_apply V c t 0 q]
  refine congrArg (· + _) (Finset.sum_congr rfl fun j _ => ?_)
  rw [iblk0_0_apply V c t p j r hr, iblk0_1_apply V c t j q]

/-- What point t writes back into the result array is block t of G3. -/
theorem flushed0_3 (c : Dev nD) (t : Fin cfg0.N)
    (hpay1 : ∀ (v0 : Vec Ideal S4000x128 .f32) (v3 : Vec Ideal S128x256 .f32) (v6 : Vec Ideal S1x256 .f32) (p : Fin 4000) (q : Fin 256),
      k0_pay1 (F := Ideal) v0 v3 v6 (ix2 p q) = (∑ j : Fin 128, v0 (ix2 p j) * v3 (ix2 j q)) + v6 (ix2 (0 : Fin 1) q)) :
    (dat0 V c).flushed 3 t = ((cfg0.win 3).blk t).view.read (Elt Ideal) (G3 V c) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x256) hz, View.ld_unit_zero (S := S1x256) hz]
  funext y
  obtain ⟨p, q, rfl⟩ : ∃ (p : Fin 4000) (q : Fin 256), y = ix2 p q := ⟨y 0, y 1, eq_ix2 y⟩
  have ht : t.val < 25 := (N_0 : grid0.N = 25) ▸ t.isLt
  have hr : 4000 * t.val + p.val < 100000 := by have := p.isLt; omega
  have hemb : ((cfg0.win 3).blk t).view.emb (ix2 p q) = (ix2 (⟨4000 * t.val + p.val, hr⟩ : Fin 100000) q : S100000x256.Idx) := by
    funext a
    apply Fin.ext
    match a with
    | ⟨0, _⟩ => show win0_3.index t (0 : Fin 2) * 4000 + 1 * p.val = 4000 * t.val + p.val; rw [(idx0 t).2.2.2.2.2.2.1]; omega
    | ⟨1, _⟩ => show win0_3.index t (1 : Fin 2) * 256 + 1 * q.val = q.val; rw [(idx0 t).2.2.2.2.2.2.2.1]; omega
  show k0_pay1 (F := Ideal) (iblk0 V c 0 t) (iblk0 V c 1 t) (iblk0 V c 2 t) (ix2 p q) = G3 V c (((cfg0.win 3).blk t).view.emb (ix2 p q))
  rw [hemb]
  exact pay1_at V c t p q _ rfl hpay1

/-- An index of the result array is in point t's block iff each coordinate is in the block's range. -/
theorem mem_blk0_3 (t : Fin cfg0.N) (i : S100000x256.Idx) :
    i ∈ ((cfg0.win 3).blk t).view.set ↔ ∀ a : Fin 2, win0_3.index t a * S4000x256.size a ≤ (i a).val ∧ (i a).val < win0_3.index t a * S4000x256.size a + S4000x256.size a := by
  show i ∈ ((View.whole main_v93_0).slice (win0_3.rect t)).set ↔ _
  rw [View.set_slice_whole, Rect.mem_set_unit]
  exact Iff.rfl

/-- Every row of the result array lies in the block of the point (row / 4000). -/
theorem covered0_3 (i : S100000x256.Idx) : ∃ t : Fin cfg0.N, (cfg0.win 3).flush t = true ∧ i ∈ ((cfg0.win 3).blk t).view.set := by
  have h0 := idx2_lt0 i
  have h1 := idx2_lt1 i
  have hN : grid0.N = 25 := N_0
  refine ⟨⟨(i 0).val / 4000, by show _ < grid0.N; rw [hN]; omega⟩, flush0_3 _, ?_⟩
  rw [mem_blk0_3]
  intro a
  match a with
  | ⟨0, _⟩ =>
    show win0_3.index _ (0 : Fin 2) * 4000 ≤ (i 0).val ∧ (i 0).val < win0_3.index _ (0 : Fin 2) * 4000 + 4000
    rw [(idx0 _).2.2.2.2.2.2.1]
    show (i 0).val / 4000 * 4000 ≤ (i 0).val ∧ (i 0).val < (i 0).val / 4000 * 4000 + 4000
    omega
  | ⟨1, _⟩ =>
    show win0_3.index _ (1 : Fin 2) * 256 ≤ (i 1).val ∧ (i 1).val < win0_3.index _ (1 : Fin 2) * 256 + 256
    rw [(idx0 _).2.2.2.2.2.2.2.1]
    omega

/-- THE RESULT ARRAY after the launch is the linear layer of the arrays the launch found. -/
theorem final0_3 (c : Dev nD)
    (hpay1 : ∀ (v0 : Vec Ideal S4000x128 .f32) (v3 : Vec Ideal S128x256 .f32) (v6 : Vec Ideal S1x256 .f32) (p : Fin 4000) (q : Fin 256),
      k0_pay1 (F := Ideal) v0 v3 v6 (ix2 p q) = (∑ j : Fin 128, v0 (ix2 p j) * v3 (ix2 j q)) + v6 (ix2 (0 : Fin 1) q)) :
    (dat0 V c).arrAt 3 cfg0.N = G3 V c :=
  (dat0 V c).arrAt_eq_of_cover 3 (G3 V c) (fun t _ => flushed0_3 V c t hpay1) covered0_3

/-- What point t writes back into partial-sum array 4 is block t of G4. -/
theorem flushed0_4 (wd : EReal) (c : Dev nD) (t : Fin cfg0.N)
    (hpay1 : ∀ (v0 : Vec Ideal S4000x128 .f32) (v3 : Vec Ideal S128x256 .f32) (v6 : Vec Ideal S1x256 .f32) (p : Fin 4000) (q : Fin 256),
      k0_pay1 (F := Ideal) v0 v3 v6 (ix2 p q) = (∑ j : Fin 128, v0 (ix2 p j) * v3 (ix2 j q)) + v6 (ix2 (0 : Fin 1) q))
    (hpayS : ∀ (v0 : Vec Ideal S4000x128 .f32) (v3 : Vec Ideal S128x256 .f32) (v6 : Vec Ideal S1x256 .f32) (u : Fin 8) (q : Fin 256),
      k0_pay2 (F := Ideal) v0 v3 v6 (ix2 u q) = (∑ p : Fin 4000, k0_pay1 (F := Ideal) v0 v3 v6 (ix2 p q)) * wd) :
    (dat0 V c).flushed 4 t = ((cfg0.win 4).blk t).view.read (Elt Ideal) (G4 V wd c) := by
  show (cfg0.win 4).cut (grid0.coords t) ((dat0 V c).after 4 t) = _
  rw [after0_4]
  unfold out0_4
  rw [View.canon_unit_zero hz]
  simp only [View.ld_unit_zero (S := S4000x128) hz, View.ld_unit_zero (S := S128x256) hz, View.ld_unit_zero (S := S1x256) hz]
  funext y
  obtain ⟨u, q, rfl⟩ : ∃ (u : Fin 8) (q : Fin 256), y = ix2 u q := ⟨y 0, y 1, eq_ix2 y⟩
  have ht : t.val < 25 := (N_0 : grid0.N = 25) ▸ t.isLt
  have hu : 8 * t.val + u.val < 200 := by have := u.isLt; omega
  have hemb : ((cfg0.win 4).blk t).view.emb (ix2 u q) = (ix2 (⟨8 * t.val + u.val, hu⟩ : Fin 200) q : S200x256.Idx) := by
    funext a
    apply Fin.ext
    match a with
    | ⟨0, _⟩ => show win0_4.index t (0 : Fin 2) * 8 + 1 * u.val = 8 * t.val + u.val; rw [(idx0 t).2.2.2.2.2.2.2.2.1]; omega
    | ⟨1, _⟩ => show win0_4.index t (1 : Fin 2) * 256 + 1 * q.val = q.val; rw [(idx0 t).2.2.2.2.2.2.2.2.2.1]; omega
  show k0_pay2 (F := Ideal) (iblk0 V c 0 t) (iblk0 V c 1 t) (iblk0 V c 2 t) (ix2 u q) = G4 V wd c (((cfg0.win 4).blk t).view.emb (ix2 u q))
  rw [hemb]
  refine (hpayS _ _ _ u q).trans ?_
  refine congrArg (· * wd) (Finset.sum_congr rfl fun p _ => ?_)
  have hr : 4000 * t.val + p.val < 100000 := by have := p.isLt; omega
  have e1 : (⟨4000 * t.val + p.val, hr⟩ : Fin 100000)
      = ⟨4000 * ((8 * t.val + u.val) / 8) + p.val, by have := p.isLt; have := u.isLt; omega⟩ :=
    Fin.ext (by show 4000 * t.val + p.val = 4000 * ((8 * t.val + u.val) / 8) + p.val; have := u.isLt; omega)
  rw [pay1_at V c t p q ⟨4000 * t.val + p.val, hr⟩ rfl hpay1]
  exact congrArg (fun r => Y0 V c r q) e1

/-- An index of partial-sum array 4 is in point t's block iff each coordinate is in the block's range. -/
theorem mem_blk0_4 (t : Fin cfg0.N) (i : S200x256.Idx) :
    i ∈ ((cfg0.win 4).blk t).view.set ↔ ∀ a : Fin 2, win0_4.index t a * S8x256.size a ≤ (i a).val ∧ (i a).val < win0_4.index t a * S8x256.size a + S8x256.size a := by
  show i ∈ ((View.whole main_v93_1).slice (win0_4.rect t)).set ↔ _
  rw [View.set_slice_whole, Rect.mem_set_unit]
  exact Iff.rfl

/-- Every row of partial-sum array 4 lies in the block of the point (row / 8). -/
theorem covered0_4 (i : S200x256.Idx) : ∃ t : Fin cfg0.N, (cfg0.win 4).flush t = true ∧ i ∈ ((cfg0.win 4).blk t).view.set := by
  have h0 := idx2_lt0 i
  have h1 := idx2_lt1 i
  have hN : grid0.N = 25 := N_0
  refine ⟨⟨(i 0).val / 8, by show _ < grid0.N; rw [hN]; omega⟩, flush0_4 _, ?_⟩
  rw [mem_blk0_4]
  intro a
  match a with
  | ⟨0, _⟩ =>
    show win0_4.index _ (0 : Fin 2) * 8 ≤ (i 0).val ∧ (i 0).val < win0_4.index _ (0 : Fin 2) * 8 + 8
    rw [(idx0 _).2.2.2.2.2.2.2.2.1]
    show (i 0).val / 8 * 8 ≤ (i 0).val ∧ (i 0).val < (i 0).val / 8 * 8 + 8
    omega
  | ⟨1, _⟩ =>
    show win0_4.index _ (1 : Fin 2) * 256 ≤ (i 1).val ∧ (i 1).val < win0_4.index _ (1 : Fin 2) * 256 + 256
    rw [(idx0 _).2.2.2.2.2.2.2.2.2.1]
    omega

/-- PARTIAL-SUM ARRAY 4 after the launch. -/
theorem final0_4 (wd : EReal) (c : Dev nD)
    (hpay1 : ∀ (v0 : Vec Ideal S4000x128 .f32) (v3 : Vec Ideal S128x256 .f32) (v6 : Vec Ideal S1x256 .f32) (p : Fin 4000) (q : Fin 256),
      k0_pay1 (F := Ideal) v0 v3 v6 (ix2 p q) = (∑ j : Fin 128, v0 (ix2 p j) * v3 (ix2 j q)) + v6 (ix2 (0 : Fin 1) q))
    (hpayS : ∀ (v0 : Vec Ideal S4000x128 .f32) (v3 : Vec Ideal S128x256 .f32) (v6 : Vec Ideal S1x256 .f32) (u : Fin 8) (q : Fin 256),
      k0_pay2 (F := Ideal) v0 v3 v6 (ix2 u q) = (∑ p : Fin 4000, k0_pay1 (F := Ideal) v0 v3 v6 (ix2 p q)) * wd) :
    (dat0 V c).arrAt 4 cfg0.N = G4 V wd c :=
  (dat0 V c).arrAt_eq_of_cover 4 (G4 V wd c) (fun t _ => flushed0_4 V wd c t hpay1 hpayS) covered0_4

/-- What point t writes back into partial-sum array 5 is block t of G5. -/
theorem flushed0_5 (wd : EReal) (c : Dev nD) (t : Fin cfg0.N)
    (hpay1 : ∀ (v0 : Vec Ideal S4000x128 .f32) (v3 : Vec Ideal S128x256 .f32) (v6 : Vec Ideal S1x256 .f32) (p : Fin 4000) (q : Fin 256),
      k0_pay1 (F := Ideal) v0 v3 v6 (ix2 p q) = (∑ j : Fin 128, v0 (ix2 p j) * v3 (ix2 j q)) + v6 (ix2 (0 : Fin 1) q))
    (hpayS : ∀ (v0 : Vec Ideal S4000x128 .f32) (v3 : Vec Ideal S128x256 .f32) (v6 : Vec Ideal S1x256 .f32) (u : Fin 8) (q : Fin 256),
      k0_pay3 (F := Ideal) v0 v3 v6 (ix2 u q) = (∑ p : Fin 4000, k0_pay1 (F := Ideal) v0 v3 v6 (ix2 p q) * k0_pay1 (F := Ideal) v0 v3 v6 (ix2 p q)) * wd) :
    (dat0 V c).flushed 5 t = ((cfg0.win 5).blk t).view.read (Elt Ideal) (G5 V wd c) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x256) hz, View.ld_unit_zero (S := S1x256) hz]
  funext y
  obtain ⟨u, q, rfl⟩ : ∃ (u : Fin 8) (q : Fin 256), y = ix2 u q := ⟨y 0, y 1, eq_ix2 y⟩
  have ht : t.val < 25 := (N_0 : grid0.N = 25) ▸ t.isLt
  have hu : 8 * t.val + u.val < 200 := by have := u.isLt; omega
  have hemb : ((cfg0.win 5).blk t).view.emb (ix2 u q) = (ix2 (⟨8 * t.val + u.val, hu⟩ : Fin 200) q : S200x256.Idx) := by
    funext a
    apply Fin.ext
    match a with
    | ⟨0, _⟩ => show win0_5.index t (0 : Fin 2) * 8 + 1 * u.val = 8 * t.val + u.val; rw [(idx0 t).2.2.2.2.2.2.2.2.2.2.1]; omega
    | ⟨1, _⟩ => show win0_5.index t (1 : Fin 2) * 256 + 1 * q.val = q.val; rw [(idx0 t).2.2.2.2.2.2.2.2.2.2.2]; omega
  show k0_pay3 (F := Ideal) (iblk0 V c 0 t) (iblk0 V c 1 t) (iblk0 V c 2 t) (ix2 u q) = G5 V wd c (((cfg0.win 5).blk t).view.emb (ix2 u q))
  rw [hemb]
  refine (hpayS _ _ _ u q).trans ?_
  refine congrArg (· * wd) (Finset.sum_congr rfl fun p _ => ?_)
  have hr : 4000 * t.val + p.val < 100000 := by have := p.isLt; omega
  have e1 : (⟨4000 * t.val + p.val, hr⟩ : Fin 100000)
      = ⟨4000 * ((8 * t.val + u.val) / 8) + p.val, by have := p.isLt; have := u.isLt; omega⟩ :=
    Fin.ext (by show 4000 * t.val + p.val = 4000 * ((8 * t.val + u.val) / 8) + p.val; have := u.isLt; omega)
  rw [pay1_at V c t p q ⟨4000 * t.val + p.val, hr⟩ rfl hpay1]
  exact congrArg (fun r => Y0 V c r q * Y0 V c r q) e1

/-- An index of partial-sum array 5 is in point t's block iff each coordinate is in the block's range. -/
theorem mem_blk0_5 (t : Fin cfg0.N) (i : S200x256.Idx) :
    i ∈ ((cfg0.win 5).blk t).view.set ↔ ∀ a : Fin 2, win0_5.index t a * S8x256.size a ≤ (i a).val ∧ (i a).val < win0_5.index t a * S8x256.size a + S8x256.size a := by
  show i ∈ ((View.whole main_v93_2).slice (win0_5.rect t)).set ↔ _
  rw [View.set_slice_whole, Rect.mem_set_unit]
  exact Iff.rfl

/-- Every row of partial-sum array 5 lies in the block of the point (row / 8). -/
theorem covered0_5 (i : S200x256.Idx) : ∃ t : Fin cfg0.N, (cfg0.win 5).flush t = true ∧ i ∈ ((cfg0.win 5).blk t).view.set := by
  have h0 := idx2_lt0 i
  have h1 := idx2_lt1 i
  have hN : grid0.N = 25 := N_0
  refine ⟨⟨(i 0).val / 8, by show _ < grid0.N; rw [hN]; omega⟩, flush0_5 _, ?_⟩
  rw [mem_blk0_5]
  intro a
  match a with
  | ⟨0, _⟩ =>
    show win0_5.index _ (0 : Fin 2) * 8 ≤ (i 0).val ∧ (i 0).val < win0_5.index _ (0 : Fin 2) * 8 + 8
    rw [(idx0 _).2.2.2.2.2.2.2.2.2.2.1]
    show (i 0).val / 8 * 8 ≤ (i 0).val ∧ (i 0).val < (i 0).val / 8 * 8 + 8
    omega
  | ⟨1, _⟩ =>
    show win0_5.index _ (1 : Fin 2) * 256 ≤ (i 1).val ∧ (i 1).val < win0_5.index _ (1 : Fin 2) * 256 + 256
    rw [(idx0 _).2.2.2.2.2.2.2.2.2.2.2]
    omega

/-- PARTIAL-SUM ARRAY 5 after the launch. -/
theorem final0_5 (wd : EReal) (c : Dev nD)
    (hpay1 : ∀ (v0 : Vec Ideal S4000x128 .f32) (v3 : Vec Ideal S128x256 .f32) (v6 : Vec Ideal S1x256 .f32) (p : Fin 4000) (q : Fin 256),
      k0_pay1 (F := Ideal) v0 v3 v6 (ix2 p q) = (∑ j : Fin 128, v0 (ix2 p j) * v3 (ix2 j q)) + v6 (ix2 (0 : Fin 1) q))
    (hpayS : ∀ (v0 : Vec Ideal S4000x128 .f32) (v3 : Vec Ideal S128x256 .f32) (v6 : Vec Ideal S1x256 .f32) (u : Fin 8) (q : Fin 256),
      k0_pay3 (F := Ideal) v0 v3 v6 (ix2 u q) = (∑ p : Fin 4000, k0_pay1 (F := Ideal) v0 v3 v6 (ix2 p q) * k0_pay1 (F := Ideal) v0 v3 v6 (ix2 p q)) * wd) :
    (dat0 V c).arrAt 5 cfg0.N = G5 V wd c :=
  (dat0 V c).arrAt_eq_of_cover 5 (G5 V wd c) (fun t _ => flushed0_5 V wd c t hpay1 hpayS) covered0_5

end Cert.KernelIdeal.KReg0

end
-- ==== Proof.KReg1.lean ====
/-
  The second linear-layer launch (the cluster level), from its blocks to its arrays.

  The launch runs over 25 grid points.  At point t it reads rows 1000 t … 1000 t + 999 of the aggregated
  features [25000, 128], the whole weight matrix [128, 256] and the whole bias row [1, 256], and writes back
  rows 1000 t … 1000 t + 999 of the result [25000, 256] and rows 8 t … 8 t + 7 of the two arrays [200, 256] of
  scaled partial column sums.  The blocks written back tile each output array, so each array after the launch
  is one function of the arrays the launch found.
-/
import proofs.«151819_j60404420051112_2_alg».proof.Proof.Gen.KernelIdeal.Frame
import Idealize.ShloMosaic.Lib.ValueIdx
import Idealize.ShloMosaic.Lib.Pipeline.Value

set_option maxRecDepth 16384

noncomputable section

namespace Cert.KernelIdeal.KReg1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offset (0, 0) is the zero function. -/
theorem hz : (![0, 0] : Fin 2 → Nat) = fun _ => 0 := funext fun a => by fin_cases a <;> rfl

/-- The block index of each window at each grid point: the row-tiled windows sit at (t, 0), the whole ones at (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row p of the features' block at point t is row 1000 t + p of the array. -/
theorem iblk1_0_apply (c : Dev nD) (t : Fin cfg1.N) (p : Fin 1000) (j : Fin 128) (r : Fin 25000)
    (hr : r.val = 1000 * t.val + p.val) :
    (iblk1 V c 0 t : Vec Ideal S1000x128 .f32) (ix2 p j) = (V c main_v39 : S25000x128.Idx → EReal) (ix2 r j) := by
  unfold iblk1
  rw [View.read_apply]
  show V c main_v39 _ = V c main_v39 _
  refine congrArg _ ?_
  funext a
  apply Fin.ext
  match a with
  | ⟨0, _⟩ => show win1_0.index t (0 : Fin 2) * 1000 + 1 * p.val = r.val; rw [(idx1 t).1, hr]; omega
  | ⟨1, _⟩ => show win1_0.index t (1 : Fin 2) * 128 + 1 * j.val = j.val; rw [(idx1 t).2.1]; omega

/-- The weights' block at every point is the whole matrix. -/
theorem iblk1_1_apply (c : Dev nD) (t : Fin cfg1.N) (j : Fin 128) (q : Fin 256) :
    (iblk1 V c 1 t : Vec Ideal S128x256 .f32) (ix2 j q) = (V c main_arg10 : S128x256.Idx → EReal) (ix2 j q) := by
  unfold iblk1
  rw [View.read_apply]
  show V c main_arg10 _ = V c main_arg10 _
  refine congrArg _ ?_
  funext a
  apply Fin.ext
  match a with
  | ⟨0, _⟩ => show win1_1.index t (0 : Fin 2) * 128 + 1 * j.val = j.val; rw [(idx1 t).2.2.1]; omega
  | ⟨1, _⟩ => show win1_1.index t (1 : Fin 2) * 256 + 1 * q.val = q.val; rw [(idx1 t).2.2.2.1]; omega

/-- The bias row's block at every point is the whole row. -/
theorem iblk1_2_apply (c : Dev nD) (t : Fin cfg1.N) (z : Fin 1) (q : Fin 256) :
    (iblk1 V c 2 t : Vec Ideal S1x256 .f32) (ix2 z q) = (V c main_v104 : S1x256.Idx → EReal) (ix2 z q) := by
  unfold iblk1
  rw [View.read_apply]
  show V c main_v104 _ = V c main_v104 _
  refine congrArg _ ?_
  funext a
  apply Fin.ext
  match a with
  | ⟨0, _⟩ => show win1_2.index t (0 : Fin 2) * 1 + 1 * z.val = z.val; rw [(idx1 t).2.2.2.2.1]; omega
  | ⟨1, _⟩ => show win1_2.index t (1 : Fin 2) * 256 + 1 * q.val = q.val; rw [(idx1 t).2.2.2.2.2.1]; omega

/-! ## The three output arrays as functions of the arrays the launch found -/

/-- The linear layer at (r, q): Σ_j A(r,j) · W(j,q) + b(0,q) over the arrays the launch found. -/
def lin1 (X : S25000x128.Idx → EReal) (W : S128x256.Idx → EReal) (b : S1x256.Idx → EReal) (r : Fin 25000) (q : Fin 256) : EReal :=
  (∑ j : Fin 128, X (ix2 r j) * W (ix2 j q)) + b (ix2 (0 : Fin 1) q)

/-- The same over the arrays the launch found. -/
def Y1 (c : Dev nD) (r : Fin 25000) (q : Fin 256) : EReal :=
  lin1 (V c main_v39) (V c main_arg10) (V c main_v104) r q

/-- The result array [25000, 256]. -/
def G3 (c : Dev nD) : S25000x256.Idx → EReal := fun i => Y1 V c ⟨(i 0).val, idx2_lt0 i⟩ ⟨(i 1).val, idx2_lt1 i⟩

/-- Row i of the scaled partial sums [200, 256]: the column sum of tile i / 8, times the scale word w. -/
def G4 (w : EReal) (c : Dev nD) : S200x256.Idx → EReal := fun i =>
  (∑ p : Fin 1000, Y1 V c ⟨1000 * ((i 0).val / 8) + p.val, by have := idx2_lt0 i; have := p.isLt; omega⟩ ⟨(i 1).val, idx2_lt1 i⟩) * w

/-- Row i of the scaled partial sums of squares [200, 256]. -/
def G5 (w : EReal) (c : Dev nD) : S200x256.Idx → EReal := fun i =>
  (∑ p : Fin 1000, Y1 V c ⟨1000 * ((i 0).val / 8) + p.val, by have := idx2_lt0 i; have := p.isLt; omega⟩ ⟨(i 1).val, idx2_lt1 i⟩
      * Y1 V c ⟨1000 * ((i 0).val / 8) + p.val, by have := idx2_lt0 i; have := p.isLt; omega⟩ ⟨(i 1).val, idx2_lt1 i⟩) * w

/-- The body's linear-layer value at local (p, q) of point t is the linear layer at row 1000 t + p. -/
theorem pay1_at (c : Dev nD) (t : Fin cfg1.N) (p : Fin 1000) (q : Fin 256) (r : Fin 25000) (hr : r.val = 1000 * t.val + p.val)
    (hpay1 : ∀ (v0 : Vec Ideal S1000x128 .f32) (v3 : Vec Ideal S128x256 .f32) (v6 : Vec Ideal S1x256 .f32) (p : Fin 1000) (q : Fin 256),
      k1_pay1 (F := Ideal) v0 v3 v6 (ix2 p q) = (∑ j : Fin 128, v0 (ix2 p j) * v3 (ix2 j q)) + v6 (ix2 (0 : Fin 1) q)) :
    k1_pay1 (F := Ideal) (iblk1 V c 0 t) (iblk1 V c 1 t) (iblk1 V c 2 t) (ix2 p q) = Y1 V c r q := by
  refine (hpay1 _ _ _ p q).trans ?_
  unfold Y1 lin1
  rw [iblk1_2_apply V c t 0 q]
  refine congrArg (· + _) (Finset.sum_congr rfl fun j _ => ?_)
  rw [iblk1_0_apply V c t p j r hr, iblk1_1_apply V c t j q]

/-- What point t writes back into the result array is block t of G3. -/
theorem flushed1_3 (c : Dev nD) (t : Fin cfg1.N)
    (hpay1 : ∀ (v0 : Vec Ideal S1000x128 .f32) (v3 : Vec Ideal S128x256 .f32) (v6 : Vec Ideal S1x256 .f32) (p : Fin 1000) (q : Fin 256),
      k1_pay1 (F := Ideal) v0 v3 v6 (ix2 p q) = (∑ j : Fin 128, v0 (ix2 p j) * v3 (ix2 j q)) + v6 (ix2 (0 : Fin 1) q)) :
    (dat1 V c).flushed 3 t = ((cfg1.win 3).blk t).view.read (Elt Ideal) (G3 V c) := by
  show (cfg1.win 3).cut (grid1.coords t) ((dat1 V c).after 3 t) = _
  rw [after1_3]
  unfold out1_3
  rw [View.canon_unit_zero hz]
  simp only [View.ld_unit_zero (S := S1000x128) hz, View.ld_unit_zero (S := S128x256) hz, View.ld_unit_zero (S := S1x256) hz]
  funext y
  obtain ⟨p, q, rfl⟩ : ∃ (p : Fin 1000) (q : Fin 256), y = ix2 p q := ⟨y 0, y 1, eq_ix2 y⟩
  have ht : t.val < 25 := (N_1 : grid1.N = 25) ▸ t.isLt
  have hr : 1000 * t.val + p.val < 25000 := by have := p.isLt; omega
  have hemb : ((cfg1.win 3).blk t).view.emb (ix2 p q) = (ix2 (⟨1000 * t.val + p.val, hr⟩ : Fin 25000) q : S25000x256.Idx) := by
    funext a
    apply Fin.ext
    match a with
    | ⟨0, _⟩ => show win1_3.index t (0 : Fin 2) * 1000 + 1 * p.val = 1000 * t.val + p.val; rw [(idx1 t).2.2.2.2.2.2.1]; omega
    | ⟨1, _⟩ => show win1_3.index t (1 : Fin 2) * 256 + 1 * q.val = q.val; rw [(idx1 t).2.2.2.2.2.2.2.1]; omega
  show k1_pay1 (F := Ideal) (iblk1 V c 0 t) (iblk1 V c 1 t) (iblk1 V c 2 t) (ix2 p q) = G3 V c (((cfg1.win 3).blk t).view.emb (ix2 p q))
  rw [hemb]
  exact pay1_at V c t p q _ rfl hpay1

/-- An index of the result array is in point t's block iff each coordinate is in the block's range. -/
theorem mem_blk1_3 (t : Fin cfg1.N) (i : S25000x256.Idx) :
    i ∈ ((cfg1.win 3).blk t).view.set ↔ ∀ a : Fin 2, win1_3.index t a * S1000x256.size a ≤ (i a).val ∧ (i a).val < win1_3.index t a * S1000x256.size a + S1000x256.size a := by
  show i ∈ ((View.whole main_v105_0).slice (win1_3.rect t)).set ↔ _
  rw [View.set_slice_whole, Rect.mem_set_unit]
  exact Iff.rfl

/-- Every row of the result array lies in the block of the point (row / 1000). -/
theorem covered1_3 (i : S25000x256.Idx) : ∃ t : Fin cfg1.N, (cfg1.win 3).flush t = true ∧ i ∈ ((cfg1.win 3).blk t).view.set := by
  have h0 := idx2_lt0 i
  have h1 := idx2_lt1 i
  have hN : grid1.N = 25 := N_1
  refine ⟨⟨(i 0).val / 1000, by show _ < grid1.N; rw [hN]; omega⟩, flush1_3 _, ?_⟩
  rw [mem_blk1_3]
  intro a
  match a with
  | ⟨0, _⟩ =>
    show win1_3.index _ (0 : Fin 2) * 1000 ≤ (i 0).val ∧ (i 0).val < win1_3.index _ (0 : Fin 2) * 1000 + 1000
    rw [(idx1 _).2.2.2.2.2.2.1]
    show (i 0).val / 1000 * 1000 ≤ (i 0).val ∧ (i 0).val < (i 0).val / 1000 * 1000 + 1000
    omega
  | ⟨1, _⟩ =>
    show win1_3.index _ (1 : Fin 2) * 256 ≤ (i 1).val ∧ (i 1).val < win1_3.index _ (1 : Fin 2) * 256 + 256
    rw [(idx1 _).2.2.2.2.2.2.2.1]
    omega

/-- THE RESULT ARRAY after the launch is the linear layer of the arrays the launch found. -/
theorem final1_3 (c : Dev nD)
    (hpay1 : ∀ (v0 : Vec Ideal S1000x128 .f32) (v3 : Vec Ideal S128x256 .f32) (v6 : Vec Ideal S1x256 .f32) (p : Fin 1000) (q : Fin 256),
      k1_pay1 (F := Ideal) v0 v3 v6 (ix2 p q) = (∑ j : Fin 128, v0 (ix2 p j) * v3 (ix2 j q)) + v6 (ix2 (0 : Fin 1) q)) :
    (dat1 V c).arrAt 3 cfg1.N = G3 V c :=
  (dat1 V c).arrAt_eq_of_cover 3 (G3 V c) (fun t _ => flushed1_3 V c t hpay1) covered1_3

/-- What point t writes back into partial-sum array 4 is block t of G4. -/
theorem flushed1_4 (wd : EReal) (c : Dev nD) (t : Fin cfg1.N)
    (hpay1 : ∀ (v0 : Vec Ideal S1000x128 .f32) (v3 : Vec Ideal S128x256 .f32) (v6 : Vec Ideal S1x256 .f32) (p : Fin 1000) (q : Fin 256),
      k1_pay1 (F := Ideal) v0 v3 v6 (ix2 p q) = (∑ j : Fin 128, v0 (ix2 p j) * v3 (ix2 j q)) + v6 (ix2 (0 : Fin 1) q))
    (hpayS : ∀ (v0 : Vec Ideal S1000x128 .f32) (v3 : Vec Ideal S128x256 .f32) (v6 : Vec Ideal S1x256 .f32) (u : Fin 8) (q : Fin 256),
      k1_pay2 (F := Ideal) v0 v3 v6 (ix2 u q) = (∑ p : Fin 1000, k1_pay1 (F := Ideal) v0 v3 v6 (ix2 p q)) * wd) :
    (dat1 V c).flushed 4 t = ((cfg1.win 4).blk t).view.read (Elt Ideal) (G4 V wd c) := by
  show (cfg1.win 4).cut (grid1.coords t) ((dat1 V c).after 4 t) = _
  rw [after1_4]
  unfold out1_4
  rw [View.canon_unit_zero hz]
  simp only [View.ld_unit_zero (S := S1000x128) hz, View.ld_unit_zero (S := S128x256) hz, View.ld_unit_zero (S := S1x256) hz]
  funext y
  obtain ⟨u, q, rfl⟩ : ∃ (u : Fin 8) (q : Fin 256), y = ix2 u q := ⟨y 0, y 1, eq_ix2 y⟩
  have ht : t.val < 25 := (N_1 : grid1.N = 25) ▸ t.isLt
  have hu : 8 * t.val + u.val < 200 := by have := u.isLt; omega
  have hemb : ((cfg1.win 4).blk t).view.emb (ix2 u q) = (ix2 (⟨8 * t.val + u.val, hu⟩ : Fin 200) q : S200x256.Idx) := by
    funext a
    apply Fin.ext
    match a with
    | ⟨0, _⟩ => show win1_4.index t (0 : Fin 2) * 8 + 1 * u.val = 8 * t.val + u.val; rw [(idx1 t).2.2.2.2.2.2.2.2.1]; omega
    | ⟨1, _⟩ => show win1_4.index t (1 : Fin 2) * 256 + 1 * q.val = q.val; rw [(idx1 t).2.2.2.2.2.2.2.2.2.1]; omega
  show k1_pay2 (F := Ideal) (iblk1 V c 0 t) (iblk1 V c 1 t) (iblk1 V c 2 t) (ix2 u q) = G4 V wd c (((cfg1.win 4).blk t).view.emb (ix2 u q))
  rw [hemb]
  refine (hpayS _ _ _ u q).trans ?_
  refine congrArg (· * wd) (Finset.sum_congr rfl fun p _ => ?_)
  have hr : 1000 * t.val + p.val < 25000 := by have := p.isLt; omega
  have e1 : (⟨1000 * t.val + p.val, hr⟩ : Fin 25000)
      = ⟨1000 * ((8 * t.val + u.val) / 8) + p.val, by have := p.isLt; have := u.isLt; omega⟩ :=
    Fin.ext (by show 1000 * t.val + p.val = 1000 * ((8 * t.val + u.val) / 8) + p.val; have := u.isLt; omega)
  rw [pay1_at V c t p q ⟨1000 * t.val + p.val, hr⟩ rfl hpay1]
  exact congrArg (fun r => Y1 V c r q) e1

/-- An index of partial-sum array 4 is in point t's block iff each coordinate is in the block's range. -/
theorem mem_blk1_4 (t : Fin cfg1.N) (i : S200x256.Idx) :
    i ∈ ((cfg1.win 4).blk t).view.set ↔ ∀ a : Fin 2, win1_4.index t a * S8x256.size a ≤ (i a).val ∧ (i a).val < win1_4.index t a * S8x256.size a + S8x256.size a := by
  show i ∈ ((View.whole main_v105_1).slice (win1_4.rect t)).set ↔ _
  rw [View.set_slice_whole, Rect.mem_set_unit]
  exact Iff.rfl

/-- Every row of partial-sum array 4 lies in the block of the point (row / 8). -/
theorem covered1_4 (i : S200x256.Idx) : ∃ t : Fin cfg1.N, (cfg1.win 4).flush t = true ∧ i ∈ ((cfg1.win 4).blk t).view.set := by
  have h0 := idx2_lt0 i
  have h1 := idx2_lt1 i
  have hN : grid1.N = 25 := N_1
  refine ⟨⟨(i 0).val / 8, by show _ < grid1.N; rw [hN]; omega⟩, flush1_4 _, ?_⟩
  rw [mem_blk1_4]
  intro a
  match a with
  | ⟨0, _⟩ =>
    show win1_4.index _ (0 : Fin 2) * 8 ≤ (i 0).val ∧ (i 0).val < win1_4.index _ (0 : Fin 2) * 8 + 8
    rw [(idx1 _).2.2.2.2.2.2.2.2.1]
    show (i 0).val / 8 * 8 ≤ (i 0).val ∧ (i 0).val < (i 0).val / 8 * 8 + 8
    omega
  | ⟨1, _⟩ =>
    show win1_4.index _ (1 : Fin 2) * 256 ≤ (i 1).val ∧ (i 1).val < win1_4.index _ (1 : Fin 2) * 256 + 256
    rw [(idx1 _).2.2.2.2.2.2.2.2.2.1]
    omega

/-- PARTIAL-SUM ARRAY 4 after the launch. -/
theorem final1_4 (wd : EReal) (c : Dev nD)
    (hpay1 : ∀ (v0 : Vec Ideal S1000x128 .f32) (v3 : Vec Ideal S128x256 .f32) (v6 : Vec Ideal S1x256 .f32) (p : Fin 1000) (q : Fin 256),
      k1_pay1 (F := Ideal) v0 v3 v6 (ix2 p q) = (∑ j : Fin 128, v0 (ix2 p j) * v3 (ix2 j q)) + v6 (ix2 (0 : Fin 1) q))
    (hpayS : ∀ (v0 : Vec Ideal S1000x128 .f32) (v3 : Vec Ideal S128x256 .f32) (v6 : Vec Ideal S1x256 .f32) (u : Fin 8) (q : Fin 256),
      k1_pay2 (F := Ideal) v0 v3 v6 (ix2 u q) = (∑ p : Fin 1000, k1_pay1 (F := Ideal) v0 v3 v6 (ix2 p q)) * wd) :
    (dat1 V c).arrAt 4 cfg1.N = G4 V wd c :=
  (dat1 V c).arrAt_eq_of_cover 4 (G4 V wd c) (fun t _ => flushed1_4 V wd c t hpay1 hpayS) covered1_4

/-- What point t writes back into partial-sum array 5 is block t of G5. -/
theorem flushed1_5 (wd : EReal) (c : Dev nD) (t : Fin cfg1.N)
    (hpay1 : ∀ (v0 : Vec Ideal S1000x128 .f32) (v3 : Vec Ideal S128x256 .f32) (v6 : Vec Ideal S1x256 .f32) (p : Fin 1000) (q : Fin 256),
      k1_pay1 (F := Ideal) v0 v3 v6 (ix2 p q) = (∑ j : Fin 128, v0 (ix2 p j) * v3 (ix2 j q)) + v6 (ix2 (0 : Fin 1) q))
    (hpayS : ∀ (v0 : Vec Ideal S1000x128 .f32) (v3 : Vec Ideal S128x256 .f32) (v6 : Vec Ideal S1x256 .f32) (u : Fin 8) (q : Fin 256),
      k1_pay3 (F := Ideal) v0 v3 v6 (ix2 u q) = (∑ p : Fin 1000, k1_pay1 (F := Ideal) v0 v3 v6 (ix2 p q) * k1_pay1 (F := Ideal) v0 v3 v6 (ix2 p q)) * wd) :
    (dat1 V c).flushed 5 t = ((cfg1.win 5).blk t).view.read (Elt Ideal) (G5 V wd c) := by
  show (cfg1.win 5).cut (grid1.coords t) ((dat1 V c).after 5 t) = _
  rw [after1_5]
  unfold out1_5
  rw [View.canon_unit_zero hz]
  simp only [View.ld_unit_zero (S := S1000x128) hz, View.ld_unit_zero (S := S128x256) hz, View.ld_unit_zero (S := S1x256) hz]
  funext y
  obtain ⟨u, q, rfl⟩ : ∃ (u : Fin 8) (q : Fin 256), y = ix2 u q := ⟨y 0, y 1, eq_ix2 y⟩
  have ht : t.val < 25 := (N_1 : grid1.N = 25) ▸ t.isLt
  have hu : 8 * t.val + u.val < 200 := by have := u.isLt; omega
  have hemb : ((cfg1.win 5).blk t).view.emb (ix2 u q) = (ix2 (⟨8 * t.val + u.val, hu⟩ : Fin 200) q : S200x256.Idx) := by
    funext a
    apply Fin.ext
    match a with
    | ⟨0, _⟩ => show win1_5.index t (0 : Fin 2) * 8 + 1 * u.val = 8 * t.val + u.val; rw [(idx1 t).2.2.2.2.2.2.2.2.2.2.1]; omega
    | ⟨1, _⟩ => show win1_5.index t (1 : Fin 2) * 256 + 1 * q.val = q.val; rw [(idx1 t).2.2.2.2.2.2.2.2.2.2.2]; omega
  show k1_pay3 (F := Ideal) (iblk1 V c 0 t) (iblk1 V c 1 t) (iblk1 V c 2 t) (ix2 u q) = G5 V wd c (((cfg1.win 5).blk t).view.emb (ix2 u q))
  rw [hemb]
  refine (hpayS _ _ _ u q).trans ?_
  refine congrArg (· * wd) (Finset.sum_congr rfl fun p _ => ?_)
  have hr : 1000 * t.val + p.val < 25000 := by have := p.isLt; omega
  have e1 : (⟨1000 * t.val + p.val, hr⟩ : Fin 25000)
      = ⟨1000 * ((8 * t.val + u.val) / 8) + p.val, by have := p.isLt; have := u.isLt; omega⟩ :=
    Fin.ext (by show 1000 * t.val + p.val = 1000 * ((8 * t.val + u.val) / 8) + p.val; have := u.isLt; omega)
  rw [pay1_at V c t p q ⟨1000 * t.val + p.val, hr⟩ rfl hpay1]
  exact congrArg (fun r => Y1 V c r q * Y1 V c r q) e1

/-- An index of partial-sum array 5 is in point t's block iff each coordinate is in the block's range. -/
theorem mem_blk1_5 (t : Fin cfg1.N) (i : S200x256.Idx) :
    i ∈ ((cfg1.win 5).blk t).view.set ↔ ∀ a : Fin 2, win1_5.index t a * S8x256.size a ≤ (i a).val ∧ (i a).val < win1_5.index t a * S8x256.size a + S8x256.size a := by
  show i ∈ ((View.whole main_v105_2).slice (win1_5.rect t)).set ↔ _
  rw [View.set_slice_whole, Rect.mem_set_unit]
  exact Iff.rfl

/-- Every row of partial-sum array 5 lies in the block of the point (row / 8). -/
theorem covered1_5 (i : S200x256.Idx) : ∃ t : Fin cfg1.N, (cfg1.win 5).flush t = true ∧ i ∈ ((cfg1.win 5).blk t).view.set := by
  have h0 := idx2_lt0 i
  have h1 := idx2_lt1 i
  have hN : grid1.N = 25 := N_1
  refine ⟨⟨(i 0).val / 8, by show _ < grid1.N; rw [hN]; omega⟩, flush1_5 _, ?_⟩
  rw [mem_blk1_5]
  intro a
  match a with
  | ⟨0, _⟩ =>
    show win1_5.index _ (0 : Fin 2) * 8 ≤ (i 0).val ∧ (i 0).val < win1_5.index _ (0 : Fin 2) * 8 + 8
    rw [(idx1 _).2.2.2.2.2.2.2.2.2.2.1]
    show (i 0).val / 8 * 8 ≤ (i 0).val ∧ (i 0).val < (i 0).val / 8 * 8 + 8
    omega
  | ⟨1, _⟩ =>
    show win1_5.index _ (1 : Fin 2) * 256 ≤ (i 1).val ∧ (i 1).val < win1_5.index _ (1 : Fin 2) * 256 + 256
    rw [(idx1 _).2.2.2.2.2.2.2.2.2.2.2]
    omega

/-- PARTIAL-SUM ARRAY 5 after the launch. -/
theorem final1_5 (wd : EReal) (c : Dev nD)
    (hpay1 : ∀ (v0 : Vec Ideal S1000x128 .f32) (v3 : Vec Ideal S128x256 .f32) (v6 : Vec Ideal S1x256 .f32) (p : Fin 1000) (q : Fin 256),
      k1_pay1 (F := Ideal) v0 v3 v6 (ix2 p q) = (∑ j : Fin 128, v0 (ix2 p j) * v3 (ix2 j q)) + v6 (ix2 (0 : Fin 1) q))
    (hpayS : ∀ (v0 : Vec Ideal S1000x128 .f32) (v3 : Vec Ideal S128x256 .f32) (v6 : Vec Ideal S1x256 .f32) (u : Fin 8) (q : Fin 256),
      k1_pay3 (F := Ideal) v0 v3 v6 (ix2 u q) = (∑ p : Fin 1000, k1_pay1 (F := Ideal) v0 v3 v6 (ix2 p q) * k1_pay1 (F := Ideal) v0 v3 v6 (ix2 p q)) * wd) :
    (dat1 V c).arrAt 5 cfg1.N = G5 V wd c :=
  (dat1 V c).arrAt_eq_of_cover 5 (G5 V wd c) (fun t _ => flushed1_5 V wd c t hpay1 hpayS) covered1_5

end Cert.KernelIdeal.KReg1

end
-- ==== Proof.LibReals.lean ====
/-
  Extended reals that are real numbers. At the ideal float values every float is an extended real; a
  value is FINITE when it is the image of a real number. This module collects, with no reference to any
  program: the predicate "every entry of a family is a real" and its closure under the exact operations
  (sum, product, difference, maximum, finite sums, division by a nonzero real, reciprocal square root
  of a positive real); the coercion of a finite real sum; and the identity between the two textbook
  forms of the variance of a finite family, (1/N) Σ (xᵢ − μ)² = (1/N) Σ xᵢ² − μ² with μ = (1/N) Σ xᵢ,
  first over the reals and then over real-valued extended reals, where each quotient is the ideal
  division and each sum may carry a leading zero summand; the variance is a real and is not negative.
-/
import Idealize.ShloMosaic.PureOps.Ideal

noncomputable section

namespace Cert.Reals

open Idealize.ShloMosaic
open scoped BigOperators

/-- An extended real that is (the image of) a real number. -/
def IsRealS (x : EReal) : Prop := ∃ r : ℝ, x = (r : EReal)

/-- Every entry of a family of extended reals is a real number. -/
def IsReal {ι : Type*} (f : ι → EReal) : Prop := ∀ i, ∃ r : ℝ, f i = (r : EReal)

/-- A family is real exactly when each entry is. -/
theorem isReal_iff {ι : Type*} (f : ι → EReal) : IsReal f ↔ ∀ i, IsRealS (f i) := Iff.rfl

/-- An entry of a real family is a real. -/
theorem IsReal.apply {ι : Type*} {f : ι → EReal} (h : IsReal f) (i : ι) : IsRealS (f i) := h i

/-- A real family is the coercion of a family of reals. -/
theorem IsReal.exists_eq {ι : Type*} {f : ι → EReal} (h : IsReal f) : ∃ r : ι → ℝ, f = fun i => (r i : EReal) := by
  choose r hr using h
  exact ⟨r, funext hr⟩

/-- The coercion of a family of reals is a real family. -/
theorem isReal_coe {ι : Type*} (r : ι → ℝ) : IsReal (fun i => (r i : EReal)) := fun i => ⟨r i, rfl⟩

/-- Re-indexing a real family gives a real family. -/
theorem IsReal.comp {ι κ : Type*} {f : ι → EReal} (h : IsReal f) (g : κ → ι) : IsReal (fun k => f (g k)) :=
  fun k => h (g k)

/-- A real number is a real. -/
theorem isRealS_coe (r : ℝ) : IsRealS (r : EReal) := ⟨r, rfl⟩

/-- Zero is a real. -/
theorem isRealS_zero : IsRealS 0 := ⟨0, rfl⟩

/-- One is a real. -/
theorem isRealS_one : IsRealS 1 := ⟨1, rfl⟩

/-- A real is not the upper infinity. -/
theorem IsRealS.ne_top {x : EReal} (h : IsRealS x) : x ≠ ⊤ := by
  obtain ⟨r, rfl⟩ := h; exact EReal.coe_ne_top r

/-- A real is not the lower infinity. -/
theorem IsRealS.ne_bot {x : EReal} (h : IsRealS x) : x ≠ ⊥ := by
  obtain ⟨r, rfl⟩ := h; exact EReal.coe_ne_bot r

/-- An extended real that is neither infinity is a real. -/
theorem isRealS_of_ne {x : EReal} (ht : x ≠ ⊤) (hb : x ≠ ⊥) : IsRealS x := by
  induction x using EReal.rec with
  | bot => exact absurd rfl hb
  | top => exact absurd rfl ht
  | coe r => exact ⟨r, rfl⟩

/-- The sum of two reals is a real. -/
theorem IsRealS.add {x y : EReal} (hx : IsRealS x) (hy : IsRealS y) : IsRealS (x + y) := by
  obtain ⟨a, rfl⟩ := hx; obtain ⟨b, rfl⟩ := hy
  exact ⟨a + b, (EReal.coe_add a b).symm⟩

/-- The product of two reals is a real. -/
theorem IsRealS.mul {x y : EReal} (hx : IsRealS x) (hy : IsRealS y) : IsRealS (x * y) := by
  obtain ⟨a, rfl⟩ := hx; obtain ⟨b, rfl⟩ := hy
  exact ⟨a * b, (EReal.coe_mul a b).symm⟩

/-- The negation of a real is a real. -/
theorem IsRealS.neg {x : EReal} (hx : IsRealS x) : IsRealS (-x) := by
  obtain ⟨a, rfl⟩ := hx
  exact ⟨-a, (EReal.coe_neg a).symm⟩

/-- The difference of two reals (the extended reals' subtraction, which the ideal values' subtraction is)
    is a real. -/
theorem IsRealS.sub {x y : EReal} (hx : IsRealS x) (hy : IsRealS y) : IsRealS (x - y) := by
  obtain ⟨a, rfl⟩ := hx; obtain ⟨b, rfl⟩ := hy
  exact ⟨a - b, (EReal.coe_sub a b).symm⟩

/-- The maximum of two reals is a real. -/
theorem IsRealS.max {x y : EReal} (hx : IsRealS x) (hy : IsRealS y) : IsRealS (max x y) := by
  rcases max_choice x y with h | h <;> rw [h] <;> assumption

/-- The minimum of two reals is a real. -/
theorem IsRealS.min {x y : EReal} (hx : IsRealS x) (hy : IsRealS y) : IsRealS (min x y) := by
  rcases min_choice x y with h | h <;> rw [h] <;> assumption

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_fintype_sum {ι : Type*} [Fintype ι] (f : ι → ℝ) :
    ((∑ i, f i : ℝ) : EReal) = ∑ i, (f i : EReal) := coe_finset_sum Finset.univ f

/-- A finite sum of reals is a real. -/
theorem isRealS_sum {ι : Type*} (s : Finset ι) (f : ι → EReal) (h : ∀ i ∈ s, IsRealS (f i)) :
    IsRealS (∑ i ∈ s, f i) := by
  classical
  induction s using Finset.induction_on with
  | empty => simpa using isRealS_zero
  | insert a s ha ih =>
    rw [Finset.sum_insert ha]
    exact (h a (Finset.mem_insert_self a s)).add (ih fun i hi => h i (Finset.mem_insert_of_mem hi))

/-- A sum over a finite set of entries of a real family is a real. -/
theorem IsReal.sum {ι : Type*} {f : ι → EReal} (h : IsReal f) (s : Finset ι) : IsRealS (∑ i ∈ s, f i) :=
  isRealS_sum s f fun i _ => h i

/-- A sum over a whole finite type of entries of a real family is a real. -/
theorem IsReal.sum_univ {ι : Type*} [Fintype ι] {f : ι → EReal} (h : IsReal f) : IsRealS (∑ i, f i) :=
  h.sum Finset.univ

/-- A finite sum of extended reals that are not negative is not negative. -/
theorem sum_nonneg {ι : Type*} (s : Finset ι) (f : ι → EReal) (h : ∀ i ∈ s, 0 ≤ f i) : 0 ≤ ∑ i ∈ s, f i :=
  Finset.sum_nonneg h

/-- The ideal quotient of two reals, the divisor not zero, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The ideal quotient of a real by a nonzero real number is a real. -/
theorem IsRealS.div_coe {x : EReal} (hx : IsRealS x) {n : ℝ} (hn : n ≠ 0) : IsRealS (Ideal.div x (n : EReal)) := by
  obtain ⟨a, rfl⟩ := hx
  exact ⟨a / n, div_coe_coe a hn⟩

/-- The ideal quotient of a real by a real that is not zero is a real. -/
theorem IsRealS.div {x y : EReal} (hx : IsRealS x) (hy : IsRealS y) (hy0 : y ≠ 0) : IsRealS (Ideal.div x y) := by
  obtain ⟨n, rfl⟩ := hy
  exact hx.div_coe (by rintro rfl; exact hy0 rfl)

/-- The ideal quotient of a real that is not negative by a positive real is not negative. -/
theorem div_coe_nonneg {a n : ℝ} (ha : 0 ≤ a) (hn : 0 < n) : (0 : EReal) ≤ Ideal.div (a : EReal) (n : EReal) := by
  rw [div_coe_coe a hn.ne']
  exact EReal.coe_nonneg.mpr (div_nonneg ha hn.le)

/-- The ideal reciprocal square root of a positive real is the real reciprocal of its square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is a real. -/
theorem IsRealS.rsqrt {x : EReal} (hx : IsRealS x) (hpos : 0 < x) : IsRealS (Ideal.rsqrt x) := by
  obtain ⟨r, rfl⟩ := hx
  exact ⟨_, rsqrt_coe_pos (EReal.coe_pos.mp hpos)⟩

/-- The host's reciprocal square root at the ideal values is the same function. -/
theorem IsRealS.hostRsqrt {φ : FTy} {x : Ideal φ} (hx : IsRealS x) (hpos : (0 : EReal) < x) :
    IsRealS (FloatOps.hostUnary (F := Ideal) .rsqrt x) := by
  rw [Ideal.hostUnary_rsqrt_def]; exact hx.rsqrt hpos

/-- The ideal reciprocal square root of a positive real is positive. -/
theorem rsqrt_pos {x : EReal} (hx : IsRealS x) (hpos : 0 < x) : 0 < Ideal.rsqrt x := by
  obtain ⟨r, rfl⟩ := hx
  have hr : 0 < r := EReal.coe_pos.mp hpos
  rw [rsqrt_coe_pos hr]
  exact EReal.coe_pos.mpr (inv_pos.mpr (Real.sqrt_pos.mpr hr))

/-- An extended real that is not negative plus a positive one is positive. -/
theorem add_pos_of_nonneg_of_pos {v e : EReal} (hv : 0 ≤ v) (he : 0 < e) : 0 < v + e := by
  calc (0 : EReal) < e := he
    _ = 0 + e := (zero_add e).symm
    _ ≤ v + e := add_le_add hv le_rfl

/-- An extended real that is not negative, plus one, is at least one. -/
theorem one_le_add_one_of_nonneg {c : EReal} (hc : 0 ≤ c) : 1 ≤ c + 1 := by
  calc (1 : EReal) = 0 + 1 := (zero_add 1).symm
    _ ≤ c + 1 := add_le_add hc le_rfl

/-- An extended real that is at least one is positive. -/
theorem pos_of_one_le {x : EReal} (h : 1 ≤ x) : 0 < x := lt_of_lt_of_le zero_lt_one h

/-! ## The variance identity -/

/-- THE VARIANCE IDENTITY over the reals: for a finite family of N reals, N not zero, the mean of the
    squared deviations from the mean is the mean of the squares minus the square of the mean. -/
theorem variance_real {ι : Type*} [Fintype ι] (f : ι → ℝ) (N : ℝ) (hN : N = Fintype.card ι) (hN0 : N ≠ 0) :
    (∑ i, (f i - (∑ j, f j) / N) * (f i - (∑ j, f j) / N)) / N
      = (∑ i, f i * f i) / N - ((∑ j, f j) / N) * ((∑ j, f j) / N) := by
  have h1 : ∑ i, (f i - (∑ j, f j) / N) * (f i - (∑ j, f j) / N)
      = (∑ i, f i * f i) - 2 * ((∑ j, f j) / N) * (∑ j, f j) + N * (((∑ j, f j) / N) * ((∑ j, f j) / N)) := by
    have h2 : ∀ i, (f i - (∑ j, f j) / N) * (f i - (∑ j, f j) / N)
        = f i * f i - 2 * ((∑ j, f j) / N) * f i + ((∑ j, f j) / N) * ((∑ j, f j) / N) := fun i => by ring
    simp only [h2]
    rw [Finset.sum_add_distrib, Finset.sum_sub_distrib, ← Finset.mul_sum, Finset.sum_const, Finset.card_univ,
      nsmul_eq_mul, ← hN]
  rw [h1]
  field_simp
  ring

/-- The mean of the squared deviations is not negative. -/
theorem variance_real_nonneg {ι : Type*} [Fintype ι] (f : ι → ℝ) (N : ℝ) (hN0 : 0 < N) :
    0 ≤ (∑ i, (f i - (∑ j, f j) / N) * (f i - (∑ j, f j) / N)) / N :=
  div_nonneg (Finset.sum_nonneg fun i _ => mul_self_nonneg _) hN0.le

/-- The variance of a family of reals, in the deviation form. -/
def varR {ι : Type*} [Fintype ι] (f : ι → ℝ) (N : ℝ) : ℝ :=
  (∑ i, (f i - (∑ j, f j) / N) * (f i - (∑ j, f j) / N)) / N

/-- It is not negative. -/
theorem varR_nonneg {ι : Type*} [Fintype ι] (f : ι → ℝ) {N : ℝ} (hN0 : 0 < N) : 0 ≤ varR f N :=
  variance_real_nonneg f N hN0

/-- The deviation form of the variance over real-valued extended reals, each quotient the ideal division
    and each difference the extended reals' subtraction, is the coercion of the real variance. -/
theorem variance_dev_coe {ι : Type*} [Fintype ι] (r : ι → ℝ) {N : ℝ} (hN0 : N ≠ 0) :
    Ideal.div (∑ i, ((r i : EReal) - Ideal.div (∑ j, (r j : EReal)) (N : EReal))
        * ((r i : EReal) - Ideal.div (∑ j, (r j : EReal)) (N : EReal))) (N : EReal)
      = ((varR r N : ℝ) : EReal) := by
  rw [← coe_fintype_sum, div_coe_coe _ hN0]
  simp only [← EReal.coe_sub, ← EReal.coe_mul]
  rw [← coe_fintype_sum, div_coe_coe _ hN0]
  rfl

/-- The moment form of the variance over real-valued extended reals is the coercion of the real variance,
    when the divisor is the number of entries. -/
theorem variance_mom_coe {ι : Type*} [Fintype ι] (r : ι → ℝ) {N : ℝ} (hN : N = Fintype.card ι) (hN0 : N ≠ 0) :
    Ideal.div (∑ i, (r i : EReal) * (r i : EReal)) (N : EReal)
        - Ideal.div (∑ j, (r j : EReal)) (N : EReal) * Ideal.div (∑ j, (r j : EReal)) (N : EReal)
      = ((varR r N : ℝ) : EReal) := by
  simp only [← EReal.coe_mul]
  rw [← coe_fintype_sum, ← coe_fintype_sum, div_coe_coe _ hN0, div_coe_coe _ hN0, ← EReal.coe_mul, ← EReal.coe_sub,
    varR, variance_real r N hN hN0]

/-- THE VARIANCE IDENTITY over real-valued extended reals: the deviation form (the mean of the squared
    differences from the mean) is the moment form (the mean of the squares minus the squared mean); every
    quotient is the ideal division by the real N, the number of entries. -/
theorem variance_ereal {ι : Type*} [Fintype ι] (x : ι → EReal) (hx : IsReal x) {N : ℝ} (hN : N = Fintype.card ι)
    (hN0 : N ≠ 0) :
    Ideal.div (∑ i, (x i - Ideal.div (∑ j, x j) (N : EReal)) * (x i - Ideal.div (∑ j, x j) (N : EReal))) (N : EReal)
      = Ideal.div (∑ i, x i * x i) (N : EReal) - Ideal.div (∑ j, x j) (N : EReal) * Ideal.div (∑ j, x j) (N : EReal) := by
  obtain ⟨r, rfl⟩ := hx.exists_eq
  rw [variance_dev_coe r hN0, variance_mom_coe r hN hN0]

/-- The same with every sum carrying the leading zero summand of a host reduction. -/
theorem variance_ereal_zero_add {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (0 + ∑ i, x i * x i) (N : EReal)
          - Ideal.div (0 + ∑ j, x j) (N : EReal) * Ideal.div (0 + ∑ j, x j) (N : EReal) := by
  simp only [zero_add]
  exact variance_ereal x hx hN hN0

/-- The deviation form with the host's leading zeros is the moment form without them. -/
theorem variance_ereal_zero_add_left {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (∑ i, x i * x i) (N : EReal) - Ideal.div (∑ j, x j) (N : EReal) * Ideal.div (∑ j, x j) (N : EReal) := by
  simp only [zero_add]
  exact variance_ereal x hx hN hN0

/-- The deviation form of the variance of a real family is a real that is not negative (N positive). -/
theorem variance_dev_real_nonneg {ι : Type*} [Fintype ι] (x : ι → EReal) (hx : IsReal x) {N : ℝ} (hN0 : 0 < N) :
    ∃ v : ℝ, 0 ≤ v ∧
      Ideal.div (∑ i, (x i - Ideal.div (∑ j, x j) (N : EReal)) * (x i - Ideal.div (∑ j, x j) (N : EReal))) (N : EReal)
        = (v : EReal) := by
  obtain ⟨r, rfl⟩ := hx.exists_eq
  exact ⟨varR r N, varR_nonneg r hN0, variance_dev_coe r hN0.ne'⟩

/-- The moment form likewise, when N is the number of entries. -/
theorem variance_mom_real_nonneg {ι : Type*} [Fintype ι] (x : ι → EReal) (hx : IsReal x) {N : ℝ}
    (hN : N = Fintype.card ι) (hN0 : 0 < N) :
    ∃ v : ℝ, 0 ≤ v ∧
      Ideal.div (∑ i, x i * x i) (N : EReal) - Ideal.div (∑ j, x j) (N : EReal) * Ideal.div (∑ j, x j) (N : EReal)
        = (v : EReal) := by
  obtain ⟨r, rfl⟩ := hx.exists_eq
  exact ⟨varR r N, varR_nonneg r hN0, variance_mom_coe r hN hN0.ne'⟩

/-- A real that is not negative, as the two facts a later step uses. -/
theorem isRealS_and_nonneg_of_exists {y : EReal} (h : ∃ v : ℝ, 0 ≤ v ∧ y = (v : EReal)) : IsRealS y ∧ 0 ≤ y := by
  obtain ⟨v, hv, rfl⟩ := h
  exact ⟨⟨v, rfl⟩, EReal.coe_nonneg.mpr hv⟩

end Cert.Reals

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.Spec.lean ====
/-
  One message-passing layer of a two-level graph network, entry by entry, on the extended reals.

  For a graph level with N nodes the layer's result at node r, output feature q is
      Σ_k T(r,k) · Wm(k,q) + bm(q),      T(r,k) = h(r,k) + s(r,k),
  where h is a linear map of the aggregated node features followed by batch normalisation over the N nodes
  and a clamp below,
      Y(r,k) = Σ_j A(r,j) · W(j,k) + b(k),
      h(r,k) = max(((Y(r,k) − μ(k)) · rsqrt(σ²(k) + ε)) · γ(k) + β(k), z),
  and s is the mean-aggregation affine map
      s(r,k) = (((Σ_j M(r,j) · Wl(j,k)) + bl(k)) + Σ_j X(r,j) · Wr(j,k)) + br(k).
  The column mean μ and the column variance σ² of Y are written in two ways.  The deviation form divides the
  sum of squared deviations from the mean by the number of nodes.  The moment form is computed from partial
  sums: the N nodes are cut into T tiles of B nodes; for each tile the column sums of Y and of Y² are scaled
  by 1/8 and written into 8 rows, so that summing all 8·T rows gives back the column sums; then
  σ² = (ΣY²)/N − μ².  For entries that are real numbers the two forms agree: this file proves it.
-/
import proofs.«151819_j60404420051112_2_alg».proof.Proof.LibReals
import proofs.«151819_j60404420051112_2_alg».proof.Proof.LibBlockSumGen
import Mathlib.Algebra.BigOperators.Fin

noncomputable section

namespace Cert.Fg

open Idealize.ShloMosaic Cert.Reals

variable {N K P Q H : Nat}

/-- The linear map Σ_j A(r,j) · W(j,k) + b(k). -/
def lin (A : Fin N → Fin K → EReal) (W : Fin K → Fin P → EReal) (b : Fin P → EReal) (r : Fin N) (k : Fin P) : EReal :=
  (∑ j, A r j * W j k) + b k

/-- One batch-normalised and clamped entry: max(((y − μ) · rsqrt(σ² + ε)) · γ + β, z). -/
def bnRelu (eps z y mu var g be : EReal) : EReal :=
  max (((y - mu) * Ideal.rsqrt (var + eps)) * g + be) z

/-- The mean-aggregation affine map (((Σ_j M(r,j)·Wl(j,k)) + bl(k)) + Σ_j X(r,j)·Wr(j,k)) + br(k). -/
def sage (M X : Fin N → Fin H → EReal) (Wl Wr : Fin H → Fin P → EReal) (bl br : Fin P → EReal)
    (r : Fin N) (k : Fin P) : EReal :=
  (((∑ j, M r j * Wl j k) + bl k) + ∑ j, X r j * Wr j k) + br k

/-- The merge: Σ_k T(r,k) · Wm(k,q) + bm(q). -/
def merged (T : Fin N → Fin P → EReal) (Wm : Fin P → Fin Q → EReal) (bm : Fin Q → EReal) (r : Fin N) (q : Fin Q) : EReal :=
  (∑ k, T r k * Wm k q) + bm q

/-- The layer's result at (r, q), from the pre-normalisation values Y, the column statistics μ and σ², and the
    mean-aggregated neighbour features M. -/
def layer (eps z : EReal) (Y : Fin N → Fin P → EReal) (mu var g be : Fin P → EReal)
    (M X : Fin N → Fin H → EReal) (Wl Wr : Fin H → Fin P → EReal) (bl br : Fin P → EReal)
    (Wm : Fin P → Fin Q → EReal) (bm : Fin Q → EReal) (r : Fin N) (q : Fin Q) : EReal :=
  merged (fun r k => bnRelu eps z (Y r k) (mu k) (var k) (g k) (be k) + sage M X Wl Wr bl br r k) Wm bm r q

/-- The column mean in the host's spelling: (0 + Σ_r Y(r,k)) / n. -/
def meanDev (n : EReal) (Y : Fin N → Fin P → EReal) (k : Fin P) : EReal :=
  Ideal.div (0 + ∑ r, Y r k) n

/-- The column variance in the deviation form: (0 + Σ_r (Y(r,k) − μ(k))²) / n with μ the column mean. -/
def varDev (n : EReal) (Y : Fin N → Fin P → EReal) (k : Fin P) : EReal :=
  Ideal.div (0 + ∑ r, (Y r k - meanDev n Y k) * (Y r k - meanDev n Y k)) n

/-- The column mean from 8·T rows of scaled partial sums S: (0 + Σ_i S(i,k)) / n. -/
def meanMom {R : Nat} (n : EReal) (S : Fin R → Fin P → EReal) (k : Fin P) : EReal :=
  Ideal.div (0 + ∑ i, S i k) n

/-- The column variance in the moment form: (0 + Σ_i S2(i,k)) / n − μ(k) · μ(k). -/
def varMom {R : Nat} (n : EReal) (S1 S2 : Fin R → Fin P → EReal) (k : Fin P) : EReal :=
  Ideal.div (0 + ∑ i, S2 i k) n - meanMom n S1 k * meanMom n S1 k

/-- Eight copies of an eighth of a real add up to it. -/
theorem eight_eighths (s : EReal) (hs : IsRealS s) :
    (∑ _u : Fin 8, s * ((1 / 8 : ℝ) : EReal)) = s := by
  obtain ⟨a, rfl⟩ := hs
  rw [← EReal.coe_mul, ← coe_fintype_sum (fun _ : Fin 8 => a * (1 / 8))]
  congr 1
  rw [Finset.sum_const, Finset.card_univ, Fintype.card_fin]
  simp only [nsmul_eq_mul]
  push_cast
  ring

/-- THE PARTIAL SUMS ADD UP: if row i of S holds an eighth of tile (i / 8)'s sum of a real family f over the
    tile's B entries, the sum of all 8·T rows of S is the sum of f over its T·B entries. -/
theorem sum_scaled_tiles {T B : Nat} (f : Fin (T * B) → EReal) (hf : IsReal f) (S : Fin (T * 8) → EReal)
    (hS : ∀ (t : Fin T) (u : Fin 8),
      S ⟨8 * t.val + u.val, Cert.LibBlockSumGen.block_index_lt t u⟩
        = (∑ p : Fin B, f ⟨B * t.val + p.val, Cert.LibBlockSumGen.block_index_lt t p⟩) * ((1 / 8 : ℝ) : EReal)) :
    ∑ i, S i = ∑ r, f r := by
  rw [Cert.LibBlockSumGen.sum_blocks (rfl : T * 8 = T * 8) S, Cert.LibBlockSumGen.sum_blocks (rfl : T * B = T * B) f]
  refine Finset.sum_congr rfl fun t _ => ?_
  simp only [hS t]
  exact eight_eighths _ (isRealS_sum _ _ fun p _ => hf _)

end Cert.Fg

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.KBodiesB.lean ====
/-
  The two fused "batch normalisation + mean aggregation + merge" bodies read at an index, at the ideal values.

  At the ideal values — floats extended reals, every operation exact, a change of float format the identity —
  the body computes, on a block of R rows,
      h = max(((y − μ) · rsqrt(σ² + ε)) · γ + β, 0)       (the rows μ, σ², γ, β spread over the block's rows),
      s = (((M · Wl) + bl) + X · Wr) + br,
      out = (h + s) · Wm + bm.
  Read at an index these are the entry-by-entry formulas of the layer: plain sums of products of the entries that
  were loaded.
-/
import proofs.«151819_j60404420051112_2_alg».proof.Proof.Gen.KernelIdeal.Skeleton
import proofs.«151819_j60404420051112_2_alg».proof.Proof.Spec
import proofs.«151819_j60404420051112_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bodies

open Idealize.ShloMosaic Idealize.ShloMosaic.ValueIdx Cert.KernelIdeal Cert.KernelIdeal.Gen

/-- The batch-normalised and clamped block, read at (r, k):
    max(((y(r,k) − μ(0,k)) · rsqrt(σ²(0,k) + ε)) · γ(0,k) + β(0,k), z). -/
theorem k2_pay2_apply (x0 : Vec Ideal S4000x256 .f32) (x1 x2 x3 x4 : Vec Ideal S1x256 .f32) (r : Fin 4000) (k : Fin 256) :
    k2_pay2 (F := Ideal) x0 x1 x2 x3 x4 (ix2 r k)
      = Cert.Fg.bnRelu (Ideal.ofBits .f32 0x3727C5AC#32) (Ideal.ofBits .f32 0x00000000#32) (x0 (ix2 r k))
          (x1 (ix2 (0 : Fin 1) k)) (x2 (ix2 (0 : Fin 1) k)) (x3 (ix2 (0 : Fin 1) k)) (x4 (ix2 (0 : Fin 1) k)) := by
  show maximumf (addf (mulf (mulf (subf (shapeCast S4000x256 x0 shapeCasts_S4000x256_S4000x256)
            (broadcastTo S4000x256 (shapeCast S1x256 x1 shapeCasts_S1x256_S1x256) broadcasts_S1x256_S4000x256))
          (broadcastTo S4000x256 (rsqrt (addf (shapeCast S1x256 x2 shapeCasts_S1x256_S1x256)
            (broadcast S1x256 (Scalar.ofBits (F := Ideal) .f32 0x3727C5AC#32)))) broadcasts_S1x256_S4000x256))
          (broadcastTo S4000x256 (shapeCast S1x256 x3 shapeCasts_S1x256_S1x256) broadcasts_S1x256_S4000x256))
        (broadcastTo S4000x256 (shapeCast S1x256 x4 shapeCasts_S1x256_S1x256) broadcasts_S1x256_S4000x256))
      (broadcast S4000x256 (Scalar.ofBits (F := Ideal) .f32 0x00000000#32)) (ix2 r k) = _
  rw [maximumf_apply, addf_apply, mulf_apply, mulf_apply, subf_apply, broadcastTo_1b_ab_apply, broadcastTo_1b_ab_apply,
    broadcastTo_1b_ab_apply, broadcastTo_1b_ab_apply, shapeCast_self x0, shapeCast_self x1, shapeCast_self x2,
    shapeCast_self x3, shapeCast_self x4]
  rfl

/-- The product of the mean-aggregated features with their weights, read at (r, k): Σ_j M(r,j) · Wl(j,k). -/
theorem k2_pay5_apply (x5 : Vec Ideal S4000x128 .f32) (x7 : Vec Ideal S128x256 .f32) (r : Fin 4000) (k : Fin 256) :
    k2_pay5 (F := Ideal) x5 x7 (ix2 r k) = ∑ j : Fin 128, x5 (ix2 r j) * x7 (ix2 j k) := by
  show matmul (DotDims.plain 4000 128 256) none
        (truncf .bf16 (shapeCast S4000x128 x5 shapeCasts_S4000x128_S4000x128) bitsLt_bf16_f32)
        (truncf .bf16 x7 bitsLt_bf16_f32) (constant (F := Ideal) S4000x256 .f32 0x00000000#32) (ix2 r k) = _
  rw [Cert.Lib.PlainDot.matmul_plain_zero_apply]
  refine Finset.sum_congr rfl fun j _ => ?_
  rw [truncf_apply, truncf_apply, shapeCast_self x5]

/-- A bias row spread over the block's rows, read at (r, k): the row at (0, k). -/
theorem k2_pay6_apply (x8 : Vec Ideal S1x256 .f32) (r : Fin 4000) (k : Fin 256) :
    k2_pay6 (F := Ideal) x8 (ix2 r k) = x8 (ix2 (0 : Fin 1) k) := by
  show broadcastTo S4000x256 (shapeCast S1x256 x8 shapeCasts_S1x256_S1x256) broadcasts_S1x256_S4000x256 (ix2 r k) = _
  rw [broadcastTo_1b_ab_apply, shapeCast_self]

/-- The sum that the merge multiplies, read at (r, k): the normalised-and-clamped entry plus the mean-aggregation
    affine map's entry. -/
theorem k2_mid_apply (x0 : Vec Ideal S4000x256 .f32) (x1 x2 x3 x4 : Vec Ideal S1x256 .f32)
    (x5 x6 : Vec Ideal S4000x128 .f32) (x7 : Vec Ideal S128x256 .f32) (x8 : Vec Ideal S1x256 .f32)
    (x9 : Vec Ideal S128x256 .f32) (x10 : Vec Ideal S1x256 .f32) (r : Fin 4000) (k : Fin 256) :
    addf (k2_pay2 (F := Ideal) x0 x1 x2 x3 x4)
        (addf (addf (addf (k2_pay5 (F := Ideal) x5 x7) (k2_pay6 (F := Ideal) x8))
            (matmul (DotDims.plain 4000 128 256) none (k2_pay3 (F := Ideal) x6) (k2_pay4 (F := Ideal) x9)
              (constant (F := Ideal) S4000x256 .f32 0x00000000#32)))
          (broadcastTo S4000x256 (shapeCast S1x256 x10 shapeCasts_S1x256_S1x256) broadcasts_S1x256_S4000x256)) (ix2 r k)
      = Cert.Fg.bnRelu (Ideal.ofBits .f32 0x3727C5AC#32) (Ideal.ofBits .f32 0x00000000#32) (x0 (ix2 r k))
          (x1 (ix2 (0 : Fin 1) k)) (x2 (ix2 (0 : Fin 1) k)) (x3 (ix2 (0 : Fin 1) k)) (x4 (ix2 (0 : Fin 1) k))
        + Cert.Fg.sage (fun r j => x5 (ix2 r j)) (fun r j => x6 (ix2 r j)) (fun j k => x7 (ix2 j k))
            (fun j k => x9 (ix2 j k)) (fun k => x8 (ix2 (0 : Fin 1) k)) (fun k => x10 (ix2 (0 : Fin 1) k)) r k := by
  rw [addf_apply, addf_apply, addf_apply, addf_apply, k2_pay2_apply, k2_pay5_apply, k2_pay6_apply,
    Cert.Lib.PlainDot.matmul_plain_zero_apply, broadcastTo_1b_ab_apply, shapeCast_self]
  rfl

/-- The fused body's result on a block of 4000 rows, read at (p, q): the merge Σ_k T(p,k) · Wm(k,q) + bm(0,q) of the
    sum T of the normalised-and-clamped block and the mean-aggregation affine map. -/
theorem k2_out_apply (x0 : Vec Ideal S4000x256 .f32) (x1 x2 x3 x4 : Vec Ideal S1x256 .f32)
    (x5 x6 : Vec Ideal S4000x128 .f32) (x7 : Vec Ideal S128x256 .f32) (x8 : Vec Ideal S1x256 .f32)
    (x9 : Vec Ideal S128x256 .f32) (x10 : Vec Ideal S1x256 .f32) (x11 : Vec Ideal S256x128 .f32)
    (x12 : Vec Ideal S1x128 .f32) (p : Fin 4000) (q : Fin 128) :
    k2_pay1 (F := Ideal) (k2_pay2 x0 x1 x2 x3 x4) (k2_pay3 x6) (k2_pay4 x9) (k2_pay5 x5 x7) (k2_pay6 x8)
        x10 x11 x12 (ix2 p q)
      = Cert.Fg.merged (fun (r : Fin 4000) (k : Fin 256) =>
            Cert.Fg.bnRelu (Ideal.ofBits .f32 0x3727C5AC#32) (Ideal.ofBits .f32 0x00000000#32) (x0 (ix2 r k))
              (x1 (ix2 (0 : Fin 1) k)) (x2 (ix2 (0 : Fin 1) k)) (x3 (ix2 (0 : Fin 1) k)) (x4 (ix2 (0 : Fin 1) k))
            + Cert.Fg.sage (fun r j => x5 (ix2 r j)) (fun r j => x6 (ix2 r j)) (fun j k => x7 (ix2 j k))
                (fun j k => x9 (ix2 j k)) (fun k => x8 (ix2 (0 : Fin 1) k)) (fun k => x10 (ix2 (0 : Fin 1) k)) r k)
          (fun k q => x11 (ix2 k q)) (fun q => x12 (ix2 (0 : Fin 1) q)) p q := by
  show addf (matmul (DotDims.plain 4000 256 128) none
        (truncf .bf16 (addf (k2_pay2 (F := Ideal) x0 x1 x2 x3 x4)
          (addf (addf (addf (k2_pay5 (F := Ideal) x5 x7) (k2_pay6 (F := Ideal) x8))
              (matmul (DotDims.plain 4000 128 256) none (k2_pay3 (F := Ideal) x6) (k2_pay4 (F := Ideal) x9)
                (constant (F := Ideal) S4000x256 .f32 0x00000000#32)))
            (broadcastTo S4000x256 (shapeCast S1x256 x10 shapeCasts_S1x256_S1x256) broadcasts_S1x256_S4000x256)))
          bitsLt_bf16_f32)
        (truncf .bf16 x11 bitsLt_bf16_f32) (constant (F := Ideal) S4000x128 .f32 0x00000000#32))
      (broadcastTo S4000x128 (shapeCast S1x128 x12 shapeCasts_S1x128_S1x128) broadcasts_S1x128_S4000x128) (ix2 p q) = _
  rw [addf_apply, Cert.Lib.PlainDot.matmul_plain_zero_apply, broadcastTo_1b_ab_apply, shapeCast_self x12]
  unfold Cert.Fg.merged
  refine congrArg (fun s : EReal => s + x12 (ix2 (0 : Fin 1) q)) (Finset.sum_congr rfl fun k _ => ?_)
  refine congrArg (fun s : EReal => s * x11 (ix2 k q)) ?_
  rw [truncf_apply]
  exact k2_mid_apply x0 x1 x2 x3 x4 x5 x6 x7 x8 x9 x10 p k

/-- The batch-normalised and clamped block, read at (r, k):
    max(((y(r,k) − μ(0,k)) · rsqrt(σ²(0,k) + ε)) · γ(0,k) + β(0,k), z). -/
theorem k3_pay2_apply (x0 : Vec Ideal S1000x256 .f32) (x1 x2 x3 x4 : Vec Ideal S1x256 .f32) (r : Fin 1000) (k : Fin 256) :
    k3_pay2 (F := Ideal) x0 x1 x2 x3 x4 (ix2 r k)
      = Cert.Fg.bnRelu (Ideal.ofBits .f32 0x3727C5AC#32) (Ideal.ofBits .f32 0x00000000#32) (x0 (ix2 r k))
          (x1 (ix2 (0 : Fin 1) k)) (x2 (ix2 (0 : Fin 1) k)) (x3 (ix2 (0 : Fin 1) k)) (x4 (ix2 (0 : Fin 1) k)) := by
  show maximumf (addf (mulf (mulf (subf (shapeCast S1000x256 x0 shapeCasts_S1000x256_S1000x256)
            (broadcastTo S1000x256 (shapeCast S1x256 x1 shapeCasts_S1x256_S1x256) broadcasts_S1x256_S1000x256))
          (broadcastTo S1000x256 (rsqrt (addf (shapeCast S1x256 x2 shapeCasts_S1x256_S1x256)
            (broadcast S1x256 (Scalar.ofBits (F := Ideal) .f32 0x3727C5AC#32)))) broadcasts_S1x256_S1000x256))
          (broadcastTo S1000x256 (shapeCast S1x256 x3 shapeCasts_S1x256_S1x256) broadcasts_S1x256_S1000x256))
        (broadcastTo S1000x256 (shapeCast S1x256 x4 shapeCasts_S1x256_S1x256) broadcasts_S1x256_S1000x256))
      (broadcast S1000x256 (Scalar.ofBits (F := Ideal) .f32 0x00000000#32)) (ix2 r k) = _
  rw [maximumf_apply, addf_apply, mulf_apply, mulf_apply, subf_apply, broadcastTo_1b_ab_apply, broadcastTo_1b_ab_apply,
    broadcastTo_1b_ab_apply, broadcastTo_1b_ab_apply, shapeCast_self x0, shapeCast_self x1, shapeCast_self x2,
    shapeCast_self x3, shapeCast_self x4]
  rfl

/-- The product of the mean-aggregated features with their weights, read at (r, k): Σ_j M(r,j) · Wl(j,k). -/
theorem k3_pay5_apply (x5 : Vec Ideal S1000x128 .f32) (x7 : Vec Ideal S128x256 .f32) (r : Fin 1000) (k : Fin 256) :
    k3_pay5 (F := Ideal) x5 x7 (ix2 r k) = ∑ j : Fin 128, x5 (ix2 r j) * x7 (ix2 j k) := by
  show matmul (DotDims.plain 1000 128 256) none
        (truncf .bf16 (shapeCast S1000x128 x5 shapeCasts_S1000x128_S1000x128) bitsLt_bf16_f32)
        (truncf .bf16 x7 bitsLt_bf16_f32) (constant (F := Ideal) S1000x256 .f32 0x00000000#32) (ix2 r k) = _
  rw [Cert.Lib.PlainDot.matmul_plain_zero_apply]
  refine Finset.sum_congr rfl fun j _ => ?_
  rw [truncf_apply, truncf_apply, shapeCast_self x5]

/-- A bias row spread over the block's rows, read at (r, k): the row at (0, k). -/
theorem k3_pay6_apply (x8 : Vec Ideal S1x256 .f32) (r : Fin 1000) (k : Fin 256) :
    k3_pay6 (F := Ideal) x8 (ix2 r k) = x8 (ix2 (0 : Fin 1) k) := by
  show broadcastTo S1000x256 (shapeCast S1x256 x8 shapeCasts_S1x256_S1x256) broadcasts_S1x256_S1000x256 (ix2 r k) = _
  rw [broadcastTo_1b_ab_apply, shapeCast_self]

/-- The sum that the merge multiplies, read at (r, k): the normalised-and-clamped entry plus the mean-aggregation
    affine map's entry. -/
theorem k3_mid_apply (x0 : Vec Ideal S1000x256 .f32) (x1 x2 x3 x4 : Vec Ideal S1x256 .f32)
    (x5 x6 : Vec Ideal S1000x128 .f32) (x7 : Vec Ideal S128x256 .f32) (x8 : Vec Ideal S1x256 .f32)
    (x9 : Vec Ideal S128x256 .f32) (x10 : Vec Ideal S1x256 .f32) (r : Fin 1000) (k : Fin 256) :
    addf (k3_pay2 (F := Ideal) x0 x1 x2 x3 x4)
        (addf (addf (addf (k3_pay5 (F := Ideal) x5 x7) (k3_pay6 (F := Ideal) x8))
            (matmul (DotDims.plain 1000 128 256) none (k3_pay3 (F := Ideal) x6) (k3_pay4 (F := Ideal) x9)
              (constant (F := Ideal) S1000x256 .f32 0x00000000#32)))
          (broadcastTo S1000x256 (shapeCast S1x256 x10 shapeCasts_S1x256_S1x256) broadcasts_S1x256_S1000x256)) (ix2 r k)
      = Cert.Fg.bnRelu (Ideal.ofBits .f32 0x3727C5AC#32) (Ideal.ofBits .f32 0x00000000#32) (x0 (ix2 r k))
          (x1 (ix2 (0 : Fin 1) k)) (x2 (ix2 (0 : Fin 1) k)) (x3 (ix2 (0 : Fin 1) k)) (x4 (ix2 (0 : Fin 1) k))
        + Cert.Fg.sage (fun r j => x5 (ix2 r j)) (fun r j => x6 (ix2 r j)) (fun j k => x7 (ix2 j k))
            (fun j k => x9 (ix2 j k)) (fun k => x8 (ix2 (0 : Fin 1) k)) (fun k => x10 (ix2 (0 : Fin 1) k)) r k := by
  rw [addf_apply, addf_apply, addf_apply, addf_apply, k3_pay2_apply, k3_pay5_apply, k3_pay6_apply,
    Cert.Lib.PlainDot.matmul_plain_zero_apply, broadcastTo_1b_ab_apply, shapeCast_self]
  rfl

/-- The fused body's result on a block of 1000 rows, read at (p, q): the merge Σ_k T(p,k) · Wm(k,q) + bm(0,q) of the
    sum T of the normalised-and-clamped block and the mean-aggregation affine map. -/
theorem k3_out_apply (x0 : Vec Ideal S1000x256 .f32) (x1 x2 x3 x4 : Vec Ideal S1x256 .f32)
    (x5 x6 : Vec Ideal S1000x128 .f32) (x7 : Vec Ideal S128x256 .f32) (x8 : Vec Ideal S1x256 .f32)
    (x9 : Vec Ideal S128x256 .f32) (x10 : Vec Ideal S1x256 .f32) (x11 : Vec Ideal S256x128 .f32)
    (x12 : Vec Ideal S1x128 .f32) (p : Fin 1000) (q : Fin 128) :
    k3_pay1 (F := Ideal) (k3_pay2 x0 x1 x2 x3 x4) (k3_pay3 x6) (k3_pay4 x9) (k3_pay5 x5 x7) (k3_pay6 x8)
        x10 x11 x12 (ix2 p q)
      = Cert.Fg.merged (fun (r : Fin 1000) (k : Fin 256) =>
            Cert.Fg.bnRelu (Ideal.ofBits .f32 0x3727C5AC#32) (Ideal.ofBits .f32 0x00000000#32) (x0 (ix2 r k))
              (x1 (ix2 (0 : Fin 1) k)) (x2 (ix2 (0 : Fin 1) k)) (x3 (ix2 (0 : Fin 1) k)) (x4 (ix2 (0 : Fin 1) k))
            + Cert.Fg.sage (fun r j => x5 (ix2 r j)) (fun r j => x6 (ix2 r j)) (fun j k => x7 (ix2 j k))
                (fun j k => x9 (ix2 j k)) (fun k => x8 (ix2 (0 : Fin 1) k)) (fun k => x10 (ix2 (0 : Fin 1) k)) r k)
          (fun k q => x11 (ix2 k q)) (fun q => x12 (ix2 (0 : Fin 1) q)) p q := by
  show addf (matmul (DotDims.plain 1000 256 128) none
        (truncf .bf16 (addf (k3_pay2 (F := Ideal) x0 x1 x2 x3 x4)
          (addf (addf (addf (k3_pay5 (F := Ideal) x5 x7) (k3_pay6 (F := Ideal) x8))
              (matmul (DotDims.plain 1000 128 256) none (k3_pay3 (F := Ideal) x6) (k3_pay4 (F := Ideal) x9)
                (constant (F := Ideal) S1000x256 .f32 0x00000000#32)))
            (broadcastTo S1000x256 (shapeCast S1x256 x10 shapeCasts_S1x256_S1x256) broadcasts_S1x256_S1000x256)))
          bitsLt_bf16_f32)
        (truncf .bf16 x11 bitsLt_bf16_f32) (constant (F := Ideal) S1000x128 .f32 0x00000000#32))
      (broadcastTo S1000x128 (shapeCast S1x128 x12 shapeCasts_S1x128_S1x128) broadcasts_S1x128_S1000x128) (ix2 p q) = _
  rw [addf_apply, Cert.Lib.PlainDot.matmul_plain_zero_apply, broadcastTo_1b_ab_apply, shapeCast_self x12]
  unfold Cert.Fg.merged
  refine congrArg (fun s : EReal => s + x12 (ix2 (0 : Fin 1) q)) (Finset.sum_congr rfl fun k _ => ?_)
  refine congrArg (fun s : EReal => s * x11 (ix2 k q)) ?_
  rw [truncf_apply]
  exact k3_mid_apply x0 x1 x2 x3 x4 x5 x6 x7 x8 x9 x10 p k

end Cert.KernelIdeal.Bodies

end
-- ==== Proof.KRegRows.lean ====
/-
  The layer's entry depends only on one row of its row-indexed arguments.

  The merge Σ_k T(r,k) · Wm(k,q) + bm(q) at (r, q) reads row r of T, column q of Wm and entry q of bm; the
  mean-aggregation affine map at (r, k) reads row r of M and of X, column k of the two weight matrices and entry k
  of the two bias rows.  So two such expressions over different numbers of rows agree as soon as the rows, columns
  and entries they read agree.
-/
import proofs.«151819_j60404420051112_2_alg».proof.Proof.Spec

noncomputable section

namespace Cert.Fg

variable {N N' P Q H : Nat}

/-- Two merges agree at (p, q) and (r, q) when row p of the one's T is row r of the other's, and column q of the
    weights and entry q of the biases agree. -/
theorem merged_congr_row (T : Fin N → Fin P → EReal) (T' : Fin N' → Fin P → EReal)
    (Wm Wm' : Fin P → Fin Q → EReal) (bm bm' : Fin Q → EReal) (p : Fin N) (r : Fin N') (q : Fin Q)
    (hT : ∀ k, T p k = T' r k) (hW : ∀ k, Wm k q = Wm' k q) (hb : bm q = bm' q) :
    merged T Wm bm p q = merged T' Wm' bm' r q := by
  unfold merged
  rw [hb]
  refine congrArg (· + bm' q) (Finset.sum_congr rfl fun k _ => ?_)
  rw [hT k, hW k]

/-- Two mean-aggregation affine maps agree at (p, k) and (r, k) when row p of the one's M and X is row r of the
    other's, and column k of the weights and entry k of the biases agree. -/
theorem sage_congr_row (M X : Fin N → Fin H → EReal) (M' X' : Fin N' → Fin H → EReal)
    (Wl Wr Wl' Wr' : Fin H → Fin P → EReal) (bl br bl' br' : Fin P → EReal) (p : Fin N) (r : Fin N') (k : Fin P)
    (hM : ∀ j, M p j = M' r j) (hX : ∀ j, X p j = X' r j) (hWl : ∀ j, Wl j k = Wl' j k) (hWr : ∀ j, Wr j k = Wr' j k)
    (hbl : bl k = bl' k) (hbr : br k = br' k) :
    sage M X Wl Wr bl br p k = sage M' X' Wl' Wr' bl' br' r k := by
  unfold sage
  rw [hbl, hbr]
  have h1 : (∑ j, M p j * Wl j k) = ∑ j, M' r j * Wl' j k :=
    Finset.sum_congr rfl fun j _ => by rw [hM j, hWl j]
  have h2 : (∑ j, X p j * Wr j k) = ∑ j, X' r j * Wr' j k :=
    Finset.sum_congr rfl fun j _ => by rw [hX j, hWr j]
  rw [h1, h2]

end Cert.Fg

end
-- ==== Proof.KReg2.lean ====
/-
  The fused launch over 100000 rows, from its blocks to its arrays.

  The launch runs over 25 grid points.  At point t it reads rows 4000 t … 4000 t + 3999 of the three row-indexed
  arrays (the pre-normalisation values [100000, 256], the mean-aggregated features and the nodes' own features
  [100000, 128]) and the whole of the ten small arrays (the statistics, scale and shift rows, the weight matrices and
  the bias rows), and writes back rows 4000 t … 4000 t + 3999 of the result [100000, 128].  The blocks written back
  tile the result, so the result after the launch is the layer's entry-by-entry formula over the arrays the launch
  found.
-/
import proofs.«151819_j60404420051112_2_alg».proof.Proof.Gen.KernelIdeal.Frame
import proofs.«151819_j60404420051112_2_alg».proof.Proof.KBodiesB
import proofs.«151819_j60404420051112_2_alg».proof.Proof.KRegRows
import Idealize.ShloMosaic.Lib.ValueIdx
import Idealize.ShloMosaic.Lib.Pipeline.Value

set_option maxRecDepth 16384

noncomputable section

namespace Cert.KernelIdeal.KReg2

open Cert.KernelIdeal Cert.KernelIdeal.Gen Cert.KernelIdeal.Bodies
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offset (0, 0) is the zero function. -/
theorem hz : (![0, 0] : Fin 2 → Nat) = fun _ => 0 := funext fun a => by fin_cases a <;> rfl

/-! ## The windows' block indices over the grid -/

/-- Window 0's block at point t sits at (t, 0). -/
theorem widx2_0 : ∀ t : Fin cfg2.N, win2_0.index t (0 : Fin 2) = t.val ∧ win2_0.index t (1 : Fin 2) = 0 :=
  (by decide +kernel : ∀ t : Fin grid2.N, _)

/-- Window 1's block at point t sits at (0, 0). -/
theorem widx2_1 : ∀ t : Fin cfg2.N, win2_1.index t (0 : Fin 2) = 0 ∧ win2_1.index t (1 : Fin 2) = 0 :=
  (by decide +kernel : ∀ t : Fin grid2.N, _)

/-- Window 2's block at point t sits at (0, 0). -/
theorem widx2_2 : ∀ t : Fin cfg2.N, win2_2.index t (0 : Fin 2) = 0 ∧ win2_2.index t (1 : Fin 2) = 0 :=
  (by decide +kernel : ∀ t : Fin grid2.N, _)

/-- Window 3's block at point t sits at (0, 0). -/
theorem widx2_3 : ∀ t : Fin cfg2.N, win2_3.index t (0 : Fin 2) = 0 ∧ win2_3.index t (1 : Fin 2) = 0 :=
  (by decide +kernel : ∀ t : Fin grid2.N, _)

/-- Window 4's block at point t sits at (0, 0). -/
theorem widx2_4 : ∀ t : Fin cfg2.N, win2_4.index t (0 : Fin 2) = 0 ∧ win2_4.index t (1 : Fin 2) = 0 :=
  (by decide +kernel : ∀ t : Fin grid2.N, _)

/-- Window 5's block at point t sits at (t, 0). -/
theorem widx2_5 : ∀ t : Fin cfg2.N, win2_5.index t (0 : Fin 2) = t.val ∧ win2_5.index t (1 : Fin 2) = 0 :=
  (by decide +kernel : ∀ t : Fin grid2.N, _)

/-- Window 6's block at point t sits at (t, 0). -/
theorem widx2_6 : ∀ t : Fin cfg2.N, win2_6.index t (0 : Fin 2) = t.val ∧ win2_6.index t (1 : Fin 2) = 0 :=
  (by decide +kernel : ∀ t : Fin grid2.N, _)

/-- Window 7's block at point t sits at (0, 0). -/
theorem widx2_7 : ∀ t : Fin cfg2.N, win2_7.index t (0 : Fin 2) = 0 ∧ win2_7.index t (1 : Fin 2) = 0 :=
  (by decide +kernel : ∀ t : Fin grid2.N, _)

/-- Window 8's block at point t sits at (0, 0). -/
theorem widx2_8 : ∀ t : Fin cfg2.N, win2_8.index t (0 : Fin 2) = 0 ∧ win2_8.index t (1 : Fin 2) = 0 :=
  (by decide +kernel : ∀ t : Fin grid2.N, _)

/-- Window 9's block at point t sits at (0, 0). -/
theorem widx2_9 : ∀ t : Fin cfg2.N, win2_9.index t (0 : Fin 2) = 0 ∧ win2_9.index t (1 : Fin 2) = 0 :=
  (by decide +kernel : ∀ t : Fin grid2.N, _)

/-- Window 10's block at point t sits at (0, 0). -/
theorem widx2_10 : ∀ t : Fin cfg2.N, win2_10.index t (0 : Fin 2) = 0 ∧ win2_10.index t (1 : Fin 2) = 0 :=
  (by decide +kernel : ∀ t : Fin grid2.N, _)

/-- Window 11's block at point t sits at (0, 0). -/
theorem widx2_11 : ∀ t : Fin cfg2.N, win2_11.index t (0 : Fin 2) = 0 ∧ win2_11.index t (1 : Fin 2) = 0 :=
  (by decide +kernel : ∀ t : Fin grid2.N, _)

/-- Window 12's block at point t sits at (0, 0). -/
theorem widx2_12 : ∀ t : Fin cfg2.N, win2_12.index t (0 : Fin 2) = 0 ∧ win2_12.index t (1 : Fin 2) = 0 :=
  (by decide +kernel : ∀ t : Fin grid2.N, _)

/-- Window 13's block at point t sits at (t, 0). -/
theorem widx2_13 : ∀ t : Fin cfg2.N, win2_13.index t (0 : Fin 2) = t.val ∧ win2_13.index t (1 : Fin 2) = 0 :=
  (by decide +kernel : ∀ t : Fin grid2.N, _)

/-! ## The input blocks read at an index -/

/-- Row p of the block of the pre-normalisation values at point t is row 4000 t + p of the array. -/
theorem iblk2_0_apply (c : Dev nD) (t : Fin cfg2.N) (p : Fin 4000) (k : Fin 256) (r : Fin 100000)
    (hr : r.val = 4000 * t.val + p.val) :
    (iblk2 V c 0 t : Vec Ideal S4000x256 .f32) (ix2 p k) = (V c main_v93_0 : S100000x256.Idx → EReal) (ix2 r k) := by
  unfold iblk2
  rw [View.read_apply]
  show V c main_v93_0 _ = V c main_v93_0 _
  refine congrArg _ ?_
  funext a
  apply Fin.ext
  match a with
  | ⟨0, _⟩ => show win2_0.index t (0 : Fin 2) * 4000 + 1 * p.val = r.val; rw [(widx2_0 t).1, hr]; omega
  | ⟨1, _⟩ => show win2_0.index t (1 : Fin 2) * 256 + 1 * k.val = k.val; rw [(widx2_0 t).2]; omega

/-- The block of the mean row at every point is the whole array. -/
theorem iblk2_1_apply (c : Dev nD) (t : Fin cfg2.N) (z : Fin 1) (k : Fin 256) :
    (iblk2 V c 1 t : Vec Ideal S1x256 .f32) (ix2 z k) = (V c main_v99 : S1x256.Idx → EReal) (ix2 z k) := by
  unfold iblk2
  rw [View.read_apply]
  show V c main_v99 _ = V c main_v99 _
  refine congrArg _ ?_
  funext a
  apply Fin.ext
  match a with
  | ⟨0, _⟩ => show win2_1.index t (0 : Fin 2) * 1 + 1 * z.val = z.val; rw [(widx2_1 t).1]; omega
  | ⟨1, _⟩ => show win2_1.index t (1 : Fin 2) * 256 + 1 * k.val = k.val; rw [(widx2_1 t).2]; omega

/-- The block of the variance row at every point is the whole array. -/
theorem iblk2_2_apply (c : Dev nD) (t : Fin cfg2.N) (z : Fin 1) (k : Fin 256) :
    (iblk2 V c 2 t : Vec Ideal S1x256 .f32) (ix2 z k) = (V c main_v103 : S1x256.Idx → EReal) (ix2 z k) := by
  unfold iblk2
  rw [View.read_apply]
  show V c main_v103 _ = V c main_v103 _
  refine congrArg _ ?_
  funext a
  apply Fin.ext
  match a with
  | ⟨0, _⟩ => show win2_2.index t (0 : Fin 2) * 1 + 1 * z.val = z.val; rw [(widx2_2 t).1]; omega
  | ⟨1, _⟩ => show win2_2.index t (1 : Fin 2) * 256 + 1 * k.val = k.val; rw [(widx2_2 t).2]; omega

/-- The block of the scale row at every point is the whole array. -/
theorem iblk2_3_apply (c : Dev nD) (t : Fin cfg2.N) (z : Fin 1) (k : Fin 256) :
    (iblk2 V c 3 t : Vec Ideal S1x256 .f32) (ix2 z k) = (V c main_v116 : S1x256.Idx → EReal) (ix2 z k) := by
  unfold iblk2
  rw [View.read_apply]
  show V c main_v116 _ = V c main_v116 _
  refine congrArg _ ?_
  funext a
  apply Fin.ext
  match a with
  | ⟨0, _⟩ => show win2_3.index t (0 : Fin 2) * 1 + 1 * z.val = z.val; rw [(widx2_3 t).1]; omega
  | ⟨1, _⟩ => show win2_3.index t (1 : Fin 2) * 256 + 1 * k.val = k.val; rw [(widx2_3 t).2]; omega

/-- The block of the shift row at every point is the whole array. -/
theorem iblk2_4_apply (c : Dev nD) (t : Fin cfg2.N) (z : Fin 1) (k : Fin 256) :
    (iblk2 V c 4 t : Vec Ideal S1x256 .f32) (ix2 z k) = (V c main_v117 : S1x256.Idx → EReal) (ix2 z k) := by
  unfold iblk2
  rw [View.read_apply]
  show V c main_v117 _ = V c main_v117 _
  refine congrArg _ ?_
  funext a
  apply Fin.ext
  match a with
  | ⟨0, _⟩ => show win2_4.index t (0 : Fin 2) * 1 + 1 * z.val = z.val; rw [(widx2_4 t).1]; omega
  | ⟨1, _⟩ => show win2_4.index t (1 : Fin 2) * 256 + 1 * k.val = k.val; rw [(widx2_4 t).2]; omega

/-- Row p of the block of the mean-aggregated features at point t is row 4000 t + p of the array. -/
theorem iblk2_5_apply (c : Dev nD) (t : Fin cfg2.N) (p : Fin 4000) (k : Fin 128) (r : Fin 100000)
    (hr : r.val = 4000 * t.val + p.val) :
    (iblk2 V c 5 t : Vec Ideal S4000x128 .f32) (ix2 p k) = (V c main_v91 : S100000x128.Idx → EReal) (ix2 r k) := by
  unfold iblk2
  rw [View.read_apply]
  show V c main_v91 _ = V c main_v91 _
  refine congrArg _ ?_
  funext a
  apply Fin.ext
  match a with
  | ⟨0, _⟩ => show win2_5.index t (0 : Fin 2) * 4000 + 1 * p.val = r.val; rw [(widx2_5 t).1, hr]; omega
  | ⟨1, _⟩ => show win2_5.index t (1 : Fin 2) * 128 + 1 * k.val = k.val; rw [(widx2_5 t).2]; omega

/-- Row p of the block of the nodes' own features at point t is row 4000 t + p of the array. -/
theorem iblk2_6_apply (c : Dev nD) (t : Fin cfg2.N) (p : Fin 4000) (k : Fin 128) (r : Fin 100000)
    (hr : r.val = 4000 * t.val + p.val) :
    (iblk2 V c 6 t : Vec Ideal S4000x128 .f32) (ix2 p k) = (V c main_arg0 : S100000x128.Idx → EReal) (ix2 r k) := by
  unfold iblk2
  rw [View.read_apply]
  show V c main_arg0 _ = V c main_arg0 _
  refine congrArg _ ?_
  funext a
  apply Fin.ext
  match a with
  | ⟨0, _⟩ => show win2_6.index t (0 : Fin 2) * 4000 + 1 * p.val = r.val; rw [(widx2_6 t).1, hr]; omega
  | ⟨1, _⟩ => show win2_6.index t (1 : Fin 2) * 128 + 1 * k.val = k.val; rw [(widx2_6 t).2]; omega

/-- The block of the aggregated features' weights at every point is the whole array. -/
theorem iblk2_7_apply (c : Dev nD) (t : Fin cfg2.N) (z : Fin 128) (k : Fin 256) :
    (iblk2 V c 7 t : Vec Ideal S128x256 .f32) (ix2 z k) = (V c main_arg18 : S128x256.Idx → EReal) (ix2 z k) := by
  unfold iblk2
  rw [View.read_apply]
  show V c main_arg18 _ = V c main_arg18 _
  refine congrArg _ ?_
  funext a
  apply Fin.ext
  match a with
  | ⟨0, _⟩ => show win2_7.index t (0 : Fin 2) * 128 + 1 * z.val = z.val; rw [(widx2_7 t).1]; omega
  | ⟨1, _⟩ => show win2_7.index t (1 : Fin 2) * 256 + 1 * k.val = k.val; rw [(widx2_7 t).2]; omega

/-- The block of their bias row at every point is the whole array. -/
theorem iblk2_8_apply (c : Dev nD) (t : Fin cfg2.N) (z : Fin 1) (k : Fin 256) :
    (iblk2 V c 8 t : Vec Ideal S1x256 .f32) (ix2 z k) = (V c main_v118 : S1x256.Idx → EReal) (ix2 z k) := by
  unfold iblk2
  rw [View.read_apply]
  show V c main_v118 _ = V c main_v118 _
  refine congrArg _ ?_
  funext a
  apply Fin.ext
  match a with
  | ⟨0, _⟩ => show win2_8.index t (0 : Fin 2) * 1 + 1 * z.val = z.val; rw [(widx2_8 t).1]; omega
  | ⟨1, _⟩ => show win2_8.index t (1 : Fin 2) * 256 + 1 * k.val = k.val; rw [(widx2_8 t).2]; omega

/-- The block of the own features' weights at every point is the whole array. -/
theorem iblk2_9_apply (c : Dev nD) (t : Fin cfg2.N) (z : Fin 128) (k : Fin 256) :
    (iblk2 V c 9 t : Vec Ideal S128x256 .f32) (ix2 z k) = (V c main_arg20 : S128x256.Idx → EReal) (ix2 z k) := by
  unfold iblk2
  rw [View.read_apply]
  show V c main_arg20 _ = V c main_arg20 _
  refine congrArg _ ?_
  funext a
  apply Fin.ext
  match a with
  | ⟨0, _⟩ => show win2_9.index t (0 : Fin 2) * 128 + 1 * z.val = z.val; rw [(widx2_9 t).1]; omega
  | ⟨1, _⟩ => show win2_9.index t (1 : Fin 2) * 256 + 1 * k.val = k.val; rw [(widx2_9 t).2]; omega

/-- The block of their bias row at every point is the whole array. -/
theorem iblk2_10_apply (c : Dev nD) (t : Fin cfg2.N) (z : Fin 1) (k : Fin 256) :
    (iblk2 V c 10 t : Vec Ideal S1x256 .f32) (ix2 z k) = (V c main_v119 : S1x256.Idx → EReal) (ix2 z k) := by
  unfold iblk2
  rw [View.read_apply]
  show V c main_v119 _ = V c main_v119 _
  refine congrArg _ ?_
  funext a
  apply Fin.ext
  match a with
  | ⟨0, _⟩ => show win2_10.index t (0 : Fin 2) * 1 + 1 * z.val = z.val; rw [(widx2_10 t).1]; omega
  | ⟨1, _⟩ => show win2_10.index t (1 : Fin 2) * 256 + 1 * k.val = k.val; rw [(widx2_10 t).2]; omega

/-- The block of the merge weights at every point is the whole array. -/
theorem iblk2_11_apply (c : Dev nD) (t : Fin cfg2.N) (z : Fin 256) (k : Fin 128) :
    (iblk2 V c 11 t : Vec Ideal S256x128 .f32) (ix2 z k) = (V c main_arg22 : S256x128.Idx → EReal) (ix2 z k) := by
  unfold iblk2
  rw [View.read_apply]
  show V c main_arg22 _ = V c main_arg22 _
  refine congrArg _ ?_
  funext a
  apply Fin.ext
  match a with
  | ⟨0, _⟩ => show win2_11.index t (0 : Fin 2) * 256 + 1 * z.val = z.val; rw [(widx2_11 t).1]; omega
  | ⟨1, _⟩ => show win2_11.index t (1 : Fin 2) * 128 + 1 * k.val = k.val; rw [(widx2_11 t).2]; omega

/-- The block of the merge bias row at every point is the whole array. -/
theorem iblk2_12_apply (c : Dev nD) (t : Fin cfg2.N) (z : Fin 1) (k : Fin 128) :
    (iblk2 V c 12 t : Vec Ideal S1x128 .f32) (ix2 z k) = (V c main_v120 : S1x128.Idx → EReal) (ix2 z k) := by
  unfold iblk2
  rw [View.read_apply]
  show V c main_v120 _ = V c main_v120 _
  refine congrArg _ ?_
  funext a
  apply Fin.ext
  match a with
  | ⟨0, _⟩ => show win2_12.index t (0 : Fin 2) * 1 + 1 * z.val = z.val; rw [(widx2_12 t).1]; omega
  | ⟨1, _⟩ => show win2_12.index t (1 : Fin 2) * 128 + 1 * k.val = k.val; rw [(widx2_12 t).2]; omega

/-! ## The result array as a function of the arrays the launch found -/

/-- The layer's result at (r, q) over plain arrays: the merge of the normalised-and-clamped values plus the
    mean-aggregation affine map. -/
def out2 (Y : S100000x256.Idx → EReal) (mu var g be : S1x256.Idx → EReal) (M X : S100000x128.Idx → EReal)
    (Wl : S128x256.Idx → EReal) (bl : S1x256.Idx → EReal) (Wr : S128x256.Idx → EReal) (br : S1x256.Idx → EReal)
    (Wm : S256x128.Idx → EReal) (bm : S1x128.Idx → EReal) (r : Fin 100000) (q : Fin 128) : EReal :=
  Cert.Fg.merged (fun (r : Fin 100000) (k : Fin 256) =>
      Cert.Fg.bnRelu (Ideal.ofBits .f32 0x3727C5AC#32) (Ideal.ofBits .f32 0x00000000#32) (Y (ix2 r k))
        (mu (ix2 (0 : Fin 1) k)) (var (ix2 (0 : Fin 1) k)) (g (ix2 (0 : Fin 1) k)) (be (ix2 (0 : Fin 1) k))
      + Cert.Fg.sage (fun r j => M (ix2 r j)) (fun r j => X (ix2 r j)) (fun j k => Wl (ix2 j k))
          (fun j k => Wr (ix2 j k)) (fun k => bl (ix2 (0 : Fin 1) k)) (fun k => br (ix2 (0 : Fin 1) k)) r k)
    (fun k q => Wm (ix2 k q)) (fun q => bm (ix2 (0 : Fin 1) q)) r q

/-- The result array [100000, 128] over the arrays the launch found. -/
def G13 (c : Dev nD) : S100000x128.Idx → EReal := fun i =>
  out2 (V c main_v93_0) (V c main_v99) (V c main_v103) (V c main_v116) (V c main_v117) (V c main_v91) (V c main_arg0) (V c main_arg18) (V c main_v118) (V c main_arg20) (V c main_v119) (V c main_arg22) (V c main_v120)
    ⟨(i 0).val, idx2_lt0 i⟩ ⟨(i 1).val, idx2_lt1 i⟩

/-- The body's value at local (p, q) of point t is the layer's result at row 4000 t + p. -/
theorem out_at (c : Dev nD) (t : Fin cfg2.N) (p : Fin 4000) (q : Fin 128) (r : Fin 100000) (hr : r.val = 4000 * t.val + p.val) :
    k2_pay1 (F := Ideal) (k2_pay2 (iblk2 V c 0 t) (iblk2 V c 1 t) (iblk2 V c 2 t) (iblk2 V c 3 t) (iblk2 V c 4 t)) (k2_pay3 (iblk2 V c 6 t)) (k2_pay4 (iblk2 V c 9 t)) (k2_pay5 (iblk2 V c 5 t) (iblk2 V c 7 t)) (k2_pay6 (iblk2 V c 8 t)) (iblk2 V c 10 t) (iblk2 V c 11 t) (iblk2 V c 12 t) (ix2 p q)
      = out2 (V c main_v93_0) (V c main_v99) (V c main_v103) (V c main_v116) (V c main_v117) (V c main_v91) (V c main_arg0) (V c main_arg18) (V c main_v118) (V c main_arg20) (V c main_v119) (V c main_arg22) (V c main_v120) r q := by
  refine (k2_out_apply _ _ _ _ _ _ _ _ _ _ _ _ _ p q).trans ?_
  unfold out2
  refine Cert.Fg.merged_congr_row _ _ _ _ _ _ p r q (fun k => ?_) (fun k => iblk2_11_apply V c t k q)
    (iblk2_12_apply V c t 0 q)
  show Cert.Fg.bnRelu _ _ _ _ _ _ _ + Cert.Fg.sage _ _ _ _ _ _ p k
    = Cert.Fg.bnRelu _ _ _ _ _ _ _ + Cert.Fg.sage _ _ _ _ _ _ r k
  rw [iblk2_0_apply V c t p k r hr, iblk2_1_apply V c t 0 k, iblk2_2_apply V c t 0 k, iblk2_3_apply V c t 0 k,
    iblk2_4_apply V c t 0 k]
  refine congrArg (_ + ·) (Cert.Fg.sage_congr_row _ _ _ _ _ _ _ _ _ _ _ _ p r k
    (fun j => iblk2_5_apply V c t p j r hr) (fun j => iblk2_6_apply V c t p j r hr)
    (fun j => iblk2_7_apply V c t j k) (fun j => iblk2_9_apply V c t j k)
    (iblk2_8_apply V c t 0 k) (iblk2_10_apply V c t 0 k))

/-- What point t writes back into the result array is block t of G13. -/
theorem flushed2_13 (c : Dev nD) (t : Fin cfg2.N) :
    (dat2 V c).flushed 13 t = ((cfg2.win 13).blk t).view.read (Elt Ideal) (G13 V c) := by
  show (cfg2.win 13).cut (grid2.coords t) ((dat2 V c).after 13 t) = _
  rw [after2_13]
  unfold out2_13
  rw [View.canon_unit_zero hz]
  simp only [View.ld_unit_zero (S := S4000x256) hz, View.ld_unit_zero (S := S1x256) hz, View.ld_unit_zero (S := S4000x128) hz,
    View.ld_unit_zero (S := S128x256) hz, View.ld_unit_zero (S := S256x128) hz, View.ld_unit_zero (S := S1x128) hz]
  funext y
  obtain ⟨p, q, rfl⟩ : ∃ (p : Fin 4000) (q : Fin 128), y = ix2 p q := ⟨y 0, y 1, eq_ix2 y⟩
  have ht : t.val < 25 := (N_2 : grid2.N = 25) ▸ t.isLt
  have hr : 4000 * t.val + p.val < 100000 := by have := p.isLt; omega
  have hemb : ((cfg2.win 13).blk t).view.emb (ix2 p q) = (ix2 (⟨4000 * t.val + p.val, hr⟩ : Fin 100000) q : S100000x128.Idx) := by
    funext a
    apply Fin.ext
    match a with
    | ⟨0, _⟩ => show win2_13.index t (0 : Fin 2) * 4000 + 1 * p.val = 4000 * t.val + p.val; rw [(widx2_13 t).1]; omega
    | ⟨1, _⟩ => show win2_13.index t (1 : Fin 2) * 128 + 1 * q.val = q.val; rw [(widx2_13 t).2]; omega
  show k2_pay1 (F := Ideal) (k2_pay2 (iblk2 V c 0 t) (iblk2 V c 1 t) (iblk2 V c 2 t) (iblk2 V c 3 t) (iblk2 V c 4 t)) (k2_pay3 (iblk2 V c 6 t)) (k2_pay4 (iblk2 V c 9 t)) (k2_pay5 (iblk2 V c 5 t) (iblk2 V c 7 t)) (k2_pay6 (iblk2 V c 8 t)) (iblk2 V c 10 t) (iblk2 V c 11 t) (iblk2 V c 12 t) (ix2 p q)
    = G13 V c (((cfg2.win 13).blk t).view.emb (ix2 p q))
  rw [hemb]
  exact out_at V c t p q _ rfl

/-- An index of the result array is in point t's block iff each coordinate is in the block's range. -/
theorem mem_blk2_13 (t : Fin cfg2.N) (i : S100000x128.Idx) :
    i ∈ ((cfg2.win 13).blk t).view.set ↔ ∀ a : Fin 2, win2_13.index t a * S4000x128.size a ≤ (i a).val ∧ (i a).val < win2_13.index t a * S4000x128.size a + S4000x128.size a := by
  show i ∈ ((View.whole main_v121).slice (win2_13.rect t)).set ↔ _
  rw [View.set_slice_whole, Rect.mem_set_unit]
  exact Iff.rfl

/-- Every row of the result array lies in the block of the point (row / 4000). -/
theorem covered2_13 (i : S100000x128.Idx) : ∃ t : Fin cfg2.N, (cfg2.win 13).flush t = true ∧ i ∈ ((cfg2.win 13).blk t).view.set := by
  have h0 := idx2_lt0 i
  have h1 := idx2_lt1 i
  have hN : grid2.N = 25 := N_2
  refine ⟨⟨(i 0).val / 4000, by show _ < grid2.N; rw [hN]; omega⟩, flush2_13 _, ?_⟩
  rw [mem_blk2_13]
  intro a
  match a with
  | ⟨0, _⟩ =>
    show win2_13.index _ (0 : Fin 2) * 4000 ≤ (i 0).val ∧ (i 0).val < win2_13.index _ (0 : Fin 2) * 4000 + 4000
    rw [(widx2_13 _).1]
    show (i 0).val / 4000 * 4000 ≤ (i 0).val ∧ (i 0).val < (i 0).val / 4000 * 4000 + 4000
    omega
  | ⟨1, _⟩ =>
    show win2_13.index _ (1 : Fin 2) * 128 ≤ (i 1).val ∧ (i 1).val < win2_13.index _ (1 : Fin 2) * 128 + 128
    rw [(widx2_13 _).2]
    omega

/-- THE RESULT ARRAY after the launch is the layer's formula over the arrays the launch found. -/
theorem final2_13 (c : Dev nD) : (dat2 V c).arrAt 13 cfg2.N = G13 V c :=
  (dat2 V c).arrAt_eq_of_cover 13 (G13 V c) (fun t _ => flushed2_13 V c t) covered2_13

end Cert.KernelIdeal.KReg2

end
-- ==== Proof.KReg3.lean ====
/-
  The fused launch over 25000 rows, from its blocks to its arrays.

  The launch runs over 25 grid points.  At point t it reads rows 1000 t … 1000 t + 999 of the three row-indexed
  arrays (the pre-normalisation values [25000, 256], the mean-aggregated features and the nodes' own features
  [25000, 128]) and the whole of the ten small arrays (the statistics, scale and shift rows, the weight matrices and
  the bias rows), and writes back rows 1000 t … 1000 t + 999 of the result [25000, 128].  The blocks written back
  tile the result, so the result after the launch is the layer's entry-by-entry formula over the arrays the launch
  found.
-/
import proofs.«151819_j60404420051112_2_alg».proof.Proof.Gen.KernelIdeal.Frame
import proofs.«151819_j60404420051112_2_alg».proof.Proof.KBodiesB
import proofs.«151819_j60404420051112_2_alg».proof.Proof.KRegRows
import Idealize.ShloMosaic.Lib.ValueIdx
import Idealize.ShloMosaic.Lib.Pipeline.Value

set_option maxRecDepth 16384

noncomputable section

namespace Cert.KernelIdeal.KReg3

open Cert.KernelIdeal Cert.KernelIdeal.Gen Cert.KernelIdeal.Bodies
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offset (0, 0) is the zero function. -/
theorem hz : (![0, 0] : Fin 2 → Nat) = fun _ => 0 := funext fun a => by fin_cases a <;> rfl

/-! ## The windows' block indices over the grid -/

/-- Window 0's block at point t sits at (t, 0). -/
theorem widx3_0 : ∀ t : Fin cfg3.N, win3_0.index t (0 : Fin 2) = t.val ∧ win3_0.index t (1 : Fin 2) = 0 :=
  (by decide +kernel : ∀ t : Fin grid3.N, _)

/-- Window 1's block at point t sits at (0, 0). -/
theorem widx3_1 : ∀ t : Fin cfg3.N, win3_1.index t (0 : Fin 2) = 0 ∧ win3_1.index t (1 : Fin 2) = 0 :=
  (by decide +kernel : ∀ t : Fin grid3.N, _)

/-- Window 2's block at point t sits at (0, 0). -/
theorem widx3_2 : ∀ t : Fin cfg3.N, win3_2.index t (0 : Fin 2) = 0 ∧ win3_2.index t (1 : Fin 2) = 0 :=
  (by decide +kernel : ∀ t : Fin grid3.N, _)

/-- Window 3's block at point t sits at (0, 0). -/
theorem widx3_3 : ∀ t : Fin cfg3.N, win3_3.index t (0 : Fin 2) = 0 ∧ win3_3.index t (1 : Fin 2) = 0 :=
  (by decide +kernel : ∀ t : Fin grid3.N, _)

/-- Window 4's block at point t sits at (0, 0). -/
theorem widx3_4 : ∀ t : Fin cfg3.N, win3_4.index t (0 : Fin 2) = 0 ∧ win3_4.index t (1 : Fin 2) = 0 :=
  (by decide +kernel : ∀ t : Fin grid3.N, _)

/-- Window 5's block at point t sits at (t, 0). -/
theorem widx3_5 : ∀ t : Fin cfg3.N, win3_5.index t (0 : Fin 2) = t.val ∧ win3_5.index t (1 : Fin 2) = 0 :=
  (by decide +kernel : ∀ t : Fin grid3.N, _)

/-- Window 6's block at point t sits at (t, 0). -/
theorem widx3_6 : ∀ t : Fin cfg3.N, win3_6.index t (0 : Fin 2) = t.val ∧ win3_6.index t (1 : Fin 2) = 0 :=
  (by decide +kernel : ∀ t : Fin grid3.N, _)

/-- Window 7's block at point t sits at (0, 0). -/
theorem widx3_7 : ∀ t : Fin cfg3.N, win3_7.index t (0 : Fin 2) = 0 ∧ win3_7.index t (1 : Fin 2) = 0 :=
  (by decide +kernel : ∀ t : Fin grid3.N, _)

/-- Window 8's block at point t sits at (0, 0). -/
theorem widx3_8 : ∀ t : Fin cfg3.N, win3_8.index t (0 : Fin 2) = 0 ∧ win3_8.index t (1 : Fin 2) = 0 :=
  (by decide +kernel : ∀ t : Fin grid3.N, _)

/-- Window 9's block at point t sits at (0, 0). -/
theorem widx3_9 : ∀ t : Fin cfg3.N, win3_9.index t (0 : Fin 2) = 0 ∧ win3_9.index t (1 : Fin 2) = 0 :=
  (by decide +kernel : ∀ t : Fin grid3.N, _)

/-- Window 10's block at point t sits at (0, 0). -/
theorem widx3_10 : ∀ t : Fin cfg3.N, win3_10.index t (0 : Fin 2) = 0 ∧ win3_10.index t (1 : Fin 2) = 0 :=
  (by decide +kernel : ∀ t : Fin grid3.N, _)

/-- Window 11's block at point t sits at (0, 0). -/
theorem widx3_11 : ∀ t : Fin cfg3.N, win3_11.index t (0 : Fin 2) = 0 ∧ win3_11.index t (1 : Fin 2) = 0 :=
  (by decide +kernel : ∀ t : Fin grid3.N, _)

/-- Window 12's block at point t sits at (0, 0). -/
theorem widx3_12 : ∀ t : Fin cfg3.N, win3_12.index t (0 : Fin 2) = 0 ∧ win3_12.index t (1 : Fin 2) = 0 :=
  (by decide +kernel : ∀ t : Fin grid3.N, _)

/-- Window 13's block at point t sits at (t, 0). -/
theorem widx3_13 : ∀ t : Fin cfg3.N, win3_13.index t (0 : Fin 2) = t.val ∧ win3_13.index t (1 : Fin 2) = 0 :=
  (by decide +kernel : ∀ t : Fin grid3.N, _)

/-! ## The input blocks read at an index -/

/-- Row p of the block of the pre-normalisation values at point t is row 1000 t + p of the array. -/
theorem iblk3_0_apply (c : Dev nD) (t : Fin cfg3.N) (p : Fin 1000) (k : Fin 256) (r : Fin 25000)
    (hr : r.val = 1000 * t.val + p.val) :
    (iblk3 V c 0 t : Vec Ideal S1000x256 .f32) (ix2 p k) = (V c main_v105_0 : S25000x256.Idx → EReal) (ix2 r k) := by
  unfold iblk3
  rw [View.read_apply]
  show V c main_v105_0 _ = V c main_v105_0 _
  refine congrArg _ ?_
  funext a
  apply Fin.ext
  match a with
  | ⟨0, _⟩ => show win3_0.index t (0 : Fin 2) * 1000 + 1 * p.val = r.val; rw [(widx3_0 t).1, hr]; omega
  | ⟨1, _⟩ => show win3_0.index t (1 : Fin 2) * 256 + 1 * k.val = k.val; rw [(widx3_0 t).2]; omega

/-- The block of the mean row at every point is the whole array. -/
theorem iblk3_1_apply (c : Dev nD) (t : Fin cfg3.N) (z : Fin 1) (k : Fin 256) :
    (iblk3 V c 1 t : Vec Ideal S1x256 .f32) (ix2 z k) = (V c main_v111 : S1x256.Idx → EReal) (ix2 z k) := by
  unfold iblk3
  rw [View.read_apply]
  show V c main_v111 _ = V c main_v111 _
  refine congrArg _ ?_
  funext a
  apply Fin.ext
  match a with
  | ⟨0, _⟩ => show win3_1.index t (0 : Fin 2) * 1 + 1 * z.val = z.val; rw [(widx3_1 t).1]; omega
  | ⟨1, _⟩ => show win3_1.index t (1 : Fin 2) * 256 + 1 * k.val = k.val; rw [(widx3_1 t).2]; omega

/-- The block of the variance row at every point is the whole array. -/
theorem iblk3_2_apply (c : Dev nD) (t : Fin cfg3.N) (z : Fin 1) (k : Fin 256) :
    (iblk3 V c 2 t : Vec Ideal S1x256 .f32) (ix2 z k) = (V c main_v115 : S1x256.Idx → EReal) (ix2 z k) := by
  unfold iblk3
  rw [View.read_apply]
  show V c main_v115 _ = V c main_v115 _
  refine congrArg _ ?_
  funext a
  apply Fin.ext
  match a with
  | ⟨0, _⟩ => show win3_2.index t (0 : Fin 2) * 1 + 1 * z.val = z.val; rw [(widx3_2 t).1]; omega
  | ⟨1, _⟩ => show win3_2.index t (1 : Fin 2) * 256 + 1 * k.val = k.val; rw [(widx3_2 t).2]; omega

/-- The block of the scale row at every point is the whole array. -/
theorem iblk3_3_apply (c : Dev nD) (t : Fin cfg3.N) (z : Fin 1) (k : Fin 256) :
    (iblk3 V c 3 t : Vec Ideal S1x256 .f32) (ix2 z k) = (V c main_v122 : S1x256.Idx → EReal) (ix2 z k) := by
  unfold iblk3
  rw [View.read_apply]
  show V c main_v122 _ = V c main_v122 _
  refine congrArg _ ?_
  funext a
  apply Fin.ext
  match a with
  | ⟨0, _⟩ => show win3_3.index t (0 : Fin 2) * 1 + 1 * z.val = z.val; rw [(widx3_3 t).1]; omega
  | ⟨1, _⟩ => show win3_3.index t (1 : Fin 2) * 256 + 1 * k.val = k.val; rw [(widx3_3 t).2]; omega

/-- The block of the shift row at every point is the whole array. -/
theorem iblk3_4_apply (c : Dev nD) (t : Fin cfg3.N) (z : Fin 1) (k : Fin 256) :
    (iblk3 V c 4 t : Vec Ideal S1x256 .f32) (ix2 z k) = (V c main_v123 : S1x256.Idx → EReal) (ix2 z k) := by
  unfold iblk3
  rw [View.read_apply]
  show V c main_v123 _ = V c main_v123 _
  refine congrArg _ ?_
  funext a
  apply Fin.ext
  match a with
  | ⟨0, _⟩ => show win3_4.index t (0 : Fin 2) * 1 + 1 * z.val = z.val; rw [(widx3_4 t).1]; omega
  | ⟨1, _⟩ => show win3_4.index t (1 : Fin 2) * 256 + 1 * k.val = k.val; rw [(widx3_4 t).2]; omega

/-- Row p of the block of the mean-aggregated features at point t is row 1000 t + p of the array. -/
theorem iblk3_5_apply (c : Dev nD) (t : Fin cfg3.N) (p : Fin 1000) (k : Fin 128) (r : Fin 25000)
    (hr : r.val = 1000 * t.val + p.val) :
    (iblk3 V c 5 t : Vec Ideal S1000x128 .f32) (ix2 p k) = (V c main_v65 : S25000x128.Idx → EReal) (ix2 r k) := by
  unfold iblk3
  rw [View.read_apply]
  show V c main_v65 _ = V c main_v65 _
  refine congrArg _ ?_
  funext a
  apply Fin.ext
  match a with
  | ⟨0, _⟩ => show win3_5.index t (0 : Fin 2) * 1000 + 1 * p.val = r.val; rw [(widx3_5 t).1, hr]; omega
  | ⟨1, _⟩ => show win3_5.index t (1 : Fin 2) * 128 + 1 * k.val = k.val; rw [(widx3_5 t).2]; omega

/-- Row p of the block of the nodes' own features at point t is row 1000 t + p of the array. -/
theorem iblk3_6_apply (c : Dev nD) (t : Fin cfg3.N) (p : Fin 1000) (k : Fin 128) (r : Fin 25000)
    (hr : r.val = 1000 * t.val + p.val) :
    (iblk3 V c 6 t : Vec Ideal S1000x128 .f32) (ix2 p k) = (V c main_arg2 : S25000x128.Idx → EReal) (ix2 r k) := by
  unfold iblk3
  rw [View.read_apply]
  show V c main_arg2 _ = V c main_arg2 _
  refine congrArg _ ?_
  funext a
  apply Fin.ext
  match a with
  | ⟨0, _⟩ => show win3_6.index t (0 : Fin 2) * 1000 + 1 * p.val = r.val; rw [(widx3_6 t).1, hr]; omega
  | ⟨1, _⟩ => show win3_6.index t (1 : Fin 2) * 128 + 1 * k.val = k.val; rw [(widx3_6 t).2]; omega

/-- The block of the aggregated features' weights at every point is the whole array. -/
theorem iblk3_7_apply (c : Dev nD) (t : Fin cfg3.N) (z : Fin 128) (k : Fin 256) :
    (iblk3 V c 7 t : Vec Ideal S128x256 .f32) (ix2 z k) = (V c main_arg14 : S128x256.Idx → EReal) (ix2 z k) := by
  unfold iblk3
  rw [View.read_apply]
  show V c main_arg14 _ = V c main_arg14 _
  refine congrArg _ ?_
  funext a
  apply Fin.ext
  match a with
  | ⟨0, _⟩ => show win3_7.index t (0 : Fin 2) * 128 + 1 * z.val = z.val; rw [(widx3_7 t).1]; omega
  | ⟨1, _⟩ => show win3_7.index t (1 : Fin 2) * 256 + 1 * k.val = k.val; rw [(widx3_7 t).2]; omega

/-- The block of their bias row at every point is the whole array. -/
theorem iblk3_8_apply (c : Dev nD) (t : Fin cfg3.N) (z : Fin 1) (k : Fin 256) :
    (iblk3 V c 8 t : Vec Ideal S1x256 .f32) (ix2 z k) = (V c main_v124 : S1x256.Idx → EReal) (ix2 z k) := by
  unfold iblk3
  rw [View.read_apply]
  show V c main_v124 _ = V c main_v124 _
  refine congrArg _ ?_
  funext a
  apply Fin.ext
  match a with
  | ⟨0, _⟩ => show win3_8.index t (0 : Fin 2) * 1 + 1 * z.val = z.val; rw [(widx3_8 t).1]; omega
  | ⟨1, _⟩ => show win3_8.index t (1 : Fin 2) * 256 + 1 * k.val = k.val; rw [(widx3_8 t).2]; omega

/-- The block of the own features' weights at every point is the whole array. -/
theorem iblk3_9_apply (c : Dev nD) (t : Fin cfg3.N) (z : Fin 128) (k : Fin 256) :
    (iblk3 V c 9 t : Vec Ideal S128x256 .f32) (ix2 z k) = (V c main_arg16 : S128x256.Idx → EReal) (ix2 z k) := by
  unfold iblk3
  rw [View.read_apply]
  show V c main_arg16 _ = V c main_arg16 _
  refine congrArg _ ?_
  funext a
  apply Fin.ext
  match a with
  | ⟨0, _⟩ => show win3_9.index t (0 : Fin 2) * 128 + 1 * z.val = z.val; rw [(widx3_9 t).1]; omega
  | ⟨1, _⟩ => show win3_9.index t (1 : Fin 2) * 256 + 1 * k.val = k.val; rw [(widx3_9 t).2]; omega

/-- The block of their bias row at every point is the whole array. -/
theorem iblk3_10_apply (c : Dev nD) (t : Fin cfg3.N) (z : Fin 1) (k : Fin 256) :
    (iblk3 V c 10 t : Vec Ideal S1x256 .f32) (ix2 z k) = (V c main_v125 : S1x256.Idx → EReal) (ix2 z k) := by
  unfold iblk3
  rw [View.read_apply]
  show V c main_v125 _ = V c main_v125 _
  refine congrArg _ ?_
  funext a
  apply Fin.ext
  match a with
  | ⟨0, _⟩ => show win3_10.index t (0 : Fin 2) * 1 + 1 * z.val = z.val; rw [(widx3_10 t).1]; omega
  | ⟨1, _⟩ => show win3_10.index t (1 : Fin 2) * 256 + 1 * k.val = k.val; rw [(widx3_10 t).2]; omega

/-- The block of the merge weights at every point is the whole array. -/
theorem iblk3_11_apply (c : Dev nD) (t : Fin cfg3.N) (z : Fin 256) (k : Fin 128) :
    (iblk3 V c 11 t : Vec Ideal S256x128 .f32) (ix2 z k) = (V c main_arg24 : S256x128.Idx → EReal) (ix2 z k) := by
  unfold iblk3
  rw [View.read_apply]
  show V c main_arg24 _ = V c main_arg24 _
  refine congrArg _ ?_
  funext a
  apply Fin.ext
  match a with
  | ⟨0, _⟩ => show win3_11.index t (0 : Fin 2) * 256 + 1 * z.val = z.val; rw [(widx3_11 t).1]; omega
  | ⟨1, _⟩ => show win3_11.index t (1 : Fin 2) * 128 + 1 * k.val = k.val; rw [(widx3_11 t).2]; omega

/-- The block of the merge bias row at every point is the whole array. -/
theorem iblk3_12_apply (c : Dev nD) (t : Fin cfg3.N) (z : Fin 1) (k : Fin 128) :
    (iblk3 V c 12 t : Vec Ideal S1x128 .f32) (ix2 z k) = (V c main_v126 : S1x128.Idx → EReal) (ix2 z k) := by
  unfold iblk3
  rw [View.read_apply]
  show V c main_v126 _ = V c main_v126 _
  refine congrArg _ ?_
  funext a
  apply Fin.ext
  match a with
  | ⟨0, _⟩ => show win3_12.index t (0 : Fin 2) * 1 + 1 * z.val = z.val; rw [(widx3_12 t).1]; omega
  | ⟨1, _⟩ => show win3_12.index t (1 : Fin 2) * 128 + 1 * k.val = k.val; rw [(widx3_12 t).2]; omega

/-! ## The result array as a function of the arrays the launch found -/

/-- The layer's result at (r, q) over plain arrays: the merge of the normalised-and-clamped values plus the
    mean-aggregation affine map. -/
def out3 (Y : S25000x256.Idx → EReal) (mu var g be : S1x256.Idx → EReal) (M X : S25000x128.Idx → EReal)
    (Wl : S128x256.Idx → EReal) (bl : S1x256.Idx → EReal) (Wr : S128x256.Idx → EReal) (br : S1x256.Idx → EReal)
    (Wm : S256x128.Idx → EReal) (bm : S1x128.Idx → EReal) (r : Fin 25000) (q : Fin 128) : EReal :=
  Cert.Fg.merged (fun (r : Fin 25000) (k : Fin 256) =>
      Cert.Fg.bnRelu (Ideal.ofBits .f32 0x3727C5AC#32) (Ideal.ofBits .f32 0x00000000#32) (Y (ix2 r k))
        (mu (ix2 (0 : Fin 1) k)) (var (ix2 (0 : Fin 1) k)) (g (ix2 (0 : Fin 1) k)) (be (ix2 (0 : Fin 1) k))
      + Cert.Fg.sage (fun r j => M (ix2 r j)) (fun r j => X (ix2 r j)) (fun j k => Wl (ix2 j k))
          (fun j k => Wr (ix2 j k)) (fun k => bl (ix2 (0 : Fin 1) k)) (fun k => br (ix2 (0 : Fin 1) k)) r k)
    (fun k q => Wm (ix2 k q)) (fun q => bm (ix2 (0 : Fin 1) q)) r q

/-- The result array [25000, 128] over the arrays the launch found. -/
def G13 (c : Dev nD) : S25000x128.Idx → EReal := fun i =>
  out3 (V c main_v105_0) (V c main_v111) (V c main_v115) (V c main_v122) (V c main_v123) (V c main_v65) (V c main_arg2) (V c main_arg14) (V c main_v124) (V c main_arg16) (V c main_v125) (V c main_arg24) (V c main_v126)
    ⟨(i 0).val, idx2_lt0 i⟩ ⟨(i 1).val, idx2_lt1 i⟩

/-- The body's value at local (p, q) of point t is the layer's result at row 1000 t + p. -/
theorem out_at (c : Dev nD) (t : Fin cfg3.N) (p : Fin 1000) (q : Fin 128) (r : Fin 25000) (hr : r.val = 1000 * t.val + p.val) :
    k3_pay1 (F := Ideal) (k3_pay2 (iblk3 V c 0 t) (iblk3 V c 1 t) (iblk3 V c 2 t) (iblk3 V c 3 t) (iblk3 V c 4 t)) (k3_pay3 (iblk3 V c 6 t)) (k3_pay4 (iblk3 V c 9 t)) (k3_pay5 (iblk3 V c 5 t) (iblk3 V c 7 t)) (k3_pay6 (iblk3 V c 8 t)) (iblk3 V c 10 t) (iblk3 V c 11 t) (iblk3 V c 12 t) (ix2 p q)
      = out3 (V c main_v105_0) (V c main_v111) (V c main_v115) (V c main_v122) (V c main_v123) (V c main_v65) (V c main_arg2) (V c main_arg14) (V c main_v124) (V c main_arg16) (V c main_v125) (V c main_arg24) (V c main_v126) r q := by
  refine (k3_out_apply _ _ _ _ _ _ _ _ _ _ _ _ _ p q).trans ?_
  unfold out3
  refine Cert.Fg.merged_congr_row _ _ _ _ _ _ p r q (fun k => ?_) (fun k => iblk3_11_apply V c t k q)
    (iblk3_12_apply V c t 0 q)
  show Cert.Fg.bnRelu _ _ _ _ _ _ _ + Cert.Fg.sage _ _ _ _ _ _ p k
    = Cert.Fg.bnRelu _ _ _ _ _ _ _ + Cert.Fg.sage _ _ _ _ _ _ r k
  rw [iblk3_0_apply V c t p k r hr, iblk3_1_apply V c t 0 k, iblk3_2_apply V c t 0 k, iblk3_3_apply V c t 0 k,
    iblk3_4_apply V c t 0 k]
  refine congrArg (_ + ·) (Cert.Fg.sage_congr_row _ _ _ _ _ _ _ _ _ _ _ _ p r k
    (fun j => iblk3_5_apply V c t p j r hr) (fun j => iblk3_6_apply V c t p j r hr)
    (fun j => iblk3_7_apply V c t j k) (fun j => iblk3_9_apply V c t j k)
    (iblk3_8_apply V c t 0 k) (iblk3_10_apply V c t 0 k))

/-- What point t writes back into the result array is block t of G13. -/
theorem flushed3_13 (c : Dev nD) (t : Fin cfg3.N) :
    (dat3 V c).flushed 13 t = ((cfg3.win 13).blk t).view.read (Elt Ideal) (G13 V c) := by
  show (cfg3.win 13).cut (grid3.coords t) ((dat3 V c).after 13 t) = _
  rw [after3_13]
  unfold out3_13
  rw [View.canon_unit_zero hz]
  simp only [View.ld_unit_zero (S := S1000x256) hz, View.ld_unit_zero (S := S1x256) hz, View.ld_unit_zero (S := S1000x128) hz,
    View.ld_unit_zero (S := S128x256) hz, View.ld_unit_zero (S := S256x128) hz, View.ld_unit_zero (S := S1x128) hz]
  funext y
  obtain ⟨p, q, rfl⟩ : ∃ (p : Fin 1000) (q : Fin 128), y = ix2 p q := ⟨y 0, y 1, eq_ix2 y⟩
  have ht : t.val < 25 := (N_3 : grid3.N = 25) ▸ t.isLt
  have hr : 1000 * t.val + p.val < 25000 := by have := p.isLt; omega
  have hemb : ((cfg3.win 13).blk t).view.emb (ix2 p q) = (ix2 (⟨1000 * t.val + p.val, hr⟩ : Fin 25000) q : S25000x128.Idx) := by
    funext a
    apply Fin.ext
    match a with
    | ⟨0, _⟩ => show win3_13.index t (0 : Fin 2) * 1000 + 1 * p.val = 1000 * t.val + p.val; rw [(widx3_13 t).1]; omega
    | ⟨1, _⟩ => show win3_13.index t (1 : Fin 2) * 128 + 1 * q.val = q.val; rw [(widx3_13 t).2]; omega
  show k3_pay1 (F := Ideal) (k3_pay2 (iblk3 V c 0 t) (iblk3 V c 1 t) (iblk3 V c 2 t) (iblk3 V c 3 t) (iblk3 V c 4 t)) (k3_pay3 (iblk3 V c 6 t)) (k3_pay4 (iblk3 V c 9 t)) (k3_pay5 (iblk3 V c 5 t) (iblk3 V c 7 t)) (k3_pay6 (iblk3 V c 8 t)) (iblk3 V c 10 t) (iblk3 V c 11 t) (iblk3 V c 12 t) (ix2 p q)
    = G13 V c (((cfg3.win 13).blk t).view.emb (ix2 p q))
  rw [hemb]
  exact out_at V c t p q _ rfl

/-- An index of the result array is in point t's block iff each coordinate is in the block's range. -/
theorem mem_blk3_13 (t : Fin cfg3.N) (i : S25000x128.Idx) :
    i ∈ ((cfg3.win 13).blk t).view.set ↔ ∀ a : Fin 2, win3_13.index t a * S1000x128.size a ≤ (i a).val ∧ (i a).val < win3_13.index t a * S1000x128.size a + S1000x128.size a := by
  show i ∈ ((View.whole main_v127).slice (win3_13.rect t)).set ↔ _
  rw [View.set_slice_whole, Rect.mem_set_unit]
  exact Iff.rfl

/-- Every row of the result array lies in the block of the point (row / 1000). -/
theorem covered3_13 (i : S25000x128.Idx) : ∃ t : Fin cfg3.N, (cfg3.win 13).flush t = true ∧ i ∈ ((cfg3.win 13).blk t).view.set := by
  have h0 := idx2_lt0 i
  have h1 := idx2_lt1 i
  have hN : grid3.N = 25 := N_3
  refine ⟨⟨(i 0).val / 1000, by show _ < grid3.N; rw [hN]; omega⟩, flush3_13 _, ?_⟩
  rw [mem_blk3_13]
  intro a
  match a with
  | ⟨0, _⟩ =>
    show win3_13.index _ (0 : Fin 2) * 1000 ≤ (i 0).val ∧ (i 0).val < win3_13.index _ (0 : Fin 2) * 1000 + 1000
    rw [(widx3_13 _).1]
    show (i 0).val / 1000 * 1000 ≤ (i 0).val ∧ (i 0).val < (i 0).val / 1000 * 1000 + 1000
    omega
  | ⟨1, _⟩ =>
    show win3_13.index _ (1 : Fin 2) * 128 ≤ (i 1).val ∧ (i 1).val < win3_13.index _ (1 : Fin 2) * 128 + 128
    rw [(widx3_13 _).2]
    omega

/-- THE RESULT ARRAY after the launch is the layer's formula over the arrays the launch found. -/
theorem final3_13 (c : Dev nD) : (dat3 V c).arrAt 13 cfg3.N = G13 V c :=
  (dat3 V c).arrAt_eq_of_cover 13 (G13 V c) (fun t _ => flushed3_13 V c t) covered3_13

end Cert.KernelIdeal.KReg3

end
-- ==== Proof.LibColumnReduce.lean ====
/-
  A sum down the columns, read at an index, at the ideal values.

  The vector unit's add-reduction of an [a, b] array over its rows (axis 0), from the zero accumulator, read at
  column c, is the plain sum over the a rows r of the entry (r, c): no order of addition is left in it.
-/
import Idealize.ShloMosaic.Lib.ValueIdx
import Idealize.ShloMosaic.PureOps.Ideal.Laws

noncomputable section

namespace Cert.Lib.ColumnReduce

open Idealize.ShloMosaic Idealize.ShloMosaic.ValueIdx
open scoped BigOperators

/-- The row-reduction of an [a, b] array into [b], from the zero word, read at column c: the sum down the column. -/
theorem multiReduction_rows_apply {a b : Nat} (x : FVec Ideal ⟨2, ![a, b]⟩ .f32)
    (h : (⟨2, ![a, b]⟩ : Shape).Reduces [0] ⟨1, ![b]⟩) (c : Fin b) :
    multiReduction .add [0] ⟨1, ![b]⟩ x 0x00000000#32 h (.inl rfl) rfl (ix1 c) = ∑ r : Fin a, x (ix2 r c) := by
  refine (Ideal.multiReduction_add_single x 0x00000000#32 h (.inl rfl) rfl (ix1 c)).trans ?_
  show ∑ k : Fin a, x (h.lift (ix1 c) k) = ∑ r : Fin a, x (ix2 r c)
  refine Finset.sum_congr rfl fun k _ => congrArg x (funext fun d => Fin.ext ?_)
  match d with
  | ⟨0, _⟩ => rfl
  | ⟨1, _⟩ => rfl

end Cert.Lib.ColumnReduce

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.KBodiesA.lean ====
/-
  The two "linear layer + column partial sums" bodies read at an index, at the ideal values.

  At the ideal values — floats extended reals, every operation exact, a change of float format the identity —
  the body computes, on a block of R rows, y = (block of x) · w + (row b spread over the rows), and from y two
  [8, 256] arrays whose every row holds an eighth of the column sums of y and of y².  Read at an index, these
  are plain sums of products of the entries that were loaded.
-/
import proofs.«151819_j60404420051112_2_alg».proof.Proof.Gen.KernelIdeal.Skeleton
import proofs.«151819_j60404420051112_2_alg».proof.Proof.LibPlainDot
import proofs.«151819_j60404420051112_2_alg».proof.Proof.LibColumnReduce
import proofs.«151819_j60404420051112_2_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bodies

open Idealize.ShloMosaic Idealize.ShloMosaic.ValueIdx Cert.KernelIdeal Cert.KernelIdeal.Gen

/-- The linear layer on a block of 4000 rows, read at (p, q): Σ_j x(p,j)·w(j,q) + b(0,q). -/
theorem k0_pay1_apply (v0 : Vec Ideal S4000x128 .f32) (v3 : Vec Ideal S128x256 .f32) (v6 : Vec Ideal S1x256 .f32)
    (p : Fin 4000) (q : Fin 256) :
    k0_pay1 (F := Ideal) v0 v3 v6 (ix2 p q)
      = (∑ j : Fin 128, v0 (ix2 p j) * v3 (ix2 j q)) + v6 (ix2 (0 : Fin 1) q) := by
  show addf (matmul (DotDims.plain 4000 128 256) none
        (truncf .bf16 (shapeCast S4000x128 v0 shapeCasts_S4000x128_S4000x128) bitsLt_bf16_f32)
        (truncf .bf16 v3 bitsLt_bf16_f32) (constant (F := Ideal) S4000x256 .f32 0x00000000#32))
      (broadcastTo S4000x256 (shapeCast S1x256 v6 shapeCasts_S1x256_S1x256) broadcasts_S1x256_S4000x256) (ix2 p q) = _
  rw [addf_apply, Cert.Lib.PlainDot.matmul_plain_zero_apply, broadcastTo_1b_ab_apply, shapeCast_self, shapeCast_self]
  rfl

/-- The scaled column sums of the block's linear layer, read at (u, q): (Σ_p y(p,q)) · 1/8, the same in each of
    the 8 rows u. -/
theorem k0_pay2_apply (v0 : Vec Ideal S4000x128 .f32) (v3 : Vec Ideal S128x256 .f32) (v6 : Vec Ideal S1x256 .f32)
    (u : Fin 8) (q : Fin 256) :
    k0_pay2 (F := Ideal) v0 v3 v6 (ix2 u q)
      = (∑ p : Fin 4000, k0_pay1 (F := Ideal) v0 v3 v6 (ix2 p q)) * Ideal.ofBits .f32 0x3E000000#32 := by
  show broadcastTo S8x256 (shapeCast S1x256 (mulf (shapeCast S1x256
        (multiReduction .add [0] S256 (k0_pay1 (F := Ideal) v0 v3 v6) 0x00000000#32 reduces_S4000x256_S256 (.inl rfl) rfl)
        shapeCasts_S256_S1x256) (broadcast S1x256 (Scalar.ofBits (F := Ideal) .f32 0x3E000000#32)))
        shapeCasts_S1x256_S1x256) broadcasts_S1x256_S8x256 (ix2 u q) = _
  rw [broadcastTo_1b_ab_apply, shapeCast_self, mulf_apply, Cert.Lib.Rows.shapeCast_vec_row_apply,
    Cert.Lib.ColumnReduce.multiReduction_rows_apply]
  rfl

/-- The scaled column sums of squares of the block's linear layer, read at (u, q): (Σ_p y(p,q)²) · 1/8, the same
    in each of the 8 rows u. -/
theorem k0_pay3_apply (v0 : Vec Ideal S4000x128 .f32) (v3 : Vec Ideal S128x256 .f32) (v6 : Vec Ideal S1x256 .f32)
    (u : Fin 8) (q : Fin 256) :
    k0_pay3 (F := Ideal) v0 v3 v6 (ix2 u q)
      = (∑ p : Fin 4000, k0_pay1 (F := Ideal) v0 v3 v6 (ix2 p q) * k0_pay1 (F := Ideal) v0 v3 v6 (ix2 p q))
          * Ideal.ofBits .f32 0x3E000000#32 := by
  show broadcastTo S8x256 (shapeCast S1x256 (mulf (shapeCast S1x256
        (multiReduction .add [0] S256 (mulf (k0_pay1 (F := Ideal) v0 v3 v6) (k0_pay1 (F := Ideal) v0 v3 v6))
          0x00000000#32 reduces_S4000x256_S256 (.inl rfl) rfl)
        shapeCasts_S256_S1x256) (broadcast S1x256 (Scalar.ofBits (F := Ideal) .f32 0x3E000000#32)))
        shapeCasts_S1x256_S1x256) broadcasts_S1x256_S8x256 (ix2 u q) = _
  rw [broadcastTo_1b_ab_apply, shapeCast_self, mulf_apply, Cert.Lib.Rows.shapeCast_vec_row_apply,
    Cert.Lib.ColumnReduce.multiReduction_rows_apply]
  rfl

/-- The linear layer on a block of 1000 rows, read at (p, q): Σ_j x(p,j)·w(j,q) + b(0,q). -/
theorem k1_pay1_apply (v0 : Vec Ideal S1000x128 .f32) (v3 : Vec Ideal S128x256 .f32) (v6 : Vec Ideal S1x256 .f32)
    (p : Fin 1000) (q : Fin 256) :
    k1_pay1 (F := Ideal) v0 v3 v6 (ix2 p q)
      = (∑ j : Fin 128, v0 (ix2 p j) * v3 (ix2 j q)) + v6 (ix2 (0 : Fin 1) q) := by
  show addf (matmul (DotDims.plain 1000 128 256) none
        (truncf .bf16 (shapeCast S1000x128 v0 shapeCasts_S1000x128_S1000x128) bitsLt_bf16_f32)
        (truncf .bf16 v3 bitsLt_bf16_f32) (constant (F := Ideal) S1000x256 .f32 0x00000000#32))
      (broadcastTo S1000x256 (shapeCast S1x256 v6 shapeCasts_S1x256_S1x256) broadcasts_S1x256_S1000x256) (ix2 p q) = _
  rw [addf_apply, Cert.Lib.PlainDot.matmul_plain_zero_apply, broadcastTo_1b_ab_apply, shapeCast_self, shapeCast_self]
  rfl

/-- The scaled column sums of the block's linear layer, read at (u, q): (Σ_p y(p,q)) · 1/8, the same in each of
    the 8 rows u. -/
theorem k1_pay2_apply (v0 : Vec Ideal S1000x128 .f32) (v3 : Vec Ideal S128x256 .f32) (v6 : Vec Ideal S1x256 .f32)
    (u : Fin 8) (q : Fin 256) :
    k1_pay2 (F := Ideal) v0 v3 v6 (ix2 u q)
      = (∑ p : Fin 1000, k1_pay1 (F := Ideal) v0 v3 v6 (ix2 p q)) * Ideal.ofBits .f32 0x3E000000#32 := by
  show broadcastTo S8x256 (shapeCast S1x256 (mulf (shapeCast S1x256
        (multiReduction .add [0] S256 (k1_pay1 (F := Ideal) v0 v3 v6) 0x00000000#32 reduces_S1000x256_S256 (.inl rfl) rfl)
        shapeCasts_S256_S1x256) (broadcast S1x256 (Scalar.ofBits (F := Ideal) .f32 0x3E000000#32)))
        shapeCasts_S1x256_S1x256) broadcasts_S1x256_S8x256 (ix2 u q) = _
  rw [broadcastTo_1b_ab_apply, shapeCast_self, mulf_apply, Cert.Lib.Rows.shapeCast_vec_row_apply,
    Cert.Lib.ColumnReduce.multiReduction_rows_apply]
  rfl

/-- The scaled column sums of squares of the block's linear layer, read at (u, q): (Σ_p y(p,q)²) · 1/8, the same
    in each of the 8 rows u. -/
theorem k1_pay3_apply (v0 : Vec Ideal S1000x128 .f32) (v3 : Vec Ideal S128x256 .f32) (v6 : Vec Ideal S1x256 .f32)
    (u : Fin 8) (q : Fin 256) :
    k1_pay3 (F := Ideal) v0 v3 v6 (ix2 u q)
      = (∑ p : Fin 1000, k1_pay1 (F := Ideal) v0 v3 v6 (ix2 p q) * k1_pay1 (F := Ideal) v0 v3 v6 (ix2 p q))
          * Ideal.ofBits .f32 0x3E000000#32 := by
  show broadcastTo S8x256 (shapeCast S1x256 (mulf (shapeCast S1x256
        (multiReduction .add [0] S256 (mulf (k1_pay1 (F := Ideal) v0 v3 v6) (k1_pay1 (F := Ideal) v0 v3 v6))
          0x00000000#32 reduces_S1000x256_S256 (.inl rfl) rfl)
        shapeCasts_S256_S1x256) (broadcast S1x256 (Scalar.ofBits (F := Ideal) .f32 0x3E000000#32)))
        shapeCasts_S1x256_S1x256) broadcasts_S1x256_S8x256 (ix2 u q) = _
  rw [broadcastTo_1b_ab_apply, shapeCast_self, mulf_apply, Cert.Lib.Rows.shapeCast_vec_row_apply,
    Cert.Lib.ColumnReduce.multiReduction_rows_apply]
  rfl

end Cert.KernelIdeal.Bodies

end
-- ==== Proof.StatsBridge.lean ====
/-
  The two spellings of the column statistics agree on real entries.

  Y has N = T · B rows, cut into T tiles of B rows.  The partial-sum arrays S1 and S2 have R = T · 8 rows; row i holds
  an eighth of tile (i / 8)'s column sum of Y, respectively of Y².  Summing all R rows therefore gives the column
  sums of Y and of Y², the mean from S1 is the mean of Y, and the variance "mean of squares minus squared mean" is
  the mean of the squared deviations — the last by the variance identity over the reals, which needs every entry
  of Y real and the divisor equal to the number N of rows.
-/
import proofs.«151819_j60404420051112_2_alg».proof.Proof.Spec

noncomputable section

namespace Cert.Fg

open Idealize.ShloMosaic Cert.Reals

/-- Row i of a partial-sum array holds an eighth of the sum of f over tile i / 8: the rows add up to the sum of f. -/
theorem sum_rows_of_tiles {N R T B : Nat} (hN : N = T * B) (hR : R = T * 8) (f : Fin N → EReal) (hf : IsReal f)
    (S : Fin R → EReal) (hb : ∀ (i : Fin R) (p : Fin B), B * (i.val / 8) + p.val < N)
    (hS : ∀ i : Fin R, S i = (∑ p : Fin B, f ⟨B * (i.val / 8) + p.val, hb i p⟩) * ((1 / 8 : ℝ) : EReal)) :
    ∑ i, S i = ∑ r, f r := by
  subst hN hR
  refine sum_scaled_tiles f hf S fun t u => ?_
  rw [hS]
  refine congrArg (· * _) (Finset.sum_congr rfl fun p _ => congrArg f (Fin.ext ?_))
  show B * ((8 * t.val + u.val) / 8) + p.val = B * t.val + p.val
  have hu := u.isLt
  have : (8 * t.val + u.val) / 8 = t.val := by omega
  rw [this]

/-- THE STATISTICS AGREE: the mean and variance computed from the scaled per-tile partial sums are the mean and the
    mean squared deviation of the N real rows, when the divisor is N. -/
theorem stats_agree {N R T B P : Nat} (hN : N = T * B) (hR : R = T * 8) (hpos : 0 < N) (n : EReal) (hn : n = ((N : ℝ) : EReal))
    (Y : Fin N → Fin P → EReal) (hY : ∀ r k, IsRealS (Y r k)) (S1 S2 : Fin R → Fin P → EReal)
    (hb : ∀ (i : Fin R) (p : Fin B), B * (i.val / 8) + p.val < N)
    (hS1 : ∀ (i : Fin R) (k : Fin P), S1 i k = (∑ p : Fin B, Y ⟨B * (i.val / 8) + p.val, hb i p⟩ k) * ((1 / 8 : ℝ) : EReal))
    (hS2 : ∀ (i : Fin R) (k : Fin P), S2 i k
      = (∑ p : Fin B, Y ⟨B * (i.val / 8) + p.val, hb i p⟩ k * Y ⟨B * (i.val / 8) + p.val, hb i p⟩ k) * ((1 / 8 : ℝ) : EReal))
    (k : Fin P) :
    meanMom n S1 k = meanDev n Y k ∧ varMom n S1 S2 k = varDev n Y k := by
  have h1 : ∑ i, S1 i k = ∑ r, Y r k :=
    sum_rows_of_tiles hN hR (fun r => Y r k) (fun r => hY r k) (fun i => S1 i k) hb (fun i => hS1 i k)
  have h2 : ∑ i, S2 i k = ∑ r, Y r k * Y r k :=
    sum_rows_of_tiles hN hR (fun r => Y r k * Y r k) (fun r => (hY r k).mul (hY r k)) (fun i => S2 i k) hb (fun i => hS2 i k)
  have hm : meanMom n S1 k = meanDev n Y k := by unfold meanMom meanDev; rw [h1]
  refine ⟨hm, ?_⟩
  unfold varMom varDev
  rw [hm, h2]
  unfold meanDev
  subst hn
  have hcard : (N : ℝ) = Fintype.card (Fin N) := by simp
  have hN0 : (N : ℝ) ≠ 0 := by exact_mod_cast hpos.ne'
  exact (variance_ereal_zero_add (fun r => Y r k) (fun r => hY r k) hcard hN0).symm

end Cert.Fg

end
-- ==== Proof.Words.lean ====
/-
  The float words the two programs spell, as the real numbers they denote: 0, 1, 1/8, 25000 and 100000.
  (An IEEE single-precision word with sign s, exponent field E and fraction T denotes (−1)^s · (2^23 + T) · 2^(E − 150).)
-/
import Idealize.ShloMosaic.PureOps.Ideal

noncomputable section

namespace Cert.Words

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of 0.125 denotes 1/8. -/
theorem ofBits_eighth : Ideal.ofBits .f32 0x3E000000#32 = ((1 / 8 : ℝ) : EReal) := by
  simp [Ideal.ofBits, Ideal.ieee, -EReal.coe_mul]; norm_num

/-- The word of 25000.0 denotes 25000. -/
theorem ofBits_25000 : Ideal.ofBits .f32 0x46C35000#32 = ((25000 : ℝ) : EReal) := by
  simp [Ideal.ofBits, Ideal.ieee, -EReal.coe_mul]; norm_num

/-- The word of 100000.0 denotes 100000. -/
theorem ofBits_100000 : Ideal.ofBits .f32 0x47C35000#32 = ((100000 : ℝ) : EReal) := by
  simp [Ideal.ofBits, Ideal.ieee, -EReal.coe_mul]; norm_num

end Cert.Words

end
-- ==== Proof.KStats.lean ====
/-
  The two linear-layer launches' statistics: from the partial-sum arrays to the column mean and variance.

  Row i of each partial-sum array holds the word 0.125 times the column sum, over tile i / 8, of the launch's linear
  layer (respectively of its square).  The word 0.125 is the real 1/8 and the divisor word is the real number of
  rows, so for real entries the moment form computed from these arrays is the deviation form.
-/
import proofs.«151819_j60404420051112_2_alg».proof.Proof.KReg0
import proofs.«151819_j60404420051112_2_alg».proof.Proof.KReg1
import proofs.«151819_j60404420051112_2_alg».proof.Proof.StatsBridge
import proofs.«151819_j60404420051112_2_alg».proof.Proof.Words

set_option maxRecDepth 16384

noncomputable section

namespace Cert.KernelIdeal.KStats

open Cert.KernelIdeal Cert.KernelIdeal.Gen
open Idealize.ShloMosaic Idealize.ShloMosaic.TcCoe Idealize.SL.Sem Idealize.ShloMosaic.ValueIdx Cert.Reals

/-- Launch 0: the mean and variance computed from the two partial-sum arrays are the column mean and the mean squared
    deviation of the launch's linear layer, when its entries are real. -/
theorem stats0 (V : (c : Dev nD) → (b : Ref sig .tc) → Buf (Elt Ideal) ((c : Thread nD τ).loc b)) (c : Dev nD)
    (hreal : ∀ r k, IsRealS (KReg0.Y0 V c r k)) (k : Fin 256) :
    Cert.Fg.meanMom (Ideal.ofBits .f32 0x47C35000#32) (fun (i : Fin 200) (k : Fin 256) => KReg0.G4 V (Ideal.ofBits .f32 0x3E000000#32) c (ix2 i k)) k
        = Cert.Fg.meanDev (Ideal.ofBits .f32 0x47C35000#32) (KReg0.Y0 V c) k
    ∧ Cert.Fg.varMom (Ideal.ofBits .f32 0x47C35000#32) (fun (i : Fin 200) (k : Fin 256) => KReg0.G4 V (Ideal.ofBits .f32 0x3E000000#32) c (ix2 i k))
          (fun (i : Fin 200) (k : Fin 256) => KReg0.G5 V (Ideal.ofBits .f32 0x3E000000#32) c (ix2 i k)) k
        = Cert.Fg.varDev (Ideal.ofBits .f32 0x47C35000#32) (KReg0.Y0 V c) k := by
  refine Cert.Fg.stats_agree (N := 100000) (R := 200) (T := 25) (B := 4000) (P := 256) (by norm_num) (by norm_num) (by norm_num)
    _ (by rw [Cert.Words.ofBits_100000]; norm_num) (KReg0.Y0 V c) hreal _ _
    (fun i p => by have := i.isLt; have := p.isLt; omega) (fun i k => ?_) (fun i k => ?_) k
  · rw [Cert.Words.ofBits_eighth]; rfl
  · rw [Cert.Words.ofBits_eighth]; rfl

/-- Launch 1: the mean and variance computed from the two partial-sum arrays are the column mean and the mean squared
    deviation of the launch's linear layer, when its entries are real. -/
theorem stats1 (V : (c : Dev nD) → (b : Ref sig .tc) → Buf (Elt Ideal) ((c : Thread nD τ).loc b)) (c : Dev nD)
    (hreal : ∀ r k, IsRealS (KReg1.Y1 V c r k)) (k : Fin 256) :
    Cert.Fg.meanMom (Ideal.ofBits .f32 0x46C35000#32) (fun (i : Fin 200) (k : Fin 256) => KReg1.G4 V (Ideal.ofBits .f32 0x3E000000#32) c (ix2 i k)) k
        = Cert.Fg.meanDev (Ideal.ofBits .f32 0x46C35000#32) (KReg1.Y1 V c) k
    ∧ Cert.Fg.varMom (Ideal.ofBits .f32 0x46C35000#32) (fun (i : Fin 200) (k : Fin 256) => KReg1.G4 V (Ideal.ofBits .f32 0x3E000000#32) c (ix2 i k))
          (fun (i : Fin 200) (k : Fin 256) => KReg1.G5 V (Ideal.ofBits .f32 0x3E000000#32) c (ix2 i k)) k
        = Cert.Fg.varDev (Ideal.ofBits .f32 0x46C35000#32) (KReg1.Y1 V c) k := by
  refine Cert.Fg.stats_agree (N := 25000) (R := 200) (T := 25) (B := 1000) (P := 256) (by norm_num) (by norm_num) (by norm_num)
    _ (by rw [Cert.Words.ofBits_25000]; norm_num) (KReg1.Y1 V c) hreal _ _
    (fun i p => by have := i.isLt; have := p.isLt; omega) (fun i k => ?_) (fun i k => ?_) k
  · rw [Cert.Words.ofBits_eighth]; rfl
  · rw [Cert.Words.ofBits_eighth]; rfl

end Cert.KernelIdeal.KStats

end
-- ==== Proof.LibRowBroadcast.lean ====
/-
  The host's broadcasts of a row and of a scalar, read at an index, generic in the extents.

  A row [1, C] broadcast onto axes 0, 1 of [R, C] reads, at (r, c), the row at (0, c): the same bias is
  added to every row.  A scalar broadcast to any shape reads the scalar everywhere.
-/
import Idealize.ShloMosaic.Lib.ValueIdx
import Idealize.ShloMosaic.Lib.Pipeline.Value

noncomputable section

namespace Cert.Lib.RowBroadcast

open Idealize.ShloMosaic Idealize.ShloMosaic.ValueIdx

variable {α : Type}

/-- A row [1, C] broadcast onto axes 0, 1 of [R, C], read at (r, c), is the row at (0, c). -/
theorem broadcastInDim_row_apply {R C : Nat} (x : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h x (ix2 r c) = x (ix2 0 c) :=
  broadcastInDim_apply (![0, 1] : Fin 2 → Fin 2) h x (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A scalar broadcast to any shape reads the scalar at every index. -/
theorem broadcastInDim_scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply (![] : Fin 0 → Fin t.rank) h x j k (fun a => a.elim0)

end Cert.Lib.RowBroadcast

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«151819_j60404420051112_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibDotBlocks.lean ====
/-
  A matrix product computed on blocks of its operands is the whole product there.

  At the ideal values — floats extended reals, every operation exact — a `tpu.matmul` into the zero
  accumulator and the host's `dot_general`, both with the plain dimension numbers "rows × contraction
  times contraction × columns", are the same sum over the contraction index.  So a block of rows of the
  left operand times a block of columns of the right operand, multiplied on the matrix unit, gives at its
  local index (p, q) the whole product's entry at (r, c), as soon as row p of the left block is row r of
  the whole left operand and column q of the right block is column c of the whole right operand.  The
  contraction is not blocked; no finiteness is used: both sides are one and the same sum.
-/
import proofs.«151819_j60404420051112_2_alg».proof.Proof.LibRowBlocks

noncomputable section

namespace Cert.Lib.DotBlocks

open Idealize.ShloMosaic Idealize.ShloMosaic.ValueIdx Cert.Lib.PlainDot Cert.Lib.RowBlocks

variable {M K N : Nat}

/-- A block of B rows of the left operand times a block of D columns of the right operand, into the zero
    accumulator: its entry at the local index (p, q) is the whole product's entry at (r, c), when row p of
    the left block is row r of the whole left operand and column q of the right block is column c of the
    whole right operand (the operands' float formats may differ between the blocks and the whole: at the
    ideal values every format is the extended reals). -/
theorem matmul_block_eq_dotGeneral {B D : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, D]⟩ φ₂) (p : Fin B) (q : Fin D) (r : Fin M) (c : Fin N)
    (hx : ∀ k : Fin K, (xb (ix2 p k) : EReal) = x (ix2 r k)) (hw : ∀ k : Fin K, (wb (ix2 k q) : EReal) = w (ix2 k c)) :
    matmul (DotDims.plain B K D) prec xb wb (constant (F := Ideal) ⟨2, ![B, D]⟩ .f32 0x00000000#32) (ix2 p q)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.DotBlocks

end
-- ==== Proof.LibDenseLayers.lean ====
/-
  Dense layers on the matrix unit, block by block, against the host's whole-array spelling.

  At the ideal values — floats extended reals, every operation exact, a change of float format the identity —
  for any extents:

  * an affine map computed on a block of B rows, `(block of x) · w + (row b spread over the rows)` with the
    operands narrowed to a smaller float format and the product taken into the zero accumulator, read at the
    block-local index (p, q), is the host's `x · w + b` read at (r, q), when row p of the block is row r of x;
  * clamping below at a constant word is the same function on both sides;
  * a product against a matrix [H1 + H2, N] of two arrays joined along their columns is the sum of the two
    products against the upper H1 rows and the lower H2 rows: a sum over H1 + H2 indices is the sum over the first
    H1 plus the sum over the last H2 (only commutativity and associativity of +, so no finiteness is needed);
  * hence the two-product layer `(block of a) · w_top + (block of e) · w_bottom + b` on the matrix unit is the
    host's `concat(a, e) · w + b`.
-/
import proofs.«151819_j60404420051112_2_alg».proof.Proof.LibDotBlocks
import proofs.«151819_j60404420051112_2_alg».proof.Proof.LibRows
import proofs.«151819_j60404420051112_2_alg».proof.Proof.LibRowBroadcast
import Idealize.ShloMosaic.Lib.ValueIdx
import Idealize.ShloMosaic.Lib.Pipeline.Value
import Idealize.ShloMosaic.PureOps.Ideal.Laws
import Mathlib.Algebra.BigOperators.Fin

noncomputable section

namespace Cert.Lib.DenseLayers

open Idealize.ShloMosaic Idealize.ShloMosaic.ValueIdx

/-- A vector [N] broadcast onto axis 1 of the row [1, N], read at (0, q), is the vector at q. -/
theorem vec_row_apply {α : Type} {N : Nat} (b : (⟨1, ![N]⟩ : Shape).Idx → α)
    (hb1 : (⟨1, ![N]⟩ : Shape).BroadcastsInDim ⟨2, ![1, N]⟩ (![1] : Fin 1 → Fin 2)) (q : Fin N) :
    broadcastInDim ⟨2, ![1, N]⟩ (![1] : Fin 1 → Fin 2) hb1 b (ix2 0 q) = b (ix1 q) :=
  broadcastInDim_apply (![1] : Fin 1 → Fin 2) hb1 b (ix2 0 q) (ix1 q) (fun a => by
    match a with
    | ⟨0, _⟩ =>
      show q.val = if N = 1 then 0 else q.val
      by_cases hC : N = 1
      · rw [if_pos hC]; have := q.isLt; omega
      · rw [if_neg hC])

/-- The bias: the block's row [1, N] spread over its B rows, read at (p, q), is the host's vector [N] made a row
    and spread over the M rows, read at (r, q), when the block's row holds the vector. -/
theorem bias_block_apply {α : Type} {M B N : Nat} (b : (⟨1, ![N]⟩ : Shape).Idx → α) (bb : (⟨2, ![1, N]⟩ : Shape).Idx → α)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N) (hb : bb (ix2 0 q) = b (ix1 q)) :
    broadcastTo ⟨2, ![B, N]⟩ bb hbt (ix2 p q)
      = broadcastInDim ⟨2, ![M, N]⟩ (![0, 1] : Fin 2 → Fin 2) hb01
          (broadcastInDim ⟨2, ![1, N]⟩ (![1] : Fin 1 → Fin 2) hb1 b) (ix2 r q) := by
  rw [Cert.Lib.Rows.broadcastTo_row_apply, Cert.Lib.RowBroadcast.broadcastInDim_row_apply, vec_row_apply, hb]

/-- An affine map on a block of rows is the host's affine map at the block's rows. -/
theorem affine_block_apply {M B K N : Nat} {ψ₁ ψ₂ : FTy}
    (X : FVec Ideal ⟨2, ![M, K]⟩ .f32) (W : FVec Ideal ⟨2, ![K, N]⟩ .f32) (b : FVec Ideal ⟨1, ![N]⟩ .f32)
    (xb : FVec Ideal ⟨2, ![B, K]⟩ .f32) (wb : FVec Ideal ⟨2, ![K, N]⟩ .f32) (bb : FVec Ideal ⟨2, ![1, N]⟩ .f32)
    (g₁ : ψ₁.bits < FTy.f32.bits) (g₂ : ψ₂.bits < FTy.f32.bits) (prec prec' : Option ContractPrecision)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N)
    (hx : ∀ k : Fin K, xb (ix2 p k) = X (ix2 r k)) (hw : ∀ k : Fin K, wb (ix2 k q) = W (ix2 k q))
    (hb : bb (ix2 0 q) = b (ix1 q)) :
    addf (matmul (DotDims.plain B K N) prec (truncf ψ₁ xb g₁) (truncf ψ₂ wb g₂) (constant (F := Ideal) ⟨2, ![B, N]⟩ .f32 0x00000000#32))
        (broadcastTo ⟨2, ![B, N]⟩ bb hbt) (ix2 p q)
      = addf (Host.dotGeneral (DotDims.plain M K N) prec' X W)
          (broadcastInDim ⟨2, ![M, N]⟩ (![0, 1] : Fin 2 → Fin 2) hb01
            (broadcastInDim ⟨2, ![1, N]⟩ (![1] : Fin 1 → Fin 2) hb1 b)) (ix2 r q) := by
  rw [addf_apply, addf_apply, bias_block_apply b bb hbt hb1 hb01 p r q hb,
    Cert.Lib.DotBlocks.matmul_block_eq_dotGeneral prec prec' X W (truncf ψ₁ xb g₁) (truncf ψ₂ wb g₂) p q r q hx hw]

/-- Clamping below at the constant word z: the vector unit's `max(A, splat z)` at an index is the host's
    `max(A', broadcast of the scalar constant z)` at an index where A and A' agree. -/
theorem relu_eq {s t : Shape} (A : FVec Ideal s .f32) (A' : FVec Ideal t .f32) (z : BitVec FTy.f32.bits) (i : s.Idx) (j : t.Idx)
    (h0 : (⟨0, ![]⟩ : Shape).BroadcastsInDim t (![] : Fin 0 → Fin t.rank)) (hA : A i = A' j) :
    maximumf A (broadcast s (Scalar.ofBits (F := Ideal) .f32 z)) i
      = maximumf A' (broadcastInDim t (![] : Fin 0 → Fin t.rank) h0 (constant (F := Ideal) ⟨0, ![]⟩ .f32 z)) j := by
  rw [maximumf_apply, maximumf_apply, hA,
    Cert.Lib.RowBroadcast.broadcastInDim_scalar_apply _ h0 j (fun a => a.elim0)]
  rfl

/-- A sum over K = K1 + K2 indices is the sum over the first K1 plus the sum over the last K2. -/
theorem sum_split {β : Type} [AddCommMonoid β] {K K1 K2 : Nat} (hK : K = K1 + K2) (f : Fin K → β) :
    ∑ k : Fin K, f k = (∑ k : Fin K1, f ⟨k.val, by omega⟩) + ∑ k : Fin K2, f ⟨K1 + k.val, by omega⟩ := by
  subst hK
  rw [Fin.sum_univ_add]
  rfl

/-- The host's product of two arrays joined along their columns against a matrix [H1 + H2, N], read at (r, q): the
    first array against the upper H1 rows plus the second against the lower H2 rows. -/
theorem concat_dot_apply {M K H1 H2 N : Nat} (hK : K = H1 + H2)
    (A : FVec Ideal ⟨2, ![M, H1]⟩ .f32) (E : FVec Ideal ⟨2, ![M, H2]⟩ .f32) (W : FVec Ideal ⟨2, ![K, N]⟩ .f32)
    (hc : Shape.Concatenates [(⟨2, ![M, H1]⟩ : Shape), ⟨2, ![M, H2]⟩] ⟨2, ![M, K]⟩ 1)
    (prec : Option ContractPrecision) (r : Fin M) (q : Fin N) :
    Host.dotGeneral (DotDims.plain M K N) prec
        (concatenate (⟨2, ![M, K]⟩ : Shape) 1 [⟨(⟨2, ![M, H1]⟩ : Shape), A⟩, ⟨(⟨2, ![M, H2]⟩ : Shape), E⟩] hc) W (ix2 r q)
      = (∑ k : Fin H1, A (ix2 r k) * W (ix2 ⟨k.val, by omega⟩ q))
        + ∑ k : Fin H2, E (ix2 r k) * W (ix2 ⟨H1 + k.val, by omega⟩ q) := by
  rw [Cert.Lib.RowBlocks.dotGeneral_plain_apply, sum_split hK]
  congr 1
  · refine Finset.sum_congr rfl fun k _ => ?_
    rw [concatenate_pair_apply_left (t := (⟨2, ![M, K]⟩ : Shape)) (1 : Fin 2) A E hc (ix2 r ⟨k.val, by omega⟩) rfl (ix2 r k)
      (fun b => by match b with | ⟨0, _⟩ => rfl | ⟨1, _⟩ => rfl)]
  · refine Finset.sum_congr rfl fun k _ => ?_
    rw [concatenate_pair_apply_right (t := (⟨2, ![M, K]⟩ : Shape)) (1 : Fin 2) A E hc (ix2 r ⟨H1 + k.val, by omega⟩) rfl rfl (ix2 r k)
      (fun b hb => by match b with | ⟨0, _⟩ => rfl | ⟨1, _⟩ => exact absurd rfl hb)
      (by show k.val + H1 = H1 + k.val; omega)]

/-- The two-product layer on a block of rows is the host's product of the joined arrays, plus the bias. -/
theorem dual_block_apply {M B K H1 H2 N : Nat} {ψ₁ ψ₂ ψ₃ ψ₄ : FTy} (hK : K = H1 + H2)
    (A : FVec Ideal ⟨2, ![M, H1]⟩ .f32) (E : FVec Ideal ⟨2, ![M, H2]⟩ .f32) (W : FVec Ideal ⟨2, ![K, N]⟩ .f32)
    (b : FVec Ideal ⟨1, ![N]⟩ .f32)
    (ab : FVec Ideal ⟨2, ![B, H1]⟩ .f32) (eb : FVec Ideal ⟨2, ![B, H2]⟩ .f32)
    (wt : FVec Ideal ⟨2, ![H1, N]⟩ .f32) (wl : FVec Ideal ⟨2, ![H2, N]⟩ .f32) (bb : FVec Ideal ⟨2, ![1, N]⟩ .f32)
    (g₁ : ψ₁.bits < FTy.f32.bits) (g₂ : ψ₂.bits < FTy.f32.bits) (g₃ : ψ₃.bits < FTy.f32.bits) (g₄ : ψ₄.bits < FTy.f32.bits)
    (prec₁ prec₂ prec' : Option ContractPrecision)
    (hc : Shape.Concatenates [(⟨2, ![M, H1]⟩ : Shape), ⟨2, ![M, H2]⟩] ⟨2, ![M, K]⟩ 1)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N)
    (ha : ∀ k : Fin H1, ab (ix2 p k) = A (ix2 r k)) (he : ∀ k : Fin H2, eb (ix2 p k) = E (ix2 r k))
    (hwt : ∀ k : Fin H1, wt (ix2 k q) = W (ix2 ⟨k.val, by omega⟩ q))
    (hwl : ∀ k : Fin H2, wl (ix2 k q) = W (ix2 ⟨H1 + k.val, by omega⟩ q))
    (hb : bb (ix2 0 q) = b (ix1 q)) :
    addf (addf (matmul (DotDims.plain B H1 N) prec₁ (truncf ψ₁ ab g₁) (truncf ψ₂ wt g₂) (constant (F := Ideal) ⟨2, ![B, N]⟩ .f32 0x00000000#32))
               (matmul (DotDims.plain B H2 N) prec₂ (truncf ψ₃ eb g₃) (truncf ψ₄ wl g₄) (constant (F := Ideal) ⟨2, ![B, N]⟩ .f32 0x00000000#32)))
        (broadcastTo ⟨2, ![B, N]⟩ bb hbt) (ix2 p q)
      = addf (Host.dotGeneral (DotDims.plain M K N) prec'
                (concatenate (⟨2, ![M, K]⟩ : Shape) 1 [⟨(⟨2, ![M, H1]⟩ : Shape), A⟩, ⟨(⟨2, ![M, H2]⟩ : Shape), E⟩] hc) W)
          (broadcastInDim ⟨2, ![M, N]⟩ (![0, 1] : Fin 2 → Fin 2) hb01
            (broadcastInDim ⟨2, ![1, N]⟩ (![1] : Fin 1 → Fin 2) hb1 b)) (ix2 r q) := by
  rw [addf_apply, addf_apply, addf_apply, bias_block_apply b bb hbt hb1 hb01 p r q hb, concat_dot_apply hK,
    Cert.Lib.PlainDot.matmul_plain_zero_apply, Cert.Lib.PlainDot.matmul_plain_zero_apply]
  congr 2
  · exact Finset.sum_congr rfl fun k _ => congrArg₂ (fun u v : EReal => u * v) (ha k) (hwt k)
  · exact Finset.sum_congr rfl fun k _ => congrArg₂ (fun u v : EReal => u * v) (he k) (hwl k)

end Cert.Lib.DenseLayers

end
-- ==== Proof.LibColStats.lean ====
/-
  Column statistics in the host's spelling, read at an index, at the ideal values and for any extents.

  At the ideal values — floats extended reals, every operation exact — the host's sum over the rows (axis 0) of an
  [a, b] array, read at column c, is the initial value plus the sum down the column.  Two spellings of the column
  mean and the column variance follow.

  The moment form works from two arrays S1, S2 of partial sums: the mean row is (0 + Σ_i S1(i,k)) / n, and the
  variance row is (0 + Σ_i S2(i,k)) / n − mean(k) · mean(k).

  The deviation form works from the values Y themselves: the mean is (0 + Σ_r Y(r,k)) / n, and the variance is the
  sum of the squared deviations from the mean, divided by n − ddof with ddof the integer 0, and guarded by a select on
  the comparison n − ddof > 0, which holds when n is a positive real: so it is (0 + Σ_r (Y(r,k) − mean(k))²) / n.
-/
import proofs.«151819_j60404420051112_2_alg».proof.Proof.Spec
import proofs.«151819_j60404420051112_2_alg».proof.Proof.LibRowBroadcast
import proofs.«151819_j60404420051112_2_alg».proof.Proof.LibDenseLayers
import Idealize.ShloMosaic.Lib.ValueIdx
import Idealize.ShloMosaic.Lib.Pipeline.Value
import Idealize.ShloMosaic.PureOps.Ideal.Laws

noncomputable section

namespace Cert.Lib.ColStats

open Idealize.ShloMosaic Idealize.ShloMosaic.ValueIdx

/-- For a rank-1 result the host's shape fact for a reduction over axis 0 gives the vector unit's: the rank is
    positive. -/
theorem reduces_of_reducesTo {a b : ℕ} (h' : (⟨2, ![a, b]⟩ : Shape).ReducesTo [0] ⟨1, ![b]⟩) :
    (⟨2, ![a, b]⟩ : Shape).Reduces [0] ⟨1, ![b]⟩ :=
  ⟨h'.1, Nat.one_pos, h'.2⟩

/-- The host's sum over the rows of an [a, b] array, from the initial value, read at column c: the initial value plus
    the sum down the column. -/
theorem hostSum_first2_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduceAdd x init h' hu (ix1 c) = init (Shape.Idx.first hu) + ∑ r : Fin a, x (ix2 r c) := by
  show Ideal.hostReduceAdd h' x (init (Shape.Idx.first hu)) (ix1 c) = _
  rw [Ideal.hostReduceAdd_single h' h]
  refine congrArg (_ + ·) (Finset.sum_congr rfl fun r _ => congrArg x ?_)
  exact funext fun ax => Fin.ext (by match ax with | ⟨0, _⟩ => rfl | ⟨1, _⟩ => rfl)

/-- The same from the host's shape fact alone, with a splat-constant initial value whose word encodes 0:
    the sum down the column, written 0 + Σ. -/
theorem hostSum_col_zero_apply {a b : ℕ} (x : FVec Ideal ⟨2, ![a, b]⟩ .f32) (zw : BitVec FTy.f32.bits)
    (h' : (⟨2, ![a, b]⟩ : Shape).ReducesTo [0] ⟨1, ![b]⟩) (h0 : 0 < (⟨0, ![]⟩ : Shape).numel)
    (hz : Ideal.ofBits .f32 zw = 0) (c : Fin b) :
    Host.reduceAdd x (constant (F := Ideal) ⟨0, ![]⟩ .f32 zw) h' h0 (ix1 c) = 0 + ∑ r : Fin a, x (ix2 r c) := by
  rw [hostSum_first2_apply x _ h' (reduces_of_reducesTo h') h0 c, constant_apply, hz]

/-- The host's quotient at an index is the ideal division of the entries. -/
theorem hostDivf_apply {s : Shape} {φ : FTy} (x y : FVec Ideal s φ) (i : s.Idx) :
    Host.divf x y i = Ideal.div (x i) (y i) := rfl

/-! ## The moment form -/

/-- THE MEAN ROW from partial sums, read at (0, k): (0 + Σ_i S(i,k)) / n. -/
theorem momMean_apply {R b : ℕ} (S : FVec Ideal ⟨2, ![R, b]⟩ .f32) (nw zw : BitVec FTy.f32.bits)
    (hred : (⟨2, ![R, b]⟩ : Shape).ReducesTo [0] ⟨1, ![b]⟩) (h0 : 0 < (⟨0, ![]⟩ : Shape).numel)
    (h1 : (⟨1, ![b]⟩ : Shape).BroadcastsInDim ⟨2, ![1, b]⟩ (![1] : Fin 1 → Fin 2))
    (hb : (⟨0, ![]⟩ : Shape).BroadcastsInDim ⟨2, ![1, b]⟩ (![] : Fin 0 → Fin 2))
    (hz : Ideal.ofBits .f32 zw = 0) (k : Fin b) :
    Host.divf
        (broadcastInDim ⟨2, ![1, b]⟩ (![1] : Fin 1 → Fin 2) h1
          (Host.reduceAdd S (constant (F := Ideal) ⟨0, ![]⟩ .f32 zw) hred h0))
        (broadcastInDim ⟨2, ![1, b]⟩ (![] : Fin 0 → Fin 2) hb (constant (F := Ideal) ⟨0, ![]⟩ .f32 nw))
        (ix2 (0 : Fin 1) k)
      = Cert.Fg.meanMom (Ideal.ofBits .f32 nw) (fun i k => S (ix2 i k)) k := by
  rw [hostDivf_apply, Cert.Lib.DenseLayers.vec_row_apply, hostSum_col_zero_apply S zw hred h0 hz k,
    Cert.Lib.RowBroadcast.broadcastInDim_scalar_apply _ hb _ (fun a => a.elim0), constant_apply]
  rfl

/-- THE VARIANCE ROW from partial sums, read at (0, k): (0 + Σ_i S2(i,k)) / n − mean(k) · mean(k). -/
theorem momVar_apply {R b : ℕ} (S1 S2 : FVec Ideal ⟨2, ![R, b]⟩ .f32) (nw zw : BitVec FTy.f32.bits)
    (hred : (⟨2, ![R, b]⟩ : Shape).ReducesTo [0] ⟨1, ![b]⟩) (h0 : 0 < (⟨0, ![]⟩ : Shape).numel)
    (h1 : (⟨1, ![b]⟩ : Shape).BroadcastsInDim ⟨2, ![1, b]⟩ (![1] : Fin 1 → Fin 2))
    (hb : (⟨0, ![]⟩ : Shape).BroadcastsInDim ⟨2, ![1, b]⟩ (![] : Fin 0 → Fin 2))
    (hz : Ideal.ofBits .f32 zw = 0) (k : Fin b) :
    subf
        (Host.divf
          (broadcastInDim ⟨2, ![1, b]⟩ (![1] : Fin 1 → Fin 2) h1
            (Host.reduceAdd S2 (constant (F := Ideal) ⟨0, ![]⟩ .f32 zw) hred h0))
          (broadcastInDim ⟨2, ![1, b]⟩ (![] : Fin 0 → Fin 2) hb (constant (F := Ideal) ⟨0, ![]⟩ .f32 nw)))
        (mulf
          (Host.divf
            (broadcastInDim ⟨2, ![1, b]⟩ (![1] : Fin 1 → Fin 2) h1
              (Host.reduceAdd S1 (constant (F := Ideal) ⟨0, ![]⟩ .f32 zw) hred h0))
            (broadcastInDim ⟨2, ![1, b]⟩ (![] : Fin 0 → Fin 2) hb (constant (F := Ideal) ⟨0, ![]⟩ .f32 nw)))
          (Host.divf
            (broadcastInDim ⟨2, ![1, b]⟩ (![1] : Fin 1 → Fin 2) h1
              (Host.reduceAdd S1 (constant (F := Ideal) ⟨0, ![]⟩ .f32 zw) hred h0))
            (broadcastInDim ⟨2, ![1, b]⟩ (![] : Fin 0 → Fin 2) hb (constant (F := Ideal) ⟨0, ![]⟩ .f32 nw))))
        (ix2 (0 : Fin 1) k)
      = Cert.Fg.varMom (Ideal.ofBits .f32 nw) (fun i k => S1 (ix2 i k)) (fun i k => S2 (ix2 i k)) k := by
  rw [subf_apply, mulf_apply, momMean_apply S2 nw zw hred h0 h1 hb hz k, momMean_apply S1 nw zw hred h0 h1 hb hz k]
  rfl

/-! ## The deviation form -/

/-- THE MEAN VECTOR of the values, read at k: (0 + Σ_r Y(r,k)) / n. -/
theorem devMean_apply {a b : ℕ} (Y : FVec Ideal ⟨2, ![a, b]⟩ .f32) (nw zw : BitVec FTy.f32.bits)
    (hred : (⟨2, ![a, b]⟩ : Shape).ReducesTo [0] ⟨1, ![b]⟩) (h0 : 0 < (⟨0, ![]⟩ : Shape).numel)
    (hb : (⟨0, ![]⟩ : Shape).BroadcastsInDim ⟨1, ![b]⟩ (![] : Fin 0 → Fin 1))
    (hz : Ideal.ofBits .f32 zw = 0) (k : Fin b) :
    Host.divf (Host.reduceAdd Y (constant (F := Ideal) ⟨0, ![]⟩ .f32 zw) hred h0)
        (broadcastInDim ⟨1, ![b]⟩ (![] : Fin 0 → Fin 1) hb (constant (F := Ideal) ⟨0, ![]⟩ .f32 nw)) (ix1 k)
      = Cert.Fg.meanDev (Ideal.ofBits .f32 nw) (fun r k => Y (ix2 r k)) k := by
  rw [hostDivf_apply, hostSum_col_zero_apply Y zw hred h0 hz k,
    Cert.Lib.RowBroadcast.broadcastInDim_scalar_apply _ hb _ (fun a => a.elim0), constant_apply]
  rfl

/-- The mean row inside the variance, read at (0, k): the same mean. -/
theorem devMeanRow_apply {a b : ℕ} (Y : FVec Ideal ⟨2, ![a, b]⟩ .f32) (nw zw : BitVec FTy.f32.bits)
    (hred : (⟨2, ![a, b]⟩ : Shape).ReducesTo [0] ⟨1, ![b]⟩) (h0 : 0 < (⟨0, ![]⟩ : Shape).numel)
    (h1 : (⟨1, ![b]⟩ : Shape).BroadcastsInDim ⟨2, ![1, b]⟩ (![1] : Fin 1 → Fin 2))
    (hb1 : (⟨0, ![]⟩ : Shape).BroadcastsInDim ⟨2, ![1, b]⟩ (![] : Fin 0 → Fin 2))
    (hz : Ideal.ofBits .f32 zw = 0) (k : Fin b) :
    Host.divf
        (broadcastInDim ⟨2, ![1, b]⟩ (![1] : Fin 1 → Fin 2) h1
          (Host.reduceAdd Y (constant (F := Ideal) ⟨0, ![]⟩ .f32 zw) hred h0))
        (broadcastInDim ⟨2, ![1, b]⟩ (![] : Fin 0 → Fin 2) hb1 (constant (F := Ideal) ⟨0, ![]⟩ .f32 nw))
        (ix2 (0 : Fin 1) k)
      = Cert.Fg.meanDev (Ideal.ofBits .f32 nw) (fun r k => Y (ix2 r k)) k :=
  momMean_apply Y nw zw hred h0 h1 hb1 hz k

/-- THE VARIANCE VECTOR of the values, read at k: with n a positive real and the integer ddof the word 0, the guard
    n − 0 > 0 holds, the select takes the quotient, and the divisor n − 0 is n:
    (0 + Σ_r (Y(r,k) − mean(k))²) / n. -/
theorem devVar_apply {a b : ℕ} (Y : FVec Ideal ⟨2, ![a, b]⟩ .f32) (nw zw : BitVec FTy.f32.bits)
    (hred : (⟨2, ![a, b]⟩ : Shape).ReducesTo [0] ⟨1, ![b]⟩) (h0 : 0 < (⟨0, ![]⟩ : Shape).numel)
    (h1 : (⟨1, ![b]⟩ : Shape).BroadcastsInDim ⟨2, ![1, b]⟩ (![1] : Fin 1 → Fin 2))
    (hb1 : (⟨0, ![]⟩ : Shape).BroadcastsInDim ⟨2, ![1, b]⟩ (![] : Fin 0 → Fin 2))
    (h01 : (⟨2, ![1, b]⟩ : Shape).BroadcastsInDim ⟨2, ![a, b]⟩ (![0, 1] : Fin 2 → Fin 2))
    (hb hbp hbn : (⟨0, ![]⟩ : Shape).BroadcastsInDim ⟨1, ![b]⟩ (![] : Fin 0 → Fin 1))
    (hz : Ideal.ofBits .f32 zw = 0) (n : ℝ) (hn : Ideal.ofBits .f32 nw = ((n : ℝ) : EReal)) (hpos : 0 < n) (k : Fin b) :
    select
        (broadcastInDim ⟨1, ![b]⟩ (![] : Fin 0 → Fin 1) hbp
          (cmpf .ogt
            (subf (constant (F := Ideal) ⟨0, ![]⟩ .f32 nw) (sitofp .f32 (constantI ⟨0, ![]⟩ 32 0#32)))
            (constant (F := Ideal) ⟨0, ![]⟩ .f32 zw)))
        (Host.divf
          (Host.reduceAdd
            (mulf
              (subf Y (broadcastInDim ⟨2, ![a, b]⟩ (![0, 1] : Fin 2 → Fin 2) h01
                (Host.divf
                  (broadcastInDim ⟨2, ![1, b]⟩ (![1] : Fin 1 → Fin 2) h1
                    (Host.reduceAdd Y (constant (F := Ideal) ⟨0, ![]⟩ .f32 zw) hred h0))
                  (broadcastInDim ⟨2, ![1, b]⟩ (![] : Fin 0 → Fin 2) hb1 (constant (F := Ideal) ⟨0, ![]⟩ .f32 nw)))))
              (subf Y (broadcastInDim ⟨2, ![a, b]⟩ (![0, 1] : Fin 2 → Fin 2) h01
                (Host.divf
                  (broadcastInDim ⟨2, ![1, b]⟩ (![1] : Fin 1 → Fin 2) h1
                    (Host.reduceAdd Y (constant (F := Ideal) ⟨0, ![]⟩ .f32 zw) hred h0))
                  (broadcastInDim ⟨2, ![1, b]⟩ (![] : Fin 0 → Fin 2) hb1 (constant (F := Ideal) ⟨0, ![]⟩ .f32 nw))))))
            (constant (F := Ideal) ⟨0, ![]⟩ .f32 zw) hred h0)
          (broadcastInDim ⟨1, ![b]⟩ (![] : Fin 0 → Fin 1) hb
            (subf (constant (F := Ideal) ⟨0, ![]⟩ .f32 nw) (sitofp .f32 (constantI ⟨0, ![]⟩ 32 0#32)))))
        (broadcastInDim ⟨1, ![b]⟩ (![] : Fin 0 → Fin 1) hbn (id (constant (F := Ideal) ⟨0, ![]⟩ .f32 0x7FC00000#32)))
        (ix1 k)
      = Cert.Fg.varDev (Ideal.ofBits .f32 nw) (fun r k => Y (ix2 r k)) k := by
  -- the scalar n − ddof is n
  have hdd : ∀ j : (⟨0, ![]⟩ : Shape).Idx,
      subf (constant (F := Ideal) ⟨0, ![]⟩ .f32 nw) (sitofp .f32 (constantI ⟨0, ![]⟩ 32 0#32)) j = Ideal.ofBits .f32 nw := by
    intro j
    show Ideal.ofBits .f32 nw - ((((0#32 : BitVec 32).toInt : ℤ) : ℝ) : EReal) = _
    rw [show (0#32 : BitVec 32).toInt = 0 from rfl, Int.cast_zero, EReal.coe_zero, sub_zero]
  -- the guard n − ddof > 0 is the bit 1
  have hp : ∀ j : (⟨0, ![]⟩ : Shape).Idx,
      cmpf .ogt (subf (constant (F := Ideal) ⟨0, ![]⟩ .f32 nw) (sitofp .f32 (constantI ⟨0, ![]⟩ 32 0#32)))
        (constant (F := Ideal) ⟨0, ![]⟩ .f32 zw) j = 1#1 := by
    intro j
    show Ideal.cmp .ogt (subf (constant (F := Ideal) ⟨0, ![]⟩ .f32 nw) (sitofp .f32 (constantI ⟨0, ![]⟩ 32 0#32)) j)
      (Ideal.ofBits .f32 zw) = 1#1
    rw [hdd j, hz, hn]
    show BitVec.ofBool (decide ((0 : EReal) < ((n : ℝ) : EReal))) = 1#1
    rw [decide_eq_true (EReal.coe_pos.2 hpos)]
    rfl
  rw [select_apply, Cert.Lib.RowBroadcast.broadcastInDim_scalar_apply _ hbp _ (fun a => a.elim0), hp]
  show Host.divf _ _ (ix1 k) = _
  rw [hostDivf_apply, hostSum_col_zero_apply _ zw hred h0 hz k,
    Cert.Lib.RowBroadcast.broadcastInDim_scalar_apply _ hb _ (fun a => a.elim0), hdd]
  unfold Cert.Fg.varDev
  refine congrArg (fun s : EReal => Ideal.div (0 + s) (Ideal.ofBits .f32 nw)) (Finset.sum_congr rfl fun r _ => ?_)
  rw [mulf_apply, subf_apply, Cert.Lib.RowBroadcast.broadcastInDim_row_apply,
    devMeanRow_apply Y nw zw hred h0 h1 hb1 hz k]

end Cert.Lib.ColStats

end
-- ==== Proof.SpecCongr.lean ====
/-
  The layer's result at (r, q) depends only on row r of the node-indexed inputs, on the column statistics, on the
  weights, and on column q of the merge weights: two sets of inputs that agree there give the same result.
-/
import proofs.«151819_j60404420051112_2_alg».proof.Proof.Spec

noncomputable section

namespace Cert.Fg

open Idealize.ShloMosaic

variable {N K P Q H : Nat}

/-- Inputs that agree on row r (and on the statistics, the weights and column q of the merge) give the same
    layer result at (r, q). -/
theorem layer_congr (eps z : EReal) (r : Fin N) (q : Fin Q)
    {Y Y' : Fin N → Fin P → EReal} {mu mu' var var' g g' be be' : Fin P → EReal}
    {M M' X X' : Fin N → Fin H → EReal} {Wl Wl' Wr Wr' : Fin H → Fin P → EReal} {bl bl' br br' : Fin P → EReal}
    {Wm Wm' : Fin P → Fin Q → EReal} {bm bm' : Fin Q → EReal}
    (hY : ∀ k, Y r k = Y' r k) (hmu : ∀ k, mu k = mu' k) (hvar : ∀ k, var k = var' k)
    (hg : ∀ k, g k = g' k) (hbe : ∀ k, be k = be' k)
    (hM : ∀ j, M r j = M' r j) (hX : ∀ j, X r j = X' r j)
    (hWl : ∀ j k, Wl j k = Wl' j k) (hWr : ∀ j k, Wr j k = Wr' j k)
    (hbl : ∀ k, bl k = bl' k) (hbr : ∀ k, br k = br' k)
    (hWm : ∀ k, Wm k q = Wm' k q) (hbm : bm q = bm' q) :
    layer eps z Y mu var g be M X Wl Wr bl br Wm bm r q
      = layer eps z Y' mu' var' g' be' M' X' Wl' Wr' bl' br' Wm' bm' r q := by
  unfold layer merged
  rw [hbm]
  refine congrArg (· + _) (Finset.sum_congr rfl fun k _ => ?_)
  rw [hWm k]
  beta_reduce
  rw [hY k, hmu k, hvar k, hg k, hbe k]
  refine congrArg (fun t => (bnRelu eps z (Y' r k) (mu' k) (var' k) (g' k) (be' k) + t) * Wm' k q) ?_
  unfold sage
  rw [hbl k, hbr k]
  refine congrArg₂ (fun a b => ((a + bl' k) + b) + br' k) (Finset.sum_congr rfl fun j _ => ?_) (Finset.sum_congr rfl fun j _ => ?_)
  · rw [hM j, hWl j k]
  · rw [hX j, hWr j k]

end Cert.Fg

end
-- ==== Proof.KRead.lean ====
/-
  The kernel program's two results, read at an index.

  Each result array is what the fused launch of its graph level leaves: at (r, q) the layer of the specification
  over the arrays that launch finds.  Those are: the result array of the level's linear-layer launch; the mean and
  variance rows the host computes from that launch's two partial-sum arrays (the moment form), which for real
  entries are the column mean and the mean squared deviation of the linear layer; the parameter vectors of the
  launch memory reshaped to rows; and the mean-aggregated features computed on the host before the first launch.
-/
import proofs.«151819_j60404420051112_2_alg».proof.Proof.KWalk
import proofs.«151819_j60404420051112_2_alg».proof.Proof.KReg0
import proofs.«151819_j60404420051112_2_alg».proof.Proof.KReg1
import proofs.«151819_j60404420051112_2_alg».proof.Proof.KReg2
import proofs.«151819_j60404420051112_2_alg».proof.Proof.KReg3
import proofs.«151819_j60404420051112_2_alg».proof.Proof.KBodiesA
import proofs.«151819_j60404420051112_2_alg».proof.Proof.KStats
import proofs.«151819_j60404420051112_2_alg».proof.Proof.LibColStats
import proofs.«151819_j60404420051112_2_alg».proof.Proof.LibRows
import proofs.«151819_j60404420051112_2_alg».proof.Proof.SpecCongr
import proofs.«151819_j60404420051112_2_alg».proof.Proof.Words

set_option maxRecDepth 16384

noncomputable section

namespace Cert.KernelIdeal.KRead

open Cert.KernelIdeal Cert.KernelIdeal.Gen
open Idealize.ShloMosaic Idealize.ShloMosaic.TcCoe Idealize.SL.Sem Idealize.ShloMosaic.StableHlo Idealize.ShloMosaic.ValueIdx Cert.Reals

variable (m : (ℓ : Loc nD τ sig) → Buf (Elt Ideal) ℓ) (ρ : Dev nD → PrngReg) (c : Dev nD)

/-! ## The atom level -/

/-- THE ATOM RESULT of the kernel program read at (r, q): the layer of the specification over the launch's own
    linear layer Y0, its statistics in the deviation form (the linear layer's entries being real), the parameter vectors
    of the launch memory, and the mean-aggregated features the host computed before the first launch. -/
theorem outA_apply (hreal : ∀ r k, IsRealS (KReg0.Y0 (V5 m ρ) c r k)) (r : Fin 100000) (q : Fin 128) :
    (W12 m ρ c (Proc.devRef .tc main_v121) : S100000x128.Idx → EReal) (ix2 r q)
      = Cert.Fg.layer (Ideal.ofBits .f32 0x3727C5AC#32) (Ideal.ofBits .f32 0x00000000#32) (KReg0.Y0 (V5 m ρ) c)
          (Cert.Fg.meanDev (Ideal.ofBits .f32 0x47C35000#32) (KReg0.Y0 (V5 m ρ) c))
          (Cert.Fg.varDev (Ideal.ofBits .f32 0x47C35000#32) (KReg0.Y0 (V5 m ρ) c))
          (fun k => (m ((c : Thread nD τ).loc main_arg7) : S256.Idx → EReal) (ix1 k))
          (fun k => (m ((c : Thread nD τ).loc main_arg8) : S256.Idx → EReal) (ix1 k))
          (fun r j => (W5 m ρ c (Proc.devRef .tc main_v91) : S100000x128.Idx → EReal) (ix2 r j))
          (fun r j => (m ((c : Thread nD τ).loc main_arg0) : S100000x128.Idx → EReal) (ix2 r j))
          (fun j k => (m ((c : Thread nD τ).loc main_arg18) : S128x256.Idx → EReal) (ix2 j k))
          (fun j k => (m ((c : Thread nD τ).loc main_arg20) : S128x256.Idx → EReal) (ix2 j k))
          (fun k => (m ((c : Thread nD τ).loc main_arg19) : S256.Idx → EReal) (ix1 k))
          (fun k => (m ((c : Thread nD τ).loc main_arg21) : S256.Idx → EReal) (ix1 k))
          (fun k q => (m ((c : Thread nD τ).loc main_arg22) : S256x128.Idx → EReal) (ix2 k q))
          (fun q => (m ((c : Thread nD τ).loc main_arg23) : S128.Idx → EReal) (ix1 q)) r q := by
  rw [KWalk.W12_main_v121 m ρ c, KReg2.final2_13 (V9 m ρ) c]
  show Cert.Fg.layer (Ideal.ofBits .f32 0x3727C5AC#32) (Ideal.ofBits .f32 0x00000000#32)
      (fun r k => (W9 m ρ c (Proc.devRef .tc main_v93_0) : S100000x256.Idx → EReal) (ix2 r k))
      (fun k => (W9 m ρ c (Proc.devRef .tc main_v99) : S1x256.Idx → EReal) (ix2 (0 : Fin 1) k))
      (fun k => (W9 m ρ c (Proc.devRef .tc main_v103) : S1x256.Idx → EReal) (ix2 (0 : Fin 1) k))
      (fun k => (W9 m ρ c (Proc.devRef .tc main_v116) : S1x256.Idx → EReal) (ix2 (0 : Fin 1) k))
      (fun k => (W9 m ρ c (Proc.devRef .tc main_v117) : S1x256.Idx → EReal) (ix2 (0 : Fin 1) k))
      (fun r j => (W9 m ρ c (Proc.devRef .tc main_v91) : S100000x128.Idx → EReal) (ix2 r j))
      (fun r j => (W9 m ρ c (Proc.devRef .tc main_arg0) : S100000x128.Idx → EReal) (ix2 r j))
      (fun j k => (W9 m ρ c (Proc.devRef .tc main_arg18) : S128x256.Idx → EReal) (ix2 j k))
      (fun j k => (W9 m ρ c (Proc.devRef .tc main_arg20) : S128x256.Idx → EReal) (ix2 j k))
      (fun k => (W9 m ρ c (Proc.devRef .tc main_v118) : S1x256.Idx → EReal) (ix2 (0 : Fin 1) k))
      (fun k => (W9 m ρ c (Proc.devRef .tc main_v119) : S1x256.Idx → EReal) (ix2 (0 : Fin 1) k))
      (fun k q => (W9 m ρ c (Proc.devRef .tc main_arg22) : S256x128.Idx → EReal) (ix2 k q))
      (fun q => (W9 m ρ c (Proc.devRef .tc main_v120) : S1x128.Idx → EReal) (ix2 (0 : Fin 1) q)) r q = _
  refine Cert.Fg.layer_congr _ _ r q (fun k => ?_) (fun k => ?_) (fun k => ?_) (fun k => ?_) (fun k => ?_) (fun j => ?_) (fun j => ?_)
    (fun j k => ?_) (fun j k => ?_) (fun k => ?_) (fun k => ?_) (fun k => ?_) ?_
  · -- the linear layer: the earlier launch's result array
    rw [KWalk.W9_main_v93_0 m ρ c, KReg0.final0_3 (V5 m ρ) c Bodies.k0_pay1_apply]
    rfl
  · -- the mean: the moment form over the first partial-sum array
    rw [KWalk.W9_main_v99 m ρ c, KWalk.W7_main_v99 m ρ c]
    refine (Cert.Lib.ColStats.momMean_apply (R := 200) (b := 256) _ _ _ _ _ _ _ Cert.Words.ofBits_zero k).trans ?_
    rw [KReg0.final0_4 (V5 m ρ) _ c Bodies.k0_pay1_apply Bodies.k0_pay2_apply]
    exact (KStats.stats0 (V5 m ρ) c hreal k).1
  · -- the variance: the moment form over the two partial-sum arrays
    rw [KWalk.W9_main_v103 m ρ c, KWalk.W7_main_v103_explicit m ρ c]
    refine (Cert.Lib.ColStats.momVar_apply (R := 200) (b := 256) _ _ _ _ _ _ _ _ Cert.Words.ofBits_zero k).trans ?_
    rw [KReg0.final0_4 (V5 m ρ) _ c Bodies.k0_pay1_apply Bodies.k0_pay2_apply,
      KReg0.final0_5 (V5 m ρ) _ c Bodies.k0_pay1_apply Bodies.k0_pay3_apply]
    exact (KStats.stats0 (V5 m ρ) c hreal k).2
  · rw [KWalk.W9_main_v116 m ρ c]; exact Cert.Lib.Rows.shapeCast_vec_row_apply _ _ k
  · rw [KWalk.W9_main_v117 m ρ c]; exact Cert.Lib.Rows.shapeCast_vec_row_apply _ _ k
  · rw [KWalk.W9_main_v91 m ρ c]
  · rw [KWalk.W9_main_arg0 m ρ c]
  · rw [KWalk.W9_main_arg18 m ρ c]
  · rw [KWalk.W9_main_arg20 m ρ c]
  · rw [KWalk.W9_main_v118 m ρ c]; exact Cert.Lib.Rows.shapeCast_vec_row_apply _ _ k
  · rw [KWalk.W9_main_v119 m ρ c]; exact Cert.Lib.Rows.shapeCast_vec_row_apply _ _ k
  · rw [KWalk.W9_main_arg22 m ρ c]
  · rw [KWalk.W9_main_v120 m ρ c]; exact Cert.Lib.Rows.shapeCast_vec_row_apply _ _ q

/-! ## The cluster level -/

/-- THE CLUSTER RESULT of the kernel program read at (r, q): the layer of the specification over the launch's own
    linear layer Y1, its statistics in the deviation form (the linear layer's entries being real), the parameter vectors
    of the launch memory, and the mean-aggregated features the host computed before the first launch. -/
theorem outC_apply (hreal : ∀ r k, IsRealS (KReg1.Y1 (V7 m ρ) c r k)) (r : Fin 25000) (q : Fin 128) :
    (W12 m ρ c (Proc.devRef .tc main_v127) : S25000x128.Idx → EReal) (ix2 r q)
      = Cert.Fg.layer (Ideal.ofBits .f32 0x3727C5AC#32) (Ideal.ofBits .f32 0x00000000#32) (KReg1.Y1 (V7 m ρ) c)
          (Cert.Fg.meanDev (Ideal.ofBits .f32 0x46C35000#32) (KReg1.Y1 (V7 m ρ) c))
          (Cert.Fg.varDev (Ideal.ofBits .f32 0x46C35000#32) (KReg1.Y1 (V7 m ρ) c))
          (fun k => (m ((c : Thread nD τ).loc main_arg12) : S256.Idx → EReal) (ix1 k))
          (fun k => (m ((c : Thread nD τ).loc main_arg13) : S256.Idx → EReal) (ix1 k))
          (fun r j => (W5 m ρ c (Proc.devRef .tc main_v65) : S25000x128.Idx → EReal) (ix2 r j))
          (fun r j => (m ((c : Thread nD τ).loc main_arg2) : S25000x128.Idx → EReal) (ix2 r j))
          (fun j k => (m ((c : Thread nD τ).loc main_arg14) : S128x256.Idx → EReal) (ix2 j k))
          (fun j k => (m ((c : Thread nD τ).loc main_arg16) : S128x256.Idx → EReal) (ix2 j k))
          (fun k => (m ((c : Thread nD τ).loc main_arg15) : S256.Idx → EReal) (ix1 k))
          (fun k => (m ((c : Thread nD τ).loc main_arg17) : S256.Idx → EReal) (ix1 k))
          (fun k q => (m ((c : Thread nD τ).loc main_arg24) : S256x128.Idx → EReal) (ix2 k q))
          (fun q => (m ((c : Thread nD τ).loc main_arg25) : S128.Idx → EReal) (ix1 q)) r q := by
  rw [KWalk.W12_main_v127 m ρ c, KReg3.final3_13 (V11 m ρ) c]
  show Cert.Fg.layer (Ideal.ofBits .f32 0x3727C5AC#32) (Ideal.ofBits .f32 0x00000000#32)
      (fun r k => (W11 m ρ c (Proc.devRef .tc main_v105_0) : S25000x256.Idx → EReal) (ix2 r k))
      (fun k => (W11 m ρ c (Proc.devRef .tc main_v111) : S1x256.Idx → EReal) (ix2 (0 : Fin 1) k))
      (fun k => (W11 m ρ c (Proc.devRef .tc main_v115) : S1x256.Idx → EReal) (ix2 (0 : Fin 1) k))
      (fun k => (W11 m ρ c (Proc.devRef .tc main_v122) : S1x256.Idx → EReal) (ix2 (0 : Fin 1) k))
      (fun k => (W11 m ρ c (Proc.devRef .tc main_v123) : S1x256.Idx → EReal) (ix2 (0 : Fin 1) k))
      (fun r j => (W11 m ρ c (Proc.devRef .tc main_v65) : S25000x128.Idx → EReal) (ix2 r j))
      (fun r j => (W11 m ρ c (Proc.devRef .tc main_arg2) : S25000x128.Idx → EReal) (ix2 r j))
      (fun j k => (W11 m ρ c (Proc.devRef .tc main_arg14) : S128x256.Idx → EReal) (ix2 j k))
      (fun j k => (W11 m ρ c (Proc.devRef .tc main_arg16) : S128x256.Idx → EReal) (ix2 j k))
      (fun k => (W11 m ρ c (Proc.devRef .tc main_v124) : S1x256.Idx → EReal) (ix2 (0 : Fin 1) k))
      (fun k => (W11 m ρ c (Proc.devRef .tc main_v125) : S1x256.Idx → EReal) (ix2 (0 : Fin 1) k))
      (fun k q => (W11 m ρ c (Proc.devRef .tc main_arg24) : S256x128.Idx → EReal) (ix2 k q))
      (fun q => (W11 m ρ c (Proc.devRef .tc main_v126) : S1x128.Idx → EReal) (ix2 (0 : Fin 1) q)) r q = _
  refine Cert.Fg.layer_congr _ _ r q (fun k => ?_) (fun k => ?_) (fun k => ?_) (fun k => ?_) (fun k => ?_) (fun j => ?_) (fun j => ?_)
    (fun j k => ?_) (fun j k => ?_) (fun k => ?_) (fun k => ?_) (fun k => ?_) ?_
  · -- the linear layer: the earlier launch's result array
    rw [KWalk.W11_main_v105_0 m ρ c, KReg1.final1_3 (V7 m ρ) c Bodies.k1_pay1_apply]
    rfl
  · -- the mean: the moment form over the first partial-sum array
    rw [KWalk.W11_main_v111 m ρ c, KWalk.W9_main_v111 m ρ c]
    refine (Cert.Lib.ColStats.momMean_apply (R := 200) (b := 256) _ _ _ _ _ _ _ Cert.Words.ofBits_zero k).trans ?_
    rw [KReg1.final1_4 (V7 m ρ) _ c Bodies.k1_pay1_apply Bodies.k1_pay2_apply]
    exact (KStats.stats1 (V7 m ρ) c hreal k).1
  · -- the variance: the moment form over the two partial-sum arrays
    rw [KWalk.W11_main_v115 m ρ c, KWalk.W9_main_v115_explicit m ρ c]
    refine (Cert.Lib.ColStats.momVar_apply (R := 200) (b := 256) _ _ _ _ _ _ _ _ Cert.Words.ofBits_zero k).trans ?_
    rw [KReg1.final1_4 (V7 m ρ) _ c Bodies.k1_pay1_apply Bodies.k1_pay2_apply,
      KReg1.final1_5 (V7 m ρ) _ c Bodies.k1_pay1_apply Bodies.k1_pay3_apply]
    exact (KStats.stats1 (V7 m ρ) c hreal k).2
  · rw [KWalk.W11_main_v122 m ρ c]; exact Cert.Lib.Rows.shapeCast_vec_row_apply _ _ k
  · rw [KWalk.W11_main_v123 m ρ c]; exact Cert.Lib.Rows.shapeCast_vec_row_apply _ _ k
  · rw [KWalk.W11_main_v65 m ρ c]
  · rw [KWalk.W11_main_arg2 m ρ c]
  · rw [KWalk.W11_main_arg14 m ρ c]
  · rw [KWalk.W11_main_arg16 m ρ c]
  · rw [KWalk.W11_main_v124 m ρ c]; exact Cert.Lib.Rows.shapeCast_vec_row_apply _ _ k
  · rw [KWalk.W11_main_v125 m ρ c]; exact Cert.Lib.Rows.shapeCast_vec_row_apply _ _ k
  · rw [KWalk.W11_main_arg24 m ρ c]
  · rw [KWalk.W11_main_v126 m ρ c]; exact Cert.Lib.Rows.shapeCast_vec_row_apply _ _ q

end Cert.KernelIdeal.KRead

end
-- ==== Proof.LibHostLayer.lean ====
/-
  A graph layer in the host's whole-array spelling, read at an index, at the ideal values and for any extents.

  The host writes the layer with whole arrays: a matrix product plus a bias vector made a row and spread over
  the rows; the batch normalisation ((Y − μ) · rsqrt(σ² + ε)) · γ + β with the four column vectors spread the
  same way, clamped below at a constant; the mean-aggregation affine map; and the merge product.  Read at
  (r, q) each is the corresponding scalar function of the arrays' entries: the functions lin, bnRelu, sage and
  merged of the specification.  No finiteness is used.
-/
import proofs.«151819_j60404420051112_2_alg».proof.Proof.Spec
import proofs.«151819_j60404420051112_2_alg».proof.Proof.LibRowBlocks
import proofs.«151819_j60404420051112_2_alg».proof.Proof.LibRowBroadcast
import proofs.«151819_j60404420051112_2_alg».proof.Proof.LibDenseLayers

noncomputable section

namespace Cert.Lib.HostLayer

open Idealize.ShloMosaic Idealize.ShloMosaic.ValueIdx

variable {N H P Q : Nat}

/-- A vector [P] made a row [1, P] and spread over N rows reads, at (r, k), the vector at k. -/
theorem rowvec_apply {α : Type} (b : (⟨1, ![P]⟩ : Shape).Idx → α)
    (h1 : (⟨1, ![P]⟩ : Shape).BroadcastsInDim ⟨2, ![1, P]⟩ (![1] : Fin 1 → Fin 2))
    (h01 : (⟨2, ![1, P]⟩ : Shape).BroadcastsInDim ⟨2, ![N, P]⟩ (![0, 1] : Fin 2 → Fin 2)) (r : Fin N) (k : Fin P) :
    broadcastInDim ⟨2, ![N, P]⟩ (![0, 1] : Fin 2 → Fin 2) h01 (broadcastInDim ⟨2, ![1, P]⟩ (![1] : Fin 1 → Fin 2) h1 b) (ix2 r k)
      = b (ix1 k) :=
  (Cert.Lib.RowBroadcast.broadcastInDim_row_apply _ h01 r k).trans (Cert.Lib.DenseLayers.vec_row_apply b h1 k)

/-- The host's linear layer X · W + b at (r, k). -/
theorem lin_apply (X : FVec Ideal ⟨2, ![N, H]⟩ .f32) (W : FVec Ideal ⟨2, ![H, P]⟩ .f32) (b : FVec Ideal ⟨1, ![P]⟩ .f32)
    (prec : Option ContractPrecision)
    (h1 : (⟨1, ![P]⟩ : Shape).BroadcastsInDim ⟨2, ![1, P]⟩ (![1] : Fin 1 → Fin 2))
    (h01 : (⟨2, ![1, P]⟩ : Shape).BroadcastsInDim ⟨2, ![N, P]⟩ (![0, 1] : Fin 2 → Fin 2)) (r : Fin N) (k : Fin P) :
    addf (Host.dotGeneral (DotDims.plain N H P) prec X W)
        (broadcastInDim ⟨2, ![N, P]⟩ (![0, 1] : Fin 2 → Fin 2) h01 (broadcastInDim ⟨2, ![1, P]⟩ (![1] : Fin 1 → Fin 2) h1 b)) (ix2 r k)
      = Cert.Fg.lin (fun r j => X (ix2 r j)) (fun j k => W (ix2 j k)) (fun k => b (ix1 k)) r k := by
  rw [addf_apply, Cert.Lib.RowBlocks.dotGeneral_plain_apply, rowvec_apply]
  rfl

/-- The host's batch normalisation and clamp at (r, k). -/
theorem bnRelu_apply (Y : FVec Ideal ⟨2, ![N, P]⟩ .f32) (mu var g be : FVec Ideal ⟨1, ![P]⟩ .f32) (epsw zw : BitVec 32)
    (h1 : (⟨1, ![P]⟩ : Shape).BroadcastsInDim ⟨2, ![1, P]⟩ (![1] : Fin 1 → Fin 2))
    (h01 : (⟨2, ![1, P]⟩ : Shape).BroadcastsInDim ⟨2, ![N, P]⟩ (![0, 1] : Fin 2 → Fin 2))
    (hs : (⟨0, ![]⟩ : Shape).BroadcastsInDim ⟨1, ![P]⟩ (![] : Fin 0 → Fin 1))
    (hz : (⟨0, ![]⟩ : Shape).BroadcastsInDim ⟨2, ![N, P]⟩ (![] : Fin 0 → Fin 2)) (r : Fin N) (k : Fin P) :
    maximumf
        (addf
          (mulf
            (mulf (subf Y (broadcastInDim ⟨2, ![N, P]⟩ (![0, 1] : Fin 2 → Fin 2) h01 (broadcastInDim ⟨2, ![1, P]⟩ (![1] : Fin 1 → Fin 2) h1 mu)))
              (broadcastInDim ⟨2, ![N, P]⟩ (![0, 1] : Fin 2 → Fin 2) h01 (broadcastInDim ⟨2, ![1, P]⟩ (![1] : Fin 1 → Fin 2) h1
                (Host.rsqrt (addf var (broadcastInDim ⟨1, ![P]⟩ (![] : Fin 0 → Fin 1) hs (constant (F := Ideal) ⟨0, ![]⟩ .f32 epsw)))))))
            (broadcastInDim ⟨2, ![N, P]⟩ (![0, 1] : Fin 2 → Fin 2) h01 (broadcastInDim ⟨2, ![1, P]⟩ (![1] : Fin 1 → Fin 2) h1 g)))
          (broadcastInDim ⟨2, ![N, P]⟩ (![0, 1] : Fin 2 → Fin 2) h01 (broadcastInDim ⟨2, ![1, P]⟩ (![1] : Fin 1 → Fin 2) h1 be)))
        (broadcastInDim ⟨2, ![N, P]⟩ (![] : Fin 0 → Fin 2) hz (constant (F := Ideal) ⟨0, ![]⟩ .f32 zw)) (ix2 r k)
      = Cert.Fg.bnRelu (Ideal.ofBits .f32 epsw) (Ideal.ofBits .f32 zw) (Y (ix2 r k)) (mu (ix1 k)) (var (ix1 k)) (g (ix1 k)) (be (ix1 k)) := by
  rw [maximumf_apply, addf_apply, mulf_apply, mulf_apply, subf_apply, rowvec_apply, rowvec_apply, rowvec_apply, rowvec_apply,
    Cert.Lib.RowBroadcast.broadcastInDim_scalar_apply _ hz _ ix0]
  show max (((Y (ix2 r k) - mu (ix1 k)) * Ideal.rsqrt (var (ix1 k) + _)) * g (ix1 k) + be (ix1 k)) _ = _
  rw [Cert.Lib.RowBroadcast.broadcastInDim_scalar_apply _ hs _ ix0]
  rfl

/-- The host's mean-aggregation affine map at (r, k). -/
theorem sage_apply (M X : FVec Ideal ⟨2, ![N, H]⟩ .f32) (Wl Wr : FVec Ideal ⟨2, ![H, P]⟩ .f32) (bl br : FVec Ideal ⟨1, ![P]⟩ .f32)
    (prec prec' : Option ContractPrecision)
    (h1 : (⟨1, ![P]⟩ : Shape).BroadcastsInDim ⟨2, ![1, P]⟩ (![1] : Fin 1 → Fin 2))
    (h01 : (⟨2, ![1, P]⟩ : Shape).BroadcastsInDim ⟨2, ![N, P]⟩ (![0, 1] : Fin 2 → Fin 2)) (r : Fin N) (k : Fin P) :
    addf
        (addf
          (addf (Host.dotGeneral (DotDims.plain N H P) prec M Wl)
            (broadcastInDim ⟨2, ![N, P]⟩ (![0, 1] : Fin 2 → Fin 2) h01 (broadcastInDim ⟨2, ![1, P]⟩ (![1] : Fin 1 → Fin 2) h1 bl)))
          (Host.dotGeneral (DotDims.plain N H P) prec' X Wr))
        (broadcastInDim ⟨2, ![N, P]⟩ (![0, 1] : Fin 2 → Fin 2) h01 (broadcastInDim ⟨2, ![1, P]⟩ (![1] : Fin 1 → Fin 2) h1 br)) (ix2 r k)
      = Cert.Fg.sage (fun r j => M (ix2 r j)) (fun r j => X (ix2 r j)) (fun j k => Wl (ix2 j k)) (fun j k => Wr (ix2 j k))
          (fun k => bl (ix1 k)) (fun k => br (ix1 k)) r k := by
  rw [addf_apply, addf_apply, addf_apply, Cert.Lib.RowBlocks.dotGeneral_plain_apply, Cert.Lib.RowBlocks.dotGeneral_plain_apply,
    rowvec_apply, rowvec_apply]
  rfl

/-- The host's merge (T · Wm + bm) at (r, q), for T given entry by entry. -/
theorem merged_apply (T : FVec Ideal ⟨2, ![N, P]⟩ .f32) (Wm : FVec Ideal ⟨2, ![P, Q]⟩ .f32) (bm : FVec Ideal ⟨1, ![Q]⟩ .f32)
    (prec : Option ContractPrecision)
    (h1 : (⟨1, ![Q]⟩ : Shape).BroadcastsInDim ⟨2, ![1, Q]⟩ (![1] : Fin 1 → Fin 2))
    (h01 : (⟨2, ![1, Q]⟩ : Shape).BroadcastsInDim ⟨2, ![N, Q]⟩ (![0, 1] : Fin 2 → Fin 2)) (r : Fin N) (q : Fin Q) :
    addf (Host.dotGeneral (DotDims.plain N P Q) prec T Wm)
        (broadcastInDim ⟨2, ![N, Q]⟩ (![0, 1] : Fin 2 → Fin 2) h01 (broadcastInDim ⟨2, ![1, Q]⟩ (![1] : Fin 1 → Fin 2) h1 bm)) (ix2 r q)
      = Cert.Fg.merged (fun r k => T (ix2 r k)) (fun k q => Wm (ix2 k q)) (fun q => bm (ix1 q)) r q := by
  rw [addf_apply, Cert.Lib.RowBlocks.dotGeneral_plain_apply, rowvec_apply]
  rfl

end Cert.Lib.HostLayer

end
-- ==== Proof.RefRead.lean ====
/-
  The reference program's two results, read at an index.

  Each result is the layer of the specification at its graph level: the linear layer of the aggregated node
  features, its column mean and its column variance in the deviation form (the mean of the squared deviations,
  which is what the variance function computes once its guard "rows − ddof > 0" is seen to hold), the
  normalised and clamped branch, the mean-aggregation branch, and the merge.
-/
import proofs.«151819_j60404420051112_2_alg».proof.Proof.RefStages
import proofs.«151819_j60404420051112_2_alg».proof.Proof.LibHostLayer
import proofs.«151819_j60404420051112_2_alg».proof.Proof.LibColStats
import proofs.«151819_j60404420051112_2_alg».proof.Proof.KRegRows
import proofs.«151819_j60404420051112_2_alg».proof.Proof.Words

set_option maxRecDepth 8192

noncomputable section

namespace Cert.ReferenceIdeal.RefRead

open Cert.ReferenceIdeal Cert.ReferenceIdeal.Gen Cert.ReferenceIdeal.RefRun
open Idealize.ShloMosaic Idealize.ShloMosaic.TcCoe Idealize.SL.Sem Idealize.ShloMosaic.StableHlo Idealize.ShloMosaic.ValueIdx

variable (V : Valuation τ sig (Elt Ideal))

/-! ## The atom level -/

/-- The linear layer of the atom level, entry by entry: Σ_j A(r,j) · W(j,k) + b(k) over the aggregated features. -/
def YA : Fin 100000 → Fin 256 → EReal :=
  Cert.Fg.lin (fun r j => (after ops V (main_v19 : DevRef τ sig) : S100000x128.Idx → EReal) (ix2 r j))
    (fun j k => (V (main_arg5 : DevRef τ sig) : S128x256.Idx → EReal) (ix2 j k))
    (fun k => (V (main_arg6 : DevRef τ sig) : S256.Idx → EReal) (ix1 k))

/-- The linear layer's array read at (r, k). -/
theorem v23_apply (r : Fin 100000) (k : Fin 256) :
    (after ops V (main_v23 : DevRef τ sig) : S100000x256.Idx → EReal) (ix2 r k) = YA V r k := by
  rw [v23_eq]
  exact Cert.Lib.HostLayer.lin_apply (N := 100000) (H := 128) (P := 256) _ _ _ none _ _ r k

/-- The column-mean vector read at k: the mean of the linear layer's column k. -/
theorem v26_apply (k : Fin 256) :
    (after ops V (main_v26 : DevRef τ sig) : S256.Idx → EReal) (ix1 k)
      = Cert.Fg.meanDev (Ideal.ofBits .f32 0x47C35000#32) (YA V) k := by
  rw [v26_eq]
  refine (Cert.Lib.ColStats.devMean_apply (a := 100000) (b := 256) _ _ _ _ _ _ Cert.Words.ofBits_zero k).trans ?_
  exact congrArg (fun Y => Cert.Fg.meanDev _ Y k) (funext fun r => funext fun k => v23_apply V r k)

/-- The column-variance vector read at k: the mean squared deviation of the linear layer's column k. -/
theorem v27_apply (k : Fin 256) :
    (after ops V (main_v27 : DevRef τ sig) : S256.Idx → EReal) (ix1 k)
      = Cert.Fg.varDev (Ideal.ofBits .f32 0x47C35000#32) (YA V) k := by
  rw [v27_eq]
  refine (Cert.Lib.ColStats.devVar_apply (a := 100000) (b := 256) _ _ _ _ _ _ _ _ _ _ _ Cert.Words.ofBits_zero
    (100000 : ℝ) Cert.Words.ofBits_100000 (by norm_num) k).trans ?_
  exact congrArg (fun Y => Cert.Fg.varDev _ Y k) (funext fun r => funext fun k => v23_apply V r k)

/-- The normalised and clamped branch read at (r, k). -/
theorem v43_apply (r : Fin 100000) (k : Fin 256) :
    (after ops V (main_v43 : DevRef τ sig) : S100000x256.Idx → EReal) (ix2 r k)
      = Cert.Fg.bnRelu (Ideal.ofBits .f32 0x3727C5AC#32) (Ideal.ofBits .f32 0x00000000#32) (YA V r k)
          (Cert.Fg.meanDev (Ideal.ofBits .f32 0x47C35000#32) (YA V) k) (Cert.Fg.varDev (Ideal.ofBits .f32 0x47C35000#32) (YA V) k)
          ((V (main_arg7 : DevRef τ sig) : S256.Idx → EReal) (ix1 k)) ((V (main_arg8 : DevRef τ sig) : S256.Idx → EReal) (ix1 k)) := by
  rw [v43_eq]
  refine (Cert.Lib.HostLayer.bnRelu_apply (N := 100000) (P := 256) _ _ _ _ _ _ _ _ _ _ _ r k).trans ?_
  rw [v23_apply, v26_apply, v27_apply]

/-- The mean-aggregation branch read at (r, k). -/
theorem v155_apply (r : Fin 100000) (k : Fin 256) :
    (after ops V (main_v155 : DevRef τ sig) : S100000x256.Idx → EReal) (ix2 r k)
      = Cert.Fg.sage (fun r j => (after ops V (main_v146 : DevRef τ sig) : S100000x128.Idx → EReal) (ix2 r j))
          (fun r j => (V (main_arg0 : DevRef τ sig) : S100000x128.Idx → EReal) (ix2 r j))
          (fun j k => (V (main_arg18 : DevRef τ sig) : S128x256.Idx → EReal) (ix2 j k))
          (fun j k => (V (main_arg20 : DevRef τ sig) : S128x256.Idx → EReal) (ix2 j k))
          (fun k => (V (main_arg19 : DevRef τ sig) : S256.Idx → EReal) (ix1 k))
          (fun k => (V (main_arg21 : DevRef τ sig) : S256.Idx → EReal) (ix1 k)) r k := by
  rw [v155_eq]
  exact Cert.Lib.HostLayer.sage_apply (N := 100000) (H := 128) (P := 256) _ _ _ _ _ _ none none _ _ r k

/-- THE ATOM RESULT read at (r, q): the layer of the specification, with the statistics in the deviation form. -/
theorem outA_apply (r : Fin 100000) (q : Fin 128) :
    (after ops V (main_v160 : DevRef τ sig) : S100000x128.Idx → EReal) (ix2 r q)
      = Cert.Fg.layer (Ideal.ofBits .f32 0x3727C5AC#32) (Ideal.ofBits .f32 0x00000000#32) (YA V)
          (Cert.Fg.meanDev (Ideal.ofBits .f32 0x47C35000#32) (YA V)) (Cert.Fg.varDev (Ideal.ofBits .f32 0x47C35000#32) (YA V))
          (fun k => (V (main_arg7 : DevRef τ sig) : S256.Idx → EReal) (ix1 k))
          (fun k => (V (main_arg8 : DevRef τ sig) : S256.Idx → EReal) (ix1 k))
          (fun r j => (after ops V (main_v146 : DevRef τ sig) : S100000x128.Idx → EReal) (ix2 r j))
          (fun r j => (V (main_arg0 : DevRef τ sig) : S100000x128.Idx → EReal) (ix2 r j))
          (fun j k => (V (main_arg18 : DevRef τ sig) : S128x256.Idx → EReal) (ix2 j k))
          (fun j k => (V (main_arg20 : DevRef τ sig) : S128x256.Idx → EReal) (ix2 j k))
          (fun k => (V (main_arg19 : DevRef τ sig) : S256.Idx → EReal) (ix1 k))
          (fun k => (V (main_arg21 : DevRef τ sig) : S256.Idx → EReal) (ix1 k))
          (fun k q => (V (main_arg22 : DevRef τ sig) : S256x128.Idx → EReal) (ix2 k q))
          (fun q => (V (main_arg23 : DevRef τ sig) : S128.Idx → EReal) (ix1 q)) r q := by
  rw [v160_eq]
  refine (Cert.Lib.HostLayer.merged_apply (N := 100000) (P := 256) (Q := 128) _ _ _ none _ _ r q).trans ?_
  unfold Cert.Fg.layer
  refine Cert.Fg.merged_congr_row _ _ _ _ _ _ r r q (fun k => ?_) (fun _ => rfl) rfl
  rw [addf_apply, v43_apply, v155_apply]

/-! ## The cluster level -/

/-- The linear layer of the cluster level, entry by entry: Σ_j A(r,j) · W(j,k) + b(k) over the aggregated features. -/
def YC : Fin 25000 → Fin 256 → EReal :=
  Cert.Fg.lin (fun r j => (after ops V (main_v63 : DevRef τ sig) : S25000x128.Idx → EReal) (ix2 r j))
    (fun j k => (V (main_arg10 : DevRef τ sig) : S128x256.Idx → EReal) (ix2 j k))
    (fun k => (V (main_arg11 : DevRef τ sig) : S256.Idx → EReal) (ix1 k))

/-- The linear layer's array read at (r, k). -/
theorem v67_apply (r : Fin 25000) (k : Fin 256) :
    (after ops V (main_v67 : DevRef τ sig) : S25000x256.Idx → EReal) (ix2 r k) = YC V r k := by
  rw [v67_eq]
  exact Cert.Lib.HostLayer.lin_apply (N := 25000) (H := 128) (P := 256) _ _ _ none _ _ r k

/-- The column-mean vector read at k: the mean of the linear layer's column k. -/
theorem v70_apply (k : Fin 256) :
    (after ops V (main_v70 : DevRef τ sig) : S256.Idx → EReal) (ix1 k)
      = Cert.Fg.meanDev (Ideal.ofBits .f32 0x46C35000#32) (YC V) k := by
  rw [v70_eq]
  refine (Cert.Lib.ColStats.devMean_apply (a := 25000) (b := 256) _ _ _ _ _ _ Cert.Words.ofBits_zero k).trans ?_
  exact congrArg (fun Y => Cert.Fg.meanDev _ Y k) (funext fun r => funext fun k => v67_apply V r k)

/-- The column-variance vector read at k: the mean squared deviation of the linear layer's column k. -/
theorem v71_apply (k : Fin 256) :
    (after ops V (main_v71 : DevRef τ sig) : S256.Idx → EReal) (ix1 k)
      = Cert.Fg.varDev (Ideal.ofBits .f32 0x46C35000#32) (YC V) k := by
  rw [v71_eq]
  refine (Cert.Lib.ColStats.devVar_apply (a := 25000) (b := 256) _ _ _ _ _ _ _ _ _ _ _ Cert.Words.ofBits_zero
    (25000 : ℝ) Cert.Words.ofBits_25000 (by norm_num) k).trans ?_
  exact congrArg (fun Y => Cert.Fg.varDev _ Y k) (funext fun r => funext fun k => v67_apply V r k)

/-- The normalised and clamped branch read at (r, k). -/
theorem v87_apply (r : Fin 25000) (k : Fin 256) :
    (after ops V (main_v87 : DevRef τ sig) : S25000x256.Idx → EReal) (ix2 r k)
      = Cert.Fg.bnRelu (Ideal.ofBits .f32 0x3727C5AC#32) (Ideal.ofBits .f32 0x00000000#32) (YC V r k)
          (Cert.Fg.meanDev (Ideal.ofBits .f32 0x46C35000#32) (YC V) k) (Cert.Fg.varDev (Ideal.ofBits .f32 0x46C35000#32) (YC V) k)
          ((V (main_arg12 : DevRef τ sig) : S256.Idx → EReal) (ix1 k)) ((V (main_arg13 : DevRef τ sig) : S256.Idx → EReal) (ix1 k)) := by
  rw [v87_eq]
  refine (Cert.Lib.HostLayer.bnRelu_apply (N := 25000) (P := 256) _ _ _ _ _ _ _ _ _ _ _ r k).trans ?_
  rw [v67_apply, v70_apply, v71_apply]

/-- The mean-aggregation branch read at (r, k). -/
theorem v121_apply (r : Fin 25000) (k : Fin 256) :
    (after ops V (main_v121 : DevRef τ sig) : S25000x256.Idx → EReal) (ix2 r k)
      = Cert.Fg.sage (fun r j => (after ops V (main_v112 : DevRef τ sig) : S25000x128.Idx → EReal) (ix2 r j))
          (fun r j => (V (main_arg2 : DevRef τ sig) : S25000x128.Idx → EReal) (ix2 r j))
          (fun j k => (V (main_arg14 : DevRef τ sig) : S128x256.Idx → EReal) (ix2 j k))
          (fun j k => (V (main_arg16 : DevRef τ sig) : S128x256.Idx → EReal) (ix2 j k))
          (fun k => (V (main_arg15 : DevRef τ sig) : S256.Idx → EReal) (ix1 k))
          (fun k => (V (main_arg17 : DevRef τ sig) : S256.Idx → EReal) (ix1 k)) r k := by
  rw [v121_eq]
  exact Cert.Lib.HostLayer.sage_apply (N := 25000) (H := 128) (P := 256) _ _ _ _ _ _ none none _ _ r k

/-- THE CLUSTER RESULT read at (r, q): the layer of the specification, with the statistics in the deviation form. -/
theorem outC_apply (r : Fin 25000) (q : Fin 128) :
    (after ops V (main_v165 : DevRef τ sig) : S25000x128.Idx → EReal) (ix2 r q)
      = Cert.Fg.layer (Ideal.ofBits .f32 0x3727C5AC#32) (Ideal.ofBits .f32 0x00000000#32) (YC V)
          (Cert.Fg.meanDev (Ideal.ofBits .f32 0x46C35000#32) (YC V)) (Cert.Fg.varDev (Ideal.ofBits .f32 0x46C35000#32) (YC V))
          (fun k => (V (main_arg12 : DevRef τ sig) : S256.Idx → EReal) (ix1 k))
          (fun k => (V (main_arg13 : DevRef τ sig) : S256.Idx → EReal) (ix1 k))
          (fun r j => (after ops V (main_v112 : DevRef τ sig) : S25000x128.Idx → EReal) (ix2 r j))
          (fun r j => (V (main_arg2 : DevRef τ sig) : S25000x128.Idx → EReal) (ix2 r j))
          (fun j k => (V (main_arg14 : DevRef τ sig) : S128x256.Idx → EReal) (ix2 j k))
          (fun j k => (V (main_arg16 : DevRef τ sig) : S128x256.Idx → EReal) (ix2 j k))
          (fun k => (V (main_arg15 : DevRef τ sig) : S256.Idx → EReal) (ix1 k))
          (fun k => (V (main_arg17 : DevRef τ sig) : S256.Idx → EReal) (ix1 k))
          (fun k q => (V (main_arg24 : DevRef τ sig) : S256x128.Idx → EReal) (ix2 k q))
          (fun q => (V (main_arg25 : DevRef τ sig) : S128.Idx → EReal) (ix1 q)) r q := by
  rw [v165_eq]
  refine (Cert.Lib.HostLayer.merged_apply (N := 25000) (P := 256) (Q := 128) _ _ _ none _ _ r q).trans ?_
  unfold Cert.Fg.layer
  refine Cert.Fg.merged_congr_row _ _ _ _ _ _ r r q (fun k => ?_) (fun _ => rfl) rfl
  rw [addf_apply, v87_apply, v121_apply]

end Cert.ReferenceIdeal.RefRead

end
-- ==== Proof.LibRowGather.lean ====
/-
  Gathering whole rows of a table.  For a table `x : [N, C]` and a column of start indices `idx : [E, 1]`,
  the gather with offset axis 1, collapsed axis 0, start-index map [0], index-vector axis 1 and slices of one
  row ([1, C]) reads, at result index (e, j), the table at row `idx[e, 0]` — the index word read signed and
  clamped into [0, N - 1], as every gather clamps its start indices — and column j.  This is what `x[idx]`
  of a two-axis table at a flat integer array lowers to.
-/
import Idealize.ShloMosaic.Lib.ValueIdx

noncomputable section

namespace Idealize.ShloMosaic.RowGather

open Idealize.ShloMosaic Idealize.ShloMosaic.ValueIdx

variable {α : Type}

/-- The dimension numbers of a row gather from a table [N, C] at start indices [E, 1] into [E, C]; their
    conditions `wf` are decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word names in a table of `N` rows: the word read signed, clamped into [0, N - 1]. -/
def clampRow (N : Nat) (hN : 0 < N) {w : Nat} (v : BitVec w) : Fin N :=
  ⟨min v.toInt.toNat (N - 1), by omega⟩

/-- THE ROW GATHER READ AT (e, j): the table at the clamped row `idx[e, 0]` and column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j)
      = x (ix2 (clampRow N hN (idx (ix2 e (0 : Fin 1)))) j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = j.val
    rw [GatherDims.batchCoord_eq_zero _ _ _ List.not_mem_nil]
    unfold GatherDims.start
    rw [dif_neg (show (1 : Fin 2) ∉ (rowDims N E C wf).startIndexMap from
      fun h => absurd (show (1 : Nat) = 0 from congrArg Fin.val (List.mem_singleton.mp h)) Nat.one_ne_zero)]
    unfold GatherDims.offCoord
    rw [dif_pos (show (1 : Fin 2) ∈ (rowDims N E C wf).sKept from (GatherDims.mem_sKept _ _).mpr
      ⟨fun h => absurd (show (1 : Nat) = 0 from congrArg Fin.val (List.mem_singleton.mp h)) Nat.one_ne_zero, List.not_mem_nil⟩)]
    simp only [Nat.zero_add]
    rfl

end Idealize.ShloMosaic.RowGather

end
-- ==== Proof.LibRealOps.lean ====
/-
  "Is a real number at every index" is kept by the host's layout operations, a gather and a matrix product.

  A transpose, a shape cast and a gather only re-index their operand: every entry of the result is an entry of
  the operand. Narrowing to a smaller float format is the identity at the ideal values. A host matrix product,
  at the ideal values, is at each output index the finite sum over the contraction index of products of an entry
  of the left operand and an entry of the right one, and finite sums and products of reals are reals.
-/
import Idealize.ShloMosaic.Lib.ValueIdx
import Idealize.ShloMosaic.Lib.Pipeline.Value
import Idealize.ShloMosaic.PureOps.Ideal.Laws
import proofs.«151819_j60404420051112_2_alg».proof.Proof.LibReals
import proofs.«151819_j60404420051112_2_alg».proof.Proof.LibRowGather

noncomputable section

namespace Cert.RealOps

open Idealize.ShloMosaic Cert.Reals
open scoped BigOperators

/-- A transposed real family is real: each entry is the operand's at the permuted index. -/
theorem isReal_transpose {s t : Shape} (perm : List (Fin s.rank)) (x : s.Idx → EReal) (h : s.Transposes perm t)
    (hx : IsReal x) : IsReal (transpose t perm x h) :=
  fun j => hx (h.src j)

/-- A shape-cast real family is real: each entry is the operand's at the index with the same row-major position. -/
theorem isReal_shapeCast {s t : Shape} (x : s.Idx → EReal) (h : s.ShapeCasts t) (hx : IsReal x) :
    IsReal (shapeCast t x h) :=
  fun j => hx (Shape.reshapeEquiv h j)

/-- Narrowing to a smaller float format is the identity at the ideal values, so it keeps a real family real. -/
theorem isReal_truncf {s : Shape} {φ ψ : FTy} (x : FVec Ideal s φ) (h : ψ.bits < φ.bits) (hx : IsReal x) :
    IsReal (truncf ψ x h : FVec Ideal s ψ) :=
  fun i => hx i

/-- A host matrix product of real families is real: at each output index it is a finite sum of products of
    entries of the two operands. -/
theorem isReal_dotGeneral {sl sr so : Shape} {φ₁ φ₂ : FTy} (d : DotDims sl sr so) (prec : Option ContractPrecision)
    (l : FVec Ideal sl φ₁) (r : FVec Ideal sr φ₂) (hl : IsReal l) (hr : IsReal r) :
    IsReal (Host.dotGeneral (F := Ideal) d prec l r) := fun j => by
  show IsRealS (FloatOps.dotGeneral d prec .single l r j)
  rw [Ideal.dotGeneral_apply]
  exact isRealS_sum Finset.univ _ fun k _ => (hl.apply _).mul (hr.apply _)

/-- A gather from a real family is real, whatever the dimension numbers and the index words: each entry is the
    operand's at the index the gather computes. -/
theorem isReal_gather {s si t : Shape} {w : Nat} (d : GatherDims s si t) (x : s.Idx → EReal) (idx : IVec si w)
    (hx : IsReal x) : IsReal (Host.gather d x idx) :=
  fun j => hx (d.operandIdx j idx)

/-- A row gather from a real table [N, C] at start indices [E, 1] is real, for any index words. -/
theorem isReal_rowGather {N E C w : Nat}
    (wf : GatherDims.WF ⟨2, ![N, C]⟩ ⟨2, ![E, 1]⟩ ⟨2, ![E, C]⟩ [1] [0] [] [0] [] 1 ![1, C])
    (x : (⟨2, ![N, C]⟩ : Shape).Idx → EReal) (idx : IVec ⟨2, ![E, 1]⟩ w) (hx : IsReal x) :
    IsReal (Host.gather (RowGather.rowDims N E C wf) x idx) :=
  isReal_gather _ x idx hx

end Cert.RealOps

end
-- ==== Proof.LibScatterReal.lean ====
/-
  An accumulating scatter of real numbers is real.

  At the ideal values the host's accumulating scatter, read at an entry, is the operand's entry plus a finite
  sum of updates (those whose index names the entry). So if every entry of the operand and every update is a
  real number, so is every entry of the result — whatever the indices and the dimension numbers.
-/
import proofs.«151819_j60404420051112_2_alg».proof.Proof.LibReals
import Idealize.ShloMosaic.PureOps.Ideal

noncomputable section

namespace Cert.Lib.ScatterReal

open Idealize.ShloMosaic Cert.Reals
open scoped BigOperators

/-- The accumulating scatter of real updates into a real operand has real entries. -/
theorem scatterAdd_real {s si su : Shape} {φ : FTy} {w : Nat} (d : ScatterDims s si su) (x : FVec Ideal s φ)
    (idx : IVec si w) (upd : FVec Ideal su φ) (hx : ∀ i, IsRealS (x i)) (hu : ∀ j, IsRealS (upd j)) (i : s.Idx) :
    IsRealS (Host.scatterAdd d x idx upd i) := by
  show IsRealS (Ideal.hostScatterAdd d x idx upd i)
  unfold Ideal.hostScatterAdd
  exact IsRealS.add (hx i) (isRealS_sum _ _ fun j _ => hu j)

end Cert.Lib.ScatterReal

end
-- ==== Proof.RefReal.lean ====
/-
  The linear layers of real inputs are real.

  At the ideal values a float is an extended real.  The atom graph's linear layer is a matrix product of the first
  neighbourhood sum with a weight matrix, plus a bias row; the neighbourhood sum is the node features scaled by one
  plus a scalar, plus rectified messages (gathered rows plus edge features) summed into rows of a zero matrix.  Each
  of these steps takes real families to real families: sums, products and maxima of reals are reals, a gather or a
  broadcast only re-reads entries, an accumulating scatter adds real updates to real entries, a matrix product is a
  finite sum of products, and the constants one and zero are reals.  So when the arguments the layer reads are real
  families the layer is one; the cluster graph's layer is the same computation at its own arguments.
-/
import proofs.«151819_j60404420051112_2_alg».proof.Proof.RefStages
import proofs.«151819_j60404420051112_2_alg».proof.Proof.LibReals
import proofs.«151819_j60404420051112_2_alg».proof.Proof.LibRealOps
import proofs.«151819_j60404420051112_2_alg».proof.Proof.LibScatterReal
import proofs.«151819_j60404420051112_2_alg».proof.Proof.Words
import Idealize.ShloMosaic.Lib.ValueIdx

noncomputable section

namespace Cert.ReferenceIdeal.RefReal

open Cert.ReferenceIdeal Cert.ReferenceIdeal.Gen Cert.ReferenceIdeal.RefRun Idealize.ShloMosaic Idealize.ShloMosaic.TcCoe Idealize.SL.Sem Idealize.ShloMosaic.StableHlo
open Cert.Reals

/-! ## The operations keep real families real -/

/-- The entrywise sum of two real families is real. -/
theorem isReal_addf {s : Shape} {φ : FTy} {a b : FVec Ideal s φ} (ha : IsReal a) (hb : IsReal b) :
    IsReal (addf a b) := fun i => (ha.apply i).add (hb.apply i)

/-- The entrywise product of two real families is real. -/
theorem isReal_mulf {s : Shape} {φ : FTy} {a b : FVec Ideal s φ} (ha : IsReal a) (hb : IsReal b) :
    IsReal (mulf a b) := fun i => (ha.apply i).mul (hb.apply i)

/-- The entrywise maximum of two real families is real. -/
theorem isReal_maximumf {s : Shape} {φ : FTy} {a b : FVec Ideal s φ} (ha : IsReal a) (hb : IsReal b) :
    IsReal (maximumf a b) := fun i => (ha.apply i).max (hb.apply i)

/-- A broadcast of a real family is real: every entry of the result is an entry of the operand. -/
theorem isReal_broadcastInDim {s t : Shape} {dims : Fin s.rank → Fin t.rank} {h : s.BroadcastsInDim t dims}
    {x : s.Idx → EReal} (hx : IsReal x) : IsReal (broadcastInDim t dims h x) := fun _ => hx _

/-- An accumulating scatter of a real family of updates into a real family is real. -/
theorem isReal_scatterAdd {s si su : Shape} {φ : FTy} {w : Nat} {d : ScatterDims s si su} {x : FVec Ideal s φ}
    {idx : IVec si w} {upd : FVec Ideal su φ} (hx : IsReal x) (hu : IsReal upd) :
    IsReal (Host.scatterAdd d x idx upd) := fun i => Cert.Lib.ScatterReal.scatterAdd_real d x idx upd hx hu i

/-- The constant family of the word of one is real. -/
theorem isReal_one {s : Shape} : IsReal (constant (F := Ideal) s .f32 0x3F800000#32) := fun _ => by
  show IsRealS (Ideal.ofBits .f32 0x3F800000#32)
  rw [Cert.Words.ofBits_one]; exact isRealS_one

/-- The constant family of the word of zero is real. -/
theorem isReal_zero {s : Shape} : IsReal (constant (F := Ideal) s .f32 0x00000000#32) := fun _ => by
  show IsRealS (Ideal.ofBits .f32 0x00000000#32)
  rw [Cert.Words.ofBits_zero]; exact isRealS_zero

/-! ## The two linear layers -/

set_option maxRecDepth 8192 in
/-- The atom graph's linear layer is a real family when the node features, the edge features, the scalar, the weight
    matrix and the bias are. -/
theorem v23_real (V : Valuation τ sig (Elt Ideal))
    (h0 : Cert.Reals.IsReal (V (main_arg0 : DevRef τ sig))) (h1 : Cert.Reals.IsReal (V (main_arg1 : DevRef τ sig)))
    (h4 : Cert.Reals.IsReal (V (main_arg4 : DevRef τ sig))) (h5 : Cert.Reals.IsReal (V (main_arg5 : DevRef τ sig)))
    (h6 : Cert.Reals.IsReal (V (main_arg6 : DevRef τ sig))) :
    Cert.Reals.IsReal (after ops V (main_v23 : DevRef τ sig)) := by
  rw [v23_eq, v19_eq]
  exact isReal_addf
    (Cert.RealOps.isReal_dotGeneral _ _ _ _
      (isReal_addf
        (isReal_mulf (isReal_broadcastInDim (isReal_addf isReal_one h4)) h0)
        (isReal_scatterAdd (isReal_broadcastInDim isReal_zero)
          (isReal_maximumf (isReal_addf (Cert.RealOps.isReal_gather _ _ _ h0) h1) (isReal_broadcastInDim isReal_zero))))
      h5)
    (isReal_broadcastInDim (isReal_broadcastInDim h6))

set_option maxRecDepth 8192 in
/-- The cluster graph's linear layer is a real family when the cluster features, the message features, the scalar,
    the weight matrix and the bias are. -/
theorem v67_real (V : Valuation τ sig (Elt Ideal))
    (h2 : Cert.Reals.IsReal (V (main_arg2 : DevRef τ sig))) (h3 : Cert.Reals.IsReal (V (main_arg3 : DevRef τ sig)))
    (h9 : Cert.Reals.IsReal (V (main_arg9 : DevRef τ sig))) (h10 : Cert.Reals.IsReal (V (main_arg10 : DevRef τ sig)))
    (h11 : Cert.Reals.IsReal (V (main_arg11 : DevRef τ sig))) :
    Cert.Reals.IsReal (after ops V (main_v67 : DevRef τ sig)) := by
  rw [v67_eq, v63_eq]
  exact isReal_addf
    (Cert.RealOps.isReal_dotGeneral _ _ _ _
      (isReal_addf
        (isReal_mulf (isReal_broadcastInDim (isReal_addf isReal_one h9)) h2)
        (isReal_scatterAdd (isReal_broadcastInDim isReal_zero)
          (isReal_maximumf (isReal_addf (Cert.RealOps.isReal_gather _ _ _ h2) h3) (isReal_broadcastInDim isReal_zero))))
      h10)
    (isReal_broadcastInDim (isReal_broadcastInDim h11))

end Cert.ReferenceIdeal.RefReal

end
-- ==== Proof.KChains.lean ====
/-
  The message-passing chains of the program before its first launch, as named functions of the arguments.

  Before the first launch the program computes, from its arguments only, four arrays: the aggregated atom features
  (the atom features scaled by one plus a scalar, plus the rectified messages — source rows gathered at the wrapped
  source indices, plus edge features — summed into their target rows), the aggregated cluster features (the same on
  the cluster graph), and the two neighbourhood means between the levels (rows gathered at the wrapped source
  indices and summed into their target rows, divided by the in-degree clamped below at one, the in-degree counted
  as a sum of integer ones).  Each is named here as one function of the arguments it reads, and the contents of its
  buffer when the first launch is entered are shown to be that function of the contents of the arguments at launch:
  stretch by stretch, each stretch read from any starting contents, a buffer a stretch does not write carried back
  unchanged.
-/
import proofs.«151819_j60404420051112_2_alg».proof.Proof.Gen.KernelIdeal.Frame
import proofs.«151819_j60404420051112_2_alg».proof.Proof.KKeep
import Idealize.ShloMosaic.PureOps.Ideal

set_option maxRecDepth 16384

noncomputable section

namespace Cert.KernelIdeal.KChains

open Cert.KernelIdeal Cert.KernelIdeal.Gen Cert.KernelIdeal.KKeep
open Idealize.ShloMosaic Idealize.ShloMosaic.TcCoe Idealize.SL.Sem Idealize.ShloMosaic.StableHlo

/-! ## The chains as functions of the arguments -/

/-- The aggregated atom features: (1 + ε) · x plus, summed into their target rows, the rectified messages
    max(x[source] + edge features, 0). -/
def hpreA (x : FVec Ideal S100000x128 .f32) (ea : FVec Ideal S600000x128 .f32) (eps : FVec Ideal S_ .f32)
    (ei : IVec S2x600000 32) : FVec Ideal S100000x128 .f32 :=
  (addf (F := Ideal) (φ := .f32) (mulf (F := Ideal) (φ := .f32) (broadcastInDim S100000x128 ![] bcast_S_S100000x128 (addf (F := Ideal) (φ := .f32) (constant (F := Ideal) S_ .f32 0x3F800000#32) eps)) x) (Host.scatterAdd (F := Ideal) (φ := .f32) scatter_S100000x128_S600000x1_S600000x128_1_0_0_1 (broadcastInDim S100000x128 ![] bcast_S_S100000x128 (constant (F := Ideal) S_ .f32 0x00000000#32)) (broadcastInDim S600000x1 ![0] bcast_S600000_S600000x1_0 (shapeCast S600000 (extractStridedSlice S1x600000 ![1, 0] ei slices_S2x600000_S1x600000_1_0) shapeCasts_S1x600000_S600000)) (maximumf (F := Ideal) (φ := .f32) (addf (F := Ideal) (φ := .f32) (Host.gather gather_S100000x128_S600000x1_S600000x128_1_0_n_n_0_1_1128 x (broadcastInDim S600000x1 ![0] bcast_S600000_S600000x1_0 (select (cmpi .slt (shapeCast S600000 (extractStridedSlice S1x600000 ![0, 0] ei slices_S2x600000_S1x600000_0_0) shapeCasts_S1x600000_S600000) (broadcastInDim S600000 ![] bcast_S_S600000 (constantI S_ 32 0#32))) (addi (shapeCast S600000 (extractStridedSlice S1x600000 ![0, 0] ei slices_S2x600000_S1x600000_0_0) shapeCasts_S1x600000_S600000) (broadcastInDim S600000 ![] bcast_S_S600000 (constantI S_ 32 100000#32))) (shapeCast S600000 (extractStridedSlice S1x600000 ![0, 0] ei slices_S2x600000_S1x600000_0_0) shapeCasts_S1x600000_S600000)))) ea) (broadcastInDim S600000x128 ![] bcast_S_S600000x128 (constant (F := Ideal) S_ .f32 0x00000000#32)))))

/-- The aggregated cluster features: the same on the cluster graph. -/
def hpreC (xc : FVec Ideal S25000x128 .f32) (eac : FVec Ideal S100000x128 .f32) (eps : FVec Ideal S_ .f32)
    (ei : IVec S2x100000 32) : FVec Ideal S25000x128 .f32 :=
  (addf (F := Ideal) (φ := .f32) (mulf (F := Ideal) (φ := .f32) (broadcastInDim S25000x128 ![] bcast_S_S25000x128 (addf (F := Ideal) (φ := .f32) (constant (F := Ideal) S_ .f32 0x3F800000#32) eps)) xc) (Host.scatterAdd (F := Ideal) (φ := .f32) scatter_S25000x128_S100000x1_S100000x128_1_0_0_1 (broadcastInDim S25000x128 ![] bcast_S_S25000x128 (constant (F := Ideal) S_ .f32 0x00000000#32)) (broadcastInDim S100000x1 ![0] bcast_S100000_S100000x1_0 (shapeCast S100000 (extractStridedSlice S1x100000 ![1, 0] ei slices_S2x100000_S1x100000_1_0) shapeCasts_S1x100000_S100000)) (maximumf (F := Ideal) (φ := .f32) (addf (F := Ideal) (φ := .f32) (Host.gather gather_S25000x128_S100000x1_S100000x128_1_0_n_n_0_1_1128 xc (broadcastInDim S100000x1 ![0] bcast_S100000_S100000x1_0 (select (cmpi .slt (shapeCast S100000 (extractStridedSlice S1x100000 ![0, 0] ei slices_S2x100000_S1x100000_0_0) shapeCasts_S1x100000_S100000) (broadcastInDim S100000 ![] bcast_S_S100000 (constantI S_ 32 0#32))) (addi (shapeCast S100000 (extractStridedSlice S1x100000 ![0, 0] ei slices_S2x100000_S1x100000_0_0) shapeCasts_S1x100000_S100000) (broadcastInDim S100000 ![] bcast_S_S100000 (constantI S_ 32 25000#32))) (shapeCast S100000 (extractStridedSlice S1x100000 ![0, 0] ei slices_S2x100000_S1x100000_0_0) shapeCasts_S1x100000_S100000)))) eac) (broadcastInDim S100000x128 ![] bcast_S_S100000x128 (constant (F := Ideal) S_ .f32 0x00000000#32)))))

/-- Cluster rows gathered at the wrapped source indices and summed into their target atom rows. -/
def aggC2A (xc : FVec Ideal S25000x128 .f32) (ei : IVec S2x100000 32) : FVec Ideal S100000x128 .f32 :=
  (Host.scatterAdd (F := Ideal) (φ := .f32) scatter_S100000x128_S100000x1_S100000x128_1_0_0_1 (broadcastInDim S100000x128 ![] bcast_S_S100000x128 (constant (F := Ideal) S_ .f32 0x00000000#32)) (broadcastInDim S100000x1 ![0] bcast_S100000_S100000x1_0 (shapeCast S100000 (extractStridedSlice S1x100000 ![1, 0] ei slices_S2x100000_S1x100000_1_0) shapeCasts_S1x100000_S100000)) (Host.gather gather_S25000x128_S100000x1_S100000x128_1_0_n_n_0_1_1128 xc (broadcastInDim S100000x1 ![0] bcast_S100000_S100000x1_0 (select (cmpi .slt (shapeCast S100000 (extractStridedSlice S1x100000 ![0, 0] ei slices_S2x100000_S1x100000_0_0) shapeCasts_S1x100000_S100000) (broadcastInDim S100000 ![] bcast_S_S100000 (constantI S_ 32 0#32))) (addi (shapeCast S100000 (extractStridedSlice S1x100000 ![0, 0] ei slices_S2x100000_S1x100000_0_0) shapeCasts_S1x100000_S100000) (broadcastInDim S100000 ![] bcast_S_S100000 (constantI S_ 32 25000#32))) (shapeCast S100000 (extractStridedSlice S1x100000 ![0, 0] ei slices_S2x100000_S1x100000_0_0) shapeCasts_S1x100000_S100000)))))

/-- The in-degree of each atom: integer ones summed at the target indices. -/
def cntC2A (ei : IVec S2x100000 32) : IVec S100000 32 :=
  (Host.scatter scatter_S100000_S100000x1_S100000_n_0_0_1 IntOp.addi (broadcastInDim S100000 ![] bcast_S_S100000 (constantI S_ 32 0#32)) (broadcastInDim S100000x1 ![0] bcast_S100000_S100000x1_0 (shapeCast S100000 (extractStridedSlice S1x100000 ![1, 0] ei slices_S2x100000_S1x100000_1_0) shapeCasts_S1x100000_S100000)) (broadcastInDim S100000 ![] bcast_S_S100000 (constantI S_ 32 1#32)))

/-- The mean of the cluster rows over the edges into each atom: the row sums divided by the in-degree clamped below
    at one. -/
def meanC2A (xc : FVec Ideal S25000x128 .f32) (ei : IVec S2x100000 32) : FVec Ideal S100000x128 .f32 :=
  (Host.divf (F := Ideal) (φ := .f32) (aggC2A xc ei) (broadcastInDim S100000x128 ![0, 1] bcast_S100000x1_S100000x128_0_1 (broadcastInDim S100000x1 ![0] bcast_S100000_S100000x1_0 (maximumf (F := Ideal) (φ := .f32) (sitofp (F := Ideal) .f32 (cntC2A ei)) (broadcastInDim S100000 ![] bcast_S_S100000 (constant (F := Ideal) S_ .f32 0x3F800000#32))))))

/-- Atom rows gathered at the wrapped source indices and summed into their target cluster rows. -/
def aggA2C (x : FVec Ideal S100000x128 .f32) (ei : IVec S2x100000 32) : FVec Ideal S25000x128 .f32 :=
  (Host.scatterAdd (F := Ideal) (φ := .f32) scatter_S25000x128_S100000x1_S100000x128_1_0_0_1 (broadcastInDim S25000x128 ![] bcast_S_S25000x128 (constant (F := Ideal) S_ .f32 0x00000000#32)) (broadcastInDim S100000x1 ![0] bcast_S100000_S100000x1_0 (shapeCast S100000 (extractStridedSlice S1x100000 ![1, 0] ei slices_S2x100000_S1x100000_1_0) shapeCasts_S1x100000_S100000)) (Host.gather gather_S100000x128_S100000x1_S100000x128_1_0_n_n_0_1_1128 x (broadcastInDim S100000x1 ![0] bcast_S100000_S100000x1_0 (select (cmpi .slt (shapeCast S100000 (extractStridedSlice S1x100000 ![0, 0] ei slices_S2x100000_S1x100000_0_0) shapeCasts_S1x100000_S100000) (broadcastInDim S100000 ![] bcast_S_S100000 (constantI S_ 32 0#32))) (addi (shapeCast S100000 (extractStridedSlice S1x100000 ![0, 0] ei slices_S2x100000_S1x100000_0_0) shapeCasts_S1x100000_S100000) (broadcastInDim S100000 ![] bcast_S_S100000 (constantI S_ 32 100000#32))) (shapeCast S100000 (extractStridedSlice S1x100000 ![0, 0] ei slices_S2x100000_S1x100000_0_0) shapeCasts_S1x100000_S100000)))))

/-- The in-degree of each cluster: integer ones summed at the target indices. -/
def cntA2C (ei : IVec S2x100000 32) : IVec S25000 32 :=
  (Host.scatter scatter_S25000_S100000x1_S100000_n_0_0_1 IntOp.addi (broadcastInDim S25000 ![] bcast_S_S25000 (constantI S_ 32 0#32)) (broadcastInDim S100000x1 ![0] bcast_S100000_S100000x1_0 (shapeCast S100000 (extractStridedSlice S1x100000 ![1, 0] ei slices_S2x100000_S1x100000_1_0) shapeCasts_S1x100000_S100000)) (broadcastInDim S100000 ![] bcast_S_S100000 (constantI S_ 32 1#32)))

/-- The mean of the atom rows over the edges into each cluster. -/
def meanA2C (x : FVec Ideal S100000x128 .f32) (ei : IVec S2x100000 32) : FVec Ideal S25000x128 .f32 :=
  (Host.divf (F := Ideal) (φ := .f32) (aggA2C x ei) (broadcastInDim S25000x128 ![0, 1] bcast_S25000x1_S25000x128_0_1 (broadcastInDim S25000x1 ![0] bcast_S25000_S25000x1_0 (maximumf (F := Ideal) (φ := .f32) (sitofp (F := Ideal) .f32 (cntA2C ei)) (broadcastInDim S25000 ![] bcast_S_S25000 (constant (F := Ideal) S_ .f32 0x3F800000#32))))))

/-! ## Each stretch, from any contents -/

set_option maxHeartbeats 4000000 in
/-- The first stretch leaves the atom messages before rectification: source rows gathered at the wrapped source
    indices, plus edge features. -/
theorem s0_v9 (X : Valuation τ sig (Elt Ideal)) :
    after hostOps0 X (Proc.devRef .tc main_v9)
      = (addf (F := Ideal) (φ := .f32) (Host.gather gather_S100000x128_S600000x1_S600000x128_1_0_n_n_0_1_1128 (X (Proc.devRef .tc main_arg0)) (broadcastInDim S600000x1 ![0] bcast_S600000_S600000x1_0 (select (cmpi .slt (shapeCast S600000 (extractStridedSlice S1x600000 ![0, 0] (X (Proc.devRef .tc main_arg26)) slices_S2x600000_S1x600000_0_0) shapeCasts_S1x600000_S600000) (broadcastInDim S600000 ![] bcast_S_S600000 (constantI S_ 32 0#32))) (addi (shapeCast S600000 (extractStridedSlice S1x600000 ![0, 0] (X (Proc.devRef .tc main_arg26)) slices_S2x600000_S1x600000_0_0) shapeCasts_S1x600000_S600000) (broadcastInDim S600000 ![] bcast_S_S600000 (constantI S_ 32 100000#32))) (shapeCast S600000 (extractStridedSlice S1x600000 ![0, 0] (X (Proc.devRef .tc main_arg26)) slices_S2x600000_S1x600000_0_0) shapeCasts_S1x600000_S600000)))) (X (Proc.devRef .tc main_arg1))) := by
  after_results_simp
  all_goals rfl

set_option maxHeartbeats 4000000 in
/-- The second stretch rectifies them. -/
theorem s1_v10 (X : Valuation τ sig (Elt Ideal)) :
    after hostOps0_1 X (Proc.devRef .tc main_v10)
      = (maximumf (F := Ideal) (φ := .f32) (X (Proc.devRef .tc main_v9)) (broadcastInDim S600000x128 ![] bcast_S_S600000x128 (constant (F := Ideal) S_ .f32 0x00000000#32))) := by
  after_results_simp
  all_goals rfl

set_option maxHeartbeats 4000000 in
/-- The third stretch sums the rectified atom messages into their target rows … -/
theorem s2_v15 (X : Valuation τ sig (Elt Ideal)) :
    after hostOps0_2 X (Proc.devRef .tc main_v15)
      = (Host.scatterAdd (F := Ideal) (φ := .f32) scatter_S100000x128_S600000x1_S600000x128_1_0_0_1 (broadcastInDim S100000x128 ![] bcast_S_S100000x128 (constant (F := Ideal) S_ .f32 0x00000000#32)) (broadcastInDim S600000x1 ![0] bcast_S600000_S600000x1_0 (shapeCast S600000 (extractStridedSlice S1x600000 ![1, 0] (X (Proc.devRef .tc main_arg26)) slices_S2x600000_S1x600000_1_0) shapeCasts_S1x600000_S600000)) (X (Proc.devRef .tc main_v10))) := by
  after_results_simp
  all_goals rfl

set_option maxHeartbeats 4000000 in
/-- … and leaves the cluster messages before rectification. -/
theorem s2_v25 (X : Valuation τ sig (Elt Ideal)) :
    after hostOps0_2 X (Proc.devRef .tc main_v25)
      = (addf (F := Ideal) (φ := .f32) (Host.gather gather_S25000x128_S100000x1_S100000x128_1_0_n_n_0_1_1128 (X (Proc.devRef .tc main_arg2)) (broadcastInDim S100000x1 ![0] bcast_S100000_S100000x1_0 (select (cmpi .slt (shapeCast S100000 (extractStridedSlice S1x100000 ![0, 0] (X (Proc.devRef .tc main_arg27)) slices_S2x100000_S1x100000_0_0) shapeCasts_S1x100000_S100000) (broadcastInDim S100000 ![] bcast_S_S100000 (constantI S_ 32 0#32))) (addi (shapeCast S100000 (extractStridedSlice S1x100000 ![0, 0] (X (Proc.devRef .tc main_arg27)) slices_S2x100000_S1x100000_0_0) shapeCasts_S1x100000_S100000) (broadcastInDim S100000 ![] bcast_S_S100000 (constantI S_ 32 25000#32))) (shapeCast S100000 (extractStridedSlice S1x100000 ![0, 0] (X (Proc.devRef .tc main_arg27)) slices_S2x100000_S1x100000_0_0) shapeCasts_S1x100000_S100000)))) (X (Proc.devRef .tc main_arg3))) := by
  after_results_simp
  all_goals rfl

set_option maxHeartbeats 4000000 in
/-- The fourth stretch rectifies them. -/
theorem s3_v26 (X : Valuation τ sig (Elt Ideal)) :
    after hostOps0_3 X (Proc.devRef .tc main_v26)
      = (maximumf (F := Ideal) (φ := .f32) (X (Proc.devRef .tc main_v25)) (broadcastInDim S100000x128 ![] bcast_S_S100000x128 (constant (F := Ideal) S_ .f32 0x00000000#32))) := by
  after_results_simp
  all_goals rfl

set_option maxHeartbeats 8000000 in
/-- The fifth stretch adds (1 + ε) · x to the atom sums … -/
theorem s4_v35 (X : Valuation τ sig (Elt Ideal)) :
    after hostOps0_4 X (Proc.devRef .tc main_v35)
      = (addf (F := Ideal) (φ := .f32) (mulf (F := Ideal) (φ := .f32) (broadcastInDim S100000x128 ![] bcast_S_S100000x128 (addf (F := Ideal) (φ := .f32) (constant (F := Ideal) S_ .f32 0x3F800000#32) (X (Proc.devRef .tc main_arg4)))) (X (Proc.devRef .tc main_arg0))) (X (Proc.devRef .tc main_v15))) := by
  after_results_simp
  all_goals rfl

set_option maxHeartbeats 8000000 in
/-- … sums the rectified cluster messages into their target rows and adds (1 + ε) · x on the cluster graph … -/
theorem s4_v39 (X : Valuation τ sig (Elt Ideal)) :
    after hostOps0_4 X (Proc.devRef .tc main_v39)
      = (addf (F := Ideal) (φ := .f32) (mulf (F := Ideal) (φ := .f32) (broadcastInDim S25000x128 ![] bcast_S_S25000x128 (addf (F := Ideal) (φ := .f32) (constant (F := Ideal) S_ .f32 0x3F800000#32) (X (Proc.devRef .tc main_arg9)))) (X (Proc.devRef .tc main_arg2))) (Host.scatterAdd (F := Ideal) (φ := .f32) scatter_S25000x128_S100000x1_S100000x128_1_0_0_1 (broadcastInDim S25000x128 ![] bcast_S_S25000x128 (constant (F := Ideal) S_ .f32 0x00000000#32)) (broadcastInDim S100000x1 ![0] bcast_S100000_S100000x1_0 (shapeCast S100000 (extractStridedSlice S1x100000 ![1, 0] (X (Proc.devRef .tc main_arg27)) slices_S2x100000_S1x100000_1_0) shapeCasts_S1x100000_S100000)) (X (Proc.devRef .tc main_v26)))) := by
  after_results_simp
  all_goals rfl

set_option maxHeartbeats 8000000 in
/-- … computes the mean of the atom rows over the edges into each cluster … -/
theorem s4_v65 (X : Valuation τ sig (Elt Ideal)) :
    after hostOps0_4 X (Proc.devRef .tc main_v65)
      = meanA2C (X (Proc.devRef .tc main_arg0)) (X (Proc.devRef .tc main_arg28)) := by
  after_results_simp
  all_goals rfl

set_option maxHeartbeats 8000000 in
/-- … and the mean of the cluster rows over the edges into each atom. -/
theorem s4_v91 (X : Valuation τ sig (Elt Ideal)) :
    after hostOps0_4 X (Proc.devRef .tc main_v91)
      = meanC2A (X (Proc.devRef .tc main_arg2)) (X (Proc.devRef .tc main_arg29)) := by
  after_results_simp
  all_goals rfl

/-! ## The four arrays when the first launch is entered -/

variable (m : (ℓ : Loc nD τ sig) → Buf (Elt Ideal) ℓ) (ρ : Dev nD → PrngReg) (c : Dev nD)

set_option maxHeartbeats 4000000 in
/-- THE AGGREGATED ATOM FEATURES when the first launch is entered are hpreA of arguments 0, 1, 4 and 26. -/
theorem W5_v35 :
    W5 m ρ c (Proc.devRef .tc main_v35)
      = hpreA (m ((c : Thread nD τ).loc main_arg0)) (m ((c : Thread nD τ).loc main_arg1)) (m ((c : Thread nD τ).loc main_arg4)) (m ((c : Thread nD τ).loc main_arg26)) := by
  show after hostOps0_4 (after hostOps0_3 (after hostOps0_2 (after hostOps0_1 (after hostOps0 (W0 m ρ c))))) (Proc.devRef .tc main_v35) = _
  rw [s4_v35, keep0_3 _ main_v15 (by decide), s2_v15, s1_v10, s0_v9,
    keep0_3 _ main_arg0 (by decide),
    keep0_2 _ main_arg0 (by decide),
    keep0_1 _ main_arg0 (by decide),
    keep0 _ main_arg0 (by decide),
    keep0_3 _ main_arg4 (by decide),
    keep0_2 _ main_arg4 (by decide),
    keep0_1 _ main_arg4 (by decide),
    keep0 _ main_arg4 (by decide),
    keep0_1 _ main_arg26 (by decide),
    keep0 _ main_arg26 (by decide)]
  rfl

set_option maxHeartbeats 4000000 in
/-- THE AGGREGATED CLUSTER FEATURES when the first launch is entered are hpreC of arguments 2, 3, 9 and 27. -/
theorem W5_v39 :
    W5 m ρ c (Proc.devRef .tc main_v39)
      = hpreC (m ((c : Thread nD τ).loc main_arg2)) (m ((c : Thread nD τ).loc main_arg3)) (m ((c : Thread nD τ).loc main_arg9)) (m ((c : Thread nD τ).loc main_arg27)) := by
  show after hostOps0_4 (after hostOps0_3 (after hostOps0_2 (after hostOps0_1 (after hostOps0 (W0 m ρ c))))) (Proc.devRef .tc main_v39) = _
  rw [s4_v39, s3_v26, s2_v25,
    keep0_3 _ main_arg2 (by decide),
    keep0_2 _ main_arg2 (by decide),
    keep0_1 _ main_arg2 (by decide),
    keep0 _ main_arg2 (by decide),
    keep0_3 _ main_arg9 (by decide),
    keep0_2 _ main_arg9 (by decide),
    keep0_1 _ main_arg9 (by decide),
    keep0 _ main_arg9 (by decide),
    keep0_3 _ main_arg27 (by decide),
    keep0_2 _ main_arg27 (by decide),
    keep0_1 _ main_arg27 (by decide),
    keep0 _ main_arg27 (by decide),
    keep0_1 _ main_arg3 (by decide),
    keep0 _ main_arg3 (by decide)]
  rfl

set_option maxHeartbeats 4000000 in
/-- THE MEAN OF THE CLUSTER ROWS OVER THE EDGES INTO EACH ATOM when the first launch is entered is meanC2A of
    arguments 2 and 29. -/
theorem W5_v91 :
    W5 m ρ c (Proc.devRef .tc main_v91) = meanC2A (m ((c : Thread nD τ).loc main_arg2)) (m ((c : Thread nD τ).loc main_arg29)) := by
  show after hostOps0_4 (after hostOps0_3 (after hostOps0_2 (after hostOps0_1 (after hostOps0 (W0 m ρ c))))) (Proc.devRef .tc main_v91) = _
  rw [s4_v91,
    keep0_3 _ main_arg2 (by decide),
    keep0_2 _ main_arg2 (by decide),
    keep0_1 _ main_arg2 (by decide),
    keep0 _ main_arg2 (by decide),
    keep0_3 _ main_arg29 (by decide),
    keep0_2 _ main_arg29 (by decide),
    keep0_1 _ main_arg29 (by decide),
    keep0 _ main_arg29 (by decide)]

set_option maxHeartbeats 4000000 in
/-- THE MEAN OF THE ATOM ROWS OVER THE EDGES INTO EACH CLUSTER when the first launch is entered is meanA2C of
    arguments 0 and 28. -/
theorem W5_v65 :
    W5 m ρ c (Proc.devRef .tc main_v65) = meanA2C (m ((c : Thread nD τ).loc main_arg0)) (m ((c : Thread nD τ).loc main_arg28)) := by
  show after hostOps0_4 (after hostOps0_3 (after hostOps0_2 (after hostOps0_1 (after hostOps0 (W0 m ρ c))))) (Proc.devRef .tc main_v65) = _
  rw [s4_v65,
    keep0_3 _ main_arg0 (by decide),
    keep0_2 _ main_arg0 (by decide),
    keep0_1 _ main_arg0 (by decide),
    keep0 _ main_arg0 (by decide),
    keep0_3 _ main_arg28 (by decide),
    keep0_2 _ main_arg28 (by decide),
    keep0_1 _ main_arg28 (by decide),
    keep0 _ main_arg28 (by decide)]

end Cert.KernelIdeal.KChains

end
-- ==== Proof.Finite.lean ====
/-
  The float inputs are real numbers.

  The precondition tests each of the 26 float arguments entry by entry — is |x| below +inf? — and joins all the
  verdicts by "and".  At the ideal values a float is an extended real, |x| is max x (-x) and the binary32 word
  0x7F800000 is +inf; |x| < +inf fails exactly at x = +inf and at x = -inf.  So when the joined verdict is 1, every
  entry of every float argument is neither infinity: it is a real number.  (The four integer arguments are not
  tested and nothing is said of them.)
-/
import proofs.«151819_j60404420051112_2_alg».proof.Pre_finite_inputs
import proofs.«151819_j60404420051112_2_alg».proof.Proof.LibReals
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.Pre_finite_inputs Cert.Reals

/-- A rank-0 array has one index. -/
instance : Subsingleton S_.Idx := ⟨fun _ _ => funext fun d => d.elim0⟩

/-- The binary32 word 0x7F800000 is +inf. -/
theorem ofBits_inf_f32 : Ideal.ofBits .f32 0x7F800000#32 = (⊤ : EReal) := by simp [Ideal.ofBits, Ideal.ieee]

/-- An extended real whose absolute value max x (-x) is below +inf is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- Where the "and" of two verdict arrays is 1, both are 1. -/
theorem andi_apply_eq_one {s : Shape} (x y : IVec s 1) (i : s.Idx) (h : andi x y i = 1#1) : x i = 1#1 ∧ y i = 1#1 :=
  IntOp.andi_eq_one.1 h

/-- THE TEST READ BACK: if "|x| < b everywhere", reduced by "and" over all axes, is 1 and b is +inf everywhere,
    then every entry of x is a real number. -/
theorem isReal_of_test {s : Shape} {axes : List (Fin s.rank)} (x b : FVec Ideal s .f32) (hb : ∀ i, (b i : EReal) = ⊤)
    (init : IVec S_ 1) (hred : s.ReducesTo axes S_) (h0 : 0 < S_.numel)
    (h : Host.reduce IntOp.andi (cmpf .olt (Host.absf x) b) init hred h0 ix0 = 1#1) : IsReal x := by
  intro i
  have hi : cmpf .olt (Host.absf x) b i = 1#1 := Host.reduce_andi_all _ init hred h0 ix0 h i
  have hi' : Ideal.cmp .olt (max (x i) (-(x i))) (b i) = 1#1 := hi
  rw [hb i] at hi'
  exact real_of_abs_lt_top (x i) hi'

/-- The test of an array argument, against the scalar +inf broadcast to its shape. -/
theorem isReal_of_array_test {s : Shape} {axes : List (Fin s.rank)} (x : FVec Ideal s .f32)
    (hbc : S_.BroadcastsInDim s (![] : Fin 0 → Fin s.rank)) (hred : s.ReducesTo axes S_) (h0 : 0 < S_.numel)
    (h : Host.reduce IntOp.andi
          (cmpf .olt (Host.absf x) (broadcastInDim s ![] hbc (constant (F := Ideal) S_ .f32 0x7F800000#32)))
          (constantI S_ 1 1#1) hred h0 ix0 = 1#1) : IsReal x :=
  isReal_of_test x _ (fun _ => ofBits_inf_f32) _ hred h0 h

/-- The test of a scalar argument, against the scalar +inf itself. -/
theorem isReal_of_scalar_test (x : FVec Ideal S_ .f32) (hred : S_.ReducesTo [] S_) (h0 : 0 < S_.numel)
    (h : Host.reduce IntOp.andi (cmpf .olt (Host.absf x) (constant (F := Ideal) S_ .f32 0x7F800000#32))
          (constantI S_ 1 1#1) hred h0 ix0 = 1#1) : IsReal x :=
  isReal_of_test x _ (fun _ => ofBits_inf_f32) _ hred h0 h

variable [Cert.Pre_finite_inputs.Facts]

/-- THE INPUTS ARE REAL: when the precondition's verdict is 1, every entry of each of the 26 float arguments is a
    real number. -/
theorem args_real
    (a0 : FVec Ideal S100000x128 .f32) (a1 : FVec Ideal S600000x128 .f32) (a2 : FVec Ideal S25000x128 .f32) (a3 : FVec Ideal S100000x128 .f32)
    (a4 : FVec Ideal S_ .f32) (a5 : FVec Ideal S128x256 .f32) (a6 : FVec Ideal S256 .f32) (a7 : FVec Ideal S256 .f32)
    (a8 : FVec Ideal S256 .f32) (a9 : FVec Ideal S_ .f32) (a10 : FVec Ideal S128x256 .f32) (a11 : FVec Ideal S256 .f32)
    (a12 : FVec Ideal S256 .f32) (a13 : FVec Ideal S256 .f32) (a14 : FVec Ideal S128x256 .f32) (a15 : FVec Ideal S256 .f32)
    (a16 : FVec Ideal S128x256 .f32) (a17 : FVec Ideal S256 .f32) (a18 : FVec Ideal S128x256 .f32) (a19 : FVec Ideal S256 .f32)
    (a20 : FVec Ideal S128x256 .f32) (a21 : FVec Ideal S256 .f32) (a22 : FVec Ideal S256x128 .f32) (a23 : FVec Ideal S128 .f32)
    (a24 : FVec Ideal S256x128 .f32) (a25 : FVec Ideal S128 .f32) (a26 : IVec S2x600000 32) (a27 : IVec S2x100000 32)
    (a28 : IVec S2x100000 32) (a29 : IVec S2x100000 32)
    (h : Cert.Pre_finite_inputs.fn (F := Ideal) a0 a1 a2 a3 a4 a5 a6 a7 a8 a9 a10 a11 a12 a13 a14 a15 a16 a17 a18 a19 a20 a21 a22 a23 a24 a25 a26 a27 a28 a29 = fun _ => 1#1) :
      IsReal a0 ∧ IsReal a1 ∧ IsReal a2 ∧ IsReal a3 ∧ IsReal a4 ∧ IsReal a5 ∧
      IsReal a6 ∧ IsReal a7 ∧ IsReal a8 ∧ IsReal a9 ∧ IsReal a10 ∧ IsReal a11 ∧
      IsReal a12 ∧ IsReal a13 ∧ IsReal a14 ∧ IsReal a15 ∧ IsReal a16 ∧ IsReal a17 ∧
      IsReal a18 ∧ IsReal a19 ∧ IsReal a20 ∧ IsReal a21 ∧ IsReal a22 ∧ IsReal a23 ∧
      IsReal a24 ∧ IsReal a25 := by
  have e := congrFun h ix0
  unfold Cert.Pre_finite_inputs.fn at e; dsimp only at e
  unfold Cert.Pre_finite_inputs.fn_part1 at e; dsimp only at e
  unfold Cert.Pre_finite_inputs.fn_part2 at e; dsimp only at e
  unfold Cert.Pre_finite_inputs.fn_part3 at e; dsimp only at e
  unfold Cert.Pre_finite_inputs.fn_part4 at e; dsimp only at e
  unfold Cert.Pre_finite_inputs.fn_part5 at e; dsimp only at e
  unfold Cert.Pre_finite_inputs.fn_part6 at e; dsimp only at e
  unfold Cert.Pre_finite_inputs.fn_part7 at e; dsimp only at e
  obtain ⟨e, t25⟩ := andi_apply_eq_one _ _ _ e
  obtain ⟨e, t24⟩ := andi_apply_eq_one _ _ _ e
  obtain ⟨e, t23⟩ := andi_apply_eq_one _ _ _ e
  obtain ⟨e, t22⟩ := andi_apply_eq_one _ _ _ e
  obtain ⟨e, t21⟩ := andi_apply_eq_one _ _ _ e
  obtain ⟨e, t20⟩ := andi_apply_eq_one _ _ _ e
  obtain ⟨e, t19⟩ := andi_apply_eq_one _ _ _ e
  obtain ⟨e, t18⟩ := andi_apply_eq_one _ _ _ e
  obtain ⟨e, t17⟩ := andi_apply_eq_one _ _ _ e
  obtain ⟨e, t16⟩ := andi_apply_eq_one _ _ _ e
  obtain ⟨e, t15⟩ := andi_apply_eq_one _ _ _ e
  obtain ⟨e, t14⟩ := andi_apply_eq_one _ _ _ e
  obtain ⟨e, t13⟩ := andi_apply_eq_one _ _ _ e
  obtain ⟨e, t12⟩ := andi_apply_eq_one _ _ _ e
  obtain ⟨e, t11⟩ := andi_apply_eq_one _ _ _ e
  obtain ⟨e, t10⟩ := andi_apply_eq_one _ _ _ e
  obtain ⟨e, t9⟩ := andi_apply_eq_one _ _ _ e
  obtain ⟨e, t8⟩ := andi_apply_eq_one _ _ _ e
  obtain ⟨e, t7⟩ := andi_apply_eq_one _ _ _ e
  obtain ⟨e, t6⟩ := andi_apply_eq_one _ _ _ e
  obtain ⟨e, t5⟩ := andi_apply_eq_one _ _ _ e
  obtain ⟨e, t4⟩ := andi_apply_eq_one _ _ _ e
  obtain ⟨e, t3⟩ := andi_apply_eq_one _ _ _ e
  obtain ⟨e, t2⟩ := andi_apply_eq_one _ _ _ e
  obtain ⟨t0, t1⟩ := andi_apply_eq_one _ _ _ e
  exact ⟨
    isReal_of_array_test _ _ _ _ t0, isReal_of_array_test _ _ _ _ t1, isReal_of_array_test _ _ _ _ t2,
    isReal_of_array_test _ _ _ _ t3, isReal_of_scalar_test _ _ _ t4, isReal_of_array_test _ _ _ _ t5,
    isReal_of_array_test _ _ _ _ t6, isReal_of_array_test _ _ _ _ t7, isReal_of_array_test _ _ _ _ t8,
    isReal_of_scalar_test _ _ _ t9, isReal_of_array_test _ _ _ _ t10, isReal_of_array_test _ _ _ _ t11,
    isReal_of_array_test _ _ _ _ t12, isReal_of_array_test _ _ _ _ t13, isReal_of_array_test _ _ _ _ t14,
    isReal_of_array_test _ _ _ _ t15, isReal_of_array_test _ _ _ _ t16, isReal_of_array_test _ _ _ _ t17,
    isReal_of_array_test _ _ _ _ t18, isReal_of_array_test _ _ _ _ t19, isReal_of_array_test _ _ _ _ t20,
    isReal_of_array_test _ _ _ _ t21, isReal_of_array_test _ _ _ _ t22, isReal_of_array_test _ _ _ _ t23,
    isReal_of_array_test _ _ _ _ t24, isReal_of_array_test _ _ _ _ t25⟩

end Cert.Finite

end
-- ==== Proof.LibIdxSums.lean ====
/-
  Sums over the entries of a vector and of a one-row matrix.

  An index of a vector of n entries is its one coordinate, and an index of a matrix [1, n] is its column (the row
  coordinate can only be 0). So a sum over all entries of such an array, in any commutative additive monoid, is the
  sum over the n positions: what a total sum of an array of shape [n] or [1, n] comes to, entry by entry.
-/
import Idealize.ShloMosaic.Lib.ValueIdx
import Mathlib.Algebra.BigOperators.Fin

noncomputable section

namespace Cert.Lib.IdxSums

open Idealize.ShloMosaic Idealize.ShloMosaic.ValueIdx
open scoped BigOperators

/-- A sum over the indices of a vector of n entries is the sum over its n positions. -/
theorem sum_idx1 {M : Type*} [AddCommMonoid M] {n : Nat} (f : (⟨1, ![n]⟩ : Shape).Idx → M) :
    ∑ j, f j = ∑ e : Fin n, f (ix1 e) :=
  Fintype.sum_equiv ⟨fun j => j 0, ix1, fun j => (eq_ix1 j).symm, fun _ => rfl⟩ f (fun e => f (ix1 e))
    (fun j => congrArg f (eq_ix1 j))

/-- A sum over the indices of a one-row matrix of n entries is the sum over its n columns. -/
theorem sum_row {M : Type*} [AddCommMonoid M] {n : Nat} (f : (⟨2, ![1, n]⟩ : Shape).Idx → M) :
    ∑ i, f i = ∑ e : Fin n, f (ix2 (0 : Fin 1) e) := by
  rw [sum_idx2, Fin.sum_univ_one]

end Cert.Lib.IdxSums

end
-- ==== Proof.LibScatterAdd.lean ====
/-
  The host's accumulating scatter (a segment sum) read at an index, at the ideal values.

  For an operand of N entries, a column of scatter indices `idx : [E, 1]` and E updates, the scatter with
  inserted window axis 0, scatter-dims-to-operand-dims [0] and index-vector axis 1 adds update e into the
  entry that the index word `idx[e, 0]`, read signed, names; an update whose word names no entry (negative,
  or N and beyond) is dropped — a scatter does not clamp.  At the ideal values the result at entry i is the
  operand's entry plus the plain sum, over all e, of the updates whose word names i: no order of addition is
  left in it.  The row form does the same for an [N, C] operand and [E, C] updates (update window axis 1):
  row e of the updates is added into the row its word names, lane by lane.
-/
import Idealize.ShloMosaic.Lib.ValueIdx
import Idealize.ShloMosaic.PureOps.Ideal
import Mathlib.Algebra.BigOperators.Fin
import proofs.«151819_j60404420051112_2_alg».proof.Proof.LibIdxSums

noncomputable section

namespace Cert.Lib.ScatterAdd

open Idealize.ShloMosaic Idealize.ShloMosaic.ValueIdx
open scoped BigOperators

/-- The dimension numbers of an entry scatter into a vector [N] at scatter indices [E, 1] of updates [E]; their
    conditions `wf` are decided on a program's literal shapes. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of a row scatter into a table [N, C] at scatter indices [E, 1] of updates [E, C]. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

/-- Update e of an entry scatter lands at the position its index word, read signed, names. -/
theorem vec_landing (idx : IVec ⟨2, ![E, 1]⟩ w) (e : Fin E) (a : Fin 1) :
    (vecDims N E wf).start (ix1 e) idx a + ((vecDims N E wf).window (ix1 e) a : Int)
      = (idx (ix2 e (0 : Fin 1))).toInt := by
  obtain rfl : a = 0 := Subsingleton.elim _ _
  have h1 : (vecDims N E wf).start (ix1 e) idx 0 = (idx (ix2 e (0 : Fin 1))).toInt := by
    unfold ScatterDims.start
    rw [dif_pos (show (0 : Fin 1) ∈ (vecDims N E wf).scatterDimsToOperandDims from List.mem_singleton.mpr rfl)]
    have hsi : (vecDims N E wf).siIdx (ix1 e) ⟨List.idxOf (0 : Fin 1) (vecDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have h2 : (vecDims N E wf).window (ix1 e) 0 = 0 := by
    unfold ScatterDims.window
    rw [dif_neg (fun h => by simp [Shape.kept] at h)]
  rw [h1, h2]; simp

/-- Update e lands on entry i exactly when its index word, read signed, is i. -/
theorem vec_resultIdx_iff (idx : IVec ⟨2, ![E, 1]⟩ w) (e : Fin E) (i : (⟨1, ![N]⟩ : Shape).Idx) :
    (vecDims N E wf).resultIdx? (ix1 e) idx = some i ↔ (idx (ix2 e (0 : Fin 1))).toInt = ((i 0).val : Int) := by
  unfold ScatterDims.resultIdx?
  split
  · next h =>
    rw [Option.some.injEq]
    constructor
    · intro hf
      have h0 := congrArg (fun g : (⟨1, ![N]⟩ : Shape).Idx => (g 0).val) hf
      simp only at h0
      have hl := vec_landing wf idx e 0
      have hp := (h 0).1
      rw [hl] at h0 hp
      omega
    · intro hv
      funext a
      obtain rfl : a = 0 := Subsingleton.elim _ _
      refine Fin.ext ?_
      show ((vecDims N E wf).start (ix1 e) idx 0 + ((vecDims N E wf).window (ix1 e) 0 : Int)).toNat = (i 0).val
      rw [vec_landing wf idx e 0, hv]; simp
  · next h =>
    constructor
    · intro hf; cases hf
    · intro hv
      exfalso; apply h
      intro a
      obtain rfl : a = 0 := Subsingleton.elim _ _
      rw [vec_landing wf idx e 0, hv]
      exact ⟨Int.natCast_nonneg _, by exact_mod_cast (i 0).isLt⟩

/-- THE ENTRY SCATTER-ADD READ AT i: the operand's entry plus the sum of the updates whose word names i. -/
theorem scatterAdd_vec_apply {φ : FTy} (x : FVec Ideal ⟨1, ![N]⟩ φ) (idx : IVec ⟨2, ![E, 1]⟩ w)
    (upd : FVec Ideal ⟨1, ![E]⟩ φ) (i : (⟨1, ![N]⟩ : Shape).Idx) :
    (Host.scatterAdd (vecDims N E wf) x idx upd i : EReal)
      = x i + ∑ e : Fin E, if (idx (ix2 e (0 : Fin 1))).toInt = ((i 0).val : Int) then (upd (ix1 e) : EReal) else 0 := by
  show Ideal.hostScatterAdd (vecDims N E wf) x idx upd i = _
  unfold Ideal.hostScatterAdd
  congr 1
  rw [Finset.sum_filter]
  rw [Cert.Lib.IdxSums.sum_idx1]
  refine Finset.sum_congr rfl fun e _ => ?_
  simp only [vec_resultIdx_iff wf idx e i]

end Vec

section Row
variable {N E C w : Nat} (wf : ScatterDims.WF ⟨2, ![N, C]⟩ ⟨2, ![E, 1]⟩ ⟨2, ![E, C]⟩ [1] [0] [0] 1)

/-- Row e of the updates lands in the row its index word, read signed, names… -/
theorem row_landing0 (idx : IVec ⟨2, ![E, 1]⟩ w) (e : Fin E) (q : Fin C) :
    (rowDims N E C wf).start (ix2 e q) idx 0 + ((rowDims N E C wf).window (ix2 e q) 0 : Int)
      = (idx (ix2 e (0 : Fin 1))).toInt := by
  have h1 : (rowDims N E C wf).start (ix2 e q) idx 0 = (idx (ix2 e (0 : Fin 1))).toInt := by
    unfold ScatterDims.start
    rw [dif_pos (show (0 : Fin 2) ∈ (rowDims N E C wf).scatterDimsToOperandDims from List.mem_singleton.mpr rfl)]
    have hsi : (rowDims N E C wf).siIdx (ix2 e q) ⟨List.idxOf (0 : Fin 2) (rowDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have h2 : (rowDims N E C wf).window (ix2 e q) 0 = 0 := by
    unfold ScatterDims.window
    rw [dif_neg (fun h => by simp [Shape.kept] at h)]
  rw [h1, h2]; simp

/-- …lane for lane. -/
theorem row_landing1 (idx : IVec ⟨2, ![E, 1]⟩ w) (e : Fin E) (q : Fin C) :
    (rowDims N E C wf).start (ix2 e q) idx 1 + ((rowDims N E C wf).window (ix2 e q) 1 : Int) = (q.val : Int) := by
  have h1 : (rowDims N E C wf).start (ix2 e q) idx 1 = 0 := by
    unfold ScatterDims.start
    rw [dif_neg (fun h => absurd (show (1 : Nat) = 0 from congrArg Fin.val (List.mem_singleton.mp h)) Nat.one_ne_zero)]
  have h2 : (rowDims N E C wf).window (ix2 e q) 1 = q.val := by
    unfold ScatterDims.window
    rw [dif_pos (show (1 : Fin 2) ∈ (rowDims N E C wf).sKept by simp [Shape.kept])]
    rfl
  rw [h1, h2]; simp

/-- Update (e, q) lands on entry (r, c) exactly when its row's index word, read signed, is r and q = c. -/
theorem row_resultIdx_iff (idx : IVec ⟨2, ![E, 1]⟩ w) (e : Fin E) (q : Fin C) (r : Fin N) (c : Fin C) :
    (rowDims N E C wf).resultIdx? (ix2 e q) idx = some (ix2 r c)
      ↔ (idx (ix2 e (0 : Fin 1))).toInt = (r.val : Int) ∧ q = c := by
  unfold ScatterDims.resultIdx?
  split
  · next h =>
    rw [Option.some.injEq]
    constructor
    · intro hf
      have h0 := congrArg (fun g : (⟨2, ![N, C]⟩ : Shape).Idx => (g 0).val) hf
      have h1 := congrArg (fun g : (⟨2, ![N, C]⟩ : Shape).Idx => (g 1).val) hf
      simp only at h0 h1
      have hp := (h 0).1
      rw [row_landing0 wf idx e q] at h0 hp
      rw [row_landing1 wf idx e q] at h1
      refine ⟨?_, Fin.ext ?_⟩
      · change ((idx (ix2 e (0 : Fin 1))).toInt).toNat = r.val at h0
        omega
      · change ((q.val : Int)).toNat = c.val at h1
        omega
    · rintro ⟨hv, rfl⟩
      funext a
      refine Fin.ext ?_
      match a with
      | ⟨0, _⟩ =>
        show ((rowDims N E C wf).start (ix2 e q) idx 0 + ((rowDims N E C wf).window (ix2 e q) 0 : Int)).toNat = r.val
        rw [row_landing0 wf idx e q, hv]; simp
      | ⟨1, _⟩ =>
        show ((rowDims N E C wf).start (ix2 e q) idx 1 + ((rowDims N E C wf).window (ix2 e q) 1 : Int)).toNat = q.val
        rw [row_landing1 wf idx e q]; simp
  · next h =>
    constructor
    · intro hf; cases hf
    · rintro ⟨hv, rfl⟩
      exfalso; apply h
      intro a
      match a with
      | ⟨0, _⟩ =>
        show 0 ≤ (rowDims N E C wf).start (ix2 e q) idx 0 + ((rowDims N E C wf).window (ix2 e q) 0 : Int)
          ∧ (rowDims N E C wf).start (ix2 e q) idx 0 + ((rowDims N E C wf).window (ix2 e q) 0 : Int) < (N : Int)
        rw [row_landing0 wf idx e q, hv]
        exact ⟨Int.natCast_nonneg _, by exact_mod_cast r.isLt⟩
      | ⟨1, _⟩ =>
        show 0 ≤ (rowDims N E C wf).start (ix2 e q) idx 1 + ((rowDims N E C wf).window (ix2 e q) 1 : Int)
          ∧ (rowDims N E C wf).start (ix2 e q) idx 1 + ((rowDims N E C wf).window (ix2 e q) 1 : Int) < (C : Int)
        rw [row_landing1 wf idx e q]
        exact ⟨Int.natCast_nonneg _, by exact_mod_cast q.isLt⟩

/-- THE ROW SCATTER-ADD READ AT (r, c): the operand's entry plus the sum, over the update rows whose word names
    row r, of their lane c. -/
theorem scatterAdd_rows_apply {φ : FTy} (x : FVec Ideal ⟨2, ![N, C]⟩ φ) (idx : IVec ⟨2, ![E, 1]⟩ w)
    (upd : FVec Ideal ⟨2, ![E, C]⟩ φ) (r : Fin N) (c : Fin C) :
    (Host.scatterAdd (rowDims N E C wf) x idx upd (ix2 r c) : EReal)
      = x (ix2 r c)
        + ∑ e : Fin E, if (idx (ix2 e (0 : Fin 1))).toInt = (r.val : Int) then (upd (ix2 e c) : EReal) else 0 := by
  show Ideal.hostScatterAdd (rowDims N E C wf) x idx upd (ix2 r c) = _
  unfold Ideal.hostScatterAdd
  congr 1
  rw [Finset.sum_filter, sum_idx2]
  refine Finset.sum_congr rfl fun e _ => ?_
  simp only [row_resultIdx_iff wf idx e _ r c]
  by_cases hv : (idx (ix2 e (0 : Fin 1))).toInt = (r.val : Int)
  · simp only [hv, true_and, if_true]
    rw [Finset.sum_ite_eq' Finset.univ c (fun q => (upd (ix2 e q) : EReal))]
    simp
  · simp only [hv, false_and, if_false, Finset.sum_const_zero]

end Row

end Cert.Lib.ScatterAdd

end
-- ==== Proof.LibEdgeCount.lean ====
/-
  Counting the edges that point at a node, with 32-bit integers and with floats: the same number.

  Take E edges, each naming a node by a signed index word (a column `idx : [E, 1]`), and N nodes.  The integer
  count starts from the all-zeros vector [N] and, edge after edge, adds the word 1 into the entry the edge's index
  word names; an edge whose word names no entry (negative, or N and beyond) is dropped — a scatter does not clamp.
  Whatever the order of the edges, entry i ends as the word of the number c(i) of edges whose word, read signed,
  is i: each step adds 1 to exactly the entry it lands on.  Since c(i) ≤ E < 2^31 that word, read signed, is c(i)
  itself — the 32-bit count does not wrap — and its conversion to a float is, at the ideal values, the real number
  c(i).  The float count starts from the all-0.0 vector and accumulates 1.0 per edge; at the ideal values that is
  0 + Σ_e (1 if edge e names i, else 0) = c(i) as well.  So the two counts agree entry by entry.

  Beside the count itself the file reads the constant vectors such programs start from: a scalar integer
  constant broadcast to a vector is that word everywhere, and the binary32 words 0x3F800000 and 0x00000000,
  alone or broadcast, are the extended reals 1 and 0.
-/
import Idealize.ShloMosaic.Lib.ValueIdx
import Idealize.ShloMosaic.Lib.IdealHost
import Idealize.ShloMosaic.PureOps.Ideal
import Idealize.ShloMosaic.PureOps.Ideal.Laws
import Mathlib.Algebra.BigOperators.Fin
import proofs.«151819_j60404420051112_2_alg».proof.Proof.LibIdxSums
import proofs.«151819_j60404420051112_2_alg».proof.Proof.LibScatterAdd

noncomputable section

namespace Cert.Lib.EdgeCount

open Idealize.ShloMosaic Idealize.ShloMosaic.ValueIdx
open scoped BigOperators

/-! ## The integer scatter of ones, as a count -/

/-- One step of an accumulating 32-bit integer scatter: update n (in row-major order) is added into the entry it
    lands on, and dropped when it lands on none. -/
def step {s si u : Shape} {w : Nat} (d : ScatterDims s si u) (idx : IVec si w) (upd : u.Idx → BitVec 32)
    (r : s.Idx → BitVec 32) (n : Fin u.numel) : s.Idx → BitVec 32 :=
  match d.resultIdx? (u.rowMajor.symm n) idx with
  | some i => fun i' => if i' = i then IntOp.addi (r i) (upd (u.rowMajor.symm n)) else r i'
  | none => r

/-- The integer scatter with an addition body is the left fold of `step` over the updates in row-major order. -/
theorem scatter_eq_foldl {s si u : Shape} {w : Nat} (d : ScatterDims s si u) (x : s.Idx → BitVec 32) (idx : IVec si w)
    (upd : u.Idx → BitVec 32) :
    Host.scatter d IntOp.addi x idx upd = (List.finRange u.numel).foldl (step d idx upd) x := rfl

/-- Folding the steps of any list of updates, each update the word 1, leaves at entry i its starting word plus the
    word of the number of listed updates that land on i. -/
theorem foldl_step_apply {s si u : Shape} {w : Nat} (d : ScatterDims s si u) (idx : IVec si w) (upd : u.Idx → BitVec 32)
    (hupd : ∀ j, upd j = 1#32) (i : s.Idx) (L : List (Fin u.numel)) (r : s.Idx → BitVec 32) :
    L.foldl (step d idx upd) r i
      = r i + BitVec.ofNat 32 ((L.map fun n => if d.resultIdx? (u.rowMajor.symm n) idx = some i then 1 else 0).sum) := by
  induction L generalizing r with
  | nil => simp
  | cons n L ih =>
    rw [List.foldl_cons, ih, List.map_cons, List.sum_cons, BitVec.ofNat_add, ← BitVec.add_assoc]
    congr 1
    unfold step
    cases hk : d.resultIdx? (u.rowMajor.symm n) idx with
    | none => simp
    | some k =>
      by_cases hki : k = i
      · subst hki; simp [IntOp.addi, hupd]
      · have hik : i ≠ k := fun h => hki h.symm
        simp [hik, hki]

/-- THE INTEGER SCATTER OF ONES READ AT i: the operand's word plus the word of the number of updates that land
    on i. -/
theorem scatter_addi_ones_apply {s si u : Shape} {w : Nat} (d : ScatterDims s si u) (x : s.Idx → BitVec 32)
    (idx : IVec si w) (upd : u.Idx → BitVec 32) (hupd : ∀ j, upd j = 1#32) (i : s.Idx) :
    Host.scatter d IntOp.addi x idx upd i
      = x i + BitVec.ofNat 32 (∑ j : u.Idx, if d.resultIdx? j idx = some i then 1 else 0) := by
  rw [scatter_eq_foldl, foldl_step_apply d idx upd hupd i, ← Fin.sum_univ_def]
  congr 2
  exact Equiv.sum_comp u.rowMajor.symm (fun j => if d.resultIdx? j idx = some i then 1 else 0)

/-- A count below 2^31, as a 32-bit word read signed, is itself: no wrap. -/
theorem toInt_ofNat_of_lt {c : Nat} (hc : c < 2 ^ 31) : (BitVec.ofNat 32 c).toInt = (c : Int) := by
  rw [BitVec.toInt_ofNat', Int.bmod_def]
  split <;> omega

/-- The number of members of a finite set with a property, as an extended real, is the sum of 1 over them. -/
theorem natCast_sum_boole {ι : Type*} (t : Finset ι) (p : ι → Prop) [DecidablePred p] :
    (((∑ e ∈ t, if p e then 1 else 0 : Nat) : ℝ) : EReal) = ∑ e ∈ t, if p e then (1 : EReal) else 0 := by
  classical
  induction t using Finset.induction_on with
  | empty => simp
  | insert a t ha ih =>
    rw [Finset.sum_insert ha, Finset.sum_insert ha, Nat.cast_add, EReal.coe_add, ih]
    by_cases h : p a <;> simp [h]

/-- A sum of zeros and ones over E positions is at most E. -/
theorem sum_boole_le (E : Nat) (p : Fin E → Prop) [DecidablePred p] : (∑ e : Fin E, if p e then 1 else 0) ≤ E := by
  calc (∑ e : Fin E, if p e then 1 else 0) ≤ ∑ _e : Fin E, 1 :=
        Finset.sum_le_sum fun e _ => by split <;> omega
    _ = E := by simp

/-! ## The two counts of the edges into a node agree -/

/-- THE INTEGER COUNT READ AT i: scattering the word 1 of each of E edges into the all-zeros vector [N] leaves at
    entry i the word of the number of edges whose index word, read signed, is i. -/
theorem count_int_apply {N E w : Nat} (wf : ScatterDims.WF ⟨1, ![N]⟩ ⟨2, ![E, 1]⟩ ⟨1, ![E]⟩ [] [0] [0] 1)
    (idx : IVec ⟨2, ![E, 1]⟩ w) (xI : IVec ⟨1, ![N]⟩ 32) (uI : IVec ⟨1, ![E]⟩ 32)
    (hxI : ∀ i, xI i = 0#32) (huI : ∀ e, uI e = 1#32) (i : (⟨1, ![N]⟩ : Shape).Idx) :
    Host.scatter (Cert.Lib.ScatterAdd.vecDims N E wf) IntOp.addi xI idx uI i
      = BitVec.ofNat 32 (∑ e : Fin E, if (idx (ix2 e (0 : Fin 1))).toInt = ((i 0).val : Int) then 1 else 0) := by
  rw [scatter_addi_ones_apply _ xI idx uI huI i, hxI i, BitVec.zero_add, Cert.Lib.IdxSums.sum_idx1]
  congr 1
  refine Finset.sum_congr rfl fun e _ => ?_
  simp only [Cert.Lib.ScatterAdd.vec_resultIdx_iff wf idx e i]

/-- THE FLOAT COUNT READ AT i: accumulating 1.0 per edge into the all-0.0 vector [N] leaves at entry i, at the
    ideal values, the number of edges whose index word, read signed, is i. -/
theorem count_float_apply {N E w : Nat} (wf : ScatterDims.WF ⟨1, ![N]⟩ ⟨2, ![E, 1]⟩ ⟨1, ![E]⟩ [] [0] [0] 1)
    (idx : IVec ⟨2, ![E, 1]⟩ w) (xF : FVec Ideal ⟨1, ![N]⟩ .f32) (uF : FVec Ideal ⟨1, ![E]⟩ .f32)
    (hxF : ∀ i, (xF i : EReal) = 0) (huF : ∀ e, (uF e : EReal) = 1) (i : (⟨1, ![N]⟩ : Shape).Idx) :
    (Host.scatterAdd (Cert.Lib.ScatterAdd.vecDims N E wf) xF idx uF i : EReal)
      = (((∑ e : Fin E, if (idx (ix2 e (0 : Fin 1))).toInt = ((i 0).val : Int) then 1 else 0 : Nat) : ℝ) : EReal) := by
  rw [Cert.Lib.ScatterAdd.scatterAdd_vec_apply wf xF idx uF i, hxF i, zero_add, natCast_sum_boole]
  refine Finset.sum_congr rfl fun e _ => ?_
  rw [huF (ix1 e)]

/-- THE TWO COUNTS AGREE: for fewer than 2^31 edges, the 32-bit integer count of the edges into node i, converted
    to a float, is at the ideal values the float count of them — both are the number of edges whose index word,
    read signed, is i. -/
theorem count_int_eq_float {N E w : Nat} (hE : E < 2 ^ 31)
    (wf : ScatterDims.WF ⟨1, ![N]⟩ ⟨2, ![E, 1]⟩ ⟨1, ![E]⟩ [] [0] [0] 1)
    (idx : IVec ⟨2, ![E, 1]⟩ w) (xI : IVec ⟨1, ![N]⟩ 32) (uI : IVec ⟨1, ![E]⟩ 32)
    (xF : FVec Ideal ⟨1, ![N]⟩ .f32) (uF : FVec Ideal ⟨1, ![E]⟩ .f32)
    (hxI : ∀ i, xI i = 0#32) (huI : ∀ e, uI e = 1#32)
    (hxF : ∀ i, (xF i : EReal) = 0) (huF : ∀ e, (uF e : EReal) = 1) (i : (⟨1, ![N]⟩ : Shape).Idx) :
    (sitofp (F := Ideal) .f32 (Host.scatter (Cert.Lib.ScatterAdd.vecDims N E wf) IntOp.addi xI idx uI) i : EReal)
      = Host.scatterAdd (Cert.Lib.ScatterAdd.vecDims N E wf) xF idx uF i := by
  rw [count_float_apply wf idx xF uF hxF huF i]
  show (((Host.scatter (Cert.Lib.ScatterAdd.vecDims N E wf) IntOp.addi xI idx uI i).toInt : ℝ) : EReal) = _
  rw [count_int_apply wf idx xI uI hxI huI i, toInt_ofNat_of_lt (lt_of_le_of_lt (sum_boole_le E _) hE), Int.cast_natCast]

/-! ## The constant vectors the counts start from -/

/-- A scalar integer constant broadcast to a vector is that word at every entry. -/
theorem broadcast_constantI_apply {n wd : Nat} (k : BitVec wd) (h : (⟨0, ![]⟩ : Shape).BroadcastsInDim ⟨1, ![n]⟩ ![])
    (j : (⟨1, ![n]⟩ : Shape).Idx) :
    broadcastInDim ⟨1, ![n]⟩ ![] h (constantI ⟨0, ![]⟩ wd k) j = k := rfl

/-- The binary32 word 0x3F800000 is, at the ideal values, the extended real 1. -/
theorem constant_one_f32_apply (j : (⟨0, ![]⟩ : Shape).Idx) :
    (constant (F := Ideal) ⟨0, ![]⟩ .f32 0x3F800000#32 j : EReal) = 1 := Ideal.ofBits_one_f32

/-- The binary32 word 0x00000000 is, at the ideal values, the extended real 0. -/
theorem constant_zero_f32_apply (j : (⟨0, ![]⟩ : Shape).Idx) :
    (constant (F := Ideal) ⟨0, ![]⟩ .f32 0x00000000#32 j : EReal) = 0 := Ideal.ofBits_zero_f32

/-- The scalar 1.0 broadcast to a vector is the extended real 1 at every entry. -/
theorem broadcast_one_f32_apply {n : Nat} (h : (⟨0, ![]⟩ : Shape).BroadcastsInDim ⟨1, ![n]⟩ ![])
    (j : (⟨1, ![n]⟩ : Shape).Idx) :
    (broadcastInDim ⟨1, ![n]⟩ ![] h (constant (F := Ideal) ⟨0, ![]⟩ .f32 0x3F800000#32) j : EReal) = 1 :=
  Ideal.ofBits_one_f32

/-- The scalar 0.0 broadcast to a vector is the extended real 0 at every entry. -/
theorem broadcast_zero_f32_apply {n : Nat} (h : (⟨0, ![]⟩ : Shape).BroadcastsInDim ⟨1, ![n]⟩ ![])
    (j : (⟨1, ![n]⟩ : Shape).Idx) :
    (broadcastInDim ⟨1, ![n]⟩ ![] h (constant (F := Ideal) ⟨0, ![]⟩ .f32 0x00000000#32) j : EReal) = 0 :=
  Ideal.ofBits_zero_f32

end Cert.Lib.EdgeCount

end
-- ==== Proof.Bridge.lean ====
/-
  The two programs compute the same two arrays.

  Launched on the same arguments, the kernel program and the reference agree on each result entry by entry: both
  are the layer of the specification at the result's graph level.  The aggregated node features and the summed
  neighbour rows are the same host operations of the same arguments in both programs.  The edge counts differ in
  spelling — 32-bit integer ones summed and converted, against float ones summed — and agree because an edge list of
  100000 entries cannot wrap a 32-bit count.  The column statistics differ in form — mean of squares minus squared
  mean over per-tile partial sums, against mean squared deviation — and agree because every entry of the linear
  layer is a real number when every float input is finite.
-/
import proofs.«151819_j60404420051112_2_alg».proof.Defs
import proofs.«151819_j60404420051112_2_alg».proof.Proof.KRead
import proofs.«151819_j60404420051112_2_alg».proof.Proof.RefRead
import proofs.«151819_j60404420051112_2_alg».proof.Proof.RefReal
import proofs.«151819_j60404420051112_2_alg».proof.Proof.KChains
import proofs.«151819_j60404420051112_2_alg».proof.Proof.Finite
import proofs.«151819_j60404420051112_2_alg».proof.Proof.LibEdgeCount
import proofs.«151819_j60404420051112_2_alg».proof.Proof.Gen.Pre_finite_inputs

set_option maxRecDepth 16384

noncomputable section

namespace Cert.Fg

/-- The linear layer at (r, k) depends only on row r of the features, column k of the weights and entry k of the bias. -/
theorem lin_congr {N K P : Nat} {A A' : Fin N → Fin K → EReal} {W W' : Fin K → Fin P → EReal} {b b' : Fin P → EReal}
    (r : Fin N) (k : Fin P) (hA : ∀ j, A r j = A' r j) (hW : ∀ j, W j k = W' j k) (hb : b k = b' k) :
    lin A W b r k = lin A' W' b' r k := by
  unfold lin
  rw [hb]
  exact congrArg (· + _) (Finset.sum_congr rfl fun j _ => by rw [hA j, hW j])

end Cert.Fg

namespace Cert.Bridge

open Idealize.ShloMosaic Idealize.ShloMosaic.TcCoe Idealize.SL.Sem Idealize.ShloMosaic.StableHlo Idealize.ShloMosaic.ValueIdx Cert.Reals

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The two launch memories hold the same thirty arguments on device c. -/
def Agree : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
    ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
    ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
    ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
    ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
    ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
    ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
    ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
    ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
    ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
    ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)

/-- The first linear-layer launch's function of the arrays it finds is the specification's linear layer of them. -/
theorem Y0_lin (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (r : Fin 100000) (k : Fin 256) :
    Cert.KernelIdeal.KReg0.Y0 V c r k
      = Cert.Fg.lin (fun r j => (V c Cert.KernelIdeal.main_v35 : Cert.KernelIdeal.S100000x128.Idx → EReal) (ix2 r j))
          (fun j k => (V c Cert.KernelIdeal.main_arg5 : Cert.KernelIdeal.S128x256.Idx → EReal) (ix2 j k))
          (fun k => (V c Cert.KernelIdeal.main_v92 : Cert.KernelIdeal.S1x256.Idx → EReal) (ix2 (0 : Fin 1) k)) r k := rfl

/-- The second linear-layer launch's function of the arrays it finds is the specification's linear layer of them. -/
theorem Y1_lin (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (r : Fin 25000) (k : Fin 256) :
    Cert.KernelIdeal.KReg1.Y1 V c r k
      = Cert.Fg.lin (fun r j => (V c Cert.KernelIdeal.main_v39 : Cert.KernelIdeal.S25000x128.Idx → EReal) (ix2 r j))
          (fun j k => (V c Cert.KernelIdeal.main_arg10 : Cert.KernelIdeal.S128x256.Idx → EReal) (ix2 j k))
          (fun k => (V c Cert.KernelIdeal.main_v104 : Cert.KernelIdeal.S1x256.Idx → EReal) (ix2 (0 : Fin 1) k)) r k := rfl

/-! ## The atom level -/

/-- The mean-aggregated features agree: the kernel program counts the edges into a node with 32-bit integers and
    converts the count, the reference counts with floats; below 2^31 edges the two counts are the same number. -/
theorem meanA_agree (hag : Agree m m' c) :
    (Cert.KernelIdeal.Gen.W5 m ρ c (Proc.devRef .tc Cert.KernelIdeal.main_v91) : Cert.KernelIdeal.S100000x128.Idx → EReal)
      = after Cert.ReferenceIdeal.RefRun.ops (launchContents m' c) (Cert.ReferenceIdeal.main_v146 : DevRef Cert.ReferenceIdeal.τ Cert.ReferenceIdeal.sig) := by
  obtain ⟨e0, e1, e2, e3, e4, e5, e6, e7, e8, e9, e10, e11, e12, e13, e14, e15, e16, e17, e18, e19, e20, e21, e22, e23, e24, e25, e26, e27, e28, e29⟩ := hag
  rw [Cert.KernelIdeal.KChains.W5_v91 m ρ c, Cert.ReferenceIdeal.RefRun.v146_eq, Cert.ReferenceIdeal.RefRun.v135_eq, Cert.ReferenceIdeal.RefRun.v141_eq]
  unfold Cert.KernelIdeal.KChains.meanC2A
  have hc : sitofp (F := Ideal) .f32 (Cert.KernelIdeal.KChains.cntC2A (m ((c.tc : Thread Cert.KernelIdeal.nD Cert.KernelIdeal.τ).loc Cert.KernelIdeal.main_arg29)))
      = Host.scatterAdd (F := Ideal) (φ := .f32) Cert.ReferenceIdeal.scatter_S100000_S100000x1_S100000_n_0_0_1
          (broadcastInDim Cert.ReferenceIdeal.S100000 ![] Cert.ReferenceIdeal.Gen.bcast_S_S100000 (constant (F := Ideal) Cert.ReferenceIdeal.S_ .f32 0x00000000#32))
          (broadcastInDim Cert.ReferenceIdeal.S100000x1 ![0] Cert.ReferenceIdeal.Gen.bcast_S100000_S100000x1_0
            (shapeCast Cert.ReferenceIdeal.S100000 (extractStridedSlice Cert.ReferenceIdeal.S1x100000 ![1, 0] (m ((c.tc : Thread Cert.KernelIdeal.nD Cert.KernelIdeal.τ).loc Cert.KernelIdeal.main_arg29)) Cert.ReferenceIdeal.Gen.slices_S2x100000_S1x100000_1_0)
              Cert.ReferenceIdeal.Gen.shapeCasts_S1x100000_S100000))
          (broadcastInDim Cert.ReferenceIdeal.S100000 ![] Cert.ReferenceIdeal.Gen.bcast_S_S100000 (constant (F := Ideal) Cert.ReferenceIdeal.S_ .f32 0x3F800000#32)) := by
    funext i
    unfold Cert.KernelIdeal.KChains.cntC2A
    exact Cert.Lib.EdgeCount.count_int_eq_float (N := 100000) (E := 100000) (by norm_num) _ _ _ _ _ _
      (fun i => Cert.Lib.EdgeCount.broadcast_constantI_apply 0#32 _ i) (fun e => Cert.Lib.EdgeCount.broadcast_constantI_apply 1#32 _ e)
      (fun i => Cert.Lib.EdgeCount.broadcast_zero_f32_apply _ i) (fun e => Cert.Lib.EdgeCount.broadcast_one_f32_apply _ e) i
  rw [hc, ← e2, ← e29]
  rfl

/-- The aggregated node features agree: the two programs spell the same host operations on the same arguments. -/
theorem hpreA_agree (hag : Agree m m' c) :
    (Cert.KernelIdeal.Gen.W5 m ρ c (Proc.devRef .tc Cert.KernelIdeal.main_v35) : Cert.KernelIdeal.S100000x128.Idx → EReal)
      = after Cert.ReferenceIdeal.RefRun.ops (launchContents m' c) (Cert.ReferenceIdeal.main_v19 : DevRef Cert.ReferenceIdeal.τ Cert.ReferenceIdeal.sig) := by
  obtain ⟨e0, e1, e2, e3, e4, e5, e6, e7, e8, e9, e10, e11, e12, e13, e14, e15, e16, e17, e18, e19, e20, e21, e22, e23, e24, e25, e26, e27, e28, e29⟩ := hag
  rw [Cert.KernelIdeal.KChains.W5_v35 m ρ c, Cert.ReferenceIdeal.RefRun.v19_eq]
  unfold Cert.KernelIdeal.KChains.hpreA
  rw [← e0, ← e1, ← e4, ← e26]
  rfl

/-- The two programs' linear layers agree entry by entry. -/
theorem linA_agree (hag : Agree m m' c) (r : Fin 100000) (k : Fin 256) :
    Cert.KernelIdeal.KReg0.Y0 (Cert.KernelIdeal.Gen.V5 m ρ) c r k = Cert.ReferenceIdeal.RefRead.YA (launchContents m' c) r k := by
  have hH := hpreA_agree m ρ m' c hag
  obtain ⟨e0, e1, e2, e3, e4, e5, e6, e7, e8, e9, e10, e11, e12, e13, e14, e15, e16, e17, e18, e19, e20, e21, e22, e23, e24, e25, e26, e27, e28, e29⟩ := hag
  rw [Y0_lin]
  unfold Cert.ReferenceIdeal.RefRead.YA
  refine Cert.Fg.lin_congr r k (fun j => ?_) (fun j => ?_) ?_
  · exact congrFun (hH) (ix2 r j)
  · exact congrFun ((Cert.KernelIdeal.KWalk.W5_main_arg5 m ρ c).trans e5.symm) (ix2 j k)
  · exact (congrFun (Cert.KernelIdeal.KWalk.W5_main_v92 m ρ c) (ix2 (0 : Fin 1) k)).trans
      ((Cert.Lib.Rows.shapeCast_vec_row_apply _ _ k).trans (congrFun e6.symm (ix1 k)))

/-- THE ATOM RESULTS AGREE: the kernel program's result array is the reference's, entry by entry, when every float
    input is finite and the two programs are launched on the same arguments. -/
theorem value_atoms (hpre : Cert.Pre_KernelIdeal m) (hag : Agree m m' c) :
    (Cert.KernelIdeal.Gen.W12 m ρ c (Proc.devRef .tc Cert.KernelIdeal.main_v121) : Cert.KernelIdeal.S100000x128.Idx → EReal)
      = after Cert.ReferenceIdeal.RefRun.ops (launchContents m' c) (Cert.ReferenceIdeal.main_v160 : DevRef Cert.ReferenceIdeal.τ Cert.ReferenceIdeal.sig) := by
  have hY := linA_agree m ρ m' c hag
  have hM := meanA_agree m ρ m' c hag
  obtain ⟨r0, r1, r2, r3, r4, r5, r6, r7, r8, r9, r10, r11, r12, r13, r14, r15, r16, r17, r18, r19, r20, r21, r22, r23, r24, r25⟩ := Cert.Finite.args_real _ _ _ _ _ _ _ _ _ _ _ _ _ _ _ _ _ _ _ _ _ _ _ _ _ _ _ _ _ _ (hpre c)
  obtain ⟨e0, e1, e2, e3, e4, e5, e6, e7, e8, e9, e10, e11, e12, e13, e14, e15, e16, e17, e18, e19, e20, e21, e22, e23, e24, e25, e26, e27, e28, e29⟩ := hag
  have hreal : ∀ r k, IsRealS (Cert.KernelIdeal.KReg0.Y0 (Cert.KernelIdeal.Gen.V5 m ρ) c r k) := fun r k => by
    rw [hY r k, ← Cert.ReferenceIdeal.RefRead.v23_apply (launchContents m' c) r k]
    exact Cert.ReferenceIdeal.RefReal.v23_real (launchContents m' c)
      (fun i => by rw [show launchContents m' c (Cert.ReferenceIdeal.main_arg0 : DevRef Cert.ReferenceIdeal.τ Cert.ReferenceIdeal.sig) = _ from e0]; exact r0 i)
      (fun i => by rw [show launchContents m' c (Cert.ReferenceIdeal.main_arg1 : DevRef Cert.ReferenceIdeal.τ Cert.ReferenceIdeal.sig) = _ from e1]; exact r1 i)
      (fun i => by rw [show launchContents m' c (Cert.ReferenceIdeal.main_arg4 : DevRef Cert.ReferenceIdeal.τ Cert.ReferenceIdeal.sig) = _ from e4]; exact r4 i)
      (fun i => by rw [show launchContents m' c (Cert.ReferenceIdeal.main_arg5 : DevRef Cert.ReferenceIdeal.τ Cert.ReferenceIdeal.sig) = _ from e5]; exact r5 i)
      (fun i => by rw [show launchContents m' c (Cert.ReferenceIdeal.main_arg6 : DevRef Cert.ReferenceIdeal.τ Cert.ReferenceIdeal.sig) = _ from e6]; exact r6 i) (ix2 r k)
  funext i
  obtain ⟨r, q, rfl⟩ : ∃ (r : Fin 100000) (q : Fin 128), i = ix2 r q := ⟨i 0, i 1, eq_ix2 i⟩
  rw [Cert.KernelIdeal.KRead.outA_apply m ρ c hreal r q, Cert.ReferenceIdeal.RefRead.outA_apply (launchContents m' c) r q]
  refine Cert.Fg.layer_congr _ _ r q (fun k => hY r k)
    (fun k => congrArg (fun Y => Cert.Fg.meanDev _ Y k) (funext fun r => funext fun k => hY r k))
    (fun k => congrArg (fun Y => Cert.Fg.varDev _ Y k) (funext fun r => funext fun k => hY r k))
    (fun k => congrFun e7.symm (ix1 k)) (fun k => congrFun e8.symm (ix1 k))
    (fun j => congrFun hM (ix2 r j)) (fun j => congrFun e0.symm (ix2 r j))
    (fun j k => congrFun e18.symm (ix2 j k)) (fun j k => congrFun e20.symm (ix2 j k))
    (fun k => congrFun e19.symm (ix1 k)) (fun k => congrFun e21.symm (ix1 k))
    (fun k => congrFun e22.symm (ix2 k q)) (congrFun e23.symm (ix1 q))

/-! ## The cluster level -/

/-- The mean-aggregated features agree: the kernel program counts the edges into a node with 32-bit integers and
    converts the count, the reference counts with floats; below 2^31 edges the two counts are the same number. -/
theorem meanC_agree (hag : Agree m m' c) :
    (Cert.KernelIdeal.Gen.W5 m ρ c (Proc.devRef .tc Cert.KernelIdeal.main_v65) : Cert.KernelIdeal.S25000x128.Idx → EReal)
      = after Cert.ReferenceIdeal.RefRun.ops (launchContents m' c) (Cert.ReferenceIdeal.main_v112 : DevRef Cert.ReferenceIdeal.τ Cert.ReferenceIdeal.sig) := by
  obtain ⟨e0, e1, e2, e3, e4, e5, e6, e7, e8, e9, e10, e11, e12, e13, e14, e15, e16, e17, e18, e19, e20, e21, e22, e23, e24, e25, e26, e27, e28, e29⟩ := hag
  rw [Cert.KernelIdeal.KChains.W5_v65 m ρ c, Cert.ReferenceIdeal.RefRun.v112_eq, Cert.ReferenceIdeal.RefRun.v101_eq, Cert.ReferenceIdeal.RefRun.v107_eq]
  unfold Cert.KernelIdeal.KChains.meanA2C
  have hc : sitofp (F := Ideal) .f32 (Cert.KernelIdeal.KChains.cntA2C (m ((c.tc : Thread Cert.KernelIdeal.nD Cert.KernelIdeal.τ).loc Cert.KernelIdeal.main_arg28)))
      = Host.scatterAdd (F := Ideal) (φ := .f32) Cert.ReferenceIdeal.scatter_S25000_S100000x1_S100000_n_0_0_1
          (broadcastInDim Cert.ReferenceIdeal.S25000 ![] Cert.ReferenceIdeal.Gen.bcast_S_S25000 (constant (F := Ideal) Cert.ReferenceIdeal.S_ .f32 0x00000000#32))
          (broadcastInDim Cert.ReferenceIdeal.S100000x1 ![0] Cert.ReferenceIdeal.Gen.bcast_S100000_S100000x1_0
            (shapeCast Cert.ReferenceIdeal.S100000 (extractStridedSlice Cert.ReferenceIdeal.S1x100000 ![1, 0] (m ((c.tc : Thread Cert.KernelIdeal.nD Cert.KernelIdeal.τ).loc Cert.KernelIdeal.main_arg28)) Cert.ReferenceIdeal.Gen.slices_S2x100000_S1x100000_1_0)
              Cert.ReferenceIdeal.Gen.shapeCasts_S1x100000_S100000))
          (broadcastInDim Cert.ReferenceIdeal.S100000 ![] Cert.ReferenceIdeal.Gen.bcast_S_S100000 (constant (F := Ideal) Cert.ReferenceIdeal.S_ .f32 0x3F800000#32)) := by
    funext i
    unfold Cert.KernelIdeal.KChains.cntA2C
    exact Cert.Lib.EdgeCount.count_int_eq_float (N := 25000) (E := 100000) (by norm_num) _ _ _ _ _ _
      (fun i => Cert.Lib.EdgeCount.broadcast_constantI_apply 0#32 _ i) (fun e => Cert.Lib.EdgeCount.broadcast_constantI_apply 1#32 _ e)
      (fun i => Cert.Lib.EdgeCount.broadcast_zero_f32_apply _ i) (fun e => Cert.Lib.EdgeCount.broadcast_one_f32_apply _ e) i
  rw [hc, ← e0, ← e28]
  rfl

/-- The aggregated node features agree: the two programs spell the same host operations on the same arguments. -/
theorem hpreC_agree (hag : Agree m m' c) :
    (Cert.KernelIdeal.Gen.W5 m ρ c (Proc.devRef .tc Cert.KernelIdeal.main_v39) : Cert.KernelIdeal.S25000x128.Idx → EReal)
      = after Cert.ReferenceIdeal.RefRun.ops (launchContents m' c) (Cert.ReferenceIdeal.main_v63 : DevRef Cert.ReferenceIdeal.τ Cert.ReferenceIdeal.sig) := by
  obtain ⟨e0, e1, e2, e3, e4, e5, e6, e7, e8, e9, e10, e11, e12, e13, e14, e15, e16, e17, e18, e19, e20, e21, e22, e23, e24, e25, e26, e27, e28, e29⟩ := hag
  rw [Cert.KernelIdeal.KChains.W5_v39 m ρ c, Cert.ReferenceIdeal.RefRun.v63_eq]
  unfold Cert.KernelIdeal.KChains.hpreC
  rw [← e2, ← e3, ← e9, ← e27]
  rfl

/-- The two programs' linear layers agree entry by entry. -/
theorem linC_agree (hag : Agree m m' c) (r : Fin 25000) (k : Fin 256) :
    Cert.KernelIdeal.KReg1.Y1 (Cert.KernelIdeal.Gen.V7 m ρ) c r k = Cert.ReferenceIdeal.RefRead.YC (launchContents m' c) r k := by
  have hH := hpreC_agree m ρ m' c hag
  obtain ⟨e0, e1, e2, e3, e4, e5, e6, e7, e8, e9, e10, e11, e12, e13, e14, e15, e16, e17, e18, e19, e20, e21, e22, e23, e24, e25, e26, e27, e28, e29⟩ := hag
  rw [Y1_lin]
  unfold Cert.ReferenceIdeal.RefRead.YC
  refine Cert.Fg.lin_congr r k (fun j => ?_) (fun j => ?_) ?_
  · exact congrFun ((Cert.KernelIdeal.KWalk.W7_main_v39 m ρ c).trans hH) (ix2 r j)
  · exact congrFun ((Cert.KernelIdeal.KWalk.W7_main_arg10 m ρ c).trans e10.symm) (ix2 j k)
  · exact (congrFun (Cert.KernelIdeal.KWalk.W7_main_v104 m ρ c) (ix2 (0 : Fin 1) k)).trans
      ((Cert.Lib.Rows.shapeCast_vec_row_apply _ _ k).trans (congrFun e11.symm (ix1 k)))

/-- THE CLUSTER RESULTS AGREE: the kernel program's result array is the reference's, entry by entry, when every float
    input is finite and the two programs are launched on the same arguments. -/
theorem value_clusters (hpre : Cert.Pre_KernelIdeal m) (hag : Agree m m' c) :
    (Cert.KernelIdeal.Gen.W12 m ρ c (Proc.devRef .tc Cert.KernelIdeal.main_v127) : Cert.KernelIdeal.S25000x128.Idx → EReal)
      = after Cert.ReferenceIdeal.RefRun.ops (launchContents m' c) (Cert.ReferenceIdeal.main_v165 : DevRef Cert.ReferenceIdeal.τ Cert.ReferenceIdeal.sig) := by
  have hY := linC_agree m ρ m' c hag
  have hM := meanC_agree m ρ m' c hag
  obtain ⟨r0, r1, r2, r3, r4, r5, r6, r7, r8, r9, r10, r11, r12, r13, r14, r15, r16, r17, r18, r19, r20, r21, r22, r23, r24, r25⟩ := Cert.Finite.args_real _ _ _ _ _ _ _ _ _ _ _ _ _ _ _ _ _ _ _ _ _ _ _ _ _ _ _ _ _ _ (hpre c)
  obtain ⟨e0, e1, e2, e3, e4, e5, e6, e7, e8, e9, e10, e11, e12, e13, e14, e15, e16, e17, e18, e19, e20, e21, e22, e23, e24, e25, e26, e27, e28, e29⟩ := hag
  have hreal : ∀ r k, IsRealS (Cert.KernelIdeal.KReg1.Y1 (Cert.KernelIdeal.Gen.V7 m ρ) c r k) := fun r k => by
    rw [hY r k, ← Cert.ReferenceIdeal.RefRead.v67_apply (launchContents m' c) r k]
    exact Cert.ReferenceIdeal.RefReal.v67_real (launchContents m' c)
      (fun i => by rw [show launchContents m' c (Cert.ReferenceIdeal.main_arg2 : DevRef Cert.ReferenceIdeal.τ Cert.ReferenceIdeal.sig) = _ from e2]; exact r2 i)
      (fun i => by rw [show launchContents m' c (Cert.ReferenceIdeal.main_arg3 : DevRef Cert.ReferenceIdeal.τ Cert.ReferenceIdeal.sig) = _ from e3]; exact r3 i)
      (fun i => by rw [show launchContents m' c (Cert.ReferenceIdeal.main_arg9 : DevRef Cert.ReferenceIdeal.τ Cert.ReferenceIdeal.sig) = _ from e9]; exact r9 i)
      (fun i => by rw [show launchContents m' c (Cert.ReferenceIdeal.main_arg10 : DevRef Cert.ReferenceIdeal.τ Cert.ReferenceIdeal.sig) = _ from e10]; exact r10 i)
      (fun i => by rw [show launchContents m' c (Cert.ReferenceIdeal.main_arg11 : DevRef Cert.ReferenceIdeal.τ Cert.ReferenceIdeal.sig) = _ from e11]; exact r11 i) (ix2 r k)
  funext i
  obtain ⟨r, q, rfl⟩ : ∃ (r : Fin 25000) (q : Fin 128), i = ix2 r q := ⟨i 0, i 1, eq_ix2 i⟩
  rw [Cert.KernelIdeal.KRead.outC_apply m ρ c hreal r q, Cert.ReferenceIdeal.RefRead.outC_apply (launchContents m' c) r q]
  refine Cert.Fg.layer_congr _ _ r q (fun k => hY r k)
    (fun k => congrArg (fun Y => Cert.Fg.meanDev _ Y k) (funext fun r => funext fun k => hY r k))
    (fun k => congrArg (fun Y => Cert.Fg.varDev _ Y k) (funext fun r => funext fun k => hY r k))
    (fun k => congrFun e12.symm (ix1 k)) (fun k => congrFun e13.symm (ix1 k))
    (fun j => congrFun hM (ix2 r j)) (fun j => congrFun e2.symm (ix2 r j))
    (fun j k => congrFun e14.symm (ix2 j k)) (fun j k => congrFun e16.symm (ix2 j k))
    (fun k => congrFun e15.symm (ix1 k)) (fun k => congrFun e17.symm (ix1 k))
    (fun k => congrFun e24.symm (ix2 k q)) (congrFun e25.symm (ix1 q))

end Cert.Bridge

end
-- ==== Proof.lean ====
/-
  The certificate of one message-passing layer of a two-level graph network (atoms and clusters).

  Each level's result is  (h + s) · Wm + bm  with  h = relu(batchnorm(A · W + b))  over the aggregated node features A
  and  s  the mean-aggregation affine map of the other level's features.  The kernel program computes A and the
  neighbour means on the host, the linear layer A · W + b and 8-row scaled partial sums of its columns and of their
  squares in one pipelined launch per level, the column mean and the variance "mean of squares minus squared mean"
  on the host, and everything else in one fused launch per level; the reference is whole-array host code with the
  variance as the mean squared deviation.  At the ideal values the matrix products in narrowed formats are exact
  products, so the two programs differ only in the form of the statistics and in the spelling of the edge counts.

  The three frames: the two kernel programs' are the generated frame certificates; the reference's is its run with
  the results dropped.  The idealization rewrote nothing.  The value claim: the kernel program's run with its two
  results named, and the entry-by-entry agreement of those results with the reference's.
-/
import proofs.«151819_j60404420051112_2_alg».proof.Defs
import proofs.«151819_j60404420051112_2_alg».proof.Proof.Gen.Kernel
import proofs.«151819_j60404420051112_2_alg».proof.Proof.Gen.Kernel.Frame
import proofs.«151819_j60404420051112_2_alg».proof.Proof.Gen.KernelIdeal
import proofs.«151819_j60404420051112_2_alg».proof.Proof.Gen.KernelIdeal.Frame
import proofs.«151819_j60404420051112_2_alg».proof.Proof.Gen.ReferenceIdeal
import proofs.«151819_j60404420051112_2_alg».proof.Proof.Gen.Pre_finite_inputs
import proofs.«151819_j60404420051112_2_alg».proof.Proof.KRun
import proofs.«151819_j60404420051112_2_alg».proof.Proof.RefFrame
import proofs.«151819_j60404420051112_2_alg».proof.Proof.Bridge

set_option maxRecDepth 16384

noncomputable section

namespace Cert.Proof

open Idealize.ShloMosaic Idealize.ShloMosaic.TcCoe Idealize.SL.Sem Idealize.ShloMosaic.StableHlo

/-- The kernel program as printed runs and keeps its arguments: the generated frame certificate. -/
theorem frame_kernel : Cert.frame_Kernel := fun m ρ _ => Cert.Kernel.Gen.frame m ρ

/-- The idealized kernel program runs and keeps its arguments: the generated frame certificate. -/
theorem frame_kernelIdeal : Cert.frame_KernelIdeal := fun m ρ _ => Cert.KernelIdeal.Gen.frame m ρ

/-- The idealization rewrote no operation. -/
theorem preserves : Cert.preserves_Kernel_KernelIdeal := trivial

/-- From memories that agree on the thirty arguments, with every float argument finite, the two idealized programs
    both run and end with equal results: the reference's two result arrays are the witnesses. -/
theorem algebraic : Cert.algebraic_KernelIdeal_ReferenceIdeal := by
  intro m g m' g' hpre hagree
  refine ⟨fun c => after Cert.ReferenceIdeal.RefRun.ops (launchContents m' c) (Cert.ReferenceIdeal.main_v160 : DevRef Cert.ReferenceIdeal.τ Cert.ReferenceIdeal.sig),
    fun c => after Cert.ReferenceIdeal.RefRun.ops (launchContents m' c) (Cert.ReferenceIdeal.main_v165 : DevRef Cert.ReferenceIdeal.τ Cert.ReferenceIdeal.sig), ?_,
    Cert.ReferenceIdeal.RefFrame.run_ref m' g'⟩
  refine (θ_run (Cert.KernelIdeal.defs (F := Ideal)) _ _).mono (fun r h c => ?_) (Cert.KernelIdeal.KRun.run_values m g)
  obtain ⟨h121, h127, hargs⟩ := h c
  exact ⟨h121.trans (Cert.Bridge.value_atoms m g m' c hpre (hagree c)),
    h127.trans (Cert.Bridge.value_clusters m g m' c hpre (hagree c)), hargs⟩

/-- Everything the certificate claims. -/
theorem claim : Cert.Claim :=
  ⟨Cert.Kernel.Gen.facts, Cert.KernelIdeal.Gen.facts, Cert.ReferenceIdeal.Gen.facts, Cert.Pre_finite_inputs.Gen.facts,
    frame_kernel, frame_kernelIdeal, Cert.ReferenceIdeal.RefFrame.frame_ref, preserves, algebraic⟩

end Cert.Proof

end
